-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "quarter_inv_m" .f32 0x36A45A86#32 ((1 / 204160 : ℝ) : EReal)
  ∧ IdealRules.named_const.Statement Cert.KernelIdeal.κ "inv_m_minus1" .f32 0x37A45B59#32 ((1 / 51039 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320x64 : Shape := ⟨2, ![320, 64]⟩
abbrev S_ : Shape := ⟨0, ![]⟩
abbrev S320 : Shape := ⟨1, ![320]⟩
abbrev S1000x320 : Shape := ⟨2, ![1000, 320]⟩

class Facts : Prop where
  bcast_S_S320x64 : S_.BroadcastsInDim S320x64 (![] : Fin 0 → Fin S320x64.rank)
  reducesTo_S320x64_S_d0_1 : S320x64.ReducesTo [0, 1] S_
  h_S_ : 0 < S_.numel
  reducesTo_S_S_d : S_.ReducesTo [] S_
  bcast_S_S1000x320 : S_.BroadcastsInDim S1000x320 (![] : Fin 0 → Fin S1000x320.rank)
  reducesTo_S1000x320_S_d0_1 : S1000x320.ReducesTo [0, 1] S_

variable [Facts]

def fn_part1 {F : FTy → Type} [FloatOps F] (main_v11 : IVec S_ 1) (main_v13 : IVec S1000x320 1) (main_v15 : IVec S1000x320 1) : IVec S_ 1 :=
  let main_v16 : IVec S1000x320 1 := andi main_v13 main_v15
  let main_c_6 : IVec S_ 1 := constantI S_ 1 1#1
  let main_v17 : IVec S_ 1 := (fun x v => Host.reduce IntOp.andi x v reducesTo_S1000x320_S_d0_1 h_S_) main_v16 main_c_6
  let main_v18 : IVec S_ 1 := andi main_v11 main_v17
  main_v18

def fn {F : FTy → Type} [FloatOps F] (main_arg0 : FVec F S320x64 .f32) (main_arg1 : FVec F S_ .f32) (main_arg2 : FVec F S_ .f32) (main_arg3 : IVec S320 32) (main_arg4 : IVec S1000x320 32) : IVec S_ 1 :=
  let main_v0 : FVec F S320x64 .f32 := Host.absf main_arg0
  let main_cst : FVec F S_ .f32 := constant S_ .f32 0x7F800000#32
  let main_v1 : FVec F S320x64 .f32 := broadcastInDim S320x64 ![] bcast_S_S320x64 main_cst
  let main_v2 : IVec S320x64 1 := cmpf .olt main_v0 main_v1
  let main_c : IVec S_ 1 := constantI S_ 1 1#1
  let main_v3 : IVec S_ 1 := (fun x v => Host.reduce IntOp.andi x v reducesTo_S320x64_S_d0_1 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S_ .f32 := Host.absf main_arg2
  let main_cst_2 : FVec F S_ .f32 := constant S_ .f32 0x7F800000#32
  let main_v9 : IVec S_ 1 := cmpf .olt main_v8 main_cst_2
  let main_c_3 : IVec S_ 1 := constantI S_ 1 1#1
  let main_v10 : IVec S_ 1 := (fun x v => Host.reduce IntOp.andi x v reducesTo_S_S_d h_S_) main_v9 main_c_3
  let main_v11 : IVec S_ 1 := andi main_v7 main_v10
  let main_c_4 : IVec S_ 32 := constantI S_ 32 0#32
  let main_v12 : IVec S1000x320 32 := broadcastInDim S1000x320 ![] bcast_S_S1000x320 main_c_4
  let main_v13 : IVec S1000x320 1 := cmpi .sge main_arg4 main_v12
  let main_c_5 : IVec S_ 32 := constantI S_ 32 320#32
  let main_v14 : IVec S1000x320 32 := broadcastInDim S1000x320 ![] bcast_S_S1000x320 main_c_5
  let main_v15 : IVec S1000x320 1 := cmpi .slt main_arg4 main_v14
  fn_part1 (F := F) main_v11 main_v13 main_v15
-- ==== Kernel.lean ====
abbrev S320x64 : Shape := ⟨2, ![320, 64]⟩
abbrev S_ : Shape := ⟨0, ![]⟩
abbrev S320 : Shape := ⟨1, ![320]⟩
abbrev S1000x320 : Shape := ⟨2, ![1000, 320]⟩
abbrev S320x1 : Shape := ⟨2, ![320, 1]⟩
abbrev S1x320 : Shape := ⟨2, ![1, 320]⟩
abbrev S320x320 : Shape := ⟨2, ![320, 320]⟩
abbrev S1001x320 : Shape := ⟨2, ![1001, 320]⟩
abbrev S1001x320x1 : Shape := ⟨3, ![1001, 320, 1]⟩
abbrev S1001x320x2 : Shape := ⟨3, ![1001, 320, 2]⟩
abbrev S1001x1x128 : Shape := ⟨3, ![1001, 1, 128]⟩
abbrev S13x320x1 : Shape := ⟨3, ![13, 320, 1]⟩
abbrev S13x1x128 : Shape := ⟨3, ![13, 1, 128]⟩
abbrev S1x320x1 : Shape := ⟨3, ![1, 320, 1]⟩
abbrev S1 : Shape := ⟨1, ![1]⟩
abbrev S1x1 : Shape := ⟨2, ![1, 1]⟩
abbrev S1x128 : Shape := ⟨2, ![1, 128]⟩
abbrev S1x1x128 : Shape := ⟨3, ![1, 1, 128]⟩
abbrev S1001x1x1 : Shape := ⟨3, ![1001, 1, 1]⟩
abbrev S1001 : Shape := ⟨1, ![1001]⟩

abbrev nBuf : Space → Nat
  | .hbm => 69
  | .vmem => 9
  | .smem => 0
  | _ => 0

abbrev bufTy : (tb : Table) → Fin (tcTables nBuf tb) → BufTy
  | .hbm, ⟨0, _⟩ => ⟨S320x64, .f32⟩
  | .hbm, ⟨1, _⟩ => ⟨S_, .f32⟩
  | .hbm, ⟨2, _⟩ => ⟨S_, .f32⟩
  | .hbm, ⟨3, _⟩ => ⟨S320, .i32⟩
  | .hbm, ⟨4, _⟩ => ⟨S1000x320, .i32⟩
  | .hbm, ⟨5, _⟩ => ⟨S320x1, .i32⟩
  | .hbm, ⟨6, _⟩ => ⟨S_, .i32⟩
  | .hbm, ⟨7, _⟩ => ⟨S320x1, .i32⟩
  | .hbm, ⟨8, _⟩ => ⟨S320x1, .i1⟩
  | .hbm, ⟨9, _⟩ => ⟨S1x320, .i32⟩
  | .hbm, ⟨10, _⟩ => ⟨S_, .i32⟩
  | .hbm, ⟨11, _⟩ => ⟨S1x320, .i32⟩
  | .hbm, ⟨12, _⟩ => ⟨S1x320, .i1⟩
  | .hbm, ⟨13, _⟩ => ⟨S320x320, .i1⟩
  | .hbm, ⟨14, _⟩ => ⟨S320x320, .i1⟩
  | .hbm, ⟨15, _⟩ => ⟨S320x320, .i1⟩
  | .hbm, ⟨16, _⟩ => ⟨S320x1, .i32⟩
  | .hbm, ⟨17, _⟩ => ⟨S_, .i32⟩
  | .hbm, ⟨18, _⟩ => ⟨S320x1, .i32⟩
  | .hbm, ⟨19, _⟩ => ⟨S320x1, .i1⟩
  | .hbm, ⟨20, _⟩ => ⟨S1x320, .i32⟩
  | .hbm, ⟨21, _⟩ => ⟨S_, .i32⟩
  | .hbm, ⟨22, _⟩ => ⟨S1x320, .i32⟩
  | .hbm, ⟨23, _⟩ => ⟨S1x320, .i1⟩
  | .hbm, ⟨24, _⟩ => ⟨S320x320, .i1⟩
  | .hbm, ⟨25, _⟩ => ⟨S320x320, .i1⟩
  | .hbm, ⟨26, _⟩ => ⟨S320x320, .i1⟩
  | .hbm, ⟨27, _⟩ => ⟨S_, .f32⟩
  | .hbm, ⟨28, _⟩ => ⟨S320x320, .f32⟩
  | .hbm, ⟨29, _⟩ => ⟨S320x320, .f32⟩
  | .hbm, ⟨30, _⟩ => ⟨S320x320, .f32⟩
  | .hbm, ⟨31, _⟩ => ⟨S320x320, .f32⟩
  | .hbm, ⟨32, _⟩ => ⟨S320x320, .f32⟩
  | .hbm, ⟨33, _⟩ => ⟨S320x320, .f32⟩
  | .hbm, ⟨34, _⟩ => ⟨S320, .i32⟩
  | .hbm, ⟨35, _⟩ => ⟨S1x320, .i32⟩
  | .hbm, ⟨36, _⟩ => ⟨S1001x320, .i32⟩
  | .hbm, ⟨37, _⟩ => ⟨S320, .i32⟩
  | .hbm, ⟨38, _⟩ => ⟨S1x320, .i32⟩
  | .hbm, ⟨39, _⟩ => ⟨S_, .i32⟩
  | .hbm, ⟨40, _⟩ => ⟨S1x320, .i32⟩
  | .hbm, ⟨41, _⟩ => ⟨S1x320, .i1⟩
  | .hbm, ⟨42, _⟩ => ⟨S_, .i32⟩
  | .hbm, ⟨43, _⟩ => ⟨S1x320, .i32⟩
  | .hbm, ⟨44, _⟩ => ⟨S1x320, .i32⟩
  | .hbm, ⟨45, _⟩ => ⟨S1x320, .i32⟩
  | .hbm, ⟨46, _⟩ => ⟨S_, .i32⟩
  | .hbm, ⟨47, _⟩ => ⟨S1001x320, .i32⟩
  | .hbm, ⟨48, _⟩ => ⟨S1001x320, .i1⟩
  | .hbm, ⟨49, _⟩ => ⟨S_, .i32⟩
  | .hbm, ⟨50, _⟩ => ⟨S1001x320, .i32⟩
  | .hbm, ⟨51, _⟩ => ⟨S1001x320, .i32⟩
  | .hbm, ⟨52, _⟩ => ⟨S1001x320, .i32⟩
  | .hbm, ⟨53, _⟩ => ⟨S1001x320, .i32⟩
  | .hbm, ⟨54, _⟩ => ⟨S1001x320x1, .i32⟩
  | .hbm, ⟨55, _⟩ => ⟨S1001x320x1, .i32⟩
  | .hbm, ⟨56, _⟩ => ⟨S1001x320x2, .i32⟩
  | .hbm, ⟨57, _⟩ => ⟨S1001x320, .f32⟩
  | .hbm, ⟨58, _⟩ => ⟨S1x320, .i32⟩
  | .hbm, ⟨59, _⟩ => ⟨S1001x320, .i32⟩
  | .hbm, ⟨60, _⟩ => ⟨S1001x320, .i1⟩
  | .hbm, ⟨61, _⟩ => ⟨S_, .f32⟩
  | .hbm, ⟨62, _⟩ => ⟨S1001x320, .f32⟩
  | .hbm, ⟨63, _⟩ => ⟨S1001x320, .f32⟩
  | .hbm, ⟨64, _⟩ => ⟨S1001x320x1, .i32⟩
  | .hbm, ⟨65, _⟩ => ⟨S1001x320x1, .f32⟩
  | .hbm, ⟨66, _⟩ => ⟨S1001x1x128, .f32⟩
  | .hbm, ⟨67, _⟩ => ⟨S1001x1x1, .f32⟩
  | .hbm, ⟨68, _⟩ => ⟨S1001, .f32⟩
  | .local _ .vmem, ⟨0, _⟩ => ⟨S320x64, .f32⟩
  | .local _ .vmem, ⟨1, _⟩ => ⟨S320x320, .f32⟩
  | .local _ .vmem, ⟨2, _⟩ => ⟨S320x320, .f32⟩
  | .local _ .vmem, ⟨3, _⟩ => ⟨S13x320x1, .i32⟩
  | .local _ .vmem, ⟨4, _⟩ => ⟨S13x320x1, .i32⟩
  | .local _ .vmem, ⟨5, _⟩ => ⟨S13x320x1, .f32⟩
  | .local _ .vmem, ⟨6, _⟩ => ⟨S13x320x1, .f32⟩
  | .local _ .vmem, ⟨7, _⟩ => ⟨S13x1x128, .f32⟩
  | .local _ .vmem, ⟨8, _⟩ => ⟨S13x1x128, .f32⟩
  | _, _ => ⟨S320x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_call2_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![77], ![false]⟩

@[reducible] def k0_t1_loop : Scf.Loop 32 :=
  let c0_i32 : BitVec 32 := 0#32
  let c13_i32 : BitVec 32 := 13#32
  let v8 : BitVec 32 := Scalar.addi c0_i32 c13_i32
  let c1_i32 : BitVec 32 := 1#32
  ⟨c0_i32, v8, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v9 : Index := Scalar.indexCast arg7
  let c0_6 : Index := 0#32
  let c0_7 : Index := 0#32
  ![v9.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v59 : Index := Scalar.indexCast arg7
  let c0_22 : Index := 0#32
  let c0_23 : Index := 0#32
  ![v59.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S320x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x320 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S320x320 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S13x320x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S13x320x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S13x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S320_S320x1_0 : S320.BroadcastsInDim S320x1 (![0] : Fin 1 → Fin S320x1.rank)
  bcast_S_S320x1 : S_.BroadcastsInDim S320x1 (![] : Fin 0 → Fin S320x1.rank)
  bcast_S320_S1x320_1 : S320.BroadcastsInDim S1x320 (![1] : Fin 1 → Fin S1x320.rank)
  bcast_S_S1x320 : S_.BroadcastsInDim S1x320 (![] : Fin 0 → Fin S1x320.rank)
  bcast_S320x1_S320x320_0_1 : S320x1.BroadcastsInDim S320x320 (![0, 1] : Fin 2 → Fin S320x320.rank)
  bcast_S1x320_S320x320_0_1 : S1x320.BroadcastsInDim S320x320 (![0, 1] : Fin 2 → Fin S320x320.rank)
  bcast_S_S320x320 : S_.BroadcastsInDim S320x320 (![] : Fin 0 → Fin S320x320.rank)
  concatenates_S1x320_S1000x320_S1001x320_d0 : Shape.Concatenates [S1x320, S1000x320] S1001x320 0
  bcast_S_S1001x320 : S_.BroadcastsInDim S1001x320 (![] : Fin 0 → Fin S1001x320.rank)
  bcast_S1x320_S1001x320_0_1 : S1x320.BroadcastsInDim S1001x320 (![0, 1] : Fin 2 → Fin S1001x320.rank)
  bcast_S1001x320_S1001x320x1_0_1 : S1001x320.BroadcastsInDim S1001x320x1 (![0, 1] : Fin 2 → Fin S1001x320x1.rank)
  concatenates_S1001x320x1_S1001x320x1_S1001x320x2_d2 : Shape.Concatenates [S1001x320x1, S1001x320x1] S1001x320x2 2
  inb_S320x64_S320x64_0_0 : ∀ a, (![0, 0] : Fin 2 → Nat) a + S320x64.size a ≤ S320x64.size a
  h_S320x64 : 0 < S320x64.numel
  inb_S320x320_S320x320_0_0 : ∀ a, (![0, 0] : Fin 2 → Nat) a + S320x320.size a ≤ S320x320.size a
  h_S320x320 : 0 < S320x320.numel
  shapeCasts_S320x320_S320x320 : S320x320.ShapeCasts S320x320
  iota_S320x320_d1_w32 : S320x320.Iotas .tc 32 [1]
  iota_S320x320_d0_w32 : S320x320.Iotas .tc 32 [0]
  h_S1x320x1 : 0 < S1x320x1.numel
  shapeCasts_S1x320x1_S320x1 : S1x320x1.ShapeCasts S320x1
  shapeCasts_S320x1_S320x1 : S320x1.ShapeCasts S320x1
  broadcasts_S320x1_S320x320 : S320x1.Broadcasts S320x320
  natLt_1_32 : 1 < 32
  broadcasts_S320x1_S320x64 : S320x1.Broadcasts S320x64
  reduces_S320x64_S320 : S320x64.Reduces [1] S320
  shapeCasts_S320_S320x1 : S320.ShapeCasts S320x1
  transposes_S320x1_p1_0_S1x320 : S320x1.Transposes [1, 0] S1x320
  broadcasts_S1x320_S320x320 : S1x320.Broadcasts S320x320
  reduces_S320x320_S320 : S320x320.Reduces [1] S320
  reduces_S320x1_S1 : S320x1.Reduces [0] S1
  shapeCasts_S1_S1x1 : S1.ShapeCasts S1x1
  shapeCasts_S1x1_S1x1 : S1x1.ShapeCasts S1x1
  broadcasts_S1x1_S1x128 : S1x1.Broadcasts S1x128
  h_S1x1x128 : 0 < S1x1x128.numel
  shapeCasts_S1x1x128_S1x128 : S1x1x128.ShapeCasts S1x128
  shapeCasts_S1x128_S1x1x128 : S1x128.ShapeCasts S1x1x128
  slices_S1001x1x128_S1001x1x1_0_0_0 : S1001x1x128.Slices ![0, 0, 0] S1001x1x1
  shapeCasts_S1001x1x1_S1001 : S1001x1x1.ShapeCasts S1001
  gather_S320x320_S1001x320x2_S1001x320_n_01_n_n_01_2_11_wf : GatherDims.WF S320x320 S1001x320x2 S1001x320 [] [0, 1] [] [0, 1] [] 2 ![1, 1]
  dot_S320x320_S320x64_S320x64_1_0_0_1_n_n_wf : DotDims.WF S320x320 S320x64 S320x64 [1] [0] [0] [1] [] []
  dot_S320x64_S320x64_S320x320_1_1_0_0_n_n_wf : DotDims.WF S320x64 S320x64 S320x320 [1] [1] [0] [0] [] []
  hrank0 : 0 < grid0.rank
  k0_t1_ok : k0_t1_loop.OK
  k0_off1_inb : ∀ k0_t1 : Fin k0_t1_loop.trips, ∀ a, (k0_off1 k0_t1) a + S1x320x1.size a ≤ S13x320x1.size a
  k0_off2_inb : ∀ k0_t1 : Fin k0_t1_loop.trips, ∀ a, (k0_off2 k0_t1) a + S1x1x128.size a ≤ S13x1x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S320x64.size a ≤ S320x64.size a
  hwx0_0 : ∀ i : grid0.Coords, EltTy.bits .f32 = 32 ∨ (Rect.block (s := S320x64) S320x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x320.size a ≤ S320x320.size a
  hwx0_1 : ∀ i : grid0.Coords, EltTy.bits .f32 = 32 ∨ (Rect.block (s := S320x320) S320x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x320.size a ≤ S320x320.size a
  hwx0_2 : ∀ i : grid0.Coords, EltTy.bits .f32 = 32 ∨ (Rect.block (s := S320x320) S320x320.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S13x320x1.size a ≤ S1001x320x1.size a
  hwx0_3 : ∀ i : grid0.Coords, EltTy.bits .i32 = 32 ∨ (Rect.block (s := S1001x320x1) S13x320x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S13x320x1.size a ≤ S1001x320x1.size a
  hwx0_4 : ∀ i : grid0.Coords, EltTy.bits .f32 = 32 ∨ (Rect.block (s := S1001x320x1) S13x320x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S13x1x128.size a ≤ S1001x1x128.size a
  hwx0_5 : ∀ i : grid0.Coords, EltTy.bits .f32 = 32 ∨ (Rect.block (s := S1001x1x128) S13x1x128.size (cc0_transform_5 i) (hinb0_5 i)).WholeWords (EltTy.packing .f32)

variable [Facts₀]

def gather_S320x320_S1001x320x2_S1001x320_n_01_n_n_01_2_11 : GatherDims S320x320 S1001x320x2 S1001x320 where
  offsetDims := []
  collapsedSliceDims := [0, 1]
  operandBatchingDims := []
  startIndicesBatchingDims := []
  startIndexMap := [0, 1]
  indexVectorDim := 2
  sliceSizes := ![1, 1]
  wf := gather_S320x320_S1001x320x2_S1001x320_n_01_n_n_01_2_11_wf
def dot_S320x320_S320x64_S320x64_1_0_0_1_n_n : DotDims S320x320 S320x64 S320x64 where
  lhsContracting := [1]
  rhsContracting := [0]
  lhsNonContracting := [0]
  rhsNonContracting := [1]
  lhsBatch := []
  rhsBatch := []
  wf := dot_S320x320_S320x64_S320x64_1_0_0_1_n_n_wf
def dot_S320x64_S320x64_S320x320_1_1_0_0_n_n : DotDims S320x64 S320x64 S320x320 where
  lhsContracting := [1]
  rhsContracting := [1]
  lhsNonContracting := [0]
  rhsNonContracting := [0]
  lhsBatch := []
  rhsBatch := []
  wf := dot_S320x64_S320x64_S320x320_1_1_0_0_n_n_wf

abbrev win0_0 : Pipeline.Window sig grid0 :=
  Pipeline.Window.ofSpec (Memref.whole main_arg0) S320x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v19) S320x320.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S320x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S13x320x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S13x320x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v47) S13x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S320x64 : Shape := ⟨2, ![320, 64]⟩
abbrev S_ : Shape := ⟨0, ![]⟩
abbrev S320 : Shape := ⟨1, ![320]⟩
abbrev S1000x320 : Shape := ⟨2, ![1000, 320]⟩
abbrev S320x1 : Shape := ⟨2, ![320, 1]⟩
abbrev S1x320 : Shape := ⟨2, ![1, 320]⟩
abbrev S320x320 : Shape := ⟨2, ![320, 320]⟩
abbrev S1000x320x1 : Shape := ⟨3, ![1000, 320, 1]⟩
abbrev S1000x320x64 : Shape := ⟨3, ![1000, 320, 64]⟩
abbrev S1000x320x2 : Shape := ⟨3, ![1000, 320, 2]⟩
abbrev S1x320x64 : Shape := ⟨3, ![1, 320, 64]⟩
abbrev S1001x320x64 : Shape := ⟨3, ![1001, 320, 64]⟩
abbrev S1001x320 : Shape := ⟨2, ![1001, 320]⟩
abbrev S1001x320x320 : Shape := ⟨3, ![1001, 320, 320]⟩
abbrev S1001x320x1 : Shape := ⟨3, ![1001, 320, 1]⟩
abbrev S1001x1x320 : Shape := ⟨3, ![1001, 1, 320]⟩
abbrev S102400 : Shape := ⟨1, ![102400]⟩
abbrev S51040 : Shape := ⟨1, ![51040]⟩
abbrev S102400x1 : Shape := ⟨2, ![102400, 1]⟩
abbrev S51040x1 : Shape := ⟨2, ![51040, 1]⟩
abbrev S51040x2 : Shape := ⟨2, ![51040, 2]⟩
abbrev S1x51040 : Shape := ⟨2, ![1, 51040]⟩
abbrev S1001x51040 : Shape := ⟨2, ![1001, 51040]⟩
abbrev S1001 : Shape := ⟨1, ![1001]⟩
abbrev S1001x1 : Shape := ⟨2, ![1001, 1]⟩

abbrev nBuf : Space → Nat
  | .hbm => 270
  | .vmem => 0
  | .smem => 0
  | _ => 0

abbrev hbmTy0_0 (i : Nat) : BufTy := match i % 128 with
  | 0 => ⟨S320x64, .f32⟩
  | 1 => ⟨S_, .f32⟩
  | 2 => ⟨S_, .f32⟩
  | 3 => ⟨S320, .i32⟩
  | 4 => ⟨S1000x320, .i32⟩
  | 5 => ⟨S320x1, .i32⟩
  | 6 => ⟨S_, .i32⟩
  | 7 => ⟨S320x1, .i32⟩
  | 8 => ⟨S320x1, .i1⟩
  | 9 => ⟨S1x320, .i32⟩
  | 10 => ⟨S_, .i32⟩
  | 11 => ⟨S1x320, .i32⟩
  | 12 => ⟨S1x320, .i1⟩
  | 13 => ⟨S320x320, .i1⟩
  | 14 => ⟨S320x320, .i1⟩
  | 15 => ⟨S320x320, .i1⟩
  | 16 => ⟨S320x1, .i32⟩
  | 17 => ⟨S_, .i32⟩
  | 18 => ⟨S320x1, .i32⟩
  | 19 => ⟨S320x1, .i1⟩
  | 20 => ⟨S1x320, .i32⟩
  | 21 => ⟨S_, .i32⟩
  | 22 => ⟨S1x320, .i32⟩
  | 23 => ⟨S1x320, .i1⟩
  | 24 => ⟨S320x320, .i1⟩
  | 25 => ⟨S320x320, .i1⟩
  | 26 => ⟨S320x320, .i1⟩
  | 27 => ⟨S_, .f32⟩
  | 28 => ⟨S320x320, .f32⟩
  | 29 => ⟨S320x320, .f32⟩
  | 30 => ⟨S320x320, .f32⟩
  | 31 => ⟨S320x320, .f32⟩
  | 32 => ⟨S320x320, .f32⟩
  | 33 => ⟨S320, .i32⟩
  | 34 => ⟨S_, .i32⟩
  | 35 => ⟨S1000x320, .i32⟩
  | 36 => ⟨S1000x320, .i1⟩
  | 37 => ⟨S_, .i32⟩
  | 38 => ⟨S1000x320, .i32⟩
  | 39 => ⟨S1000x320, .i32⟩
  | 40 => ⟨S1000x320, .i32⟩
  | 41 => ⟨S1000x320x1, .i32⟩
  | 42 => ⟨S1000x320x64, .f32⟩
  | 43 => ⟨S1x320, .i32⟩
  | 44 => ⟨S_, .i32⟩
  | 45 => ⟨S1x320, .i32⟩
  | 46 => ⟨S1x320, .i1⟩
  | 47 => ⟨S_, .i32⟩
  | 48 => ⟨S1x320, .i32⟩
  | 49 => ⟨S1x320, .i32⟩
  | 50 => ⟨S1x320, .i32⟩
  | 51 => ⟨S_, .i32⟩
  | 52 => ⟨S1000x320, .i32⟩
  | 53 => ⟨S1000x320, .i1⟩
  | 54 => ⟨S_, .i32⟩
  | 55 => ⟨S1000x320, .i32⟩
  | 56 => ⟨S1000x320, .i32⟩
  | 57 => ⟨S1000x320, .i32⟩
  | 58 => ⟨S1000x320, .i32⟩
  | 59 => ⟨S1000x320x1, .i32⟩
  | 60 => ⟨S1000x320x1, .i32⟩
  | 61 => ⟨S1000x320x2, .i32⟩
  | 62 => ⟨S1000x320, .f32⟩
  | 63 => ⟨S1x320, .i32⟩
  | 64 => ⟨S1000x320, .i32⟩
  | 65 => ⟨S1000x320, .i1⟩
  | 66 => ⟨S1000x320x1, .i1⟩
  | 67 => ⟨S1000x320x1, .f32⟩
  | 68 => ⟨S1000x320x64, .f32⟩
  | 69 => ⟨S1000x320x64, .f32⟩
  | 70 => ⟨S1000x320x64, .i1⟩
  | 71 => ⟨S1000x320x64, .f32⟩
  | 72 => ⟨S1x320x64, .f32⟩
  | 73 => ⟨S1001x320x64, .f32⟩
  | 74 => ⟨S1001x320x64, .f32⟩
  | 75 => ⟨S_, .f32⟩
  | 76 => ⟨S1001x320, .f32⟩
  | 77 => ⟨S1001x320x320, .f32⟩
  | 78 => ⟨S1001x320x1, .f32⟩
  | 79 => ⟨S1001x1x320, .f32⟩
  | 80 => ⟨S1001x320x320, .f32⟩
  | 81 => ⟨S1001x320x320, .f32⟩
  | 82 => ⟨S1001x320x320, .f32⟩
  | 83 => ⟨S_, .f32⟩
  | 84 => ⟨S1001x320x320, .f32⟩
  | 85 => ⟨S1001x320x320, .f32⟩
  | 86 => ⟨S1001x320x320, .f32⟩
  | 87 => ⟨S_, .f32⟩
  | 88 => ⟨S1001x320x320, .f32⟩
  | 89 => ⟨S1001x320x320, .f32⟩
  | 90 => ⟨S_, .f32⟩
  | 91 => ⟨S320x320, .f32⟩
  | 92 => ⟨S320x320, .i32⟩
  | 93 => ⟨S_, .i32⟩
  | 94 => ⟨S320x320, .i32⟩
  | 95 => ⟨S320x320, .i32⟩
  | 96 => ⟨S320x320, .i32⟩
  | 97 => ⟨S320x320, .i1⟩
  | 98 => ⟨S_, .f32⟩
  | 99 => ⟨S320x320, .f32⟩
  | 100 => ⟨S320x320, .f32⟩
  | 101 => ⟨S_, .f32⟩
  | 102 => ⟨S320x320, .f32⟩
  | 103 => ⟨S320x320, .i1⟩
  | 104 => ⟨S102400, .i1⟩
  | 105 => ⟨S102400, .i32⟩
  | 106 => ⟨S_, .i32⟩
  | 107 => ⟨S_, .i32⟩
  | 108 => ⟨S102400, .i32⟩
  | 109 => ⟨S_, .i32⟩
  | 110 => ⟨S51040, .i32⟩
  | 111 => ⟨S_, .i32⟩
  | 112 => ⟨S_, .i32⟩
  | 113 => ⟨S102400, .i32⟩
  | 114 => ⟨S102400, .i32⟩
  | 115 => ⟨S_, .i32⟩
  | 116 => ⟨S102400, .i32⟩
  | 117 => ⟨S102400, .i1⟩
  | 118 => ⟨S_, .i32⟩
  | 119 => ⟨S102400, .i32⟩
  | 120 => ⟨S102400, .i32⟩
  | 121 => ⟨S102400, .i32⟩
  | 122 => ⟨S102400x1, .i32⟩
  | 123 => ⟨S_, .i32⟩
  | 124 => ⟨S102400, .i32⟩
  | 125 => ⟨S51040, .i32⟩
  | 126 => ⟨S_, .i32⟩
  | 127 => ⟨S_, .i32⟩
  | _ => ⟨S320x64, .f32⟩

abbrev hbmTy0_1 (i : Nat) : BufTy := match i % 128 with
  | 0 => ⟨S51040, .i32⟩
  | 1 => ⟨S_, .i32⟩
  | 2 => ⟨S51040, .i32⟩
  | 3 => ⟨S51040, .i32⟩
  | 4 => ⟨S51040, .i32⟩
  | 5 => ⟨S_, .i32⟩
  | 6 => ⟨S51040, .i32⟩
  | 7 => ⟨S51040, .i1⟩
  | 8 => ⟨S51040, .i32⟩
  | 9 => ⟨S51040, .i32⟩
  | 10 => ⟨S_, .i32⟩
  | 11 => ⟨S51040, .i32⟩
  | 12 => ⟨S51040, .i1⟩
  | 13 => ⟨S51040, .i1⟩
  | 14 => ⟨S_, .i32⟩
  | 15 => ⟨S51040, .i32⟩
  | 16 => ⟨S51040, .i32⟩
  | 17 => ⟨S51040, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S51040, .i32⟩
  | 25 => ⟨S51040, .i32⟩
  | 26 => ⟨S_, .i32⟩
  | 27 => ⟨S51040, .i32⟩
  | 28 => ⟨S51040, .i1⟩
  | 29 => ⟨S_, .i32⟩
  | 30 => ⟨S51040, .i32⟩
  | 31 => ⟨S51040, .i1⟩
  | 32 => ⟨S_, .i32⟩
  | 33 => ⟨S_, .i1⟩
  | 34 => ⟨S51040, .i1⟩
  | 35 => ⟨S51040, .i1⟩
  | 36 => ⟨S51040, .i1⟩
  | 37 => ⟨S51040, .i32⟩
  | 38 => ⟨S51040, .i32⟩
  | 39 => ⟨S51040, .i32⟩
  | 40 => ⟨S_, .i32⟩
  | 41 => ⟨S51040, .i32⟩
  | 42 => ⟨S51040, .i32⟩
  | 43 => ⟨S51040, .i32⟩
  | 44 => ⟨S_, .i32⟩
  | 45 => ⟨S51040, .i32⟩
  | 46 => ⟨S51040, .i1⟩
  | 47 => ⟨S51040, .i32⟩
  | 48 => ⟨S51040, .i32⟩
  | 49 => ⟨S_, .i32⟩
  | 50 => ⟨S51040, .i32⟩
  | 51 => ⟨S51040, .i1⟩
  | 52 => ⟨S51040, .i1⟩
  | 53 => ⟨S_, .i32⟩
  | 54 => ⟨S51040, .i32⟩
  | 55 => ⟨S51040, .i32⟩
  | 56 => ⟨S51040, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S51040, .i32⟩
  | 64 => ⟨S51040, .i32⟩
  | 65 => ⟨S_, .i32⟩
  | 66 => ⟨S51040, .i32⟩
  | 67 => ⟨S51040, .i1⟩
  | 68 => ⟨S_, .i32⟩
  | 69 => ⟨S51040, .i32⟩
  | 70 => ⟨S51040, .i1⟩
  | 71 => ⟨S_, .i32⟩
  | 72 => ⟨S_, .i1⟩
  | 73 => ⟨S51040, .i1⟩
  | 74 => ⟨S51040, .i1⟩
  | 75 => ⟨S51040, .i1⟩
  | 76 => ⟨S51040, .i32⟩
  | 77 => ⟨S51040, .i32⟩
  | 78 => ⟨S51040, .i32⟩
  | 79 => ⟨S_, .i32⟩
  | 80 => ⟨S51040, .i32⟩
  | 81 => ⟨S51040, .i1⟩
  | 82 => ⟨S_, .i32⟩
  | 83 => ⟨S51040, .i32⟩
  | 84 => ⟨S51040, .i32⟩
  | 85 => ⟨S51040, .i32⟩
  | 86 => ⟨S_, .i32⟩
  | 87 => ⟨S51040, .i32⟩
  | 88 => ⟨S51040, .i1⟩
  | 89 => ⟨S_, .i32⟩
  | 90 => ⟨S51040, .i32⟩
  | 91 => ⟨S51040, .i32⟩
  | 92 => ⟨S51040, .i32⟩
  | 93 => ⟨S51040x1, .i32⟩
  | 94 => ⟨S51040x1, .i32⟩
  | 95 => ⟨S51040x2, .i32⟩
  | 96 => ⟨S51040, .f32⟩
  | 97 => ⟨S1x51040, .f32⟩
  | 98 => ⟨S_, .i32⟩
  | 99 => ⟨S51040, .i32⟩
  | 100 => ⟨S51040, .i1⟩
  | 101 => ⟨S_, .i32⟩
  | 102 => ⟨S51040, .i32⟩
  | 103 => ⟨S51040, .i32⟩
  | 104 => ⟨S51040, .i32⟩
  | 105 => ⟨S_, .i32⟩
  | 106 => ⟨S51040, .i32⟩
  | 107 => ⟨S51040, .i1⟩
  | 108 => ⟨S_, .i32⟩
  | 109 => ⟨S51040, .i32⟩
  | 110 => ⟨S51040, .i32⟩
  | 111 => ⟨S51040, .i32⟩
  | 112 => ⟨S51040x1, .i32⟩
  | 113 => ⟨S51040x1, .i32⟩
  | 114 => ⟨S51040x2, .i32⟩
  | 115 => ⟨S1001x51040, .f32⟩
  | 116 => ⟨S1001x51040, .f32⟩
  | 117 => ⟨S1001x51040, .f32⟩
  | 118 => ⟨S1001x51040, .f32⟩
  | 119 => ⟨S_, .i32⟩
  | 120 => ⟨S_, .f32⟩
  | 121 => ⟨S1001, .f32⟩
  | 122 => ⟨S1001x1, .f32⟩
  | 123 => ⟨S_, .f32⟩
  | 124 => ⟨S1001x1, .f32⟩
  | 125 => ⟨S1001x1, .f32⟩
  | 126 => ⟨S1001x51040, .f32⟩
  | 127 => ⟨S1001x51040, .f32⟩
  | _ => ⟨S320x64, .f32⟩

abbrev hbmTy0_2 (i : Nat) : BufTy := match i % 128 with
  | 0 => ⟨S1001x51040, .f32⟩
  | 1 => ⟨S_, .f32⟩
  | 2 => ⟨S_, .f32⟩
  | 3 => ⟨S_, .f32⟩
  | 4 => ⟨S_, .f32⟩
  | 5 => ⟨S1001, .f32⟩
  | 6 => ⟨S1001, .f32⟩
  | 7 => ⟨S1001, .f32⟩
  | 8 => ⟨S_, .f32⟩
  | 9 => ⟨S_, .i1⟩
  | 10 => ⟨S_, .f32⟩
  | 11 => ⟨S_, .f32⟩
  | 12 => ⟨S1001, .f32⟩
  | 13 => ⟨S1001, .f32⟩
  | _ => ⟨S320x64, .f32⟩

abbrev hbmTy (i : Nat) : BufTy := match i / 128 with
  | 0 => hbmTy0_0 i
  | 1 => hbmTy0_1 i
  | 2 => hbmTy0_2 i
  | _ => ⟨S320x64, .f32⟩

abbrev bufTy : (tb : Table) → Fin (tcTables nBuf tb) → BufTy
  | .hbm, ⟨i, _⟩ => hbmTy i
  | _, _ => ⟨S320x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call2_v0 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_cst : Ref sig .tc := ⟨.hbm, 98, rfl⟩
abbrev main_call3_v5 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_call4_v0 : Ref sig .tc := ⟨.hbm, 104, rfl⟩
abbrev main_call4_v1 : Ref sig .tc := ⟨.hbm, 105, rfl⟩
abbrev main_call4_call0_c : Ref sig .tc := ⟨.hbm, 106, rfl⟩
abbrev main_call4_call0_v0 : Ref sig .tc := ⟨.hbm, 107, rfl⟩
abbrev main_v71 : Ref sig .tc := ⟨.hbm, 108, rfl⟩
abbrev main_c_14 : Ref sig .tc := ⟨.hbm, 109, rfl⟩
abbrev main_v72 : Ref sig .tc := ⟨.hbm, 110, rfl⟩
abbrev main_c_15 : Ref sig .tc := ⟨.hbm, 111, rfl⟩
abbrev main_call5_v0 : Ref sig .tc := ⟨.hbm, 112, rfl⟩
abbrev main_call5_v1 : Ref sig .tc := ⟨.hbm, 113, rfl⟩
abbrev main_v73 : Ref sig .tc := ⟨.hbm, 114, rfl⟩
abbrev main_c_16 : Ref sig .tc := ⟨.hbm, 115, rfl⟩
abbrev main_v74 : Ref sig .tc := ⟨.hbm, 116, rfl⟩
abbrev main_v75 : Ref sig .tc := ⟨.hbm, 117, rfl⟩
abbrev main_c_17 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_c_18 : Ref sig .tc := ⟨.hbm, 123, rfl⟩
abbrev main_v80 : Ref sig .tc := ⟨.hbm, 124, rfl⟩
abbrev main_v81 : Ref sig .tc := ⟨.hbm, 125, rfl⟩
abbrev main_call6_call0_c : Ref sig .tc := ⟨.hbm, 126, rfl⟩
abbrev main_call6_call0_v0 : Ref sig .tc := ⟨.hbm, 127, rfl⟩
abbrev main_v82 : Ref sig .tc := ⟨.hbm, 128, rfl⟩
abbrev main_c_19 : Ref sig .tc := ⟨.hbm, 129, rfl⟩
abbrev main_call7_v0 : Ref sig .tc := ⟨.hbm, 130, rfl⟩
abbrev main_call7_v1 : Ref sig .tc := ⟨.hbm, 131, rfl⟩
abbrev main_call7_v2 : Ref sig .tc := ⟨.hbm, 132, rfl⟩
abbrev main_call7_v3 : Ref sig .tc := ⟨.hbm, 133, rfl⟩
abbrev main_call7_v4 : Ref sig .tc := ⟨.hbm, 134, rfl⟩
abbrev main_call7_v5 : Ref sig .tc := ⟨.hbm, 135, rfl⟩
abbrev main_call7_v6 : Ref sig .tc := ⟨.hbm, 136, rfl⟩
abbrev main_call7_v7 : Ref sig .tc := ⟨.hbm, 137, rfl⟩
abbrev main_call7_c : Ref sig .tc := ⟨.hbm, 138, rfl⟩
abbrev main_call7_v8 : Ref sig .tc := ⟨.hbm, 139, rfl⟩
abbrev main_call7_v9 : Ref sig .tc := ⟨.hbm, 140, rfl⟩
abbrev main_call7_v10 : Ref sig .tc := ⟨.hbm, 141, rfl⟩
abbrev main_call7_c_0 : Ref sig .tc := ⟨.hbm, 142, rfl⟩
abbrev main_call7_v11 : Ref sig .tc := ⟨.hbm, 143, rfl⟩
abbrev main_call7_v12 : Ref sig .tc := ⟨.hbm, 144, rfl⟩
abbrev main_v83 : Ref sig .tc := ⟨.hbm, 145, rfl⟩
abbrev main_c_20 : Ref sig .tc := ⟨.hbm, 146, rfl⟩
abbrev main_call8_v0 : Ref sig .tc := ⟨.hbm, 147, rfl⟩
abbrev main_call8_c : Ref sig .tc := ⟨.hbm, 148, rfl⟩
abbrev main_call8_v1 : Ref sig .tc := ⟨.hbm, 149, rfl⟩
abbrev main_call8_c_0 : Ref sig .tc := ⟨.hbm, 150, rfl⟩
abbrev main_call8_v2 : Ref sig .tc := ⟨.hbm, 151, rfl⟩
abbrev main_call8_v3 : Ref sig .tc := ⟨.hbm, 152, rfl⟩
abbrev main_call8_v4 : Ref sig .tc := ⟨.hbm, 153, rfl⟩
abbrev main_call8_c_1 : Ref sig .tc := ⟨.hbm, 154, rfl⟩
abbrev main_call8_v5 : Ref sig .tc := ⟨.hbm, 155, rfl⟩
abbrev main_call8_v6 : Ref sig .tc := ⟨.hbm, 156, rfl⟩
abbrev main_call8_c_2 : Ref sig .tc := ⟨.hbm, 157, rfl⟩
abbrev main_call8_v7 : Ref sig .tc := ⟨.hbm, 158, rfl⟩
abbrev main_call8_v8 : Ref sig .tc := ⟨.hbm, 159, rfl⟩
abbrev main_call8_c_3 : Ref sig .tc := ⟨.hbm, 160, rfl⟩
abbrev main_call8_v9 : Ref sig .tc := ⟨.hbm, 161, rfl⟩
abbrev main_call8_v10 : Ref sig .tc := ⟨.hbm, 162, rfl⟩
abbrev main_call8_v11 : Ref sig .tc := ⟨.hbm, 163, rfl⟩
abbrev main_call8_v12 : Ref sig .tc := ⟨.hbm, 164, rfl⟩
abbrev main_call8_v13 : Ref sig .tc := ⟨.hbm, 165, rfl⟩
abbrev main_call8_v14 : Ref sig .tc := ⟨.hbm, 166, rfl⟩
abbrev main_v84 : Ref sig .tc := ⟨.hbm, 167, rfl⟩
abbrev main_c_21 : Ref sig .tc := ⟨.hbm, 168, rfl⟩
abbrev main_call9_v0 : Ref sig .tc := ⟨.hbm, 169, rfl⟩
abbrev main_call9_v1 : Ref sig .tc := ⟨.hbm, 170, rfl⟩
abbrev main_call9_v2 : Ref sig .tc := ⟨.hbm, 171, rfl⟩
abbrev main_call9_v3 : Ref sig .tc := ⟨.hbm, 172, rfl⟩
abbrev main_call9_v4 : Ref sig .tc := ⟨.hbm, 173, rfl⟩
abbrev main_call9_v5 : Ref sig .tc := ⟨.hbm, 174, rfl⟩
abbrev main_call9_v6 : Ref sig .tc := ⟨.hbm, 175, rfl⟩
abbrev main_call9_v7 : Ref sig .tc := ⟨.hbm, 176, rfl⟩
abbrev main_call9_c : Ref sig .tc := ⟨.hbm, 177, rfl⟩
abbrev main_call9_v8 : Ref sig .tc := ⟨.hbm, 178, rfl⟩
abbrev main_call9_v9 : Ref sig .tc := ⟨.hbm, 179, rfl⟩
abbrev main_call9_v10 : Ref sig .tc := ⟨.hbm, 180, rfl⟩
abbrev main_call9_c_0 : Ref sig .tc := ⟨.hbm, 181, rfl⟩
abbrev main_call9_v11 : Ref sig .tc := ⟨.hbm, 182, rfl⟩
abbrev main_call9_v12 : Ref sig .tc := ⟨.hbm, 183, rfl⟩
abbrev main_v85 : Ref sig .tc := ⟨.hbm, 184, rfl⟩
abbrev main_c_22 : Ref sig .tc := ⟨.hbm, 185, rfl⟩
abbrev main_call10_v0 : Ref sig .tc := ⟨.hbm, 186, rfl⟩
abbrev main_call10_c : Ref sig .tc := ⟨.hbm, 187, rfl⟩
abbrev main_call10_v1 : Ref sig .tc := ⟨.hbm, 188, rfl⟩
abbrev main_call10_c_0 : Ref sig .tc := ⟨.hbm, 189, rfl⟩
abbrev main_call10_v2 : Ref sig .tc := ⟨.hbm, 190, rfl⟩
abbrev main_call10_v3 : Ref sig .tc := ⟨.hbm, 191, rfl⟩
abbrev main_call10_v4 : Ref sig .tc := ⟨.hbm, 192, rfl⟩
abbrev main_call10_c_1 : Ref sig .tc := ⟨.hbm, 193, rfl⟩
abbrev main_call10_v5 : Ref sig .tc := ⟨.hbm, 194, rfl⟩
abbrev main_call10_v6 : Ref sig .tc := ⟨.hbm, 195, rfl⟩
abbrev main_call10_c_2 : Ref sig .tc := ⟨.hbm, 196, rfl⟩
abbrev main_call10_v7 : Ref sig .tc := ⟨.hbm, 197, rfl⟩
abbrev main_call10_v8 : Ref sig .tc := ⟨.hbm, 198, rfl⟩
abbrev main_call10_c_3 : Ref sig .tc := ⟨.hbm, 199, rfl⟩
abbrev main_call10_v9 : Ref sig .tc := ⟨.hbm, 200, rfl⟩
abbrev main_call10_v10 : Ref sig .tc := ⟨.hbm, 201, rfl⟩
abbrev main_call10_v11 : Ref sig .tc := ⟨.hbm, 202, rfl⟩
abbrev main_call10_v12 : Ref sig .tc := ⟨.hbm, 203, rfl⟩
abbrev main_call10_v13 : Ref sig .tc := ⟨.hbm, 204, rfl⟩
abbrev main_call10_v14 : Ref sig .tc := ⟨.hbm, 205, rfl⟩
abbrev main_v86 : Ref sig .tc := ⟨.hbm, 206, rfl⟩
abbrev main_c_23 : Ref sig .tc := ⟨.hbm, 207, rfl⟩
abbrev main_v87 : Ref sig .tc := ⟨.hbm, 208, rfl⟩
abbrev main_v88 : Ref sig .tc := ⟨.hbm, 209, rfl⟩
abbrev main_c_24 : Ref sig .tc := ⟨.hbm, 210, rfl⟩
abbrev main_v89 : Ref sig .tc := ⟨.hbm, 211, rfl⟩
abbrev main_v90 : Ref sig .tc := ⟨.hbm, 212, rfl⟩
abbrev main_v91 : Ref sig .tc := ⟨.hbm, 213, rfl⟩
abbrev main_c_25 : Ref sig .tc := ⟨.hbm, 214, rfl⟩
abbrev main_v92 : Ref sig .tc := ⟨.hbm, 215, rfl⟩
abbrev main_v93 : Ref sig .tc := ⟨.hbm, 216, rfl⟩
abbrev main_c_26 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_v99 : Ref sig .tc := ⟨.hbm, 223, rfl⟩
abbrev main_v100 : Ref sig .tc := ⟨.hbm, 224, rfl⟩
abbrev main_v101 : Ref sig .tc := ⟨.hbm, 225, rfl⟩
abbrev main_c_27 : Ref sig .tc := ⟨.hbm, 226, rfl⟩
abbrev main_v102 : Ref sig .tc := ⟨.hbm, 227, rfl⟩
abbrev main_v103 : Ref sig .tc := ⟨.hbm, 228, rfl⟩
abbrev main_c_28 : Ref sig .tc := ⟨.hbm, 229, rfl⟩
abbrev main_v104 : Ref sig .tc := ⟨.hbm, 230, rfl⟩
abbrev main_v105 : Ref sig .tc := ⟨.hbm, 231, rfl⟩
abbrev main_v106 : Ref sig .tc := ⟨.hbm, 232, rfl⟩
abbrev main_c_29 : Ref sig .tc := ⟨.hbm, 233, rfl⟩
abbrev main_v107 : Ref sig .tc := ⟨.hbm, 234, rfl⟩
abbrev main_v108 : Ref sig .tc := ⟨.hbm, 235, rfl⟩
abbrev main_c_30 : Ref sig .tc := ⟨.hbm, 236, rfl⟩
abbrev main_v109 : Ref sig .tc := ⟨.hbm, 237, rfl⟩
abbrev main_v110 : Ref sig .tc := ⟨.hbm, 238, rfl⟩
abbrev main_v111 : Ref sig .tc := ⟨.hbm, 239, rfl⟩
abbrev main_v112 : Ref sig .tc := ⟨.hbm, 240, rfl⟩
abbrev main_v113 : Ref sig .tc := ⟨.hbm, 241, rfl⟩
abbrev main_v114 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_v118 : Ref sig .tc := ⟨.hbm, 246, rfl⟩
abbrev main_c_31 : Ref sig .tc := ⟨.hbm, 247, rfl⟩
abbrev main_call11_cst : Ref sig .tc := ⟨.hbm, 248, rfl⟩
abbrev main_call11_v0 : Ref sig .tc := ⟨.hbm, 249, rfl⟩
abbrev main_call11_v1 : Ref sig .tc := ⟨.hbm, 250, rfl⟩
abbrev main_call11_cst_0 : Ref sig .tc := ⟨.hbm, 251, rfl⟩
abbrev main_call11_v2 : Ref sig .tc := ⟨.hbm, 252, rfl⟩
abbrev main_call11_v3 : Ref sig .tc := ⟨.hbm, 253, rfl⟩
abbrev main_call11_v4 : Ref sig .tc := ⟨.hbm, 254, rfl⟩
abbrev main_call11_v5 : Ref sig .tc := ⟨.hbm, 255, rfl⟩
abbrev main_call11_v6 : Ref sig .tc := ⟨.hbm, 256, rfl⟩
abbrev main_call11_v7 : Ref sig .tc := ⟨.hbm, 257, rfl⟩
abbrev main_call11_cst_1 : Ref sig .tc := ⟨.hbm, 258, rfl⟩
abbrev main_call11_v8 : Ref sig .tc := ⟨.hbm, 259, rfl⟩
abbrev main_call11_cst_2 : Ref sig .tc := ⟨.hbm, 260, rfl⟩
abbrev main_call11_v9 : Ref sig .tc := ⟨.hbm, 261, rfl⟩
abbrev main_call11_v10 : Ref sig .tc := ⟨.hbm, 262, rfl⟩
abbrev main_call11_v11 : Ref sig .tc := ⟨.hbm, 263, rfl⟩
abbrev main_call11_cst_3 : Ref sig .tc := ⟨.hbm, 264, rfl⟩
abbrev main_call11_v12 : Ref sig .tc := ⟨.hbm, 265, rfl⟩
abbrev main_call11_cst_4 : Ref sig .tc := ⟨.hbm, 266, rfl⟩
abbrev main_call11_call0_v0 : Ref sig .tc := ⟨.hbm, 267, rfl⟩
abbrev main_call11_call0_v1 : Ref sig .tc := ⟨.hbm, 268, rfl⟩
abbrev main_v119 : Ref sig .tc := ⟨.hbm, 269, rfl⟩

abbrev nD : Nat := 1
abbrev τ : Topo := Topo.v7x

variable {F : FTy → Type} [FloatOps F]

class Facts₀ : Prop where
  bcast_S320_S320x1_0 : S320.BroadcastsInDim S320x1 (![0] : Fin 1 → Fin S320x1.rank)
  bcast_S_S320x1 : S_.BroadcastsInDim S320x1 (![] : Fin 0 → Fin S320x1.rank)
  bcast_S320_S1x320_1 : S320.BroadcastsInDim S1x320 (![1] : Fin 1 → Fin S1x320.rank)
  bcast_S_S1x320 : S_.BroadcastsInDim S1x320 (![] : Fin 0 → Fin S1x320.rank)
  bcast_S320x1_S320x320_0_1 : S320x1.BroadcastsInDim S320x320 (![0, 1] : Fin 2 → Fin S320x320.rank)
  bcast_S1x320_S320x320_0_1 : S1x320.BroadcastsInDim S320x320 (![0, 1] : Fin 2 → Fin S320x320.rank)
  bcast_S_S320x320 : S_.BroadcastsInDim S320x320 (![] : Fin 0 → Fin S320x320.rank)
  bcast_S_S1000x320 : S_.BroadcastsInDim S1000x320 (![] : Fin 0 → Fin S1000x320.rank)
  bcast_S1000x320_S1000x320x1_0_1 : S1000x320.BroadcastsInDim S1000x320x1 (![0, 1] : Fin 2 → Fin S1000x320x1.rank)
  bcast_S1x320_S1000x320_0_1 : S1x320.BroadcastsInDim S1000x320 (![0, 1] : Fin 2 → Fin S1000x320.rank)
  concatenates_S1000x320x1_S1000x320x1_S1000x320x2_d2 : Shape.Concatenates [S1000x320x1, S1000x320x1] S1000x320x2 2
  bcast_S1000x320x1_S1000x320x64_0_1_2 : S1000x320x1.BroadcastsInDim S1000x320x64 (![0, 1, 2] : Fin 3 → Fin S1000x320x64.rank)
  bcast_S320x64_S1x320x64_1_2 : S320x64.BroadcastsInDim S1x320x64 (![1, 2] : Fin 2 → Fin S1x320x64.rank)
  concatenates_S1x320x64_S1000x320x64_S1001x320x64_d0 : Shape.Concatenates [S1x320x64, S1000x320x64] S1001x320x64 0
  reducesTo_S1001x320x64_S1001x320_d2 : S1001x320x64.ReducesTo [2] S1001x320
  h_S_ : 0 < S_.numel
  bcast_S1001x320_S1001x320x1_0_1 : S1001x320.BroadcastsInDim S1001x320x1 (![0, 1] : Fin 2 → Fin S1001x320x1.rank)
  bcast_S1001x320_S1001x1x320_0_2 : S1001x320.BroadcastsInDim S1001x1x320 (![0, 2] : Fin 2 → Fin S1001x1x320.rank)
  bcast_S1001x320x1_S1001x320x320_0_1_2 : S1001x320x1.BroadcastsInDim S1001x320x320 (![0, 1, 2] : Fin 3 → Fin S1001x320x320.rank)
  bcast_S1001x1x320_S1001x320x320_0_1_2 : S1001x1x320.BroadcastsInDim S1001x320x320 (![0, 1, 2] : Fin 3 → Fin S1001x320x320.rank)
  bcast_S_S1001x320x320 : S_.BroadcastsInDim S1001x320x320 (![] : Fin 0 → Fin S1001x320x320.rank)
  shapeCasts_S320x320_S102400 : S320x320.ShapeCasts S102400
  natLt_1_32 : 1 < 32
  bcast_S_S_ : S_.BroadcastsInDim S_ (![] : Fin 0 → Fin S_.rank)
  reduceWindows_S102400_S102400_w102400s1p102399_0 : S102400.ReduceWindows (![102400] : Fin 1 → Nat) ![1] ![102399] ![0] S102400
  bcast_S_S51040 : S_.BroadcastsInDim S51040 (![] : Fin 0 → Fin S51040.rank)
  bcast_S_S102400 : S_.BroadcastsInDim S102400 (![] : Fin 0 → Fin S102400.rank)
  bcast_S102400_S102400x1_0 : S102400.BroadcastsInDim S102400x1 (![0] : Fin 1 → Fin S102400x1.rank)
  reduceWindows_S51040_S51040_w51040s1p51039_0 : S51040.ReduceWindows (![51040] : Fin 1 → Nat) ![1] ![51039] ![0] S51040
  bcast_S51040_S51040x1_0 : S51040.BroadcastsInDim S51040x1 (![0] : Fin 1 → Fin S51040x1.rank)
  concatenates_S51040x1_S51040x1_S51040x2_d1 : Shape.Concatenates [S51040x1, S51040x1] S51040x2 1
  bcast_S51040_S1x51040_1 : S51040.BroadcastsInDim S1x51040 (![1] : Fin 1 → Fin S1x51040.rank)
  bcast_S1x51040_S1001x51040_0_1 : S1x51040.BroadcastsInDim S1001x51040 (![0, 1] : Fin 2 → Fin S1001x51040.rank)
  reducesTo_S1001x51040_S1001_d1 : S1001x51040.ReducesTo [1] S1001
  bcast_S1001_S1001x1_0 : S1001.BroadcastsInDim S1001x1 (![0] : Fin 1 → Fin S1001x1.rank)
  bcast_S_S1001x1 : S_.BroadcastsInDim S1001x1 (![] : Fin 0 → Fin S1001x1.rank)
  bcast_S1001x1_S1001x51040_0_1 : S1001x1.BroadcastsInDim S1001x51040 (![0, 1] : Fin 2 → Fin S1001x51040.rank)
  bcast_S_S1001 : S_.BroadcastsInDim S1001 (![] : Fin 0 → Fin S1001.rank)
  gather_S320x64_S1000x320x1_S1000x320x64_2_0_n_n_0_2_164_wf : GatherDims.WF S320x64 S1000x320x1 S1000x320x64 [2] [0] [] [0] [] 2 ![1, 64]
  gather_S320x320_S1000x320x2_S1000x320_n_01_n_n_01_2_11_wf : GatherDims.WF S320x320 S1000x320x2 S1000x320 [] [0, 1] [] [0, 1] [] 2 ![1, 1]
  dot_S1001x320x64_S1001x320x64_S1001x320x320_2_2_1_1_0_0_wf : DotDims.WF S1001x320x64 S1001x320x64 S1001x320x320 [2] [2] [1] [1] [0] [0]
  scatter_S51040_S102400x1_S102400_n_0_0_1_wf : ScatterDims.WF S51040 S102400x1 S102400 [] [0] [0] 1
  gather_S320x320_S51040x2_S51040_n_01_n_n_01_1_11_wf : GatherDims.WF S320x320 S51040x2 S51040 [] [0, 1] [] [0, 1] [] 1 ![1, 1]
  gather_S1001x320x320_S51040x2_S1001x51040_0_12_n_n_12_1_100111_wf : GatherDims.WF S1001x320x320 S51040x2 S1001x51040 [0] [1, 2] [] [1, 2] [] 1 ![1001, 1, 1]

variable [Facts₀]

def gather_S320x64_S1000x320x1_S1000x320x64_2_0_n_n_0_2_164 : GatherDims S320x64 S1000x320x1 S1000x320x64 where
  offsetDims := [2]
  collapsedSliceDims := [0]
  operandBatchingDims := []
  startIndicesBatchingDims := []
  startIndexMap := [0]
  indexVectorDim := 2
  sliceSizes := ![1, 64]
  wf := gather_S320x64_S1000x320x1_S1000x320x64_2_0_n_n_0_2_164_wf
def gather_S320x320_S1000x320x2_S1000x320_n_01_n_n_01_2_11 : GatherDims S320x320 S1000x320x2 S1000x320 where
  offsetDims := []
  collapsedSliceDims := [0, 1]
  operandBatchingDims := []
  startIndicesBatchingDims := []
  startIndexMap := [0, 1]
  indexVectorDim := 2
  sliceSizes := ![1, 1]
  wf := gather_S320x320_S1000x320x2_S1000x320_n_01_n_n_01_2_11_wf
def dot_S1001x320x64_S1001x320x64_S1001x320x320_2_2_1_1_0_0 : DotDims S1001x320x64 S1001x320x64 S1001x320x320 where
  lhsContracting := [2]
  rhsContracting := [2]
  lhsNonContracting := [1]
  rhsNonContracting := [1]
  lhsBatch := [0]
  rhsBatch := [0]
  wf := dot_S1001x320x64_S1001x320x64_S1001x320x320_2_2_1_1_0_0_wf
def scatter_S51040_S102400x1_S102400_n_0_0_1 : ScatterDims S51040 S102400x1 S102400 where
  updateWindowDims := []
  insertedWindowDims := [0]
  scatterDimsToOperandDims := [0]
  indexVectorDim := 1
  wf := scatter_S51040_S102400x1_S102400_n_0_0_1_wf
def gather_S320x320_S51040x2_S51040_n_01_n_n_01_1_11 : GatherDims S320x320 S51040x2 S51040 where
  offsetDims := []
  collapsedSliceDims := [0, 1]
  operandBatchingDims := []
  startIndicesBatchingDims := []
  startIndexMap := [0, 1]
  indexVectorDim := 1
  sliceSizes := ![1, 1]
  wf := gather_S320x320_S51040x2_S51040_n_01_n_n_01_1_11_wf
def gather_S1001x320x320_S51040x2_S1001x51040_0_12_n_n_12_1_100111 : GatherDims S1001x320x320 S51040x2 S1001x51040 where
  offsetDims := [0]
  collapsedSliceDims := [1, 2]
  operandBatchingDims := []
  startIndicesBatchingDims := []
  startIndexMap := [1, 2]
  indexVectorDim := 1
  sliceSizes := ![1001, 1, 1]
  wf := gather_S1001x320x320_S51040x2_S1001x51040_0_12_n_n_12_1_100111_wf

class Facts : Prop extends Facts₀ where

variable [Facts]
-- ==== Proof.LibPairVariance.lean ====
/-
  The sample variance of the entries strictly above the diagonal of a symmetric real matrix with zero diagonal,
  recovered from two sums over the WHOLE matrix.

  For `g : Fin n → Fin n → ℝ` with `g i j = g j i` and `g i i = 0`, write `P = {(i, j) | i < j}` and `m = #P`.
  * The sum of `g` over the whole matrix is twice its sum over `P`: the pairs below the diagonal are the pairs
    above it with the coordinates exchanged, and the diagonal contributes nothing (`sum_all_eq_two_mul_sum_lt`).
    The same holds for `g²`.
  * With the mean `μ = (Σ_P g) / m`, the centred sum of squares is `Σ_P (g − μ)² = Σ_P g² − (Σ_P g)² / m`
    (`sum_sq_sub_mean`).
  Together: `(Σ_P (g − μ)²) / (m − 1) = ((Σ_all g²) · ½ − (Σ_all g) · (Σ_all g) · (1 / (4 m))) · (1 / (m − 1))`
  (`pairVariance_eq_of_full_sums`): the unbiased variance of the upper-triangular entries from the two
  whole-matrix sums. The number of pairs is `m = n (n − 1) / 2` (`two_mul_card_ltPairs`).
-/
import Mathlib.Algebra.BigOperators.Fin
import Mathlib.Data.Fintype.BigOperators
import Mathlib.Data.Real.Basic
import Mathlib.Tactic

namespace PairVariance

open Finset

variable {n : ℕ}

/-- The index pairs strictly above the diagonal of an `n × n` matrix. -/
def ltPairs (n : ℕ) : Finset (Fin n × Fin n) := univ.filter fun p => p.1 < p.2

theorem mem_ltPairs {p : Fin n × Fin n} : p ∈ ltPairs n ↔ p.1 < p.2 := by
  simp [ltPairs]

/-- A symmetric matrix with zero diagonal sums, over all its entries, to twice its sum above the diagonal. -/
theorem sum_all_eq_two_mul_sum_lt (g : Fin n → Fin n → ℝ) (hsym : ∀ i j, g i j = g j i) (hdiag : ∀ i, g i i = 0) :
    ∑ i, ∑ j, g i j = 2 * ∑ p ∈ ltPairs n, g p.1 p.2 := by
  classical
  have split : ∀ p : Fin n × Fin n,
      g p.1 p.2 = (if p.1 < p.2 then g p.1 p.2 else 0) + (if p.2 < p.1 then g p.1 p.2 else 0) := by
    intro p
    rcases lt_trichotomy p.1 p.2 with h | h | h
    · rw [if_pos h, if_neg (lt_asymm h), add_zero]
    · rw [if_neg (by rw [h]; exact lt_irrefl _), if_neg (by rw [h]; exact lt_irrefl _), h, hdiag, add_zero]
    · rw [if_neg (lt_asymm h), if_pos h, zero_add]
  have swap : ∑ p : Fin n × Fin n, (if p.2 < p.1 then g p.1 p.2 else 0)
      = ∑ p : Fin n × Fin n, (if p.1 < p.2 then g p.1 p.2 else 0) := by
    rw [← Equiv.sum_comp (Equiv.prodComm (Fin n) (Fin n))]
    refine Finset.sum_congr rfl fun p _ => ?_
    show (if p.1 < p.2 then g p.2 p.1 else 0) = if p.1 < p.2 then g p.1 p.2 else 0
    by_cases h : p.1 < p.2
    · rw [if_pos h, if_pos h]
      exact hsym _ _
    · rw [if_neg h, if_neg h]
  have whole : ∑ i, ∑ j, g i j = ∑ p : Fin n × Fin n, g p.1 p.2 := (Fintype.sum_prod_type' g).symm
  rw [whole, Finset.sum_congr rfl fun p _ => split p, Finset.sum_add_distrib, swap, ltPairs, Finset.sum_filter]
  ring

/-- The centred sum of squares over a finite set of `m` values is the sum of squares less the squared sum over `m`. -/
theorem sum_sq_sub_mean {ι : Type*} (s : Finset ι) (v : ι → ℝ) (m : ℝ) (hm : (s.card : ℝ) = m) (hm0 : m ≠ 0) :
    ∑ r ∈ s, (v r - (∑ r ∈ s, v r) / m) ^ 2 = ∑ r ∈ s, v r ^ 2 - (∑ r ∈ s, v r) ^ 2 / m := by
  have expand : ∀ r, (v r - (∑ r ∈ s, v r) / m) ^ 2
      = v r ^ 2 - 2 * ((∑ r ∈ s, v r) / m) * v r + ((∑ r ∈ s, v r) / m) ^ 2 := fun r => by ring
  rw [Finset.sum_congr rfl fun r _ => expand r, Finset.sum_add_distrib, Finset.sum_sub_distrib, ← Finset.mul_sum,
    Finset.sum_const, nsmul_eq_mul, hm]
  field_simp
  ring

/-- The unbiased variance of the entries above the diagonal, from the two sums over the whole matrix. -/
theorem pairVariance_eq_of_full_sums (g : Fin n → Fin n → ℝ) (hsym : ∀ i j, g i j = g j i) (hdiag : ∀ i, g i i = 0)
    (m : ℝ) (hm : ((ltPairs n).card : ℝ) = m) (hm0 : m ≠ 0) (hm1 : m - 1 ≠ 0) :
    (∑ p ∈ ltPairs n, (g p.1 p.2 - (∑ p ∈ ltPairs n, g p.1 p.2) / m) ^ 2) / (m - 1)
      = ((∑ i, ∑ j, g i j ^ 2) * (1 / 2) - ((∑ i, ∑ j, g i j) * (∑ i, ∑ j, g i j)) * (1 / (4 * m)))
          * (1 / (m - 1)) := by
  have hsq : ∑ i, ∑ j, g i j ^ 2 = 2 * ∑ p ∈ ltPairs n, g p.1 p.2 ^ 2 :=
    sum_all_eq_two_mul_sum_lt (fun i j => g i j ^ 2) (fun i j => by show g i j ^ 2 = g j i ^ 2; rw [hsym i j])
      (fun i => by show g i i ^ 2 = 0; rw [hdiag i]; norm_num)
  have hcentred : ∑ p ∈ ltPairs n, (g p.1 p.2 - (∑ p ∈ ltPairs n, g p.1 p.2) / m) ^ 2
      = ∑ p ∈ ltPairs n, g p.1 p.2 ^ 2 - (∑ p ∈ ltPairs n, g p.1 p.2) ^ 2 / m :=
    sum_sq_sub_mean (ltPairs n) (fun p => g p.1 p.2) m hm hm0
  rw [hcentred, hsq, sum_all_eq_two_mul_sum_lt g hsym hdiag]
  field_simp
  ring

/-- There are `n (n − 1) / 2` pairs above the diagonal. -/
theorem two_mul_card_ltPairs (n : ℕ) : 2 * (ltPairs n).card = n * (n - 1) := by
  classical
  have hsum := sum_all_eq_two_mul_sum_lt (n := n) (fun i j => if i = j then 0 else 1)
    (fun i j => by
      by_cases h : i = j
      · subst h; rfl
      · rw [if_neg h, if_neg (Ne.symm h)])
    (fun i => if_pos rfl)
  have hrow : ∀ i : Fin n, ∑ j : Fin n, (if i = j then (0 : ℝ) else 1) = (n : ℝ) - 1 := by
    intro i
    have flip : ∀ j : Fin n, (if i = j then (0 : ℝ) else 1) = 1 - (if i = j then 1 else 0) := fun j => by
      split_ifs <;> norm_num
    rw [Finset.sum_congr rfl fun j _ => flip j, Finset.sum_sub_distrib, Finset.sum_ite_eq]
    simp
  have hP : ∑ p ∈ ltPairs n, (if p.1 = p.2 then (0 : ℝ) else 1) = ((ltPairs n).card : ℝ) := by
    rw [Finset.card_eq_sum_ones, Nat.cast_sum]
    refine Finset.sum_congr rfl fun p hp => ?_
    rw [if_neg (ne_of_lt (mem_ltPairs.mp hp))]
    simp
  rw [Finset.sum_congr rfl fun i _ => hrow i, Finset.sum_const, Finset.card_univ, Fintype.card_fin, nsmul_eq_mul, hP]
    at hsum
  have hreal : ((2 * (ltPairs n).card : ℕ) : ℝ) = ((n * (n - 1) : ℕ) : ℝ) := by
    rcases n with _ | k
    · simp [ltPairs]
    · push_cast
      rw [← hsum]
      simp
  exact_mod_cast hreal

end PairVariance
-- ==== Proof.KTrip.lean ====
/-
  What the kernel's loop writes. The body loads the data block, the factor block F and its square once, and then
  makes 13 trips; trip k loads row-block k of the index table and of the scale table and stores, at row k of the
  13 x 1 x 128 output block, the variance computed from those two rows (`tripPay`) on all 128 lanes.
  So the pieces the whole body leaves are the 13 trips' pieces, one per row of the block.
-/
import proofs.«138780_j25872882991128_2_alg».proof.Proof.Gen.KernelIdeal.Frame
import Idealize.ShloMosaic.Lib.Pipeline.Value

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The value one trip stores: the variance formula of the two whole-matrix sums (`k0_pay6`: half the sum of
    F² · sq; `k0_pay7`: the square of the sum of F · sqrt sq) for the trip's index row `r4` and scale row `r5`,
    on every lane. -/
def tripPay (v0 : Vec F S320x64 .f32) (v1 v3 : Vec F S320x320 .f32) (v5 : IVec S320x320 32)
    (r4 : Vec F S1x320x1 .i32) (r5 : Vec F S1x320x1 .f32) : FVec F S1x1x128 .f32 :=
  k0_pay4 (k0_pay6 v0 (k0_pay2 v3) v5 k0_pay3 r4 r5) (k0_pay7 v0 (k0_pay1 v1) v5 k0_pay3 r4 r5)
    (Named.named κ "quarter_inv_m" 0x36A45A86#32)

variable (c : Dev nD) (i : grid0.Coords) (arg1 : Memref sig .tc .vmem S320x64 .f32) (harg1 : arg1.IsWhole) (arg2 : Memref sig .tc .vmem S320x320 .f32) (harg2 : arg2.IsWhole) (arg3 : Memref sig .tc .vmem S320x320 .f32) (harg3 : arg3.IsWhole) (arg4 : Memref sig .tc .vmem S13x320x1 .i32) (harg4 : arg4.IsWhole) (arg5 : Memref sig .tc .vmem S13x320x1 .f32) (harg5 : arg5.IsWhole) (arg6 : Memref sig .tc .vmem S13x1x128 .f32) (harg6 : arg6.IsWhole)

/-- Trip `k` makes one store: at row `k` of the block, `tripPay` of the rows it loaded at row `k`. -/
theorem tripL_eq (𝒱 : Variants) (bd : Option 𝒱.V) (v0 : Vec F S320x64 .f32) (v1 : Vec F S320x320 .f32) (v3 : Vec F S320x320 .f32)
    (v5 : IVec S320x320 32) (X_arg4 : BufTy.Contents (Elt F) arg4.view.ty) (X_arg5 : BufTy.Contents (Elt F) arg5.view.ty)
    (k : Fin k0_t1_loop.trips) :
    tripL_k0_t1 (F := F) 𝒱 c bd i arg1 harg1 arg2 harg2 arg3 harg3 arg4 harg4 arg5 harg5 arg6 harg6 v0 v1 v3 v5 X_arg4 X_arg5 k
      = [(⟨Rect.unit (s := S13x1x128) (k0_off2 k) S1x1x128.size (k0_off2_inb k),
          tripPay v0 v1 v3 v5
            (View.readAt (Elt F) arg4.view (Rect.unit (s := S13x320x1) (k0_off1 k) S1x320x1.size (k0_off1_inb k)).toLoadRect X_arg4)
            (View.readAt (Elt F) arg5.view (Rect.unit (s := S13x320x1) (k0_off1 k) S1x320x1.size (k0_off1_inb k)).toLoadRect X_arg5)⟩ :
          View.Piece (Elt F) S13x1x128 .f32)] := by
  unfold tripL_k0_t1 trip_k0_t1
  dsimp only
  unfold trip_k0_t1.sl.r trip_k0_t1.sl.r_1 trip_k0_t1.sl.cst_20
  rfl

/-- The column iota the body compares the index rows with. -/
def colIota : IVec S320x320 32 := iota .tc S320x320 32 [1] iota_S320x320_d1_w32

/-- The pieces the whole body leaves in the output block are those of its 13 trips, from the blocks it was given. -/
theorem run_pieces_eq (x0 : Vec F S320x64 .f32) (x1 : Vec F S320x320 .f32) (x2 : Vec F S320x320 .f32)
    (x3 : Vec F S13x320x1 .i32) (x4 : Vec F S13x320x1 .f32) :
    (kernelRun0_A c i arg1 harg1 arg2 harg2 arg3 harg3 arg4 harg4 arg5 harg5 arg6 harg6 x0 x1 x2 x3 x4).1
      = pb_k0_t1 Variants.none c none i arg1 harg1 arg2 harg2 arg3 harg3 arg4 harg4 arg5 harg5 arg6 harg6
          x0 x1 x2 colIota (harg4.unread x3) (harg5.unread x4) 13 := by
  unfold kernelRun0_A
  dsimp only
  unfold kernelRun0_A.sl.v5
  have hz : (![0, 0] : Fin 2 → Nat) = fun _ => 0 := by funext a; fin_cases a <;> rfl
  have ht : Scf.trips (0#32) (Scalar.addi 0#32 13#32) 1#32 = 13 := by decide
  simp only [View.readAt_eq_ld, Memref.IsWhole.read_unread, View.ld_unit_zero (S := S320x64) hz,
    View.ld_unit_zero (S := S320x320) hz, ht]
  rfl

end Cert.KernelIdeal.KVal

end
-- ==== Proof.KBlock.lean ====
/-
  The output block of one grid step as ONE function of the block index: entry (b, 0, l) is the variance that trip b
  computes from row b of the step's index block and row b of its scale block, the same on all 128 lanes. Each of
  the 13 stores writes row b of that function, and the 13 rows tile the block.
-/
import proofs.«138780_j25872882991128_2_alg».proof.Proof.KTrip
import Idealize.ShloMosaic.Lib.ValueIdx

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx

theorem trips_eq : (13 : ℕ) = k0_t1_loop.trips := by decide

/-- The trip that writes row `y 0` of the block. -/
def tripOf (y : S13x1x128.Idx) : Fin k0_t1_loop.trips := Fin.cast trips_eq (y 0)

/-- The position inside that row. -/
def lane (y : S13x1x128.Idx) : S1x1x128.Idx := ix3 0 0 (y 2)

/-- Row `b` of the step's index block, as the trip loads it. -/
def rowI (x3 : Vec F S13x320x1 .i32) (b : Fin k0_t1_loop.trips) : Vec F S1x320x1 .i32 :=
  View.ld x3 (Rect.unit (s := S13x320x1) (k0_off1 b) S1x320x1.size (k0_off1_inb b))

/-- Row `b` of the step's scale block. -/
def rowS (x4 : Vec F S13x320x1 .f32) (b : Fin k0_t1_loop.trips) : Vec F S1x320x1 .f32 :=
  View.ld x4 (Rect.unit (s := S13x320x1) (k0_off1 b) S1x320x1.size (k0_off1_inb b))

/-- The block the body leaves, as one function of its index. -/
def blockFn (x0 : Vec F S320x64 .f32) (x1 x2 : Vec F S320x320 .f32) (x3 : Vec F S13x320x1 .i32) (x4 : Vec F S13x320x1 .f32) :
    S13x1x128.Idx → Elt F .f32 := fun y =>
  tripPay x0 x1 x2 colIota (rowI x3 (tripOf y)) (rowS x4 (tripOf y)) (lane y)

/-- A store at row `b` lands at block coordinates (b + x₀, x₁, x₂). -/
theorem emb_val (b : Fin k0_t1_loop.trips) (x : S1x1x128.Idx) (a : Fin 3) :
    ((Rect.unit (s := S13x1x128) (k0_off2 b) S1x1x128.size (k0_off2_inb b)).emb x a).val
      = (![b.val, 0, 0] : Fin 3 → ℕ) a + (x a).val := by
  show k0_off2 b a + 1 * (x a).val = _
  rw [k0_off2_eq, one_mul]

variable (c : Dev nD) (i : grid0.Coords) (arg1 : Memref sig .tc .vmem S320x64 .f32) (harg1 : arg1.IsWhole) (arg2 : Memref sig .tc .vmem S320x320 .f32) (harg2 : arg2.IsWhole) (arg3 : Memref sig .tc .vmem S320x320 .f32) (harg3 : arg3.IsWhole) (arg4 : Memref sig .tc .vmem S13x320x1 .i32) (harg4 : arg4.IsWhole) (arg5 : Memref sig .tc .vmem S13x320x1 .f32) (harg5 : arg5.IsWhole) (arg6 : Memref sig .tc .vmem S13x1x128 .f32) (harg6 : arg6.IsWhole)

variable (x0 : Vec F S320x64 .f32) (x1 x2 : Vec F S320x320 .f32) (x3 : Vec F S13x320x1 .i32) (x4 : Vec F S13x320x1 .f32)

/-- Every piece of the first `n` trips is the matching row of `blockFn`. -/
theorem pieces_blockFn (n : ℕ) (hn : n ≤ 13) :
    ∀ p ∈ pb_k0_t1 (F := F) Variants.none c none i arg1 harg1 arg2 harg2 arg3 harg3 arg4 harg4 arg5 harg5 arg6 harg6
        x0 x1 x2 colIota (harg4.unread x3) (harg5.unread x4) n,
      ∀ x : p.1.shape.Idx, p.2 x = blockFn x0 x1 x2 x3 x4 (p.1.emb x) := by
  induction n with
  | zero => intro p hp; exact absurd hp List.not_mem_nil
  | succ k ih =>
    have hk : k < k0_t1_loop.trips := by rw [← trips_eq]; omega
    intro p hp
    have hs := pb_k0_t1_succ (F := F) Variants.none c none i arg1 harg1 arg2 harg2 arg3 harg3 arg4 harg4 arg5 harg5 arg6 harg6
      x0 x1 x2 colIota (harg4.unread x3) (harg5.unread x4) (⟨k, hk⟩ : Fin k0_t1_loop.trips)
    rw [show (⟨k, hk⟩ : Fin k0_t1_loop.trips).val + 1 = k + 1 from rfl, tripL_eq] at hs
    rw [hs] at hp
    rcases List.mem_append.mp hp with h | h
    · rw [List.mem_singleton] at h
      subst h
      intro x
      have h1 : tripOf ((Rect.unit (s := S13x1x128) (k0_off2 ⟨k, hk⟩) S1x1x128.size (k0_off2_inb ⟨k, hk⟩)).emb x) = ⟨k, hk⟩ := by
        apply Fin.ext
        show ((Rect.unit (s := S13x1x128) (k0_off2 ⟨k, hk⟩) S1x1x128.size (k0_off2_inb ⟨k, hk⟩)).emb x 0).val = k
        rw [emb_val]
        have hx : (x 0).val < 1 := (x 0).isLt
        show k + (x 0).val = k
        omega
      have h2 : lane ((Rect.unit (s := S13x1x128) (k0_off2 ⟨k, hk⟩) S1x1x128.size (k0_off2_inb ⟨k, hk⟩)).emb x) = x := by
        funext a
        apply Fin.ext
        match a with
        | ⟨0, _⟩ => have hx : (x 0).val < 1 := (x 0).isLt; show 0 = (x 0).val; omega
        | ⟨1, _⟩ => have hx : (x 1).val < 1 := (x 1).isLt; show 0 = (x 1).val; omega
        | ⟨2, _⟩ =>
          show ((Rect.unit (s := S13x1x128) (k0_off2 ⟨k, hk⟩) S1x1x128.size (k0_off2_inb ⟨k, hk⟩)).emb x 2).val = (x 2).val
          rw [emb_val]
          show 0 + (x 2).val = (x 2).val
          omega
      show tripPay x0 x1 x2 colIota _ _ x = blockFn x0 x1 x2 x3 x4 _
      unfold blockFn
      rw [h1, h2]
      simp only [View.readAt_eq_ld, Memref.IsWhole.read_unread]
      rfl
    · exact ih (by omega) p h

/-- What the body leaves in the output block, read at an index. -/
theorem out0_apply (y : S13x1x128.Idx) :
    out0_A_5 c i arg1 harg1 arg2 harg2 arg3 harg3 arg4 harg4 arg5 harg5 arg6 harg6 x0 x1 x2 x3 x4 y = blockFn x0 x1 x2 x3 x4 y := by
  unfold out0_A_5
  rw [View.read_writes_eq_canon _ _ _ (fun y => cover0_A_5 c i arg1 harg1 arg2 harg2 arg3 harg3 arg4 harg4 arg5 harg5 arg6 harg6 x0 x1 x2 x3 x4 y)]
  refine View.canon_apply_of_pieces (blockFn x0 x1 x2 x3 x4) _ ?_ y (cover0_A_5 c i arg1 harg1 arg2 harg2 arg3 harg3 arg4 harg4 arg5 harg5 arg6 harg6 x0 x1 x2 x3 x4 y)
  rw [run_pieces_eq]
  exact pieces_blockFn c i arg1 harg1 arg2 harg2 arg3 harg3 arg4 harg4 arg5 harg5 arg6 harg6 x0 x1 x2 x3 x4 13 le_rfl

end Cert.KernelIdeal.KVal

end
-- ==== Proof.KArr.lean ====
/-
  From the 77 grid steps' blocks to the kernel's whole output array. Step t stages the whole data, F and F² arrays
  and rows 13 t .. 13 t + 12 of the index table and of the scale table, and writes back rows 13 t .. 13 t + 12 of the
  1001 x 1 x 128 output. So entry (p, 0, l) of the output array is the variance payload of row p of the two tables
  (`arrFn`), and the 77 blocks cover all 1001 rows.
-/
import proofs.«138780_j25872882991128_2_alg».proof.Proof.KBlock

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx

variable (m : (ℓ : Loc nD τ sig) → Buf (Elt F) ℓ) (ρ : Dev nD → PrngReg)

/-- The printed index maps, decided over the grid: the data, F and F² windows stay at block 0; the two tables and
    the output move to block t along their first axis. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The data window's block is the whole data array. -/
theorem iblk0_eq (c : Dev nD) (t : Fin cfg0.N) : iblk m c 0 t = V m c main_arg0 := by
  funext y
  show V m c main_arg0 (((cfg0.win 0).blk t).view.emb y) = V m c main_arg0 y
  obtain ⟨e0, e1, -⟩ := idx_facts t
  refine congrArg _ (funext fun a => Fin.ext ?_)
  match a with
  | ⟨0, _⟩ => show win0_0.index t (0 : Fin 2) * 320 + 1 * (y 0).val = (y 0).val; omega
  | ⟨1, _⟩ => show win0_0.index t (1 : Fin 2) * 64 + 1 * (y 1).val = (y 1).val; omega

/-- The F window's block is the whole factor matrix. -/
theorem iblk1_eq (c : Dev nD) (t : Fin cfg0.N) : iblk m c 1 t = V m c main_v19 := by
  funext y
  show V m c main_v19 (((cfg0.win 1).blk t).view.emb y) = V m c main_v19 y
  obtain ⟨-, -, e0, e1, -⟩ := idx_facts t
  refine congrArg _ (funext fun a => Fin.ext ?_)
  match a with
  | ⟨0, _⟩ => show win0_1.index t (0 : Fin 2) * 320 + 1 * (y 0).val = (y 0).val; omega
  | ⟨1, _⟩ => show win0_1.index t (1 : Fin 2) * 320 + 1 * (y 1).val = (y 1).val; omega

/-- The F² window's block is the whole squared factor matrix. -/
theorem iblk2_eq (c : Dev nD) (t : Fin cfg0.N) : iblk m c 2 t = V m c main_v20 := by
  funext y
  show V m c main_v20 (((cfg0.win 2).blk t).view.emb y) = V m c main_v20 y
  obtain ⟨-, -, -, -, e0, e1, -⟩ := idx_facts t
  refine congrArg _ (funext fun a => Fin.ext ?_)
  match a with
  | ⟨0, _⟩ => show win0_2.index t (0 : Fin 2) * 320 + 1 * (y 0).val = (y 0).val; omega
  | ⟨1, _⟩ => show win0_2.index t (1 : Fin 2) * 320 + 1 * (y 1).val = (y 1).val; omega

/-- Row `p` of a 1001 x 320 x 1 table, as a 1 x 320 x 1 block. -/
def rowAt {α : Type} (X : S1001x320x1.Idx → α) (p : Fin 1001) : S1x320x1.Idx → α := fun j => X (ix3 p (j 1) (j 2))

/-- Row `b` of step `t`'s index block is row `13 t + b` of the index table. -/
theorem rowI_iblk (c : Dev nD) (t : Fin cfg0.N) (b : Fin k0_t1_loop.trips) (p : Fin 1001) (hp : p.val = t.val * 13 + b.val) :
    rowI (iblk m c 3 t) b = rowAt (V m c main_v45) p := by
  funext j
  show V m c main_v45 (((cfg0.win 3).blk t).view.emb
      ((Rect.unit (s := S13x320x1) (k0_off1 b) S1x320x1.size (k0_off1_inb b)).emb j)) = V m c main_v45 (ix3 p (j 1) (j 2))
  obtain ⟨-, -, -, -, -, -, e0, e1, e2, -⟩ := idx_facts t
  have hj0 : (j 0).val < 1 := (j 0).isLt
  refine congrArg _ (funext fun a => Fin.ext ?_)
  match a with
  | ⟨0, _⟩ =>
    show win0_3.index t (0 : Fin 3) * 13 + 1 * (k0_off1 b (0 : Fin 3) + 1 * (j 0).val) = p.val
    rw [k0_off1_eq]; show win0_3.index t (0 : Fin 3) * 13 + 1 * (b.val + 1 * (j 0).val) = p.val; omega
  | ⟨1, _⟩ =>
    show win0_3.index t (1 : Fin 3) * 320 + 1 * (k0_off1 b (1 : Fin 3) + 1 * (j 1).val) = (j 1).val
    rw [k0_off1_eq]; show win0_3.index t (1 : Fin 3) * 320 + 1 * (0 + 1 * (j 1).val) = (j 1).val; omega
  | ⟨2, _⟩ =>
    show win0_3.index t (2 : Fin 3) * 1 + 1 * (k0_off1 b (2 : Fin 3) + 1 * (j 2).val) = (j 2).val
    rw [k0_off1_eq]; show win0_3.index t (2 : Fin 3) * 1 + 1 * (0 + 1 * (j 2).val) = (j 2).val; omega

/-- Row `b` of step `t`'s scale block is row `13 t + b` of the scale table. -/
theorem rowS_iblk (c : Dev nD) (t : Fin cfg0.N) (b : Fin k0_t1_loop.trips) (p : Fin 1001) (hp : p.val = t.val * 13 + b.val) :
    rowS (iblk m c 4 t) b = rowAt (V m c main_v46) p := by
  funext j
  show V m c main_v46 (((cfg0.win 4).blk t).view.emb
      ((Rect.unit (s := S13x320x1) (k0_off1 b) S1x320x1.size (k0_off1_inb b)).emb j)) = V m c main_v46 (ix3 p (j 1) (j 2))
  obtain ⟨-, -, -, -, -, -, -, -, -, e0, e1, e2, -⟩ := idx_facts t
  have hj0 : (j 0).val < 1 := (j 0).isLt
  refine congrArg _ (funext fun a => Fin.ext ?_)
  match a with
  | ⟨0, _⟩ =>
    show win0_4.index t (0 : Fin 3) * 13 + 1 * (k0_off1 b (0 : Fin 3) + 1 * (j 0).val) = p.val
    rw [k0_off1_eq]; show win0_4.index t (0 : Fin 3) * 13 + 1 * (b.val + 1 * (j 0).val) = p.val; omega
  | ⟨1, _⟩ =>
    show win0_4.index t (1 : Fin 3) * 320 + 1 * (k0_off1 b (1 : Fin 3) + 1 * (j 1).val) = (j 1).val
    rw [k0_off1_eq]; show win0_4.index t (1 : Fin 3) * 320 + 1 * (0 + 1 * (j 1).val) = (j 1).val; omega
  | ⟨2, _⟩ =>
    show win0_4.index t (2 : Fin 3) * 1 + 1 * (k0_off1 b (2 : Fin 3) + 1 * (j 2).val) = (j 2).val
    rw [k0_off1_eq]; show win0_4.index t (2 : Fin 3) * 1 + 1 * (0 + 1 * (j 2).val) = (j 2).val; omega

/-- The kernel's output array as one function of the arrays the region finds: entry (p, 0, l) is the variance
    payload of row `p` of the index table and of the scale table. -/
def arrFn (c : Dev nD) : S1001x1x128.Idx → Elt F .f32 := fun i =>
  tripPay (V m c main_arg0) (V m c main_v19) (V m c main_v20) colIota
    (rowAt (V m c main_v45) (i 0)) (rowAt (V m c main_v46) (i 0)) (ix3 0 0 (i 2))

/-- What grid step `t` writes back is block `t` of `arrFn`. -/
theorem flushed5_eq (c : Dev nD) (t : Fin cfg0.N) :
    (dats m 0 c).flushed 5 t = ((cfg0.win 5).blk t).view.read (Elt F) (arrFn m c) := by
  show (cfg0.win 5).cut (grid0.coords t) ((dats m 0 c).after 5 t) = _
  rw [after0_5]
  unfold outsAt0
  funext y
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t) y
    = arrFn m c (((cfg0.win 5).blk t).view.emb y)
  rw [out0_apply]
  obtain ⟨-, -, -, -, -, -, -, -, -, -, -, -, e0, e1, e2⟩ := idx_facts t
  have hy0 : (y 0).val < 13 := (y 0).isLt
  have hy1 : (y 1).val < 1 := (y 1).isLt
  have hp : ((((cfg0.win 5).blk t).view.emb y) 0).val = t.val * 13 + (tripOf y).val := by
    show win0_5.index t (0 : Fin 3) * 13 + 1 * (y 0).val = t.val * 13 + (y 0).val
    omega
  have hl : lane y = ix3 0 0 ((((cfg0.win 5).blk t).view.emb y) 2) := by
    funext a
    apply Fin.ext
    match a with
    | ⟨0, _⟩ => rfl
    | ⟨1, _⟩ => rfl
    | ⟨2, _⟩ => show (y 2).val = win0_5.index t (2 : Fin 3) * 128 + 1 * (y 2).val; omega
  unfold blockFn arrFn
  rw [iblk0_eq, iblk1_eq, iblk2_eq, rowI_iblk m c t (tripOf y) _ hp, rowS_iblk m c t (tripOf y) _ hp, hl]
  rfl

/-- An index of the output array is in step `t`'s block iff each coordinate is in the block's range on its axis. -/
theorem mem_blk5 (t : Fin cfg0.N) (i : S1001x1x128.Idx) :
    i ∈ ((cfg0.win 5).blk t).view.set ↔ ∀ a : Fin 3, win0_5.index t a * S13x1x128.size a ≤ (i a).val
      ∧ (i a).val < win0_5.index t a * S13x1x128.size a + S13x1x128.size a := by
  show i ∈ ((View.whole main_v47).slice (win0_5.rect t)).set ↔ _
  rw [View.set_slice_whole, Rect.mem_set_unit]
  exact Iff.rfl

/-- Every row of the output array is written back by the step that holds it: row p by step p / 13. -/
theorem cover5 (i : S1001x1x128.Idx) :
    ∃ t : Fin cfg0.N, (cfg0.win 5).flush t = true ∧ i ∈ ((cfg0.win 5).blk t).view.set := by
  have hi0 : (i 0).val < 1001 := (i 0).isLt
  have hi1 : (i 1).val < 1 := (i 1).isLt
  have hi2 : (i 2).val < 128 := (i 2).isLt
  have hN : grid0.N = 77 := N_0
  have ht : (i 0).val / 13 < cfg0.N := by show (i 0).val / 13 < grid0.N; omega
  refine ⟨⟨(i 0).val / 13, ht⟩, flush0_5 _, ?_⟩
  rw [mem_blk5]
  obtain ⟨-, -, -, -, -, -, -, -, -, -, -, -, e0, e1, e2⟩ := idx_facts ⟨(i 0).val / 13, ht⟩
  intro a
  match a with
  | ⟨0, _⟩ =>
    show win0_5.index ⟨(i 0).val / 13, ht⟩ (0 : Fin 3) * 13 ≤ (i 0).val ∧ (i 0).val < win0_5.index ⟨(i 0).val / 13, ht⟩ (0 : Fin 3) * 13 + 13
    rw [e0]; show (i 0).val / 13 * 13 ≤ (i 0).val ∧ (i 0).val < (i 0).val / 13 * 13 + 13; omega
  | ⟨1, _⟩ =>
    show win0_5.index ⟨(i 0).val / 13, ht⟩ (1 : Fin 3) * 1 ≤ (i 1).val ∧ (i 1).val < win0_5.index ⟨(i 0).val / 13, ht⟩ (1 : Fin 3) * 1 + 1
    omega
  | ⟨2, _⟩ =>
    show win0_5.index ⟨(i 0).val / 13, ht⟩ (2 : Fin 3) * 128 ≤ (i 2).val ∧ (i 2).val < win0_5.index ⟨(i 0).val / 13, ht⟩ (2 : Fin 3) * 128 + 128
    omega

/-- The output array after the run is `arrFn`. -/
theorem final5 (c : Dev nD) : (dats m 0 c).arrAt 5 cfg0.N = arrFn m c :=
  (dats m 0 c).arrAt_eq_of_cover 5 (arrFn m c) (fun t _ => flushed5_eq m c t) cover5

end Cert.KernelIdeal.KVal

end
-- ==== Proof.KRun.lean ====
/-
  The kernel's run, read: after the region the program slices lane 0 of the 1001 x 1 x 128 output array and
  reshapes it to 1001 entries, so result p is entry (p, 0, 0) of the array, the variance payload of row p of the index
  table and of the scale table (`kres`). The five argument arrays end unchanged.
-/
import proofs.«138780_j25872882991128_2_alg».proof.Proof.KArr
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx

variable (m : (ℓ : Loc nD τ sig) → Buf (Elt F) ℓ) (ρ : Dev nD → PrngReg)

/-- The kernel's result: entry `p` is entry (p, 0, 0) of the output array. -/
def kres (c : Dev nD) : S1001.Idx → Elt F .f32 := fun p => arrFn m c (ix3 (p 0) 0 0)

/-- The lines after the region leave `kres` in the result buffer. -/
theorem tail_eq (c : Dev nD) : Pipeline.afterTail₀ cfgs (dats m) 0 (V0 m) [hostOps1] c main_v49 = kres m c := by
  unfold Pipeline.afterTail₀
  show StableHlo.after hostOps1 _ (Proc.devRef .tc main_v49) = _
  after_results
  funext p
  show shapeCast S1001 (extractStridedSlice S1001x1x1 ![0, 0, 0]
      (Pipeline.withArrays (cfgs 0).spec c (V0 m c) (fun w => (dats m 0 c).arrAt w (cfgs 0).N) (Proc.tc.devRef main_v47))
      slices_S1001x1x128_S1001x1x1_0_0_0) shapeCasts_S1001x1x1_S1001 p = _
  refine (shapeCast_apply _ _ p (ix3 (p 0) 0 0) ?_).trans ?_
  · rw [Shape.rowMajor_val_three]
    show ((p 0).val * 1 + 0) * 1 + 0 = ((⟨1, ![1001]⟩ : Shape).rowMajor p).val
    rw [Shape.rowMajor_val_one]
    omega
  refine (extractStridedSlice_apply _ _ _ (ix3 (p 0) 0 0) (ix3 (p 0) 0 0) ?_).trans ?_
  · intro a
    match a with
    | ⟨0, _⟩ => show (p 0).val = 0 + (p 0).val; omega
    | ⟨1, _⟩ => rfl
    | ⟨2, _⟩ => rfl
  have hw := Pipeline.withArrays_arr spec0 launch0.win.arr_inj c (V0 m c) (fun w => (dats m 0 c).arrAt w cfg0.N) 5
  have hw' : Pipeline.withArrays (cfgs 0).spec c (V0 m c) (fun w => (dats m 0 c).arrAt w (cfgs 0).N) (Proc.tc.devRef main_v47)
      = arrFn m c := hw.trans (final5 m c)
  rw [hw']
  rfl

/-- The kernel's run: every weakly fair execution ends with the result buffer at `kres` and the arguments unchanged. -/
theorem kernel_run : θ_run defs (onTc (τ := τ) (main (F := F))) ⟨m, fun _ => 0, ρ⟩ (fun r => ∀ c : Dev nD,
      r.2.mem ((c.tc : Thread nD τ).loc main_v49) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v49 (Pipeline.mem_restRefs_of main_v49 (by decide) (by decide))).trans (tail_eq m c),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KVal

end
-- ==== Proof.StatSpec.lean ====
/-
  The statistic of one arrangement, as both programs compute it, over the extended reals.

  For a 320 x 64 matrix A of scaled rows and the 320 x 320 factor matrix Fm:
    sn i     = Σ_d A i d · A i d                       (squared norm of row i)
    gram i j = Σ_d A i d · A j d
    sq i j   = max (sn i + sn j − 2 · gram i j) 0      (squared distance by the Gram identity, clamped)
    sqz i j  = 0 on the diagonal, sq i j off it
  The kernel returns  kvar = ((Σ_ij F2 · sqz) · ½ − (Σ_ij Fm · √sqz)² · 1/204160) · 1/51039   over the WHOLE matrix;
  the reference returns the centred sum of squares of w r = Fm (iu r) (ju r) · √(sq (iu r) (ju r)) over its list of
  51040 pairs, divided by 51040 − 1, the mean being the sum divided by 51040 (`rvar`).
-/
import Idealize.ShloMosaic.PureOps.Ideal

noncomputable section

namespace StatSpec

open Idealize.ShloMosaic

/-- The squared norm of row `i`. -/
def sn (A : Fin 320 → Fin 64 → EReal) (i : Fin 320) : EReal := ∑ d, A i d * A i d

/-- The inner product of rows `i` and `j`. -/
def gram (A : Fin 320 → Fin 64 → EReal) (i j : Fin 320) : EReal := ∑ d, A i d * A j d

/-- The squared distance of rows `i` and `j` by the Gram identity, clamped at zero. -/
def sq (A : Fin 320 → Fin 64 → EReal) (i j : Fin 320) : EReal :=
  max (sn A i + sn A j - ((2 : ℝ) : EReal) * gram A i j) 0

/-- The same with the diagonal forced to zero. -/
def sqz (A : Fin 320 → Fin 64 → EReal) (i j : Fin 320) : EReal := if i = j then 0 else sq A i j

/-- The kernel's formula: from the two sums over the whole matrix. -/
def kvar (Fm F2 : Fin 320 → Fin 320 → EReal) (A : Fin 320 → Fin 64 → EReal) : EReal :=
  ((∑ i, ∑ j, F2 i j * sqz A i j) * ((1 / 2 : ℝ) : EReal)
      - ((∑ i, ∑ j, Fm i j * Ideal.sqrt (sqz A i j)) * (∑ i, ∑ j, Fm i j * Ideal.sqrt (sqz A i j)))
          * ((1 / 204160 : ℝ) : EReal))
    * ((1 / 51039 : ℝ) : EReal)

/-- The value the reference lists for its pair `r`. -/
def pairVal (Fm : Fin 320 → Fin 320 → EReal) (A : Fin 320 → Fin 64 → EReal) (iu ju : Fin 51040 → Fin 320) (r : Fin 51040) : EReal :=
  Fm (iu r) (ju r) * Ideal.sqrt (sq A (iu r) (ju r))

/-- The mean of the listed values. -/
def pairMean (Fm : Fin 320 → Fin 320 → EReal) (A : Fin 320 → Fin 64 → EReal) (iu ju : Fin 51040 → Fin 320) : EReal :=
  Ideal.div (0 + ∑ r, pairVal Fm A iu ju r) ((51040 : ℝ) : EReal)

/-- The reference's formula: the centred sum of squares over its pair list, over 51040 − 1. -/
def rvar (Fm : Fin 320 → Fin 320 → EReal) (A : Fin 320 → Fin 64 → EReal) (iu ju : Fin 51040 → Fin 320) : EReal :=
  Ideal.div (0 + ∑ r, (pairVal Fm A iu ju r - pairMean Fm A iu ju) * (pairVal Fm A iu ju r - pairMean Fm A iu ju))
    (((51040 : ℝ) : EReal) - ((1 : ℝ) : EReal))

end StatSpec

end
-- ==== Proof.LibKeepdims.lean ====
/-
  Column forms of a sum kept with its axis (a `keepdims` reduction), read at an index:
  a vector of length a viewed as an a x 1 column reads, at (i, 0), the vector at i; and an a x 1 column broadcast
  to a x b reads, at (i, j), the column at (i, 0).
-/
import Idealize.ShloMosaic.Lib.ValueLayout
import Idealize.ShloMosaic.Lib.ValueIdx
import Idealize.ShloMosaic.Lib.Pipeline.Value

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KPayA.lean ====
/-
  The trip's arithmetic at the exact extended reals, stage by stage.
  From an index row r4 (320 entries) and a scale row r5, the body forms the 0/1 selection matrix
  onehot i j = [r4 i = j], gathers rows by the product  Σ_j onehot i j · data j d,  scales row i by r5 i (the matrix A),
  takes the row norms sn i = Σ_d A i d², the Gram matrix Σ_d A i d · A j d, and the squared distances
  max (sn i + sn j − 2 gram i j) 0 with the diagonal forced to zero. Each stage is read here at an index.
-/
import proofs.«138780_j25872882991128_2_alg».proof.Proof.KTrip
import proofs.«138780_j25872882991128_2_alg».proof.Proof.StatSpec
import proofs.«138780_j25872882991128_2_alg».proof.Proof.LibKeepdims
import Idealize.ShloMosaic.PureOps.Ideal.Laws

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx StatSpec

/-! ## The stages, as the body spells them -/

/-- The 0/1 selection matrix of an index row against the column iota. -/
def kOnehot (v5 : IVec S320x320 32) (r4 : IVec S1x320x1 32) : FVec Ideal S320x320 .f32 :=
  sitofp .f32 (extui 32 (cmpi .eq (broadcastTo S320x320 (shapeCast S320x1 (shapeCast S320x1 r4 shapeCasts_S1x320x1_S320x1)
    shapeCasts_S320x1_S320x1) broadcasts_S320x1_S320x320) v5) natLt_1_32)

/-- The gathered rows, each scaled by its entry of the scale row. -/
def kA (v0 : FVec Ideal S320x64 .f32) (v5 : IVec S320x320 32) (r4 : IVec S1x320x1 32) (r5 : FVec Ideal S1x320x1 .f32) :
    FVec Ideal S320x64 .f32 :=
  mulf (broadcastTo S320x64 (shapeCast S320x1 r5 shapeCasts_S1x320x1_S320x1) broadcasts_S320x1_S320x64)
    (matmul dot_S320x320_S320x64_S320x64_1_0_0_1_n_n (some .fp32) (kOnehot v5 r4) v0 (constant S320x64 .f32 0x00000000#32))

/-- The row norms, as a column. -/
def kSn (A : FVec Ideal S320x64 .f32) : FVec Ideal S320x1 .f32 :=
  shapeCast S320x1 (multiReduction .add [1] S320 (mulf A A) 0x00000000#32 reduces_S320x64_S320 (.inl rfl) rfl) shapeCasts_S320_S320x1

/-- The Gram matrix. -/
def kGram (A : FVec Ideal S320x64 .f32) : FVec Ideal S320x320 .f32 :=
  matmul dot_S320x64_S320x64_S320x320_1_1_0_0_n_n none A A (constant S320x320 .f32 0x00000000#32)

/-- The clamped squared distances with the masked entries forced to zero. -/
def kSq (A : FVec Ideal S320x64 .f32) (v7 : IVec S320x320 1) : FVec Ideal S320x320 .f32 :=
  select v7 (broadcast S320x320 (Scalar.ofBits .f32 0x00000000#32))
    (maximumf
      (subf
        (addf (broadcastTo S320x320 (kSn A) broadcasts_S320x1_S320x320)
          (broadcastTo S320x320 (transpose S1x320 [1, 0] (kSn A) transposes_S320x1_p1_0_S1x320) broadcasts_S1x320_S320x320))
        (mulf (broadcast S320x320 (Scalar.ofBits .f32 0x40000000#32)) (kGram A)))
      (broadcast S320x320 (Scalar.ofBits .f32 0x00000000#32)))

/-- The body's distance stage is these stages composed. -/
theorem pay5_eq (v0 : FVec Ideal S320x64 .f32) (v5 : IVec S320x320 32) (v7 : IVec S320x320 1)
    (r4 : IVec S1x320x1 32) (r5 : FVec Ideal S1x320x1 .f32) :
    k0_pay5 (F := Ideal) v0 v5 v7 r4 r5 = kSq (kA v0 v5 r4 r5) v7 := rfl

/-! ## The two matrix products as sums -/

theorem mm1_apply (oh : FVec Ideal S320x320 .f32) (v0 : FVec Ideal S320x64 .f32) (i : Fin 320) (d : Fin 64) :
    matmul dot_S320x320_S320x64_S320x64_1_0_0_1_n_n (some .fp32) oh v0 (constant S320x64 .f32 0x00000000#32) (ix2 i d)
      = ∑ j : Fin 320, oh (ix2 i j) * v0 (ix2 j d) := by
  show FloatOps.matmul _ _ _ _ _ _ = _
  rw [Ideal.matmul_constant_zero_apply]
  rw [← Equiv.sum_comp (contrEquiv1 dot_S320x320_S320x64_S320x64_1_0_0_1_n_n 320 rfl rfl).symm]
  refine Finset.sum_congr rfl fun j _ => ?_
  have hl : dot_S320x320_S320x64_S320x64_1_0_0_1_n_n.lhsIdx (ix2 i d) ((contrEquiv1 dot_S320x320_S320x64_S320x64_1_0_0_1_n_n 320 rfl rfl).symm j) = ix2 i j := by
    funext a
    apply Fin.ext
    match a with
    | ⟨0, _⟩ => rfl
    | ⟨1, _⟩ => exact (DotDims.lhsIdx_val_of_single _ rfl _ _).trans (contrEquiv1_symm_val _ 320 rfl rfl j)
  have hr : dot_S320x320_S320x64_S320x64_1_0_0_1_n_n.rhsIdx (ix2 i d) ((contrEquiv1 dot_S320x320_S320x64_S320x64_1_0_0_1_n_n 320 rfl rfl).symm j) = ix2 j d := by
    funext a
    apply Fin.ext
    match a with
    | ⟨0, _⟩ => exact (DotDims.rhsIdx_val_of_single _ rfl _ _).trans (contrEquiv1_symm_val _ 320 rfl rfl j)
    | ⟨1, _⟩ => rfl
  rw [hl, hr]

theorem mm2_apply (A B : FVec Ideal S320x64 .f32) (i j : Fin 320) :
    matmul dot_S320x64_S320x64_S320x320_1_1_0_0_n_n none A B (constant S320x320 .f32 0x00000000#32) (ix2 i j)
      = ∑ d : Fin 64, A (ix2 i d) * B (ix2 j d) := by
  show FloatOps.matmul _ _ _ _ _ _ = _
  rw [Ideal.matmul_constant_zero_apply]
  rw [← Equiv.sum_comp (contrEquiv1 dot_S320x64_S320x64_S320x320_1_1_0_0_n_n 64 rfl rfl).symm]
  refine Finset.sum_congr rfl fun d _ => ?_
  have hl : dot_S320x64_S320x64_S320x320_1_1_0_0_n_n.lhsIdx (ix2 i j) ((contrEquiv1 dot_S320x64_S320x64_S320x320_1_1_0_0_n_n 64 rfl rfl).symm d) = ix2 i d := by
    funext a
    apply Fin.ext
    match a with
    | ⟨0, _⟩ => rfl
    | ⟨1, _⟩ => exact (DotDims.lhsIdx_val_of_single _ rfl _ _).trans (contrEquiv1_symm_val _ 64 rfl rfl d)
  have hr : dot_S320x64_S320x64_S320x320_1_1_0_0_n_n.rhsIdx (ix2 i j) ((contrEquiv1 dot_S320x64_S320x64_S320x320_1_1_0_0_n_n 64 rfl rfl).symm d) = ix2 j d := by
    funext a
    apply Fin.ext
    match a with
    | ⟨0, _⟩ => rfl
    | ⟨1, _⟩ => exact (DotDims.rhsIdx_val_of_single _ rfl _ _).trans (contrEquiv1_symm_val _ 64 rfl rfl d)
  rw [hl, hr]

/-! ## The lane sums as plain sums -/

theorem rowsum64 (X : FVec Ideal S320x64 .f32) (hφ : FKind.Formats .f32) (hacc : (0x00000000#32 : BitVec 32) = 0x00000000#32)
    (i : Fin 320) :
    multiReduction .add [1] S320 X 0x00000000#32 reduces_S320x64_S320 hφ hacc (ix1 i) = ∑ d : Fin 64, X (ix2 i d) := by
  refine (Ideal.multiReduction_add_single X 0x00000000#32 reduces_S320x64_S320 hφ hacc (ix1 i)).trans ?_
  refine Finset.sum_congr rfl fun d _ => congrArg X ?_
  funext a
  apply Fin.ext
  match a with
  | ⟨0, _⟩ => rfl
  | ⟨1, _⟩ => rfl

theorem rowsum320 (X : FVec Ideal S320x320 .f32) (hφ : FKind.Formats .f32) (hacc : (0x00000000#32 : BitVec 32) = 0x00000000#32)
    (i : Fin 320) :
    multiReduction .add [1] S320 X 0x00000000#32 reduces_S320x320_S320 hφ hacc (ix1 i) = ∑ j : Fin 320, X (ix2 i j) := by
  refine (Ideal.multiReduction_add_single X 0x00000000#32 reduces_S320x320_S320 hφ hacc (ix1 i)).trans ?_
  refine Finset.sum_congr rfl fun d _ => congrArg X ?_
  funext a
  apply Fin.ext
  match a with
  | ⟨0, _⟩ => rfl
  | ⟨1, _⟩ => rfl

theorem colsum320 (X : FVec Ideal S320x1 .f32) (hφ : FKind.Formats .f32) (hacc : (0x00000000#32 : BitVec 32) = 0x00000000#32)
    (u : Fin 1) :
    multiReduction .add [0] S1 X 0x00000000#32 reduces_S320x1_S1 hφ hacc (ix1 u) = ∑ i : Fin 320, X (ix2 i (0 : Fin 1)) := by
  refine (Ideal.multiReduction_add_single X 0x00000000#32 reduces_S320x1_S1 hφ hacc (ix1 u)).trans ?_
  refine Finset.sum_congr rfl fun i _ => congrArg X ?_
  funext a
  apply Fin.ext
  match a with
  | ⟨0, _⟩ => rfl
  | ⟨1, _⟩ => show u.val = 0; omega

/-! ## The stages read at an index -/

/-- One entry of the selection matrix: 1 where the index word is the column, else 0, as the body converts it. -/
def onehot (b : BitVec 32) (j : Fin 320) : EReal :=
  FloatOps.sitofp (F := Ideal) .f32 ((IntOp.cmpi .eq b (BitVec.ofNat 32 j.val)).setWidth 32)

theorem kOnehot_apply (r4 : IVec S1x320x1 32) (i j : Fin 320) :
    kOnehot colIota r4 (ix2 i j) = onehot (r4 (ix3 0 i 0)) j := by
  unfold kOnehot onehot
  rw [sitofp_apply, extui_apply]
  show FloatOps.sitofp .f32 ((IntOp.cmpi .eq (broadcastTo S320x320 _ broadcasts_S320x1_S320x320 (ix2 i j)) (colIota (ix2 i j))).setWidth 32) = _
  rw [broadcastTo_a1_ab_apply, shapeCast_self, shapeCast_1ab_ab_apply]
  unfold colIota
  rw [iota_single_apply]

/-- The scaled gathered rows as a matrix of extended reals. -/
def Arow (v0 : FVec Ideal S320x64 .f32) (r4 : IVec S1x320x1 32) (r5 : FVec Ideal S1x320x1 .f32) : Fin 320 → Fin 64 → EReal :=
  fun i d => r5 (ix3 0 i 0) * ∑ j : Fin 320, onehot (r4 (ix3 0 i 0)) j * v0 (ix2 j d)

theorem kA_apply (v0 : FVec Ideal S320x64 .f32) (r4 : IVec S1x320x1 32) (r5 : FVec Ideal S1x320x1 .f32) (i : Fin 320) (d : Fin 64) :
    kA v0 colIota r4 r5 (ix2 i d) = Arow v0 r4 r5 i d := by
  unfold kA Arow
  rw [mulf_apply, broadcastTo_a1_ab_apply, shapeCast_1ab_ab_apply, mm1_apply]
  simp only [kOnehot_apply]

theorem kSn_apply (A : FVec Ideal S320x64 .f32) (i : Fin 320) (u : Fin 1) :
    kSn A (ix2 i u) = ∑ d : Fin 64, A (ix2 i d) * A (ix2 i d) := by
  unfold kSn
  rw [shapeCast_a_a1_apply]
  exact rowsum64 (mulf A A) _ _ i

theorem kGram_apply (A : FVec Ideal S320x64 .f32) (i j : Fin 320) :
    kGram A (ix2 i j) = ∑ d : Fin 64, A (ix2 i d) * A (ix2 j d) := mm2_apply A A i j

theorem kSq_apply (A : FVec Ideal S320x64 .f32) (v7 : IVec S320x320 1) (i j : Fin 320) :
    kSq A v7 (ix2 i j) = Scalar.select (v7 (ix2 i j)) (Ideal.ofBits .f32 0x00000000#32)
      (max (kSn A (ix2 i 0) + kSn A (ix2 j 0) - Ideal.ofBits .f32 0x40000000#32 * kGram A (ix2 i j))
        (Ideal.ofBits .f32 0x00000000#32)) := by
  unfold kSq
  rw [select_apply, maximumf_apply, subf_apply, addf_apply, mulf_apply, broadcastTo_a1_ab_apply,
    broadcastTo_1b_ab_apply, transpose_ix2_apply]
  rfl

end Cert.KernelIdeal.KVal

end
-- ==== Proof.KPayB.lean ====
/-
  The trip's value is the kernel's formula `StatSpec.kvar` of the factor matrix, its square and the scaled rows:
  the masked distance stage is `sqz` (the mask is the diagonal), the two totals are the sums over the whole matrix,
  and the last four operations are  (sumsq · ½ − sum · sum · 1/204160) · 1/51039  with the two reciprocals read as
  the exact rationals the certificate's table names.
-/
import proofs.«138780_j25872882991128_2_alg».proof.Proof.KPayA
import Idealize.ShloMosaic.Lib.Affine
import Idealize.ShloMosaic.PureOps.IdealRules

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx StatSpec

/-! ## The literals -/

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The folded 0.25 / 51040 denotes 1/204160 by the certificate's table. -/
theorem named_q : Named.named (F := Ideal) κ "quarter_inv_m" (φ := .f32) 0x36A45A86#32 = ((1 / 204160 : ℝ) : EReal) :=
  IdealRules.named_const.ideal_named_scalar _ _ _ _ rfl

/-- The folded 1 / 51039 denotes 1/51039 by the certificate's table. -/
theorem named_r : Named.named (F := Ideal) κ "inv_m_minus1" (φ := .f32) 0x37A45B59#32 = ((1 / 51039 : ℝ) : EReal) :=
  IdealRules.named_const.ideal_named_scalar _ _ _ _ rfl

/-! ## The mask is the diagonal -/

theorem ofNat_inj_320 (i j : Fin 320) : BitVec.ofNat 32 i.val = BitVec.ofNat 32 j.val ↔ i = j := by
  constructor
  · intro h
    have h' := congrArg BitVec.toNat h
    rw [BitVec.toNat_ofNat, BitVec.toNat_ofNat, Nat.mod_eq_of_lt (by have := i.isLt; omega),
      Nat.mod_eq_of_lt (by have := j.isLt; omega)] at h'
    exact Fin.ext h'
  · intro h; rw [h]

theorem pay3_apply (i j : Fin 320) :
    k0_pay3 (ix2 i j) = IntOp.cmpi .eq (BitVec.ofNat 32 i.val) (BitVec.ofNat 32 j.val) := by
  show IntOp.cmpi .eq (iota .tc S320x320 32 [0] iota_S320x320_d0_w32 (ix2 i j))
    (iota .tc S320x320 32 [1] iota_S320x320_d1_w32 (ix2 i j)) = _
  rw [iota_single_apply, iota_single_apply]

/-- The body's masked distances are `sqz` of the scaled rows. -/
theorem kSq_pay3_apply (v0 : FVec Ideal S320x64 .f32) (r4 : IVec S1x320x1 32) (r5 : FVec Ideal S1x320x1 .f32) (i j : Fin 320) :
    kSq (kA v0 colIota r4 r5) k0_pay3 (ix2 i j) = sqz (Arow v0 r4 r5) i j := by
  rw [kSq_apply, pay3_apply]
  unfold sqz
  by_cases h : i = j
  · subst h
    rw [if_pos rfl, (IntOp.cmpi_eq).mpr rfl, select_one, Ideal.ofBits_zero_f32]
  · have hz : IntOp.cmpi .eq (BitVec.ofNat 32 i.val) (BitVec.ofNat 32 j.val) = 0#1 :=
      eq_zero_of_ne_one fun h1 => h ((ofNat_inj_320 i j).mp (IntOp.cmpi_eq.mp h1))
    rw [if_neg h, hz, select_zero, kSn_apply, kSn_apply, kGram_apply, ofBits_two, Ideal.ofBits_zero_f32]
    simp only [kA_apply]
    rfl

/-! ## The totals over the whole matrix -/

/-- The sum of a 320 x 320 matrix as the body takes it: along the rows, then down the column. -/
def kTotal (X : FVec Ideal S320x320 .f32) : FVec Ideal S1x1 .f32 :=
  shapeCast S1x1 (multiReduction .add [0] S1 (shapeCast S320x1
    (multiReduction .add [1] S320 X 0x00000000#32 reduces_S320x320_S320 (.inl rfl) rfl) shapeCasts_S320_S320x1)
    0x00000000#32 reduces_S320x1_S1 (.inl rfl) rfl) shapeCasts_S1_S1x1

theorem kTotal_apply (X : FVec Ideal S320x320 .f32) (u v : Fin 1) :
    kTotal X (ix2 u v) = ∑ i : Fin 320, ∑ j : Fin 320, X (ix2 i j) := by
  unfold kTotal
  rw [shapeCast_a_a1_apply]
  refine (colsum320 _ _ _ u).trans ?_
  refine Finset.sum_congr rfl fun i _ => ?_
  rw [shapeCast_a_a1_apply]
  exact rowsum320 X _ _ i

theorem pay6_eq (v0 : FVec Ideal S320x64 .f32) (v4 : FVec Ideal S320x320 .f32) (v5 : IVec S320x320 32) (v7 : IVec S320x320 1)
    (r4 : IVec S1x320x1 32) (r5 : FVec Ideal S1x320x1 .f32) :
    k0_pay6 (F := Ideal) v0 v4 v5 v7 r4 r5
      = mulf (kTotal (mulf v4 (k0_pay5 v0 v5 v7 r4 r5))) (broadcast S1x1 (Scalar.ofBits .f32 0x3F000000#32)) := rfl

theorem pay7_eq (v0 : FVec Ideal S320x64 .f32) (v2 : FVec Ideal S320x320 .f32) (v5 : IVec S320x320 32) (v7 : IVec S320x320 1)
    (r4 : IVec S1x320x1 32) (r5 : FVec Ideal S1x320x1 .f32) :
    k0_pay7 (F := Ideal) v0 v2 v5 v7 r4 r5
      = mulf (kTotal (mulf v2 (sqrt (k0_pay5 v0 v5 v7 r4 r5)))) (kTotal (mulf v2 (sqrt (k0_pay5 v0 v5 v7 r4 r5)))) := rfl

theorem pay4_eq (v50 v51 : FVec Ideal S1x1 .f32) (q : Ideal .f32) :
    k0_pay4 (F := Ideal) v50 v51 q
      = shapeCast S1x1x128 (broadcastTo S1x128 (shapeCast S1x1
          (mulf (subf v50 (mulf v51 (broadcast S1x1 q))) (broadcast S1x1 (Named.named κ "inv_m_minus1" 0x37A45B59#32)))
          shapeCasts_S1x1_S1x1) broadcasts_S1x1_S1x128) shapeCasts_S1x128_S1x1x128 := rfl

theorem pay4_apply (v50 v51 : FVec Ideal S1x1 .f32) (q : Ideal .f32) (u v : Fin 1) (l : Fin 128) :
    k0_pay4 (F := Ideal) v50 v51 q (ix3 u v l)
      = (v50 (ix2 v 0) - v51 (ix2 v 0) * q) * ((1 / 51039 : ℝ) : EReal) := by
  rw [pay4_eq, shapeCast_ab_1ab_apply, broadcastTo_a1_ab_apply, shapeCast_self, mulf_apply, subf_apply, mulf_apply,
    broadcast_apply, broadcast_apply, named_r]

/-- The vector square root at an index is the square root of the entry. -/
theorem vsqrt_apply {s : Shape} (X : FVec Ideal s .f32) (i : s.Idx) : sqrt X i = Ideal.sqrt (X i) := rfl

/-- A matrix stored over the shape's indices, as a function of row and column. -/
def mat (X : S320x320.Idx → EReal) : Fin 320 → Fin 320 → EReal := fun i j => X (ix2 i j)

/-- WHAT A TRIP STORES: the kernel's formula of the factor matrix v1, its square v3 and the scaled rows. -/
theorem tripPay_apply (v0 : FVec Ideal S320x64 .f32) (v1 v3 : FVec Ideal S320x320 .f32)
    (r4 : IVec S1x320x1 32) (r5 : FVec Ideal S1x320x1 .f32) (x : S1x1x128.Idx) :
    tripPay (F := Ideal) v0 v1 v3 colIota r4 r5 x = kvar (mat v1) (mat v3) (Arow v0 r4 r5) := by
  obtain ⟨u, v, l, rfl⟩ : ∃ (u : Fin 1) (v : Fin 1) (l : Fin 128), x = ix3 u v l := ⟨x 0, x 1, x 2, eq_ix3 x⟩
  unfold tripPay
  rw [pay4_apply, pay6_eq, pay7_eq, mulf_apply, mulf_apply, kTotal_apply, kTotal_apply, broadcast_apply, named_q]
  unfold kvar k0_pay1 k0_pay2
  simp only [shapeCast_self, mulf_apply, vsqrt_apply, pay5_eq, kSq_pay3_apply, mat]
  rw [show (Scalar.ofBits .f32 0x3F000000#32 : Ideal .f32) = ((1 / 2 : ℝ) : EReal) from ofBits_half]

end Cert.KernelIdeal.KVal

end
-- ==== Proof.KGather.lean ====
/-
  The host's lookup of the factor matrix at a table of index pairs, read at an index: entry (p, i) of the result
  is the matrix at (row, column) = the two components of index pair (p, i), each read as a signed integer and
  clamped into [0, 319].
-/
import proofs.«138780_j25872882991128_2_alg».proof.Proof.KTrip
import Idealize.ShloMosaic.Lib.ValueIdx

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx

theorem gatherF_coord0 (idx : IVec S1001x320x2 32) (p : Fin 1001) (i : Fin 320) :
    gather_S320x320_S1001x320x2_S1001x320_n_01_n_n_01_2_11.start (ix2 p i) idx (0 : Fin 2) + gather_S320x320_S1001x320x2_S1001x320_n_01_n_n_01_2_11.batchCoord (ix2 p i) (0 : Fin 2) + gather_S320x320_S1001x320x2_S1001x320_n_01_n_n_01_2_11.offCoord (ix2 p i) (0 : Fin 2)
      = min (idx (ix3 p i (0 : Fin 2))).toInt.toNat 319 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S320x320_S1001x320x2_S1001x320_n_01_n_n_01_2_11.startIndexMap from by decide)]
  have hsi : gather_S320x320_S1001x320x2_S1001x320_n_01_n_n_01_2_11.siIdx (ix2 p i) ⟨List.idxOf (0 : Fin 2) gather_S320x320_S1001x320x2_S1001x320_n_01_n_n_01_2_11.startIndexMap, List.idxOf_lt_length_iff.2 (by decide)⟩
      = ix3 p i (0 : Fin 2) := by
    funext b; refine Fin.ext ?_
    match b with
    | ⟨0, _⟩ => rfl
    | ⟨1, _⟩ => rfl
    | ⟨2, _⟩ => rfl
  rw [hsi]
  rfl

theorem gatherF_coord1 (idx : IVec S1001x320x2 32) (p : Fin 1001) (i : Fin 320) :
    gather_S320x320_S1001x320x2_S1001x320_n_01_n_n_01_2_11.start (ix2 p i) idx (1 : Fin 2) + gather_S320x320_S1001x320x2_S1001x320_n_01_n_n_01_2_11.batchCoord (ix2 p i) (1 : Fin 2) + gather_S320x320_S1001x320x2_S1001x320_n_01_n_n_01_2_11.offCoord (ix2 p i) (1 : Fin 2)
      = min (idx (ix3 p i (1 : Fin 2))).toInt.toNat 319 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gather_S320x320_S1001x320x2_S1001x320_n_01_n_n_01_2_11.startIndexMap from by decide)]
  have hsi : gather_S320x320_S1001x320x2_S1001x320_n_01_n_n_01_2_11.siIdx (ix2 p i) ⟨List.idxOf (1 : Fin 2) gather_S320x320_S1001x320x2_S1001x320_n_01_n_n_01_2_11.startIndexMap, List.idxOf_lt_length_iff.2 (by decide)⟩
      = ix3 p i (1 : Fin 2) := by
    funext b; refine Fin.ext ?_
    match b with
    | ⟨0, _⟩ => rfl
    | ⟨1, _⟩ => rfl
    | ⟨2, _⟩ => rfl
  rw [hsi]
  rfl

theorem gatherF_apply {α : Type} (x : S320x320.Idx → α) (idx : IVec S1001x320x2 32) (p : Fin 1001) (i : Fin 320) :
    Host.gather gather_S320x320_S1001x320x2_S1001x320_n_01_n_n_01_2_11 x idx (ix2 p i)
      = x (ix2 (⟨min (idx (ix3 p i (0 : Fin 2))).toInt.toNat 319, by omega⟩ : Fin 320)
               (⟨min (idx (ix3 p i (1 : Fin 2))).toInt.toNat 319, by omega⟩ : Fin 320)) := by
  unfold Host.gather
  congr 1
  funext a
  refine Fin.ext ?_
  match a with
  | ⟨0, _⟩ => exact gatherF_coord0 idx p i
  | ⟨1, _⟩ => exact gatherF_coord1 idx p i

end Cert.KernelIdeal.KVal

end
-- ==== Proof.WordFacts.lean ====
/-
  Facts about a 32-bit index word x whose value is below 320, as both programs handle it: it is not negative, so
  "add 320 where negative" leaves it alone; read as a signed integer and clamped into [0, 319] it is its own value;
  it equals the word of a position j < 320 exactly when its value is j; and the 0/1 selection row it defines,
  multiplied against a row of values and summed, picks the value at its position.
-/
import Idealize.ShloMosaic.PureOps.Ideal
import Idealize.ShloMosaic.Lib.ValueIdx
import Idealize.ShloMosaic.Lib.Affine

noncomputable section

namespace WordFacts

open Idealize.ShloMosaic Idealize.ShloMosaic.ValueIdx

theorem toInt_of_lt (x : BitVec 32) (h : x.toNat < 320) : x.toInt = (x.toNat : ℤ) := by
  rw [BitVec.toInt_eq_toNat_cond]
  have : 2 * x.toNat < 2 ^ 32 := by omega
  rw [if_pos this]

/-- A word below 320 is not negative as a signed integer. -/
theorem slt_zero_of_lt (x : BitVec 32) (h : x.toNat < 320) : IntOp.cmpi .slt x 0#32 = 0#1 := by
  have hx : ¬ x.slt 0#32 = true := by
    rw [BitVec.slt, decide_eq_true_eq, toInt_of_lt x h]
    simp
  simp only [IntOp.cmpi]
  simp [hx]

/-- So the wrap of negative indices leaves it alone. -/
theorem wrap_id (x : BitVec 32) (h : x.toNat < 320) (y : BitVec 32) :
    Scalar.select (IntOp.cmpi .slt x 0#32) y x = x := by
  rw [slt_zero_of_lt x h, select_zero]

/-- Read signed and clamped into [0, 319], it is its own value. -/
theorem clamp_id (x : BitVec 32) (h : x.toNat < 320) : min x.toInt.toNat 319 = x.toNat := by
  rw [toInt_of_lt x h, Int.toNat_natCast]
  omega

/-- It is the word of position j exactly when its value is j. -/
theorem eq_ofNat_iff (x : BitVec 32) (j : Fin 320) : x = BitVec.ofNat 32 j.val ↔ x.toNat = j.val := by
  constructor
  · intro h; rw [h, BitVec.toNat_ofNat, Nat.mod_eq_of_lt (by have := j.isLt; omega)]
  · intro h
    apply BitVec.eq_of_toNat_eq
    rw [BitVec.toNat_ofNat, Nat.mod_eq_of_lt (by have := j.isLt; omega), h]

theorem toNat_ofNat_lt (i : Fin 320) : (BitVec.ofNat 32 i.val).toNat = i.val := by
  rw [BitVec.toNat_ofNat, Nat.mod_eq_of_lt (by have := i.isLt; omega)]

/-- One entry of a 0/1 selection row, as converted to a float: 1 at the word's position, 0 elsewhere. -/
theorem sel_entry (x : BitVec 32) (j : Fin 320) :
    (FloatOps.sitofp (F := Ideal) .f32 ((IntOp.cmpi .eq x (BitVec.ofNat 32 j.val)).setWidth 32) : EReal)
      = if x.toNat = j.val then 1 else 0 := by
  show (((((IntOp.cmpi .eq x (BitVec.ofNat 32 j.val)).setWidth 32).toInt : ℤ) : ℝ) : EReal) = _
  by_cases h : x.toNat = j.val
  · rw [if_pos h, (IntOp.cmpi_eq).mpr ((eq_ofNat_iff x j).mpr h)]
    norm_num
  · have hz : IntOp.cmpi .eq x (BitVec.ofNat 32 j.val) = 0#1 :=
      eq_zero_of_ne_one fun h1 => h ((eq_ofNat_iff x j).mp (IntOp.cmpi_eq.mp h1))
    rw [if_neg h, hz]
    norm_num

/-- The selection row against a row of values sums to the value at the word's position. -/
theorem sel_sum (x : BitVec 32) (h : x.toNat < 320) (f : Fin 320 → EReal) :
    ∑ j : Fin 320, (FloatOps.sitofp (F := Ideal) .f32 ((IntOp.cmpi .eq x (BitVec.ofNat 32 j.val)).setWidth 32) : EReal) * f j
      = f ⟨x.toNat, h⟩ := by
  rw [Finset.sum_eq_single (⟨x.toNat, h⟩ : Fin 320)]
  · rw [sel_entry, if_pos rfl, one_mul]
  · intro j _ hj
    rw [sel_entry, if_neg (fun e => hj (Fin.ext e.symm)), zero_mul]
  · intro hx; exact absurd (Finset.mem_univ _) hx

end WordFacts

end
-- ==== Proof.KTables.lean ====
/-
  The two tables the kernel's wrapper prepares, read at an index.
  The index table is the identity row on top of the 1000 given index rows. The scale of row i in arrangement p, with
  x the table's word at (p, i), is 1 where x = i and otherwise the factor F[i, x] (looked up at the wrapped, clamped
  pair; both are no-ops for x below 320). With these, the rows a trip forms, scale · Σ_j [x = j] · data j, are
  scale · data[x].
-/
import proofs.«138780_j25872882991128_2_alg».proof.Proof.KPayB
import proofs.«138780_j25872882991128_2_alg».proof.Proof.KGather
import proofs.«138780_j25872882991128_2_alg».proof.Proof.KArr
import proofs.«138780_j25872882991128_2_alg».proof.Proof.WordFacts
import Idealize.ShloMosaic.Lib.IdealHost

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx StatSpec

/-- The position row 0, 1, …, 319 as a 1 x 320 array. -/
def kRow : IVec S1x320 32 := broadcastInDim S1x320 ![1] bcast_S320_S1x320_1 (iotaInDim S320 32 0)

/-- The index table: the position row on top of the given index rows. -/
def kIdx (a4 : IVec S1000x320 32) : IVec S1001x320 32 :=
  concatenate S1001x320 0 [⟨S1x320, kRow⟩, ⟨S1000x320, a4⟩] concatenates_S1x320_S1000x320_S1001x320_d0

/-- The position row with negative entries wrapped. -/
def kWrapRow : IVec S1x320 32 :=
  select (cmpi .slt kRow (broadcastInDim S1x320 ![] bcast_S_S1x320 (constantI S_ 32 0#32)))
    (addi kRow (broadcastInDim S1x320 ![] bcast_S_S1x320 (constantI S_ 32 320#32))) kRow

/-- The index table with negative entries wrapped. -/
def kWrapIdx (a4 : IVec S1000x320 32) : IVec S1001x320 32 :=
  select (cmpi .slt (kIdx a4) (broadcastInDim S1001x320 ![] bcast_S_S1001x320 (constantI S_ 32 0#32)))
    (addi (kIdx a4) (broadcastInDim S1001x320 ![] bcast_S_S1001x320 (constantI S_ 32 320#32))) (kIdx a4)

/-- The table of (row position, index) pairs the factor is looked up at. -/
def kPairs (a4 : IVec S1000x320 32) : IVec S1001x320x2 32 :=
  concatenate S1001x320x2 2
    [⟨S1001x320x1, broadcastInDim S1001x320x1 ![0, 1] bcast_S1001x320_S1001x320x1_0_1
        (broadcastInDim S1001x320 ![0, 1] bcast_S1x320_S1001x320_0_1 kWrapRow)⟩,
     ⟨S1001x320x1, broadcastInDim S1001x320x1 ![0, 1] bcast_S1001x320_S1001x320x1_0_1 (kWrapIdx a4)⟩]
    concatenates_S1001x320x1_S1001x320x1_S1001x320x2_d2

/-- The scale table. -/
def kScale (Fm : FVec Ideal S320x320 .f32) (a4 : IVec S1000x320 32) : FVec Ideal S1001x320 .f32 :=
  select (cmpi .eq (kIdx a4) (broadcastInDim S1001x320 ![0, 1] bcast_S1x320_S1001x320_0_1 kRow))
    (broadcastInDim S1001x320 ![] bcast_S_S1001x320 (constant S_ .f32 0x3F800000#32))
    (Host.gather gather_S320x320_S1001x320x2_S1001x320_n_01_n_n_01_2_11 Fm (kPairs a4))

/-- The two tables as the kernel stages them, with a trailing unit axis. -/
def kIdx3 (a4 : IVec S1000x320 32) : IVec S1001x320x1 32 :=
  broadcastInDim S1001x320x1 ![0, 1] bcast_S1001x320_S1001x320x1_0_1 (kIdx a4)

def kScale3 (Fm : FVec Ideal S320x320 .f32) (a4 : IVec S1000x320 32) : FVec Ideal S1001x320x1 .f32 :=
  broadcastInDim S1001x320x1 ![0, 1] bcast_S1001x320_S1001x320x1_0_1 (kScale Fm a4)

/-! ## Read at an index -/

theorem kRow_apply (u : Fin 1) (i : Fin 320) : kRow (ix2 u i) = BitVec.ofNat 32 i.val := by
  unfold kRow
  rw [broadcastInDim_apply ![1] bcast_S320_S1x320_1 _ (ix2 u i) (ix1 i) (fun a => match a with | ⟨0, _⟩ => rfl), iotaInDim_apply]

theorem kIdx_zero (a4 : IVec S1000x320 32) (i : Fin 320) : kIdx a4 (ix2 (0 : Fin 1001) i) = BitVec.ofNat 32 i.val := by
  unfold kIdx
  refine (concatenate_pair_apply_left (s₁ := S1x320) (s₂ := S1000x320) (0 : Fin 2) _ _ concatenates_S1x320_S1000x320_S1001x320_d0
    (ix2 (0 : Fin 1001) i) rfl (ix2 (0 : Fin 1) i) (fun b => match b with | ⟨0, _⟩ => rfl | ⟨1, _⟩ => rfl)).trans ?_
  exact kRow_apply 0 i

theorem kIdx_succ (a4 : IVec S1000x320 32) (q : Fin 1000) (i : Fin 320) :
    kIdx a4 (ix2 (⟨q.val + 1, by omega⟩ : Fin 1001) i) = a4 (ix2 q i) := by
  unfold kIdx
  exact concatenate_pair_apply_right (s₁ := S1x320) (s₂ := S1000x320) (0 : Fin 2) _ _ concatenates_S1x320_S1000x320_S1001x320_d0
    (ix2 (⟨q.val + 1, by omega⟩ : Fin 1001) i) rfl rfl (ix2 q i)
    (fun b hb => match b, hb with | ⟨0, _⟩, hb => absurd rfl hb | ⟨1, _⟩, _ => rfl) rfl

/-- The wrap of negative indices on one word. -/
def wrap (x : BitVec 32) : BitVec 32 := Scalar.select (IntOp.cmpi .slt x 0#32) (IntOp.addi x 320#32) x

theorem wrap_of_lt (x : BitVec 32) (h : x.toNat < 320) : wrap x = x := WordFacts.wrap_id x h _

theorem kWrapRow_apply (u : Fin 1) (i : Fin 320) : kWrapRow (ix2 u i) = wrap (BitVec.ofNat 32 i.val) := by
  unfold kWrapRow
  rw [select_apply]
  show Scalar.select (IntOp.cmpi .slt (kRow (ix2 u i)) (broadcastInDim (s := S_) S1x320 ![] bcast_S_S1x320 (constantI S_ 32 0#32) (ix2 u i)))
    (IntOp.addi (kRow (ix2 u i)) (broadcastInDim (s := S_) S1x320 ![] bcast_S_S1x320 (constantI S_ 32 320#32) (ix2 u i))) (kRow (ix2 u i)) = _
  simp only [broadcastInDim_scalar_apply, constantI_apply, kRow_apply]
  rfl

theorem kWrapIdx_apply (a4 : IVec S1000x320 32) (p : Fin 1001) (i : Fin 320) : kWrapIdx a4 (ix2 p i) = wrap (kIdx a4 (ix2 p i)) := by
  unfold kWrapIdx
  rw [select_apply]
  show Scalar.select (IntOp.cmpi .slt (kIdx a4 (ix2 p i)) (broadcastInDim (s := S_) S1001x320 ![] bcast_S_S1001x320 (constantI S_ 32 0#32) (ix2 p i)))
    (IntOp.addi (kIdx a4 (ix2 p i)) (broadcastInDim (s := S_) S1001x320 ![] bcast_S_S1001x320 (constantI S_ 32 320#32) (ix2 p i))) (kIdx a4 (ix2 p i)) = _
  simp only [broadcastInDim_scalar_apply, constantI_apply]
  rfl

theorem kPairs_apply0 (a4 : IVec S1000x320 32) (p : Fin 1001) (i : Fin 320) :
    kPairs a4 (ix3 p i (0 : Fin 2)) = wrap (BitVec.ofNat 32 i.val) := by
  unfold kPairs
  refine (concatenate_pair_apply_left (s₁ := S1001x320x1) (s₂ := S1001x320x1) (2 : Fin 3) _ _ concatenates_S1001x320x1_S1001x320x1_S1001x320x2_d2
    (ix3 p i (0 : Fin 2)) rfl (ix3 p i (0 : Fin 1))
    (fun b => match b with | ⟨0, _⟩ => rfl | ⟨1, _⟩ => rfl | ⟨2, _⟩ => rfl)).trans ?_
  rw [broadcastInDim_apply ![0, 1] bcast_S1001x320_S1001x320x1_0_1 _ (ix3 p i (0 : Fin 1)) (ix2 p i)
      (fun a => match a with | ⟨0, _⟩ => rfl | ⟨1, _⟩ => rfl),
    broadcastInDim_apply ![0, 1] bcast_S1x320_S1001x320_0_1 _ (ix2 p i) (ix2 (0 : Fin 1) i)
      (fun a => match a with | ⟨0, _⟩ => rfl | ⟨1, _⟩ => rfl),
    kWrapRow_apply]

theorem kPairs_apply1 (a4 : IVec S1000x320 32) (p : Fin 1001) (i : Fin 320) :
    kPairs a4 (ix3 p i (1 : Fin 2)) = wrap (kIdx a4 (ix2 p i)) := by
  unfold kPairs
  refine (concatenate_pair_apply_right (s₁ := S1001x320x1) (s₂ := S1001x320x1) (2 : Fin 3) _ _ concatenates_S1001x320x1_S1001x320x1_S1001x320x2_d2
    (ix3 p i (1 : Fin 2)) rfl rfl (ix3 p i (0 : Fin 1))
    (fun b hb => match b, hb with | ⟨0, _⟩, _ => rfl | ⟨1, _⟩, _ => rfl | ⟨2, _⟩, hb => absurd rfl hb) rfl).trans ?_
  rw [broadcastInDim_apply ![0, 1] bcast_S1001x320_S1001x320x1_0_1 _ (ix3 p i (0 : Fin 1)) (ix2 p i)
      (fun a => match a with | ⟨0, _⟩ => rfl | ⟨1, _⟩ => rfl),
    kWrapIdx_apply]

/-- The scale of arrangement p, row i, for an in-range index word x: 1 where x = i, else F[i, x]. -/
theorem kScale_apply_of_lt (Fm : FVec Ideal S320x320 .f32) (a4 : IVec S1000x320 32) (p : Fin 1001) (i : Fin 320)
    (hx : (kIdx a4 (ix2 p i)).toNat < 320) :
    kScale Fm a4 (ix2 p i)
      = Scalar.select (IntOp.cmpi .eq (kIdx a4 (ix2 p i)) (BitVec.ofNat 32 i.val)) (Ideal.ofBits .f32 0x3F800000#32)
          (Fm (ix2 i (⟨(kIdx a4 (ix2 p i)).toNat, hx⟩ : Fin 320))) := by
  have hi : (BitVec.ofNat 32 i.val).toNat < 320 := by rw [WordFacts.toNat_ofNat_lt]; exact i.isLt
  unfold kScale
  rw [select_apply, gatherF_apply]
  show Scalar.select (IntOp.cmpi .eq (kIdx a4 (ix2 p i)) (broadcastInDim (s := S1x320) S1001x320 ![0, 1] bcast_S1x320_S1001x320_0_1 kRow (ix2 p i)))
    (broadcastInDim (s := S_) S1001x320 ![] bcast_S_S1001x320 (constant S_ .f32 0x3F800000#32) (ix2 p i)) _ = _
  rw [broadcastInDim_apply ![0, 1] bcast_S1x320_S1001x320_0_1 kRow (ix2 p i) (ix2 (0 : Fin 1) i)
      (fun a => match a with | ⟨0, _⟩ => rfl | ⟨1, _⟩ => rfl),
    kRow_apply, broadcastInDim_scalar_apply, constant_apply]
  have e1 : (⟨min (kPairs a4 (ix3 p i (0 : Fin 2))).toInt.toNat 319, by omega⟩ : Fin 320) = i :=
    Fin.ext (by show min (kPairs a4 (ix3 p i (0 : Fin 2))).toInt.toNat 319 = _
                rw [kPairs_apply0, wrap_of_lt _ hi, WordFacts.clamp_id _ hi, WordFacts.toNat_ofNat_lt])
  have e2 : (⟨min (kPairs a4 (ix3 p i (1 : Fin 2))).toInt.toNat 319, by omega⟩ : Fin 320) = ⟨(kIdx a4 (ix2 p i)).toNat, hx⟩ :=
    Fin.ext (by show min (kPairs a4 (ix3 p i (1 : Fin 2))).toInt.toNat 319 = _
                rw [kPairs_apply1, wrap_of_lt _ hx, WordFacts.clamp_id _ hx])
  rw [e1, e2]

/-- THE ROWS A TRIP FORMS from row p of the two tables, for an in-range index word: the scale times the selected data row. -/
theorem Arow_tables (data : FVec Ideal S320x64 .f32) (Fm : FVec Ideal S320x320 .f32) (a4 : IVec S1000x320 32)
    (p : Fin 1001) (i : Fin 320) (d : Fin 64) (hx : (kIdx a4 (ix2 p i)).toNat < 320) :
    Arow data (rowAt (kIdx3 a4) p) (rowAt (kScale3 Fm a4) p) i d
      = kScale Fm a4 (ix2 p i) * data (ix2 (⟨(kIdx a4 (ix2 p i)).toNat, hx⟩ : Fin 320) d) := by
  have h4 : rowAt (kIdx3 a4) p (ix3 (0 : Fin 1) i (0 : Fin 1)) = kIdx a4 (ix2 p i) := by
    unfold rowAt kIdx3
    exact broadcastInDim_apply ![0, 1] bcast_S1001x320_S1001x320x1_0_1 _ (ix3 p i (0 : Fin 1)) (ix2 p i)
      (fun a => match a with | ⟨0, _⟩ => rfl | ⟨1, _⟩ => rfl)
  have h5 : rowAt (kScale3 Fm a4) p (ix3 (0 : Fin 1) i (0 : Fin 1)) = kScale Fm a4 (ix2 p i) := by
    unfold rowAt kScale3
    exact broadcastInDim_apply ![0, 1] bcast_S1001x320_S1001x320x1_0_1 _ (ix3 p i (0 : Fin 1)) (ix2 p i)
      (fun a => match a with | ⟨0, _⟩ => rfl | ⟨1, _⟩ => rfl)
  unfold Arow
  rw [h4, h5]
  unfold onehot
  rw [WordFacts.sel_sum (kIdx a4 (ix2 p i)) hx (fun j => data (ix2 j d))]

end Cert.KernelIdeal.KVal

end
-- ==== Proof.KValue.lean ====
/-
  The kernel's result at the exact extended reals: entry p is the kernel's formula `StatSpec.kvar` of the factor
  matrix, its entrywise square, and the rows the trip forms from row p of the index table and of the scale table —
  given what the region finds in its five staged arrays (the data, F, F · F and the two tables).
-/
import proofs.«138780_j25872882991128_2_alg».proof.Proof.KRun
import proofs.«138780_j25872882991128_2_alg».proof.Proof.KTables

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

open Idealize.ShloMosaic.ValueIdx StatSpec

variable (m : (ℓ : Loc nD τ sig) → Buf (Elt Ideal) ℓ)

theorem kres_apply (c : Dev nD) (p : Fin 1001) (data : FVec Ideal S320x64 .f32) (Fk : FVec Ideal S320x320 .f32)
    (perms : IVec S1000x320 32)
    (h0 : V m c main_arg0 = data) (h19 : V m c main_v19 = Fk) (h20 : V m c main_v20 = mulf Fk Fk)
    (h45 : V m c main_v45 = kIdx3 perms) (h46 : V m c main_v46 = kScale3 Fk perms) :
    kres m c (ix1 p)
      = kvar (mat Fk) (mat (mulf Fk Fk)) (Arow data (rowAt (kIdx3 perms) p) (rowAt (kScale3 Fk perms) p)) := by
  unfold kres arrFn
  rw [h0, h19, h20, h45, h46]
  exact tripPay_apply data Fk (mulf Fk Fk) (rowAt (kIdx3 perms) p) (rowAt (kScale3 Fk perms) p) _

end Cert.KernelIdeal.KVal

end
-- ==== Proof.FactorRead.lean ====
/-
  The statistics factor matrix read at an index. Both programs build it the same way from the label vector a3 and
  the two scalars a1, a2: entry (i, j) is a1 where both labels are 0, else a2 where both labels are 1, else 1.
  It is symmetric (the test "both labels equal w" does not depend on the order of i and j), and real-valued when
  the two scalars are.
-/
import Idealize.ShloMosaic.PureOps.Ideal
import Idealize.ShloMosaic.Lib.ValueIdx
import Idealize.ShloMosaic.Lib.Pipeline.Value

noncomputable section

namespace FactorRead

open Idealize.ShloMosaic Idealize.ShloMosaic.ValueIdx

abbrev S0 : Shape := ⟨0, ![]⟩
abbrev Sv : Shape := ⟨1, ![320]⟩
abbrev Sc : Shape := ⟨2, ![320, 1]⟩
abbrev Sr : Shape := ⟨2, ![1, 320]⟩
abbrev Sm : Shape := ⟨2, ![320, 320]⟩

variable (hc : Sc.BroadcastsInDim Sm ![0, 1]) (hr : Sr.BroadcastsInDim Sm ![0, 1]) (hvc : Sv.BroadcastsInDim Sc ![0])
  (hvr : Sv.BroadcastsInDim Sr ![1]) (h0c : S0.BroadcastsInDim Sc ![]) (h0r : S0.BroadcastsInDim Sr ![])
  (h0m : S0.BroadcastsInDim Sm ![])

/-- The test "label i and label j both equal w", as a 320 x 320 array of bits. -/
def both (w : BitVec 32) (a3 : IVec Sv 32) : IVec Sm 1 :=
  andi (broadcastInDim Sm ![0, 1] hc (cmpi .eq (broadcastInDim Sc ![0] hvc a3) (broadcastInDim Sc ![] h0c (constantI S0 32 w))))
    (broadcastInDim Sm ![0, 1] hr (cmpi .eq (broadcastInDim Sr ![1] hvr a3) (broadcastInDim Sr ![] h0r (constantI S0 32 w))))

theorem both_apply (w : BitVec 32) (a3 : IVec Sv 32) (i j : Fin 320) :
    both hc hr hvc hvr h0c h0r w a3 (ix2 i j) = IntOp.andi (IntOp.cmpi .eq (a3 (ix1 i)) w) (IntOp.cmpi .eq (a3 (ix1 j)) w) := by
  unfold both
  show IntOp.andi (broadcastInDim (s := Sc) Sm ![0, 1] hc _ (ix2 i j)) (broadcastInDim (s := Sr) Sm ![0, 1] hr _ (ix2 i j)) = _
  rw [broadcastInDim_apply ![0, 1] hc _ (ix2 i j) (ix2 i (0 : Fin 1)) (fun a => match a with | ⟨0, _⟩ => rfl | ⟨1, _⟩ => rfl),
    broadcastInDim_apply ![0, 1] hr _ (ix2 i j) (ix2 (0 : Fin 1) j) (fun a => match a with | ⟨0, _⟩ => rfl | ⟨1, _⟩ => rfl)]
  show IntOp.andi (IntOp.cmpi .eq (broadcastInDim (s := Sv) Sc ![0] hvc a3 (ix2 i (0 : Fin 1))) (broadcastInDim (s := S0) Sc ![] h0c (constantI S0 32 w) (ix2 i (0 : Fin 1))))
    (IntOp.cmpi .eq (broadcastInDim (s := Sv) Sr ![1] hvr a3 (ix2 (0 : Fin 1) j)) (broadcastInDim (s := S0) Sr ![] h0r (constantI S0 32 w) (ix2 (0 : Fin 1) j))) = _
  rw [broadcastInDim_apply ![0] hvc a3 (ix2 i (0 : Fin 1)) (ix1 i) (fun a => match a with | ⟨0, _⟩ => rfl),
    broadcastInDim_apply ![1] hvr a3 (ix2 (0 : Fin 1) j) (ix1 j) (fun a => match a with | ⟨0, _⟩ => rfl),
    broadcastInDim_apply ![] h0c (constantI S0 32 w) (ix2 i (0 : Fin 1)) ix0 (fun a => a.elim0),
    broadcastInDim_apply ![] h0r (constantI S0 32 w) (ix2 (0 : Fin 1) j) ix0 (fun a => a.elim0)]
  rfl

/-- The factor matrix. -/
def Fm (a1 a2 : FVec Ideal S0 .f32) (a3 : IVec Sv 32) : FVec Ideal Sm .f32 :=
  select (both hc hr hvc hvr h0c h0r 0#32 a3) (broadcastInDim Sm ![] h0m a1)
    (select (both hc hr hvc hvr h0c h0r 1#32 a3) (broadcastInDim Sm ![] h0m a2)
      (broadcastInDim Sm ![] h0m (constant S0 .f32 0x3F800000#32)))

theorem Fm_apply (a1 a2 : FVec Ideal S0 .f32) (a3 : IVec Sv 32) (i j : Fin 320) :
    Fm hc hr hvc hvr h0c h0r h0m a1 a2 a3 (ix2 i j)
      = Scalar.select (IntOp.andi (IntOp.cmpi .eq (a3 (ix1 i)) 0#32) (IntOp.cmpi .eq (a3 (ix1 j)) 0#32)) (a1 ix0)
          (Scalar.select (IntOp.andi (IntOp.cmpi .eq (a3 (ix1 i)) 1#32) (IntOp.cmpi .eq (a3 (ix1 j)) 1#32)) (a2 ix0)
            (Ideal.ofBits .f32 0x3F800000#32)) := by
  unfold Fm
  rw [select_apply, select_apply, both_apply, both_apply,
    broadcastInDim_apply ![] h0m a1 (ix2 i j) ix0 (fun a => a.elim0),
    broadcastInDim_apply ![] h0m a2 (ix2 i j) ix0 (fun a => a.elim0),
    broadcastInDim_apply ![] h0m (constant S0 .f32 0x3F800000#32) (ix2 i j) ix0 (fun a => a.elim0)]
  rfl

theorem andi_comm (x y : BitVec 1) : IntOp.andi x y = IntOp.andi y x := by
  revert x y; decide

/-- The factor matrix is symmetric. -/
theorem Fm_symm (a1 a2 : FVec Ideal S0 .f32) (a3 : IVec Sv 32) (i j : Fin 320) :
    Fm hc hr hvc hvr h0c h0r h0m a1 a2 a3 (ix2 i j) = Fm hc hr hvc hvr h0c h0r h0m a1 a2 a3 (ix2 j i) := by
  rw [Fm_apply, Fm_apply, andi_comm (IntOp.cmpi .eq (a3 (ix1 i)) 0#32), andi_comm (IntOp.cmpi .eq (a3 (ix1 i)) 1#32)]

theorem ofBits_one : Ideal.ofBits .f32 0x3F800000#32 = ((1 : ℝ) : EReal) := by
  simp [Ideal.ofBits, Ideal.ieee, -EReal.coe_mul]; norm_num

/-- Its entries are real numbers when the two scalars are. -/
theorem Fm_real (a1 a2 : FVec Ideal S0 .f32) (a3 : IVec Sv 32) (h1 : ∃ r : ℝ, a1 ix0 = (r : EReal)) (h2 : ∃ r : ℝ, a2 ix0 = (r : EReal))
    (i j : Fin 320) : ∃ f : ℝ, Fm hc hr hvc hvr h0c h0r h0m a1 a2 a3 (ix2 i j) = (f : EReal) := by
  rw [Fm_apply]
  unfold Scalar.select
  split
  · exact h1
  · split
    · exact h2
    · exact ⟨1, ofBits_one⟩

end FactorRead

end
-- ==== Proof.KHost.lean ====
/-
  The kernel's host prefix: what the host operations before the region leave in the four buffers the region reads.

  The 61 operations before the region are six straight lines run one after the other. Read line by line over an arbitrary
  valuation W of the buffers: the first line leaves the two masks "both labels are 0" and "both labels are 1" and the
  constant one; the second and third lines select, by the masks, between the two scalars and one: the factor matrix; the
  fourth line squares the factor matrix and forms the index table (the position row on top of the given rows), the table
  of looked-up factors, and the mask "the index is the row's own position"; the fifth selects one under that mask: the
  scale table; the sixth gives the two tables their trailing unit axis. A buffer a line does not write keeps its contents.
  Composing the six readings from the launch contents gives the four equations.
-/
import proofs.«138780_j25872882991128_2_alg».proof.Proof.KTables
import proofs.«138780_j25872882991128_2_alg».proof.Proof.FactorRead
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.ShloMosaic.StableHlo

/-- Two lines' fold is the second's over the first's. -/
theorem after_app : ∀ (l₁ l₂ : List (HloOp τ sig (Elt Ideal))) (V : Valuation τ sig (Elt Ideal)), after (l₁ ++ l₂) V = after l₂ (after l₁ V)
  | [], _, _ => rfl
  | op :: l₁, l₂, V => by rw [List.cons_append, after_cons, after_cons, after_app l₁ l₂]

/-- The mask "both labels equal w" as the kernel's host lines build it. -/
abbrev kBoth (w : BitVec 32) (a3 : IVec S320 32) : IVec S320x320 1 :=
  FactorRead.both bcast_S320x1_S320x320_0_1 bcast_S1x320_S320x320_0_1 bcast_S320_S320x1_0 bcast_S320_S1x320_1
    bcast_S_S320x1 bcast_S_S1x320 w a3

/-- The factor matrix as the kernel's host lines build it. -/
abbrev kFm (a1 a2 : FVec Ideal S_ .f32) (a3 : IVec S320 32) : FVec Ideal S320x320 .f32 :=
  FactorRead.Fm bcast_S320x1_S320x320_0_1 bcast_S1x320_S320x320_0_1 bcast_S320_S320x1_0 bcast_S320_S1x320_1
    bcast_S_S320x1 bcast_S_S1x320 bcast_S_S320x320 a1 a2 a3

/-! ### The six lines, each over an arbitrary valuation -/

section Lines

variable (W : Valuation τ sig (Elt Ideal))

/-! The first line: the two masks and the constant one; the arguments are not written. -/

theorem L0_v8 : after (hostOps0 (F := Ideal)) W (Proc.devRef .tc main_v8) = kBoth 0#32 (W (Proc.devRef .tc main_arg3)) := by
  after_results
  rfl

theorem L0_v17 : after (hostOps0 (F := Ideal)) W (Proc.devRef .tc main_v17) = kBoth 1#32 (W (Proc.devRef .tc main_arg3)) := by
  after_results
  rfl

theorem L0_cst : after (hostOps0 (F := Ideal)) W (Proc.devRef .tc main_cst) = constant (F := Ideal) S_ .f32 0x3F800000#32 := by
  after_results

theorem L0_arg1 : after (hostOps0 (F := Ideal)) W (Proc.devRef .tc main_arg1) = W (Proc.devRef .tc main_arg1) := by
  after_results

theorem L0_arg2 : after (hostOps0 (F := Ideal)) W (Proc.devRef .tc main_arg2) = W (Proc.devRef .tc main_arg2) := by
  after_results

theorem L0_arg4 : after (hostOps0 (F := Ideal)) W (Proc.devRef .tc main_arg4) = W (Proc.devRef .tc main_arg4) := by
  after_results

/-! The second line: the inner select. -/

theorem L1_v18 : after (hostOps0_1 (F := Ideal)) W (Proc.devRef .tc main_v18)
    = select (W (Proc.devRef .tc main_v17)) (broadcastInDim S320x320 ![] bcast_S_S320x320 (W (Proc.devRef .tc main_arg2)))
        (broadcastInDim S320x320 ![] bcast_S_S320x320 (W (Proc.devRef .tc main_cst))) := by
  after_results
  rfl

theorem L1_v8 : after (hostOps0_1 (F := Ideal)) W (Proc.devRef .tc main_v8) = W (Proc.devRef .tc main_v8) := by
  after_results

theorem L1_arg1 : after (hostOps0_1 (F := Ideal)) W (Proc.devRef .tc main_arg1) = W (Proc.devRef .tc main_arg1) := by
  after_results

theorem L1_arg4 : after (hostOps0_1 (F := Ideal)) W (Proc.devRef .tc main_arg4) = W (Proc.devRef .tc main_arg4) := by
  after_results

/-! The third line: the outer select. -/

theorem L2_v19 : after (hostOps0_2 (F := Ideal)) W (Proc.devRef .tc main_v19)
    = select (W (Proc.devRef .tc main_v8)) (broadcastInDim S320x320 ![] bcast_S_S320x320 (W (Proc.devRef .tc main_arg1)))
        (W (Proc.devRef .tc main_v18)) := by
  after_results
  rfl

theorem L2_arg4 : after (hostOps0_2 (F := Ideal)) W (Proc.devRef .tc main_arg4) = W (Proc.devRef .tc main_arg4) := by
  after_results

/-! The fourth line: the square, the index table, the looked-up factors, the own-position mask, the constant one. -/

theorem L3_v19 : after (hostOps0_3 (F := Ideal)) W (Proc.devRef .tc main_v19) = W (Proc.devRef .tc main_v19) := by
  after_results

theorem L3_v20 : after (hostOps0_3 (F := Ideal)) W (Proc.devRef .tc main_v20)
    = mulf (F := Ideal) (s := S320x320) (φ := .f32) (W (Proc.devRef .tc main_v19)) (W (Proc.devRef .tc main_v19)) := by
  after_results

theorem L3_v23 : after (hostOps0_3 (F := Ideal)) W (Proc.devRef .tc main_v23) = kIdx (W (Proc.devRef .tc main_arg4)) := by
  after_results
  rfl

set_option maxHeartbeats 1000000 in
theorem L3_v40 : after (hostOps0_3 (F := Ideal)) W (Proc.devRef .tc main_v40)
    = Host.gather gather_S320x320_S1001x320x2_S1001x320_n_01_n_n_01_2_11 (W (Proc.devRef .tc main_v19))
        (kPairs (W (Proc.devRef .tc main_arg4))) := by
  after_results_simp
  rfl

theorem L3_v43 : after (hostOps0_3 (F := Ideal)) W (Proc.devRef .tc main_v43)
    = cmpi .eq (kIdx (W (Proc.devRef .tc main_arg4))) (broadcastInDim S1001x320 ![0, 1] bcast_S1x320_S1001x320_0_1 kRow) := by
  after_results
  rfl

theorem L3_cst7 : after (hostOps0_3 (F := Ideal)) W (Proc.devRef .tc main_cst_7) = constant (F := Ideal) S_ .f32 0x3F800000#32 := by
  after_results

/-! The fifth line: the scale table. -/

theorem L4_v44 : after (hostOps0_4 (F := Ideal)) W (Proc.devRef .tc main_v44)
    = select (W (Proc.devRef .tc main_v43)) (broadcastInDim S1001x320 ![] bcast_S_S1001x320 (W (Proc.devRef .tc main_cst_7)))
        (W (Proc.devRef .tc main_v40)) := by
  after_results
  rfl

theorem L4_v19 : after (hostOps0_4 (F := Ideal)) W (Proc.devRef .tc main_v19) = W (Proc.devRef .tc main_v19) := by
  after_results

theorem L4_v20 : after (hostOps0_4 (F := Ideal)) W (Proc.devRef .tc main_v20) = W (Proc.devRef .tc main_v20) := by
  after_results

theorem L4_v23 : after (hostOps0_4 (F := Ideal)) W (Proc.devRef .tc main_v23) = W (Proc.devRef .tc main_v23) := by
  after_results

/-! The sixth line: the trailing unit axis. -/

theorem L5_v45 : after (hostOps0_5 (F := Ideal)) W (Proc.devRef .tc main_v45)
    = broadcastInDim S1001x320x1 ![0, 1] bcast_S1001x320_S1001x320x1_0_1 (W (Proc.devRef .tc main_v23)) := by
  after_results

theorem L5_v46 : after (hostOps0_5 (F := Ideal)) W (Proc.devRef .tc main_v46)
    = broadcastInDim S1001x320x1 ![0, 1] bcast_S1001x320_S1001x320x1_0_1 (W (Proc.devRef .tc main_v44)) := by
  after_results

theorem L5_v19 : after (hostOps0_5 (F := Ideal)) W (Proc.devRef .tc main_v19) = W (Proc.devRef .tc main_v19) := by
  after_results

theorem L5_v20 : after (hostOps0_5 (F := Ideal)) W (Proc.devRef .tc main_v20) = W (Proc.devRef .tc main_v20) := by
  after_results

end Lines

/-! ### The six lines composed from the launch contents -/

variable (m : (ℓ : Loc nD τ sig) → Buf (Elt Ideal) ℓ) (c : Dev nD)

/-- The contents when the region is entered, line after line. -/
theorem V0_lines : V0 m c
    = after hostOps0_5 (after hostOps0_4 (after hostOps0_3 (after hostOps0_2 (after hostOps0_1 (after hostOps0 (fun b => m (c, b))))))) := by
  show after (hostOps0 ++ (hostOps0_1 ++ (hostOps0_2 ++ (hostOps0_3 ++ (hostOps0_4 ++ (hostOps0_5 ++ [])))))) (fun b => m (c, b)) = _
  rw [after_app, after_app, after_app, after_app, after_app, after_app, after_nil]

/-- The factor matrix after the third line. -/
theorem W2_v19 : after hostOps0_2 (after hostOps0_1 (after hostOps0 (fun b => m (c, b)))) (Proc.devRef .tc main_v19)
    = kFm (m ((c : Thread nD τ).loc main_arg1)) (m ((c : Thread nD τ).loc main_arg2)) (m ((c : Thread nD τ).loc main_arg3)) := by
  rw [L2_v19, L1_v8, L0_v8, L1_arg1, L0_arg1, L1_v18, L0_v17, L0_arg2, L0_cst]
  rfl

/-- The given index rows are not written by the first three lines. -/
theorem W2_arg4 : after hostOps0_2 (after hostOps0_1 (after hostOps0 (fun b => m (c, b)))) (Proc.devRef .tc main_arg4)
    = m ((c : Thread nD τ).loc main_arg4) := by
  rw [L2_arg4, L1_arg4, L0_arg4]

/-- The factor matrix when the region is entered. -/
theorem V_v19 : (V m c main_v19 : S320x320.Idx → Elt Ideal .f32)
    = kFm (m ((c : Thread nD τ).loc main_arg1)) (m ((c : Thread nD τ).loc main_arg2)) (m ((c : Thread nD τ).loc main_arg3)) := by
  show V0 m c (Proc.devRef .tc main_v19) = _
  rw [V0_lines, L5_v19, L4_v19, L3_v19, W2_v19]

/-- Its entrywise square. -/
theorem V_v20 : (V m c main_v20 : S320x320.Idx → Elt Ideal .f32)
    = mulf (kFm (m ((c : Thread nD τ).loc main_arg1)) (m ((c : Thread nD τ).loc main_arg2)) (m ((c : Thread nD τ).loc main_arg3)))
        (kFm (m ((c : Thread nD τ).loc main_arg1)) (m ((c : Thread nD τ).loc main_arg2)) (m ((c : Thread nD τ).loc main_arg3))) := by
  show V0 m c (Proc.devRef .tc main_v20) = _
  rw [V0_lines, L5_v20, L4_v20, L3_v20, W2_v19]

/-- The index table with its trailing unit axis. -/
theorem V_v45 : (V m c main_v45 : S1001x320x1.Idx → Elt Ideal .i32) = kIdx3 (m ((c : Thread nD τ).loc main_arg4)) := by
  show V0 m c (Proc.devRef .tc main_v45) = _
  rw [V0_lines, L5_v45, L4_v23, L3_v23, W2_arg4]
  rfl

/-- The scale table with its trailing unit axis. -/
theorem V_v46 : (V m c main_v46 : S1001x320x1.Idx → Elt Ideal .f32)
    = kScale3 (kFm (m ((c : Thread nD τ).loc main_arg1)) (m ((c : Thread nD τ).loc main_arg2)) (m ((c : Thread nD τ).loc main_arg3)))
        (m ((c : Thread nD τ).loc main_arg4)) := by
  show V0 m c (Proc.devRef .tc main_v46) = _
  rw [V0_lines, L5_v46, L4_v44, L3_v43, L3_cst7, L3_v40, W2_v19, W2_arg4]
  rfl

end Cert.KernelIdeal.KVal

end
-- ==== Proof.RefOps.lean ====
/-
  The reference's operations, in order: the straight line of host operations its @main runs once every call is replaced by the
  callee's body over the call's own buffers, window by window as @main is printed, and the run of that line.
-/
import proofs.«138780_j25872882991128_2_alg».proof.Defs
import proofs.«138780_j25872882991128_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations 1 … 63 of 265: window main_part0 of @main, its calls replaced by their bodies. -/
abbrev ops_part0 : List (HloOp τ sig (Elt F)) :=
  [ StableHlo.unary main_arg3 main_v0 (broadcastInDim S320x1 ![0] bcast_S320_S320x1_0 : (⟨S320, .i32⟩ : BufTy).Contents (Elt F) → (⟨S320x1, .i32⟩ : BufTy).Contents (Elt F)),
    StableHlo.nullary main_c (constantI S_ 32 0#32),
    StableHlo.unary main_c main_v1 (broadcastInDim S320x1 ![] bcast_S_S320x1 : (⟨S_, .i32⟩ : BufTy).Contents (Elt F) → (⟨S320x1, .i32⟩ : BufTy).Contents (Elt F)),
    StableHlo.binary main_v0 main_v1 main_v2 (cmpi .eq : (⟨S320x1, .i32⟩ : BufTy).Contents (Elt F) → (⟨S320x1, .i32⟩ : BufTy).Contents (Elt F) → (⟨S320x1, .i1⟩ : BufTy).Contents (Elt F)),
    StableHlo.unary main_arg3 main_v3 (broadcastInDim S1x320 ![1] bcast_S320_S1x320_1 : (⟨S320, .i32⟩ : BufTy).Contents (Elt F) → (⟨S1x320, .i32⟩ : BufTy).Contents (Elt F)),
    StableHlo.nullary main_c_0 (constantI S_ 32 0#32),
    StableHlo.unary main_c_0 main_v4 (broadcastInDim S1x320 ![] bcast_S_S1x320 : (⟨S_, .i32⟩ : BufTy).Contents (Elt F) → (⟨S1x320, .i32⟩ : BufTy).Contents (Elt F)),
    StableHlo.binary main_v3 main_v4 main_v5 (cmpi .eq : (⟨S1x320, .i32⟩ : BufTy).Contents (Elt F) → (⟨S1x320, .i32⟩ : BufTy).Contents (Elt F) → (⟨S1x320, .i1⟩ : BufTy).Contents (Elt F)),
    StableHlo.unary main_v2 main_v6 (broadcastInDim S320x320 ![0, 1] bcast_S320x1_S320x320_0_1 : (⟨S320x1, .i1⟩ : BufTy).Contents (Elt F) → (⟨S320x320, .i1⟩ : BufTy).Contents (Elt F)),
    StableHlo.unary main_v5 main_v7 (broadcastInDim S320x320 ![0, 1] bcast_S1x320_S320x320_0_1 : (⟨S1x320, .i1⟩ : BufTy).Contents (Elt F) → (⟨S320x320, .i1⟩ : BufTy).Contents (Elt F)),
    StableHlo.binary main_v6 main_v7 main_v8 (andi : (⟨S320x320, .i1⟩ : BufTy).Contents (Elt F) → (⟨S320x320, .i1⟩ : BufTy).Contents (Elt F) → (⟨S320x320, .i1⟩ : BufTy).Contents (Elt F)),
    StableHlo.unary main_arg3 main_v9 (broadcastInDim S320x1 ![0] bcast_S320_S320x1_0 : (⟨S320, .i32⟩ : BufTy).Contents (Elt F) → (⟨S320x1, .i32⟩ : BufTy).Contents (Elt F)),
    StableHlo.nullary main_c_1 (constantI S_ 32 1#32),
    StableHlo.unary main_c_1 main_v10 (broadcastInDim S320x1 ![] bcast_S_S320x1 : (⟨S_, .i32⟩ : BufTy).Contents (Elt F) → (⟨S320x1, .i32⟩ : BufTy).Contents (Elt F)),
    StableHlo.binary main_v9 main_v10 main_v11 (cmpi .eq : (⟨S320x1, .i32⟩ : BufTy).Contents (Elt F) → (⟨S320x1, .i32⟩ : BufTy).Contents (Elt F) → (⟨S320x1, .i1⟩ : BufTy).Contents (Elt F)),
    StableHlo.unary main_arg3 main_v12 (broadcastInDim S1x320 ![1] bcast_S320_S1x320_1 : (⟨S320, .i32⟩ : BufTy).Contents (Elt F) → (⟨S1x320, .i32⟩ : BufTy).Contents (Elt F)),
    StableHlo.nullary main_c_2 (constantI S_ 32 1#32),
    StableHlo.unary main_c_2 main_v13 (broadcastInDim S1x320 ![] bcast_S_S1x320 : (⟨S_, .i32⟩ : BufTy).Contents (Elt F) → (⟨S1x320, .i32⟩ : BufTy).Contents (Elt F)),
    StableHlo.binary main_v12 main_v13 main_v14 (cmpi .eq : (⟨S1x320, .i32⟩ : BufTy).Contents (Elt F) → (⟨S1x320, .i32⟩ : BufTy).Contents (Elt F) → (⟨S1x320, .i1⟩ : BufTy).Contents (Elt F)),
    StableHlo.unary main_v11 main_v15 (broadcastInDim S320x320 ![0, 1] bcast_S320x1_S320x320_0_1 : (⟨S320x1, .i1⟩ : BufTy).Contents (Elt F) → (⟨S320x320, .i1⟩ : BufTy).Contents (Elt F)),
    StableHlo.unary main_v14 main_v16 (broadcastInDim S320x320 ![0, 1] bcast_S1x320_S320x320_0_1 : (⟨S1x320, .i1⟩ : BufTy).Contents (Elt F) → (⟨S320x320, .i1⟩ : BufTy).Contents (Elt F)),
    StableHlo.binary main_v15 main_v16 main_v17 (andi : (⟨S320x320, .i1⟩ : BufTy).Contents (Elt F) → (⟨S320x320, .i1⟩ : BufTy).Contents (Elt F) → (⟨S320x320, .i1⟩ : BufTy).Contents (Elt F)),
    StableHlo.nullary main_cst (constant S_ .f32 0x3F800000#32),
    StableHlo.TRef.unary (TRef.of main_arg2 : TRef sig ⟨S_, .f32⟩) main_call0.v0 (broadcastInDim S320x320 ![] bcast_S_S320x320),
    StableHlo.TRef.unary (TRef.of main_cst : TRef sig ⟨S_, .f32⟩) main_call0.v1 (broadcastInDim S320x320 ![] bcast_S_S320x320),
    StableHlo.TRef.ternary (TRef.of main_v17 : TRef sig ⟨S320x320, .i1⟩) main_call0.v0 main_call0.v1 main_call0.v2 select,
    StableHlo.TRef.unary (TRef.of main_arg1 : TRef sig ⟨S_, .f32⟩) main_call1.v0 (broadcastInDim S320x320 ![] bcast_S_S320x320),
    StableHlo.TRef.ternary (TRef.of main_v8 : TRef sig ⟨S320x320, .i1⟩) main_call1.v0 (TRef.of main_v18 : TRef sig ⟨S320x320, .f32⟩) main_call1.v1 select,
    StableHlo.nullary main_v20 (iotaInDim S320 32 0),
    StableHlo.nullary main_c_3 (constantI S_ 32 0#32),
    StableHlo.unary main_c_3 main_v21 (broadcastInDim S1000x320 ![] bcast_S_S1000x320 : (⟨S_, .i32⟩ : BufTy).Contents (Elt F) → (⟨S1000x320, .i32⟩ : BufTy).Contents (Elt F)),
    StableHlo.binary main_arg4 main_v21 main_v22 (cmpi .slt : (⟨S1000x320, .i32⟩ : BufTy).Contents (Elt F) → (⟨S1000x320, .i32⟩ : BufTy).Contents (Elt F) → (⟨S1000x320, .i1⟩ : BufTy).Contents (Elt F)),
    StableHlo.nullary main_c_4 (constantI S_ 32 320#32),
    StableHlo.unary main_c_4 main_v23 (broadcastInDim S1000x320 ![] bcast_S_S1000x320 : (⟨S_, .i32⟩ : BufTy).Contents (Elt F) → (⟨S1000x320, .i32⟩ : BufTy).Contents (Elt F)),
    StableHlo.binary main_arg4 main_v23 main_v24 (addi : (⟨S1000x320, .i32⟩ : BufTy).Contents (Elt F) → (⟨S1000x320, .i32⟩ : BufTy).Contents (Elt F) → (⟨S1000x320, .i32⟩ : BufTy).Contents (Elt F)),
    StableHlo.ternary main_v22 main_v24 main_arg4 main_v25 (select : (⟨S1000x320, .i1⟩ : BufTy).Contents (Elt F) → (⟨S1000x320, .i32⟩ : BufTy).Contents (Elt F) → (⟨S1000x320, .i32⟩ : BufTy).Contents (Elt F) → (⟨S1000x320, .i32⟩ : BufTy).Contents (Elt F)),
    StableHlo.unary main_v25 main_v26 (broadcastInDim S1000x320x1 ![0, 1] bcast_S1000x320_S1000x320x1_0_1 : (⟨S1000x320, .i32⟩ : BufTy).Contents (Elt F) → (⟨S1000x320x1, .i32⟩ : BufTy).Contents (Elt F)),
    StableHlo.binary main_arg0 main_v26 main_v27 ((fun x i => Host.gather gather_S320x64_S1000x320x1_S1000x320x64_2_0_n_n_0_2_164 x i) : (⟨S320x64, .f32⟩ : BufTy).Contents (Elt F) → (⟨S1000x320x1, .i32⟩ : BufTy).Contents (Elt F) → (⟨S1000x320x64, .f32⟩ : BufTy).Contents (Elt F)),
    StableHlo.unary main_v20 main_v28 (broadcastInDim S1x320 ![1] bcast_S320_S1x320_1 : (⟨S320, .i32⟩ : BufTy).Contents (Elt F) → (⟨S1x320, .i32⟩ : BufTy).Contents (Elt F)),
    StableHlo.nullary main_c_5 (constantI S_ 32 0#32),
    StableHlo.unary main_c_5 main_v29 (broadcastInDim S1x320 ![] bcast_S_S1x320 : (⟨S_, .i32⟩ : BufTy).Contents (Elt F) → (⟨S1x320, .i32⟩ : BufTy).Contents (Elt F)),
    StableHlo.binary main_v28 main_v29 main_v30 (cmpi .slt : (⟨S1x320, .i32⟩ : BufTy).Contents (Elt F) → (⟨S1x320, .i32⟩ : BufTy).Contents (Elt F) → (⟨S1x320, .i1⟩ : BufTy).Contents (Elt F)),
    StableHlo.nullary main_c_6 (constantI S_ 32 320#32),
    StableHlo.unary main_c_6 main_v31 (broadcastInDim S1x320 ![] bcast_S_S1x320 : (⟨S_, .i32⟩ : BufTy).Contents (Elt F) → (⟨S1x320, .i32⟩ : BufTy).Contents (Elt F)),
    StableHlo.binary main_v28 main_v31 main_v32 (addi : (⟨S1x320, .i32⟩ : BufTy).Contents (Elt F) → (⟨S1x320, .i32⟩ : BufTy).Contents (Elt F) → (⟨S1x320, .i32⟩ : BufTy).Contents (Elt F)),
    StableHlo.ternary main_v30 main_v32 main_v28 main_v33 (select : (⟨S1x320, .i1⟩ : BufTy).Contents (Elt F) → (⟨S1x320, .i32⟩ : BufTy).Contents (Elt F) → (⟨S1x320, .i32⟩ : BufTy).Contents (Elt F) → (⟨S1x320, .i32⟩ : BufTy).Contents (Elt F)),
    StableHlo.nullary main_c_7 (constantI S_ 32 0#32),
    StableHlo.unary main_c_7 main_v34 (broadcastInDim S1000x320 ![] bcast_S_S1000x320 : (⟨S_, .i32⟩ : BufTy).Contents (Elt F) → (⟨S1000x320, .i32⟩ : BufTy).Contents (Elt F)),
    StableHlo.binary main_arg4 main_v34 main_v35 (cmpi .slt : (⟨S1000x320, .i32⟩ : BufTy).Contents (Elt F) → (⟨S1000x320, .i32⟩ : BufTy).Contents (Elt F) → (⟨S1000x320, .i1⟩ : BufTy).Contents (Elt F)),
    StableHlo.nullary main_c_8 (constantI S_ 32 320#32),
    StableHlo.unary main_c_8 main_v36 (broadcastInDim S1000x320 ![] bcast_S_S1000x320 : (⟨S_, .i32⟩ : BufTy).Contents (Elt F) → (⟨S1000x320, .i32⟩ : BufTy).Contents (Elt F)),
    StableHlo.binary main_arg4 main_v36 main_v37 (addi : (⟨S1000x320, .i32⟩ : BufTy).Contents (Elt F) → (⟨S1000x320, .i32⟩ : BufTy).Contents (Elt F) → (⟨S1000x320, .i32⟩ : BufTy).Contents (Elt F)),
    StableHlo.ternary main_v35 main_v37 main_arg4 main_v38 (select : (⟨S1000x320, .i1⟩ : BufTy).Contents (Elt F) → (⟨S1000x320, .i32⟩ : BufTy).Contents (Elt F) → (⟨S1000x320, .i32⟩ : BufTy).Contents (Elt F) → (⟨S1000x320, .i32⟩ : BufTy).Contents (Elt F)),
    StableHlo.unary main_v33 main_v39 (broadcastInDim S1000x320 ![0, 1] bcast_S1x320_S1000x320_0_1 : (⟨S1x320, .i32⟩ : BufTy).Contents (Elt F) → (⟨S1000x320, .i32⟩ : BufTy).Contents (Elt F)),
    StableHlo.unary main_v39 main_v40 (broadcastInDim S1000x320x1 ![0, 1] bcast_S1000x320_S1000x320x1_0_1 : (⟨S1000x320, .i32⟩ : BufTy).Contents (Elt F) → (⟨S1000x320x1, .i32⟩ : BufTy).Contents (Elt F)),
    StableHlo.unary main_v38 main_v41 (broadcastInDim S1000x320x1 ![0, 1] bcast_S1000x320_S1000x320x1_0_1 : (⟨S1000x320, .i32⟩ : BufTy).Contents (Elt F) → (⟨S1000x320x1, .i32⟩ : BufTy).Contents (Elt F)),
    StableHlo.binary main_v40 main_v41 main_v42 ((fun a b => concatenate S1000x320x2 2 [⟨S1000x320x1, a⟩, ⟨S1000x320x1, b⟩] concatenates_S1000x320x1_S1000x320x1_S1000x320x2_d2) : (⟨S1000x320x1, .i32⟩ : BufTy).Contents (Elt F) → (⟨S1000x320x1, .i32⟩ : BufTy).Contents (Elt F) → (⟨S1000x320x2, .i32⟩ : BufTy).Contents (Elt F)),
    StableHlo.binary main_v19 main_v42 main_v43 ((fun x i => Host.gather gather_S320x320_S1000x320x2_S1000x320_n_01_n_n_01_2_11 x i) : (⟨S320x320, .f32⟩ : BufTy).Contents (Elt F) → (⟨S1000x320x2, .i32⟩ : BufTy).Contents (Elt F) → (⟨S1000x320, .f32⟩ : BufTy).Contents (Elt F)),
    StableHlo.unary main_v20 main_v44 (broadcastInDim S1x320 ![1] bcast_S320_S1x320_1 : (⟨S320, .i32⟩ : BufTy).Contents (Elt F) → (⟨S1x320, .i32⟩ : BufTy).Contents (Elt F)),
    StableHlo.unary main_v44 main_v45 (broadcastInDim S1000x320 ![0, 1] bcast_S1x320_S1000x320_0_1 : (⟨S1x320, .i32⟩ : BufTy).Contents (Elt F) → (⟨S1000x320, .i32⟩ : BufTy).Contents (Elt F)),
    StableHlo.binary main_arg4 main_v45 main_v46 (cmpi .eq : (⟨S1000x320, .i32⟩ : BufTy).Contents (Elt F) → (⟨S1000x320, .i32⟩ : BufTy).Contents (Elt F) → (⟨S1000x320, .i1⟩ : BufTy).Contents (Elt F)),
    StableHlo.unary main_v46 main_v47 (broadcastInDim S1000x320x1 ![0, 1] bcast_S1000x320_S1000x320x1_0_1 : (⟨S1000x320, .i1⟩ : BufTy).Contents (Elt F) → (⟨S1000x320x1, .i1⟩ : BufTy).Contents (Elt F)),
    StableHlo.unary main_v43 main_v48 (broadcastInDim S1000x320x1 ![0, 1] bcast_S1000x320_S1000x320x1_0_1 : (⟨S1000x320, .f32⟩ : BufTy).Contents (Elt F) → (⟨S1000x320x1, .f32⟩ : BufTy).Contents (Elt F)) ]

/-- The operations 64 … 210 of 265: window main_part1 of @main, its calls replaced by their bodies. -/
abbrev ops_part1 : List (HloOp τ sig (Elt F)) :=
  [ StableHlo.unary main_v48 main_v49 (broadcastInDim S1000x320x64 ![0, 1, 2] bcast_S1000x320x1_S1000x320x64_0_1_2 : (⟨S1000x320x1, .f32⟩ : BufTy).Contents (Elt F) → (⟨S1000x320x64, .f32⟩ : BufTy).Contents (Elt F)),
    StableHlo.binary main_v49 main_v27 main_v50 (mulf : (⟨S1000x320x64, .f32⟩ : BufTy).Contents (Elt F) → (⟨S1000x320x64, .f32⟩ : BufTy).Contents (Elt F) → (⟨S1000x320x64, .f32⟩ : BufTy).Contents (Elt F)),
    StableHlo.TRef.unary (TRef.of main_v47 : TRef sig ⟨S1000x320x1, .i1⟩) main_call2.v0 (broadcastInDim S1000x320x64 ![0, 1, 2] bcast_S1000x320x1_S1000x320x64_0_1_2),
    StableHlo.TRef.ternary main_call2.v0 (TRef.of main_v27 : TRef sig ⟨S1000x320x64, .f32⟩) (TRef.of main_v50 : TRef sig ⟨S1000x320x64, .f32⟩) main_call2.v1 select,
    StableHlo.unary main_arg0 main_v52 (broadcastInDim S1x320x64 ![1, 2] bcast_S320x64_S1x320x64_1_2 : (⟨S320x64, .f32⟩ : BufTy).Contents (Elt F) → (⟨S1x320x64, .f32⟩ : BufTy).Contents (Elt F)),
    StableHlo.binary main_v52 main_v51 main_v53 ((fun a b => concatenate S1001x320x64 0 [⟨S1x320x64, a⟩, ⟨S1000x320x64, b⟩] concatenates_S1x320x64_S1000x320x64_S1001x320x64_d0) : (⟨S1x320x64, .f32⟩ : BufTy).Contents (Elt F) → (⟨S1000x320x64, .f32⟩ : BufTy).Contents (Elt F) → (⟨S1001x320x64, .f32⟩ : BufTy).Contents (Elt F)),
    StableHlo.binary main_v53 main_v53 main_v54 (mulf : (⟨S1001x320x64, .f32⟩ : BufTy).Contents (Elt F) → (⟨S1001x320x64, .f32⟩ : BufTy).Contents (Elt F) → (⟨S1001x320x64, .f32⟩ : BufTy).Contents (Elt F)),
    StableHlo.nullary main_cst_9 (constant S_ .f32 0x00000000#32),
    StableHlo.binary main_v54 main_cst_9 main_v55 ((fun x v => Host.reduceAdd x v reducesTo_S1001x320x64_S1001x320_d2 h_S_) : (⟨S1001x320x64, .f32⟩ : BufTy).Contents (Elt F) → (⟨S_, .f32⟩ : BufTy).Contents (Elt F) → (⟨S1001x320, .f32⟩ : BufTy).Contents (Elt F)),
    StableHlo.binary main_v53 main_v53 main_v56 ((fun l r => Host.dotGeneral dot_S1001x320x64_S1001x320x64_S1001x320x320_2_2_1_1_0_0 none l r) : (⟨S1001x320x64, .f32⟩ : BufTy).Contents (Elt F) → (⟨S1001x320x64, .f32⟩ : BufTy).Contents (Elt F) → (⟨S1001x320x320, .f32⟩ : BufTy).Contents (Elt F)),
    StableHlo.unary main_v55 main_v57 (broadcastInDim S1001x320x1 ![0, 1] bcast_S1001x320_S1001x320x1_0_1 : (⟨S1001x320, .f32⟩ : BufTy).Contents (Elt F) → (⟨S1001x320x1, .f32⟩ : BufTy).Contents (Elt F)),
    StableHlo.unary main_v55 main_v58 (broadcastInDim S1001x1x320 ![0, 2] bcast_S1001x320_S1001x1x320_0_2 : (⟨S1001x320, .f32⟩ : BufTy).Contents (Elt F) → (⟨S1001x1x320, .f32⟩ : BufTy).Contents (Elt F)),
    StableHlo.unary main_v57 main_v59 (broadcastInDim S1001x320x320 ![0, 1, 2] bcast_S1001x320x1_S1001x320x320_0_1_2 : (⟨S1001x320x1, .f32⟩ : BufTy).Contents (Elt F) → (⟨S1001x320x320, .f32⟩ : BufTy).Contents (Elt F)),
    StableHlo.unary main_v58 main_v60 (broadcastInDim S1001x320x320 ![0, 1, 2] bcast_S1001x1x320_S1001x320x320_0_1_2 : (⟨S1001x1x320, .f32⟩ : BufTy).Contents (Elt F) → (⟨S1001x320x320, .f32⟩ : BufTy).Contents (Elt F)),
    StableHlo.binary main_v59 main_v60 main_v61 (addf : (⟨S1001x320x320, .f32⟩ : BufTy).Contents (Elt F) → (⟨S1001x320x320, .f32⟩ : BufTy).Contents (Elt F) → (⟨S1001x320x320, .f32⟩ : BufTy).Contents (Elt F)),
    StableHlo.nullary main_cst_10 (constant S_ .f32 0x40000000#32),
    StableHlo.unary main_cst_10 main_v62 (broadcastInDim S1001x320x320 ![] bcast_S_S1001x320x320 : (⟨S_, .f32⟩ : BufTy).Contents (Elt F) → (⟨S1001x320x320, .f32⟩ : BufTy).Contents (Elt F)),
    StableHlo.binary main_v62 main_v56 main_v63 (mulf : (⟨S1001x320x320, .f32⟩ : BufTy).Contents (Elt F) → (⟨S1001x320x320, .f32⟩ : BufTy).Contents (Elt F) → (⟨S1001x320x320, .f32⟩ : BufTy).Contents (Elt F)),
    StableHlo.binary main_v61 main_v63 main_v64 (subf : (⟨S1001x320x320, .f32⟩ : BufTy).Contents (Elt F) → (⟨S1001x320x320, .f32⟩ : BufTy).Contents (Elt F) → (⟨S1001x320x320, .f32⟩ : BufTy).Contents (Elt F)),
    StableHlo.nullary main_cst_11 (constant S_ .f32 0x00000000#32),
    StableHlo.unary main_cst_11 main_v65 (broadcastInDim S1001x320x320 ![] bcast_S_S1001x320x320 : (⟨S_, .f32⟩ : BufTy).Contents (Elt F) → (⟨S1001x320x320, .f32⟩ : BufTy).Contents (Elt F)),
    StableHlo.binary main_v64 main_v65 main_v66 (maximumf : (⟨S1001x320x320, .f32⟩ : BufTy).Contents (Elt F) → (⟨S1001x320x320, .f32⟩ : BufTy).Contents (Elt F) → (⟨S1001x320x320, .f32⟩ : BufTy).Contents (Elt F)),
    StableHlo.nullary main_cst_12 (constant S_ .f32 0x3F800000#32),
    StableHlo.unary main_cst_12 main_v67 (broadcastInDim S320x320 ![] bcast_S_S320x320 : (⟨S_, .f32⟩ : BufTy).Contents (Elt F) → (⟨S320x320, .f32⟩ : BufTy).Contents (Elt F)),
    StableHlo.TRef.nullary main_call3.v0 (iotaInDim S320x320 32 0),
    StableHlo.TRef.nullary main_call3.c (constantI S_ 32 0#32),
    StableHlo.TRef.unary main_call3.c main_call3.v1 (broadcastInDim S320x320 ![] bcast_S_S320x320),
    StableHlo.TRef.binary main_call3.v0 main_call3.v1 main_call3.v2 addi,
    StableHlo.TRef.nullary main_call3.v3 (iotaInDim S320x320 32 1),
    StableHlo.TRef.binary main_call3.v2 main_call3.v3 main_call3.v4 (cmpi .sge),
    StableHlo.TRef.nullary main_call3.cst (constant S_ .f32 0x00000000#32),
    StableHlo.TRef.unary main_call3.cst main_call3.v5 (broadcastInDim S320x320 ![] bcast_S_S320x320),
    StableHlo.TRef.ternary main_call3.v4 main_call3.v5 (TRef.of main_v67 : TRef sig ⟨S320x320, .f32⟩) main_call3.v6 select,
    StableHlo.nullary main_cst_13 (constant S_ .f32 0x00000000#32),
    StableHlo.unary main_cst_13 main_v69 (broadcastInDim S320x320 ![] bcast_S_S320x320 : (⟨S_, .f32⟩ : BufTy).Contents (Elt F) → (⟨S320x320, .f32⟩ : BufTy).Contents (Elt F)),
    StableHlo.binary main_v68 main_v69 main_v70 (cmpf .une : (⟨S320x320, .f32⟩ : BufTy).Contents (Elt F) → (⟨S320x320, .f32⟩ : BufTy).Contents (Elt F) → (⟨S320x320, .i1⟩ : BufTy).Contents (Elt F)),
    StableHlo.TRef.reshape (TRef.of main_v70 : TRef sig ⟨S320x320, .i1⟩) main_call4.v0 rfl shapeCasts_S320x320_S102400,
    StableHlo.TRef.unary main_call4.v0 main_call4.v1 (extui 32 · natLt_1_32),
    StableHlo.TRef.nullary main_call4.call0.c (constantI S_ 32 0#32),
    StableHlo.TRef.unary main_call4.call0.c main_call4.call0.v0 (broadcastInDim S_ ![] bcast_S_S_),
    StableHlo.TRef.binary main_call4.v1 main_call4.call0.v0 main_call4.call0.v1 (fun x v => Host.reduceWindow IntOp.addi ![102400] ![1] ![102399] ![0] x v reduceWindows_S102400_S102400_w102400s1p102399_0 h_S_),
    StableHlo.nullary main_c_14 (constantI S_ 32 0#32),
    StableHlo.unary main_c_14 main_v72 (broadcastInDim S51040 ![] bcast_S_S51040 : (⟨S_, .i32⟩ : BufTy).Contents (Elt F) → (⟨S51040, .i32⟩ : BufTy).Contents (Elt F)),
    StableHlo.nullary main_c_15 (constantI S_ 32 0#32),
    StableHlo.TRef.unary (TRef.of main_c_15 : TRef sig ⟨S_, .i32⟩) main_call5.v0 id,
    StableHlo.TRef.unary main_call5.v0 main_call5.v1 (broadcastInDim S102400 ![] bcast_S_S102400),
    StableHlo.TRef.binary main_call5.v1 (TRef.of main_v71 : TRef sig ⟨S102400, .i32⟩) main_call5.v2 maxsi,
    StableHlo.nullary main_c_16 (constantI S_ 32 0#32),
    StableHlo.unary main_c_16 main_v74 (broadcastInDim S102400 ![] bcast_S_S102400 : (⟨S_, .i32⟩ : BufTy).Contents (Elt F) → (⟨S102400, .i32⟩ : BufTy).Contents (Elt F)),
    StableHlo.binary main_v73 main_v74 main_v75 (cmpi .slt : (⟨S102400, .i32⟩ : BufTy).Contents (Elt F) → (⟨S102400, .i32⟩ : BufTy).Contents (Elt F) → (⟨S102400, .i1⟩ : BufTy).Contents (Elt F)),
    StableHlo.nullary main_c_17 (constantI S_ 32 51040#32),
    StableHlo.unary main_c_17 main_v76 (broadcastInDim S102400 ![] bcast_S_S102400 : (⟨S_, .i32⟩ : BufTy).Contents (Elt F) → (⟨S102400, .i32⟩ : BufTy).Contents (Elt F)),
    StableHlo.binary main_v73 main_v76 main_v77 (addi : (⟨S102400, .i32⟩ : BufTy).Contents (Elt F) → (⟨S102400, .i32⟩ : BufTy).Contents (Elt F) → (⟨S102400, .i32⟩ : BufTy).Contents (Elt F)),
    StableHlo.ternary main_v75 main_v77 main_v73 main_v78 (select : (⟨S102400, .i1⟩ : BufTy).Contents (Elt F) → (⟨S102400, .i32⟩ : BufTy).Contents (Elt F) → (⟨S102400, .i32⟩ : BufTy).Contents (Elt F) → (⟨S102400, .i32⟩ : BufTy).Contents (Elt F)),
    StableHlo.unary main_v78 main_v79 (broadcastInDim S102400x1 ![0] bcast_S102400_S102400x1_0 : (⟨S102400, .i32⟩ : BufTy).Contents (Elt F) → (⟨S102400x1, .i32⟩ : BufTy).Contents (Elt F)),
    StableHlo.nullary main_c_18 (constantI S_ 32 1#32),
    StableHlo.unary main_c_18 main_v80 (broadcastInDim S102400 ![] bcast_S_S102400 : (⟨S_, .i32⟩ : BufTy).Contents (Elt F) → (⟨S102400, .i32⟩ : BufTy).Contents (Elt F)),
    StableHlo.ternary main_v72 main_v79 main_v80 main_v81 ((fun x i u => Host.scatter scatter_S51040_S102400x1_S102400_n_0_0_1 IntOp.addi x i u) : (⟨S51040, .i32⟩ : BufTy).Contents (Elt F) → (⟨S102400x1, .i32⟩ : BufTy).Contents (Elt F) → (⟨S102400, .i32⟩ : BufTy).Contents (Elt F) → (⟨S51040, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (TRef.of main_v81 : TRef sig ⟨S51040, .i32⟩) main_call6.call0.v0 main_call6.call0.v1 (fun x v => Host.reduceWindow IntOp.addi ![51040] ![1] ![51039] ![0] x v reduceWindows_S51040_S51040_w51040s1p51039_0 h_S_),
    StableHlo.nullary main_c_19 (constantI S_ 32 320#32),
    StableHlo.TRef.unary (TRef.of main_c_19 : TRef sig ⟨S_, .i32⟩) main_call7.v0 (broadcastInDim S51040 ![] bcast_S_S51040),
    StableHlo.TRef.binary (TRef.of main_v82 : TRef sig ⟨S51040, .i32⟩) main_call7.v0 main_call7.v1 Host.divsi,
    StableHlo.TRef.unary (TRef.of main_v82 : TRef sig ⟨S51040, .i32⟩) main_call7.v2 signi,
    StableHlo.TRef.unary (TRef.of main_c_19 : TRef sig ⟨S_, .i32⟩) main_call7.v3 signi,
    StableHlo.TRef.unary main_call7.v3 main_call7.v4 (broadcastInDim S51040 ![] bcast_S_S51040),
    StableHlo.TRef.binary main_call7.v2 main_call7.v4 main_call7.v5 (cmpi .ne),
    StableHlo.TRef.unary (TRef.of main_c_19 : TRef sig ⟨S_, .i32⟩) main_call7.v6 (broadcastInDim S51040 ![] bcast_S_S51040),
    StableHlo.TRef.binary (TRef.of main_v82 : TRef sig ⟨S51040, .i32⟩) main_call7.v6 main_call7.v7 Host.remsi,
    StableHlo.TRef.nullary main_call7.c (constantI S_ 32 0#32),
    StableHlo.TRef.unary main_call7.c main_call7.v8 (broadcastInDim S51040 ![] bcast_S_S51040),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S51040 ![] bcast_S_S51040),
    StableHlo.TRef.binary main_call7.v1 main_call7.v11 main_call7.v12 subi,
    StableHlo.TRef.ternary main_call7.v10 main_call7.v12 main_call7.v1 main_call7.call0.v0 select,
    StableHlo.nullary main_c_20 (constantI S_ 32 320#32),
    StableHlo.TRef.unary (TRef.of main_c_20 : TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S51040 ![] bcast_S_S51040),
    StableHlo.TRef.binary (TRef.of main_v83 : TRef sig ⟨S51040, .i32⟩) main_call8.v3 main_call8.v4 Host.remsi,
    StableHlo.TRef.nullary main_call8.c_1 (constantI S_ 32 0#32),
    StableHlo.TRef.unary main_call8.c_1 main_call8.v5 (broadcastInDim S51040 ![] bcast_S_S51040),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S51040 ![] bcast_S_S51040),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S51040 ![] bcast_S_S51040),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S51040 ![] bcast_S_S51040),
    StableHlo.TRef.binary main_call8.v4 main_call8.v13 main_call8.v14 addi,
    StableHlo.TRef.ternary main_call8.v12 main_call8.v14 main_call8.v4 main_call8.v15 select,
    StableHlo.nullary main_c_21 (constantI S_ 32 1#32),
    StableHlo.TRef.unary (TRef.of main_c_21 : TRef sig ⟨S_, .i32⟩) main_call9.v0 (broadcastInDim S51040 ![] bcast_S_S51040),
    StableHlo.TRef.binary (TRef.of main_v82 : TRef sig ⟨S51040, .i32⟩) main_call9.v0 main_call9.v1 Host.divsi,
    StableHlo.TRef.unary (TRef.of main_v82 : TRef sig ⟨S51040, .i32⟩) main_call9.v2 signi,
    StableHlo.TRef.unary (TRef.of main_c_21 : TRef sig ⟨S_, .i32⟩) main_call9.v3 signi,
    StableHlo.TRef.unary main_call9.v3 main_call9.v4 (broadcastInDim S51040 ![] bcast_S_S51040),
    StableHlo.TRef.binary main_call9.v2 main_call9.v4 main_call9.v5 (cmpi .ne),
    StableHlo.TRef.unary (TRef.of main_c_21 : TRef sig ⟨S_, .i32⟩) main_call9.v6 (broadcastInDim S51040 ![] bcast_S_S51040),
    StableHlo.TRef.binary (TRef.of main_v82 : TRef sig ⟨S51040, .i32⟩) main_call9.v6 main_call9.v7 Host.remsi,
    StableHlo.TRef.nullary main_call9.c (constantI S_ 32 0#32),
    StableHlo.TRef.unary main_call9.c main_call9.v8 (broadcastInDim S51040 ![] bcast_S_S51040),
    StableHlo.TRef.binary main_call9.v7 main_call9.v8 main_call9.v9 (cmpi .ne),
    StableHlo.TRef.binary main_call9.v5 main_call9.v9 main_call9.v10 andi,
    StableHlo.TRef.nullary main_call9.c_0 (constantI S_ 32 1#32),
    StableHlo.TRef.unary main_call9.c_0 main_call9.v11 (broadcastInDim S51040 ![] bcast_S_S51040),
    StableHlo.TRef.binary main_call9.v1 main_call9.v11 main_call9.v12 subi,
    StableHlo.TRef.ternary main_call9.v10 main_call9.v12 main_call9.v1 main_call9.call0.v0 select,
    StableHlo.nullary main_c_22 (constantI S_ 32 320#32),
    StableHlo.TRef.unary (TRef.of main_c_22 : TRef sig ⟨S_, .i32⟩) main_call10.v0 id,
    StableHlo.TRef.nullary main_call10.c (constantI S_ 32 0#32),
    StableHlo.TRef.binary main_call10.v0 main_call10.c main_call10.v1 (cmpi .eq),
    StableHlo.TRef.nullary main_call10.c_0 (constantI S_ 32 1#32),
    StableHlo.TRef.ternary main_call10.v1 main_call10.c_0 main_call10.v0 main_call10.call0.v0 select,
    StableHlo.TRef.unary main_call10.call0.v0 main_call10.v3 (broadcastInDim S51040 ![] bcast_S_S51040),
    StableHlo.TRef.binary (TRef.of main_v85 : TRef sig ⟨S51040, .i32⟩) main_call10.v3 main_call10.v4 Host.remsi,
    StableHlo.TRef.nullary main_call10.c_1 (constantI S_ 32 0#32),
    StableHlo.TRef.unary main_call10.c_1 main_call10.v5 (broadcastInDim S51040 ![] bcast_S_S51040),
    StableHlo.TRef.binary main_call10.v4 main_call10.v5 main_call10.v6 (cmpi .ne),
    StableHlo.TRef.nullary main_call10.c_2 (constantI S_ 32 0#32),
    StableHlo.TRef.unary main_call10.c_2 main_call10.v7 (broadcastInDim S51040 ![] bcast_S_S51040),
    StableHlo.TRef.binary main_call10.v4 main_call10.v7 main_call10.v8 (cmpi .slt),
    StableHlo.TRef.nullary main_call10.c_3 (constantI S_ 32 0#32),
    StableHlo.TRef.binary main_call10.call0.v0 main_call10.c_3 main_call10.v9 (cmpi .slt),
    StableHlo.TRef.unary main_call10.v9 main_call10.v10 (broadcastInDim S51040 ![] bcast_S_S51040),
    StableHlo.TRef.binary main_call10.v8 main_call10.v10 main_call10.v11 (cmpi .ne),
    StableHlo.TRef.binary main_call10.v11 main_call10.v6 main_call10.v12 andi,
    StableHlo.TRef.unary main_call10.call0.v0 main_call10.v13 (broadcastInDim S51040 ![] bcast_S_S51040),
    StableHlo.TRef.binary main_call10.v4 main_call10.v13 main_call10.v14 addi,
    StableHlo.TRef.ternary main_call10.v12 main_call10.v14 main_call10.v4 main_call10.v15 select,
    StableHlo.nullary main_c_23 (constantI S_ 32 0#32),
    StableHlo.unary main_c_23 main_v87 (broadcastInDim S51040 ![] bcast_S_S51040 : (⟨S_, .i32⟩ : BufTy).Contents (Elt F) → (⟨S51040, .i32⟩ : BufTy).Contents (Elt F)),
    StableHlo.binary main_v84 main_v87 main_v88 (cmpi .slt : (⟨S51040, .i32⟩ : BufTy).Contents (Elt F) → (⟨S51040, .i32⟩ : BufTy).Contents (Elt F) → (⟨S51040, .i1⟩ : BufTy).Contents (Elt F)),
    StableHlo.nullary main_c_24 (constantI S_ 32 320#32),
    StableHlo.unary main_c_24 main_v89 (broadcastInDim S51040 ![] bcast_S_S51040 : (⟨S_, .i32⟩ : BufTy).Contents (Elt F) → (⟨S51040, .i32⟩ : BufTy).Contents (Elt F)),
    StableHlo.binary main_v84 main_v89 main_v90 (addi : (⟨S51040, .i32⟩ : BufTy).Contents (Elt F) → (⟨S51040, .i32⟩ : BufTy).Contents (Elt F) → (⟨S51040, .i32⟩ : BufTy).Contents (Elt F)),
    StableHlo.ternary main_v88 main_v90 main_v84 main_v91 (select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)),
    StableHlo.nullary main_c_25 (constantI S_ 32 0#32) ]

/-- The operations 211 … 265 of 265: window main_part2 of @main, its calls replaced by their bodies. -/
abbrev ops_part2 : List (HloOp τ sig (Elt F)) :=
  [ StableHlo.unary main_c_25 main_v92 (broadcastInDim S51040 ![] bcast_S_S51040 : (⟨S_, .i32⟩ : BufTy).Contents (Elt F) → (⟨S51040, .i32⟩ : BufTy).Contents (Elt F)),
    StableHlo.binary main_v86 main_v92 main_v93 (cmpi .slt : (⟨S51040, .i32⟩ : BufTy).Contents (Elt F) → (⟨S51040, .i32⟩ : BufTy).Contents (Elt F) → (⟨S51040, .i1⟩ : BufTy).Contents (Elt F)),
    StableHlo.nullary main_c_26 (constantI S_ 32 320#32),
    StableHlo.unary main_c_26 main_v94 (broadcastInDim S51040 ![] bcast_S_S51040 : (⟨S_, .i32⟩ : BufTy).Contents (Elt F) → (⟨S51040, .i32⟩ : BufTy).Contents (Elt F)),
    StableHlo.binary main_v86 main_v94 main_v95 (addi : (⟨S51040, .i32⟩ : BufTy).Contents (Elt F) → (⟨S51040, .i32⟩ : BufTy).Contents (Elt F) → (⟨S51040, .i32⟩ : BufTy).Contents (Elt F)),
    StableHlo.ternary main_v93 main_v95 main_v86 main_v96 (select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)),
    StableHlo.unary main_v91 main_v97 (broadcastInDim S51040x1 ![0] bcast_S51040_S51040x1_0 : (⟨S51040, .i32⟩ : BufTy).Contents (Elt F) → (⟨S51040x1, .i32⟩ : BufTy).Contents (Elt F)),
    StableHlo.unary main_v96 main_v98 (broadcastInDim S51040x1 ![0] bcast_S51040_S51040x1_0 : (⟨S51040, .i32⟩ : BufTy).Contents (Elt F) → (⟨S51040x1, .i32⟩ : BufTy).Contents (Elt F)),
    StableHlo.binary main_v97 main_v98 main_v99 ((fun a b => concatenate S51040x2 1 [⟨S51040x1, a⟩, ⟨S51040x1, b⟩] concatenates_S51040x1_S51040x1_S51040x2_d1) : (⟨S51040x1, .i32⟩ : BufTy).Contents (Elt F) → (⟨S51040x1, .i32⟩ : BufTy).Contents (Elt F) → (⟨S51040x2, .i32⟩ : BufTy).Contents (Elt F)),
    StableHlo.binary main_v19 main_v99 main_v100 ((fun x i => Host.gather gather_S320x320_S51040x2_S51040_n_01_n_n_01_1_11 x i) : (⟨S320x320, .f32⟩ : BufTy).Contents (Elt F) → (⟨S51040x2, .i32⟩ : BufTy).Contents (Elt F) → (⟨S51040, .f32⟩ : BufTy).Contents (Elt F)),
    StableHlo.unary main_v100 main_v101 (broadcastInDim S1x51040 ![1] bcast_S51040_S1x51040_1 : (⟨S51040, .f32⟩ : BufTy).Contents (Elt F) → (⟨S1x51040, .f32⟩ : BufTy).Contents (Elt F)),
    StableHlo.nullary main_c_27 (constantI S_ 32 0#32),
    StableHlo.unary main_c_27 main_v102 (broadcastInDim S51040 ![] bcast_S_S51040 : (⟨S_, .i32⟩ : BufTy).Contents (Elt F) → (⟨S51040, .i32⟩ : BufTy).Contents (Elt F)),
    StableHlo.binary main_v84 main_v102 main_v103 (cmpi .slt : (⟨S51040, .i32⟩ : BufTy).Contents (Elt F) → (⟨S51040, .i32⟩ : BufTy).Contents (Elt F) → (⟨S51040, .i1⟩ : BufTy).Contents (Elt F)),
    StableHlo.nullary main_c_28 (constantI S_ 32 320#32),
    StableHlo.unary main_c_28 main_v104 (broadcastInDim S51040 ![] bcast_S_S51040 : (⟨S_, .i32⟩ : BufTy).Contents (Elt F) → (⟨S51040, .i32⟩ : BufTy).Contents (Elt F)),
    StableHlo.binary main_v84 main_v104 main_v105 (addi : (⟨S51040, .i32⟩ : BufTy).Contents (Elt F) → (⟨S51040, .i32⟩ : BufTy).Contents (Elt F) → (⟨S51040, .i32⟩ : BufTy).Contents (Elt F)),
    StableHlo.ternary main_v103 main_v105 main_v84 main_v106 (select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)),
    StableHlo.nullary main_c_29 (constantI S_ 32 0#32),
    StableHlo.unary main_c_29 main_v107 (broadcastInDim S51040 ![] bcast_S_S51040 : (⟨S_, .i32⟩ : BufTy).Contents (Elt F) → (⟨S51040, .i32⟩ : BufTy).Contents (Elt F)),
    StableHlo.binary main_v86 main_v107 main_v108 (cmpi .slt : (⟨S51040, .i32⟩ : BufTy).Contents (Elt F) → (⟨S51040, .i32⟩ : BufTy).Contents (Elt F) → (⟨S51040, .i1⟩ : BufTy).Contents (Elt F)),
    StableHlo.nullary main_c_30 (constantI S_ 32 320#32),
    StableHlo.unary main_c_30 main_v109 (broadcastInDim S51040 ![] bcast_S_S51040 : (⟨S_, .i32⟩ : BufTy).Contents (Elt F) → (⟨S51040, .i32⟩ : BufTy).Contents (Elt F)),
    StableHlo.binary main_v86 main_v109 main_v110 (addi : (⟨S51040, .i32⟩ : BufTy).Contents (Elt F) → (⟨S51040, .i32⟩ : BufTy).Contents (Elt F) → (⟨S51040, .i32⟩ : BufTy).Contents (Elt F)),
    StableHlo.ternary main_v108 main_v110 main_v86 main_v111 (select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)),
    StableHlo.unary main_v106 main_v112 (broadcastInDim S51040x1 ![0] bcast_S51040_S51040x1_0 : (⟨S51040, .i32⟩ : BufTy).Contents (Elt F) → (⟨S51040x1, .i32⟩ : BufTy).Contents (Elt F)),
    StableHlo.unary main_v111 main_v113 (broadcastInDim S51040x1 ![0] bcast_S51040_S51040x1_0 : (⟨S51040, .i32⟩ : BufTy).Contents (Elt F) → (⟨S51040x1, .i32⟩ : BufTy).Contents (Elt F)),
    StableHlo.binary main_v112 main_v113 main_v114 ((fun a b => concatenate S51040x2 1 [⟨S51040x1, a⟩, ⟨S51040x1, b⟩] concatenates_S51040x1_S51040x1_S51040x2_d1) : (⟨S51040x1, .i32⟩ : BufTy).Contents (Elt F) → (⟨S51040x1, .i32⟩ : BufTy).Contents (Elt F) → (⟨S51040x2, .i32⟩ : BufTy).Contents (Elt F)),
    StableHlo.binary main_v66 main_v114 main_v115 ((fun x i => Host.gather gather_S1001x320x320_S51040x2_S1001x51040_0_12_n_n_12_1_100111 x i) : (⟨S1001x320x320, .f32⟩ : BufTy).Contents (Elt F) → (⟨S51040x2, .i32⟩ : BufTy).Contents (Elt F) → (⟨S1001x51040, .f32⟩ : BufTy).Contents (Elt F)),
    StableHlo.unary main_v115 main_v116 (Host.sqrt : (⟨S1001x51040, .f32⟩ : BufTy).Contents (Elt F) → (⟨S1001x51040, .f32⟩ : BufTy).Contents (Elt F)),
    StableHlo.unary main_v101 main_v117 (broadcastInDim S1001x51040 ![0, 1] bcast_S1x51040_S1001x51040_0_1 : (⟨S1x51040, .f32⟩ : BufTy).Contents (Elt F) → (⟨S1001x51040, .f32⟩ : BufTy).Contents (Elt F)),
    StableHlo.binary main_v117 main_v116 main_v118 (mulf : (⟨S1001x51040, .f32⟩ : BufTy).Contents (Elt F) → (⟨S1001x51040, .f32⟩ : BufTy).Contents (Elt F) → (⟨S1001x51040, .f32⟩ : BufTy).Contents (Elt F)),
    StableHlo.nullary main_c_31 (constantI S_ 32 1#32),
    StableHlo.TRef.nullary main_call11.cst (constant S_ .f32 0x00000000#32),
    StableHlo.TRef.binary (TRef.of main_v118 : TRef sig ⟨S1001x51040, .f32⟩) main_call11.cst main_call11.v0 (fun x v => Host.reduceAdd x v reducesTo_S1001x51040_S1001_d1 h_S_),
    StableHlo.TRef.unary main_call11.v0 main_call11.v1 (broadcastInDim S1001x1 ![0] bcast_S1001_S1001x1_0),
    StableHlo.TRef.nullary main_call11.cst_0 (constant S_ .f32 0x47476000#32),
    StableHlo.TRef.unary main_call11.cst_0 main_call11.v2 (broadcastInDim S1001x1 ![] bcast_S_S1001x1),
    StableHlo.TRef.binary main_call11.v1 main_call11.v2 main_call11.v3 Host.divf,
    StableHlo.TRef.unary main_call11.v3 main_call11.v4 (broadcastInDim S1001x51040 ![0, 1] bcast_S1001x1_S1001x51040_0_1),
    StableHlo.TRef.binary (TRef.of main_v118 : TRef sig ⟨S1001x51040, .f32⟩) main_call11.v4 main_call11.v5 subf,
    StableHlo.TRef.binary main_call11.v5 main_call11.v5 main_call11.v6 mulf,
    StableHlo.TRef.unary (TRef.of main_c_31 : TRef sig ⟨S_, .i32⟩) main_call11.v7 (sitofp .f32),
    StableHlo.TRef.nullary main_call11.cst_1 (constant S_ .f32 0x47476000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S1001x51040_S1001_d1 h_S_),
    StableHlo.TRef.unary main_call11.v8 main_call11.v10 (broadcastInDim S1001 ![] bcast_S_S1001),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S1001 ![] bcast_S_S1001),
    StableHlo.TRef.ternary main_call11.v12 main_call11.v11 main_call11.call0.v1 main_call11.call0.v2 (fun p a b => select (broadcastInDim S1001 ![] bcast_S_S1001 p) a b) ]

/-- The reference's 265 operations, in order. -/
abbrev ops : List (HloOp τ sig (Elt F)) :=
  ops_part0 ++ (ops_part1 ++ (ops_part2))

/-- Window main_part0 is that stretch of the line: each call is its body over the call's buffers, and sequencing reassociates. -/
theorem main_part0_eq (c : Dev nD) : main_part0 (F := F) c = seq ops_part0 := by
  simp only [main_part0, fn_where.body, fn_where_0.body, fn_where_1.body, fn_triu.body, fn_cumsum.body, fn_cumsum_2.body, fn_clip.body, fn_cumsum_3.body, fn_cumsum_4.body, fn_floor_divide.body, fn_where_5.body, fn_remainder.body, fn_where_6.body, fn_var.body, fn_where_7.body, seq, bind_assoc, pure_bind] <;> rfl

/-- Window main_part1 is that stretch of the line: each call is its body over the call's buffers, and sequencing reassociates. -/
theorem main_part1_eq (c : Dev nD) : main_part1 (F := F) c = seq ops_part1 := by
  simp only [main_part1, fn_where.body, fn_where_0.body, fn_where_1.body, fn_triu.body, fn_cumsum.body, fn_cumsum_2.body, fn_clip.body, fn_cumsum_3.body, fn_cumsum_4.body, fn_floor_divide.body, fn_where_5.body, fn_remainder.body, fn_where_6.body, fn_var.body, fn_where_7.body, seq, bind_assoc, pure_bind] <;> rfl

/-- Window main_part2 is that stretch of the line: each call is its body over the call's buffers, and sequencing reassociates. -/
theorem main_part2_eq (c : Dev nD) : main_part2 (F := F) c = seq ops_part2 := by
  simp only [main_part2, fn_where.body, fn_where_0.body, fn_where_1.body, fn_triu.body, fn_cumsum.body, fn_cumsum_2.body, fn_clip.body, fn_cumsum_3.body, fn_cumsum_4.body, fn_floor_divide.body, fn_where_5.body, fn_remainder.body, fn_where_6.body, fn_var.body, fn_where_7.body, seq, bind_assoc, pure_bind] <;> rfl

/-- @main is the whole line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_part0_sub : (ops_part0 : List (HloOp τ sig (Elt F))).Forall fun op => op.bufs ⊆ tcRefs τ sig :=
  ⟨unary_bufs_sub .., nullary_bufs_sub .., unary_bufs_sub .., binary_bufs_sub .., unary_bufs_sub .., nullary_bufs_sub ..,
    unary_bufs_sub .., binary_bufs_sub .., unary_bufs_sub .., unary_bufs_sub .., binary_bufs_sub .., unary_bufs_sub ..,
    nullary_bufs_sub .., unary_bufs_sub .., binary_bufs_sub .., unary_bufs_sub .., nullary_bufs_sub .., unary_bufs_sub ..,
    binary_bufs_sub .., unary_bufs_sub .., unary_bufs_sub .., binary_bufs_sub .., nullary_bufs_sub .., unary_bufs_sub ..,
    unary_bufs_sub .., ternary_bufs_sub .., unary_bufs_sub .., ternary_bufs_sub .., nullary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., unary_bufs_sub .., binary_bufs_sub .., binary_bufs_sub .., unary_bufs_sub .., unary_bufs_sub ..,
    binary_bufs_sub .., unary_bufs_sub .., unary_bufs_sub ..⟩

theorem ops_part1_sub : (ops_part1 : List (HloOp τ sig (Elt F))).Forall fun op => op.bufs ⊆ tcRefs τ sig :=
  ⟨unary_bufs_sub .., binary_bufs_sub .., unary_bufs_sub .., ternary_bufs_sub .., unary_bufs_sub .., binary_bufs_sub ..,
    binary_bufs_sub .., nullary_bufs_sub .., binary_bufs_sub .., binary_bufs_sub .., unary_bufs_sub .., unary_bufs_sub ..,
    unary_bufs_sub .., unary_bufs_sub .., binary_bufs_sub .., nullary_bufs_sub .., unary_bufs_sub .., binary_bufs_sub ..,
    binary_bufs_sub .., nullary_bufs_sub .., unary_bufs_sub .., binary_bufs_sub .., nullary_bufs_sub .., unary_bufs_sub ..,
    nullary_bufs_sub .., nullary_bufs_sub .., unary_bufs_sub .., binary_bufs_sub .., nullary_bufs_sub .., binary_bufs_sub ..,
    nullary_bufs_sub .., unary_bufs_sub .., ternary_bufs_sub .., nullary_bufs_sub .., unary_bufs_sub .., binary_bufs_sub ..,
    reshape_bufs_sub .., unary_bufs_sub .., nullary_bufs_sub .., unary_bufs_sub .., binary_bufs_sub .., nullary_bufs_sub ..,
    unary_bufs_sub .., nullary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., nullary_bufs_sub ..⟩

theorem ops_part2_sub : (ops_part2 : List (HloOp τ sig (Elt F))).Forall fun op => op.bufs ⊆ tcRefs τ sig :=
  ⟨unary_bufs_sub .., binary_bufs_sub .., nullary_bufs_sub .., unary_bufs_sub .., binary_bufs_sub .., ternary_bufs_sub ..,
    unary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., unary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

/-- For any float values, from any memory with zero counters: every weakly fair execution of @main on the TensorCores
    terminates, and every final state has each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefFrame.lean ====
/-
  The reference's run read window by window: the buffer contents after each window of the operation list, which buffers a
  window writes, that the five arguments are written by none, and the frame: the reference runs and its arguments end unchanged.
-/
import proofs.«138780_j25872882991128_2_alg».proof.Proof.RefOps
import proofs.«138780_j25872882991128_2_alg».proof.Proof.Gen.Pre_finite_inputs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two lines' fold is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The operations 1 … 28 of the line. -/
abbrev ops_w0 : List (HloOp τ sig (Elt F)) :=
  [ StableHlo.unary main_arg3 main_v0 (broadcastInDim S320x1 ![0] bcast_S320_S320x1_0 : (⟨S320, .i32⟩ : BufTy).Contents (Elt F) → (⟨S320x1, .i32⟩ : BufTy).Contents (Elt F)),
    StableHlo.nullary main_c (constantI S_ 32 0#32),
    StableHlo.unary main_c main_v1 (broadcastInDim S320x1 ![] bcast_S_S320x1 : (⟨S_, .i32⟩ : BufTy).Contents (Elt F) → (⟨S320x1, .i32⟩ : BufTy).Contents (Elt F)),
    StableHlo.binary main_v0 main_v1 main_v2 (cmpi .eq : (⟨S320x1, .i32⟩ : BufTy).Contents (Elt F) → (⟨S320x1, .i32⟩ : BufTy).Contents (Elt F) → (⟨S320x1, .i1⟩ : BufTy).Contents (Elt F)),
    StableHlo.unary main_arg3 main_v3 (broadcastInDim S1x320 ![1] bcast_S320_S1x320_1 : (⟨S320, .i32⟩ : BufTy).Contents (Elt F) → (⟨S1x320, .i32⟩ : BufTy).Contents (Elt F)),
    StableHlo.nullary main_c_0 (constantI S_ 32 0#32),
    StableHlo.unary main_c_0 main_v4 (broadcastInDim S1x320 ![] bcast_S_S1x320 : (⟨S_, .i32⟩ : BufTy).Contents (Elt F) → (⟨S1x320, .i32⟩ : BufTy).Contents (Elt F)),
    StableHlo.binary main_v3 main_v4 main_v5 (cmpi .eq : (⟨S1x320, .i32⟩ : BufTy).Contents (Elt F) → (⟨S1x320, .i32⟩ : BufTy).Contents (Elt F) → (⟨S1x320, .i1⟩ : BufTy).Contents (Elt F)),
    StableHlo.unary main_v2 main_v6 (broadcastInDim S320x320 ![0, 1] bcast_S320x1_S320x320_0_1 : (⟨S320x1, .i1⟩ : BufTy).Contents (Elt F) → (⟨S320x320, .i1⟩ : BufTy).Contents (Elt F)),
    StableHlo.unary main_v5 main_v7 (broadcastInDim S320x320 ![0, 1] bcast_S1x320_S320x320_0_1 : (⟨S1x320, .i1⟩ : BufTy).Contents (Elt F) → (⟨S320x320, .i1⟩ : BufTy).Contents (Elt F)),
    StableHlo.binary main_v6 main_v7 main_v8 (andi : (⟨S320x320, .i1⟩ : BufTy).Contents (Elt F) → (⟨S320x320, .i1⟩ : BufTy).Contents (Elt F) → (⟨S320x320, .i1⟩ : BufTy).Contents (Elt F)),
    StableHlo.unary main_arg3 main_v9 (broadcastInDim S320x1 ![0] bcast_S320_S320x1_0 : (⟨S320, .i32⟩ : BufTy).Contents (Elt F) → (⟨S320x1, .i32⟩ : BufTy).Contents (Elt F)),
    StableHlo.nullary main_c_1 (constantI S_ 32 1#32),
    StableHlo.unary main_c_1 main_v10 (broadcastInDim S320x1 ![] bcast_S_S320x1 : (⟨S_, .i32⟩ : BufTy).Contents (Elt F) → (⟨S320x1, .i32⟩ : BufTy).Contents (Elt F)),
    StableHlo.binary main_v9 main_v10 main_v11 (cmpi .eq : (⟨S320x1, .i32⟩ : BufTy).Contents (Elt F) → (⟨S320x1, .i32⟩ : BufTy).Contents (Elt F) → (⟨S320x1, .i1⟩ : BufTy).Contents (Elt F)),
    StableHlo.unary main_arg3 main_v12 (broadcastInDim S1x320 ![1] bcast_S320_S1x320_1 : (⟨S320, .i32⟩ : BufTy).Contents (Elt F) → (⟨S1x320, .i32⟩ : BufTy).Contents (Elt F)),
    StableHlo.nullary main_c_2 (constantI S_ 32 1#32),
    StableHlo.unary main_c_2 main_v13 (broadcastInDim S1x320 ![] bcast_S_S1x320 : (⟨S_, .i32⟩ : BufTy).Contents (Elt F) → (⟨S1x320, .i32⟩ : BufTy).Contents (Elt F)),
    StableHlo.binary main_v12 main_v13 main_v14 (cmpi .eq : (⟨S1x320, .i32⟩ : BufTy).Contents (Elt F) → (⟨S1x320, .i32⟩ : BufTy).Contents (Elt F) → (⟨S1x320, .i1⟩ : BufTy).Contents (Elt F)),
    StableHlo.unary main_v11 main_v15 (broadcastInDim S320x320 ![0, 1] bcast_S320x1_S320x320_0_1 : (⟨S320x1, .i1⟩ : BufTy).Contents (Elt F) → (⟨S320x320, .i1⟩ : BufTy).Contents (Elt F)),
    StableHlo.unary main_v14 main_v16 (broadcastInDim S320x320 ![0, 1] bcast_S1x320_S320x320_0_1 : (⟨S1x320, .i1⟩ : BufTy).Contents (Elt F) → (⟨S320x320, .i1⟩ : BufTy).Contents (Elt F)),
    StableHlo.binary main_v15 main_v16 main_v17 (andi : (⟨S320x320, .i1⟩ : BufTy).Contents (Elt F) → (⟨S320x320, .i1⟩ : BufTy).Contents (Elt F) → (⟨S320x320, .i1⟩ : BufTy).Contents (Elt F)),
    StableHlo.nullary main_cst (constant S_ .f32 0x3F800000#32),
    StableHlo.TRef.unary (TRef.of main_arg2 : TRef sig ⟨S_, .f32⟩) main_call0.v0 (broadcastInDim S320x320 ![] bcast_S_S320x320),
    StableHlo.TRef.unary (TRef.of main_cst : TRef sig ⟨S_, .f32⟩) main_call0.v1 (broadcastInDim S320x320 ![] bcast_S_S320x320),
    StableHlo.TRef.ternary (TRef.of main_v17 : TRef sig ⟨S320x320, .i1⟩) main_call0.v0 main_call0.v1 main_call0.v2 select,
    StableHlo.TRef.unary (TRef.of main_arg1 : TRef sig ⟨S_, .f32⟩) main_call1.v0 (broadcastInDim S320x320 ![] bcast_S_S320x320),
    StableHlo.TRef.ternary (TRef.of main_v8 : TRef sig ⟨S320x320, .i1⟩) main_call1.v0 (TRef.of main_v18 : TRef sig ⟨S320x320, .f32⟩) main_call1.v1 select ]

/-- The operations 29 … 38 of the line. -/
abbrev ops_w1 : List (HloOp τ sig (Elt F)) :=
  [ StableHlo.nullary main_v20 (iotaInDim S320 32 0),
    StableHlo.nullary main_c_3 (constantI S_ 32 0#32),
    StableHlo.unary main_c_3 main_v21 (broadcastInDim S1000x320 ![] bcast_S_S1000x320 : (⟨S_, .i32⟩ : BufTy).Contents (Elt F) → (⟨S1000x320, .i32⟩ : BufTy).Contents (Elt F)),
    StableHlo.binary main_arg4 main_v21 main_v22 (cmpi .slt : (⟨S1000x320, .i32⟩ : BufTy).Contents (Elt F) → (⟨S1000x320, .i32⟩ : BufTy).Contents (Elt F) → (⟨S1000x320, .i1⟩ : BufTy).Contents (Elt F)),
    StableHlo.nullary main_c_4 (constantI S_ 32 320#32),
    StableHlo.unary main_c_4 main_v23 (broadcastInDim S1000x320 ![] bcast_S_S1000x320 : (⟨S_, .i32⟩ : BufTy).Contents (Elt F) → (⟨S1000x320, .i32⟩ : BufTy).Contents (Elt F)),
    StableHlo.binary main_arg4 main_v23 main_v24 (addi : (⟨S1000x320, .i32⟩ : BufTy).Contents (Elt F) → (⟨S1000x320, .i32⟩ : BufTy).Contents (Elt F) → (⟨S1000x320, .i32⟩ : BufTy).Contents (Elt F)),
    StableHlo.ternary main_v22 main_v24 main_arg4 main_v25 (select : (⟨S1000x320, .i1⟩ : BufTy).Contents (Elt F) → (⟨S1000x320, .i32⟩ : BufTy).Contents (Elt F) → (⟨S1000x320, .i32⟩ : BufTy).Contents (Elt F) → (⟨S1000x320, .i32⟩ : BufTy).Contents (Elt F)),
    StableHlo.unary main_v25 main_v26 (broadcastInDim S1000x320x1 ![0, 1] bcast_S1000x320_S1000x320x1_0_1 : (⟨S1000x320, .i32⟩ : BufTy).Contents (Elt F) → (⟨S1000x320x1, .i32⟩ : BufTy).Contents (Elt F)),
    StableHlo.binary main_arg0 main_v26 main_v27 ((fun x i => Host.gather gather_S320x64_S1000x320x1_S1000x320x64_2_0_n_n_0_2_164 x i) : (⟨S320x64, .f32⟩ : BufTy).Contents (Elt F) → (⟨S1000x320x1, .i32⟩ : BufTy).Contents (Elt F) → (⟨S1000x320x64, .f32⟩ : BufTy).Contents (Elt F)) ]

/-- The operations 39 … 57 of the line. -/
abbrev ops_w2 : List (HloOp τ sig (Elt F)) :=
  [ StableHlo.unary main_v20 main_v28 (broadcastInDim S1x320 ![1] bcast_S320_S1x320_1 : (⟨S320, .i32⟩ : BufTy).Contents (Elt F) → (⟨S1x320, .i32⟩ : BufTy).Contents (Elt F)),
    StableHlo.nullary main_c_5 (constantI S_ 32 0#32),
    StableHlo.unary main_c_5 main_v29 (broadcastInDim S1x320 ![] bcast_S_S1x320 : (⟨S_, .i32⟩ : BufTy).Contents (Elt F) → (⟨S1x320, .i32⟩ : BufTy).Contents (Elt F)),
    StableHlo.binary main_v28 main_v29 main_v30 (cmpi .slt : (⟨S1x320, .i32⟩ : BufTy).Contents (Elt F) → (⟨S1x320, .i32⟩ : BufTy).Contents (Elt F) → (⟨S1x320, .i1⟩ : BufTy).Contents (Elt F)),
    StableHlo.nullary main_c_6 (constantI S_ 32 320#32),
    StableHlo.unary main_c_6 main_v31 (broadcastInDim S1x320 ![] bcast_S_S1x320 : (⟨S_, .i32⟩ : BufTy).Contents (Elt F) → (⟨S1x320, .i32⟩ : BufTy).Contents (Elt F)),
    StableHlo.binary main_v28 main_v31 main_v32 (addi : (⟨S1x320, .i32⟩ : BufTy).Contents (Elt F) → (⟨S1x320, .i32⟩ : BufTy).Contents (Elt F) → (⟨S1x320, .i32⟩ : BufTy).Contents (Elt F)),
    StableHlo.ternary main_v30 main_v32 main_v28 main_v33 (select : (⟨S1x320, .i1⟩ : BufTy).Contents (Elt F) → (⟨S1x320, .i32⟩ : BufTy).Contents (Elt F) → (⟨S1x320, .i32⟩ : BufTy).Contents (Elt F) → (⟨S1x320, .i32⟩ : BufTy).Contents (Elt F)),
    StableHlo.nullary main_c_7 (constantI S_ 32 0#32),
    StableHlo.unary main_c_7 main_v34 (broadcastInDim S1000x320 ![] bcast_S_S1000x320 : (⟨S_, .i32⟩ : BufTy).Contents (Elt F) → (⟨S1000x320, .i32⟩ : BufTy).Contents (Elt F)),
    StableHlo.binary main_arg4 main_v34 main_v35 (cmpi .slt : (⟨S1000x320, .i32⟩ : BufTy).Contents (Elt F) → (⟨S1000x320, .i32⟩ : BufTy).Contents (Elt F) → (⟨S1000x320, .i1⟩ : BufTy).Contents (Elt F)),
    StableHlo.nullary main_c_8 (constantI S_ 32 320#32),
    StableHlo.unary main_c_8 main_v36 (broadcastInDim S1000x320 ![] bcast_S_S1000x320 : (⟨S_, .i32⟩ : BufTy).Contents (Elt F) → (⟨S1000x320, .i32⟩ : BufTy).Contents (Elt F)),
    StableHlo.binary main_arg4 main_v36 main_v37 (addi : (⟨S1000x320, .i32⟩ : BufTy).Contents (Elt F) → (⟨S1000x320, .i32⟩ : BufTy).Contents (Elt F) → (⟨S1000x320, .i32⟩ : BufTy).Contents (Elt F)),
    StableHlo.ternary main_v35 main_v37 main_arg4 main_v38 (select : (⟨S1000x320, .i1⟩ : BufTy).Contents (Elt F) → (⟨S1000x320, .i32⟩ : BufTy).Contents (Elt F) → (⟨S1000x320, .i32⟩ : BufTy).Contents (Elt F) → (⟨S1000x320, .i32⟩ : BufTy).Contents (Elt F)),
    StableHlo.unary main_v33 main_v39 (broadcastInDim S1000x320 ![0, 1] bcast_S1x320_S1000x320_0_1 : (⟨S1x320, .i32⟩ : BufTy).Contents (Elt F) → (⟨S1000x320, .i32⟩ : BufTy).Contents (Elt F)),
    StableHlo.unary main_v39 main_v40 (broadcastInDim S1000x320x1 ![0, 1] bcast_S1000x320_S1000x320x1_0_1 : (⟨S1000x320, .i32⟩ : BufTy).Contents (Elt F) → (⟨S1000x320x1, .i32⟩ : BufTy).Contents (Elt F)),
    StableHlo.unary main_v38 main_v41 (broadcastInDim S1000x320x1 ![0, 1] bcast_S1000x320_S1000x320x1_0_1 : (⟨S1000x320, .i32⟩ : BufTy).Contents (Elt F) → (⟨S1000x320x1, .i32⟩ : BufTy).Contents (Elt F)),
    StableHlo.binary main_v40 main_v41 main_v42 ((fun a b => concatenate S1000x320x2 2 [⟨S1000x320x1, a⟩, ⟨S1000x320x1, b⟩] concatenates_S1000x320x1_S1000x320x1_S1000x320x2_d2) : (⟨S1000x320x1, .i32⟩ : BufTy).Contents (Elt F) → (⟨S1000x320x1, .i32⟩ : BufTy).Contents (Elt F) → (⟨S1000x320x2, .i32⟩ : BufTy).Contents (Elt F)) ]

/-- The operations 58 … 58 of the line. -/
abbrev ops_w3 : List (HloOp τ sig (Elt F)) :=
  [ StableHlo.binary main_v19 main_v42 main_v43 ((fun x i => Host.gather gather_S320x320_S1000x320x2_S1000x320_n_01_n_n_01_2_11 x i) : (⟨S320x320, .f32⟩ : BufTy).Contents (Elt F) → (⟨S1000x320x2, .i32⟩ : BufTy).Contents (Elt F) → (⟨S1000x320, .f32⟩ : BufTy).Contents (Elt F)) ]

/-- The operations 59 … 62 of the line. -/
abbrev ops_w4 : List (HloOp τ sig (Elt F)) :=
  [ StableHlo.unary main_v20 main_v44 (broadcastInDim S1x320 ![1] bcast_S320_S1x320_1 : (⟨S320, .i32⟩ : BufTy).Contents (Elt F) → (⟨S1x320, .i32⟩ : BufTy).Contents (Elt F)),
    StableHlo.unary main_v44 main_v45 (broadcastInDim S1000x320 ![0, 1] bcast_S1x320_S1000x320_0_1 : (⟨S1x320, .i32⟩ : BufTy).Contents (Elt F) → (⟨S1000x320, .i32⟩ : BufTy).Contents (Elt F)),
    StableHlo.binary main_arg4 main_v45 main_v46 (cmpi .eq : (⟨S1000x320, .i32⟩ : BufTy).Contents (Elt F) → (⟨S1000x320, .i32⟩ : BufTy).Contents (Elt F) → (⟨S1000x320, .i1⟩ : BufTy).Contents (Elt F)),
    StableHlo.unary main_v46 main_v47 (broadcastInDim S1000x320x1 ![0, 1] bcast_S1000x320_S1000x320x1_0_1 : (⟨S1000x320, .i1⟩ : BufTy).Contents (Elt F) → (⟨S1000x320x1, .i1⟩ : BufTy).Contents (Elt F)) ]

/-- The operations 63 … 63 of the line. -/
abbrev ops_w5 : List (HloOp τ sig (Elt F)) :=
  [ StableHlo.unary main_v43 main_v48 (broadcastInDim S1000x320x1 ![0, 1] bcast_S1000x320_S1000x320x1_0_1 : (⟨S1000x320, .f32⟩ : BufTy).Contents (Elt F) → (⟨S1000x320x1, .f32⟩ : BufTy).Contents (Elt F)) ]

/-- The operations 64 … 69 of the line. -/
abbrev ops_w6 : List (HloOp τ sig (Elt F)) :=
  [ StableHlo.unary main_v48 main_v49 (broadcastInDim S1000x320x64 ![0, 1, 2] bcast_S1000x320x1_S1000x320x64_0_1_2 : (⟨S1000x320x1, .f32⟩ : BufTy).Contents (Elt F) → (⟨S1000x320x64, .f32⟩ : BufTy).Contents (Elt F)),
    StableHlo.binary main_v49 main_v27 main_v50 (mulf : (⟨S1000x320x64, .f32⟩ : BufTy).Contents (Elt F) → (⟨S1000x320x64, .f32⟩ : BufTy).Contents (Elt F) → (⟨S1000x320x64, .f32⟩ : BufTy).Contents (Elt F)),
    StableHlo.TRef.unary (TRef.of main_v47 : TRef sig ⟨S1000x320x1, .i1⟩) main_call2.v0 (broadcastInDim S1000x320x64 ![0, 1, 2] bcast_S1000x320x1_S1000x320x64_0_1_2),
    StableHlo.TRef.ternary main_call2.v0 (TRef.of main_v27 : TRef sig ⟨S1000x320x64, .f32⟩) (TRef.of main_v50 : TRef sig ⟨S1000x320x64, .f32⟩) main_call2.v1 select,
    StableHlo.unary main_arg0 main_v52 (broadcastInDim S1x320x64 ![1, 2] bcast_S320x64_S1x320x64_1_2 : (⟨S320x64, .f32⟩ : BufTy).Contents (Elt F) → (⟨S1x320x64, .f32⟩ : BufTy).Contents (Elt F)),
    StableHlo.binary main_v52 main_v51 main_v53 ((fun a b => concatenate S1001x320x64 0 [⟨S1x320x64, a⟩, ⟨S1000x320x64, b⟩] concatenates_S1x320x64_S1000x320x64_S1001x320x64_d0) : (⟨S1x320x64, .f32⟩ : BufTy).Contents (Elt F) → (⟨S1000x320x64, .f32⟩ : BufTy).Contents (Elt F) → (⟨S1001x320x64, .f32⟩ : BufTy).Contents (Elt F)) ]

/-- The operations 70 … 72 of the line. -/
abbrev ops_w7 : List (HloOp τ sig (Elt F)) :=
  [ StableHlo.binary main_v53 main_v53 main_v54 (mulf : (⟨S1001x320x64, .f32⟩ : BufTy).Contents (Elt F) → (⟨S1001x320x64, .f32⟩ : BufTy).Contents (Elt F) → (⟨S1001x320x64, .f32⟩ : BufTy).Contents (Elt F)),
    StableHlo.nullary main_cst_9 (constant S_ .f32 0x00000000#32),
    StableHlo.binary main_v54 main_cst_9 main_v55 ((fun x v => Host.reduceAdd x v reducesTo_S1001x320x64_S1001x320_d2 h_S_) : (⟨S1001x320x64, .f32⟩ : BufTy).Contents (Elt F) → (⟨S_, .f32⟩ : BufTy).Contents (Elt F) → (⟨S1001x320, .f32⟩ : BufTy).Contents (Elt F)) ]

/-- The operations 73 … 73 of the line. -/
abbrev ops_w8 : List (HloOp τ sig (Elt F)) :=
  [ StableHlo.binary main_v53 main_v53 main_v56 ((fun l r => Host.dotGeneral dot_S1001x320x64_S1001x320x64_S1001x320x320_2_2_1_1_0_0 none l r) : (⟨S1001x320x64, .f32⟩ : BufTy).Contents (Elt F) → (⟨S1001x320x64, .f32⟩ : BufTy).Contents (Elt F) → (⟨S1001x320x320, .f32⟩ : BufTy).Contents (Elt F)) ]

/-- The operations 74 … 85 of the line. -/
abbrev ops_w9 : List (HloOp τ sig (Elt F)) :=
  [ StableHlo.unary main_v55 main_v57 (broadcastInDim S1001x320x1 ![0, 1] bcast_S1001x320_S1001x320x1_0_1 : (⟨S1001x320, .f32⟩ : BufTy).Contents (Elt F) → (⟨S1001x320x1, .f32⟩ : BufTy).Contents (Elt F)),
    StableHlo.unary main_v55 main_v58 (broadcastInDim S1001x1x320 ![0, 2] bcast_S1001x320_S1001x1x320_0_2 : (⟨S1001x320, .f32⟩ : BufTy).Contents (Elt F) → (⟨S1001x1x320, .f32⟩ : BufTy).Contents (Elt F)),
    StableHlo.unary main_v57 main_v59 (broadcastInDim S1001x320x320 ![0, 1, 2] bcast_S1001x320x1_S1001x320x320_0_1_2 : (⟨S1001x320x1, .f32⟩ : BufTy).Contents (Elt F) → (⟨S1001x320x320, .f32⟩ : BufTy).Contents (Elt F)),
    StableHlo.unary main_v58 main_v60 (broadcastInDim S1001x320x320 ![0, 1, 2] bcast_S1001x1x320_S1001x320x320_0_1_2 : (⟨S1001x1x320, .f32⟩ : BufTy).Contents (Elt F) → (⟨S1001x320x320, .f32⟩ : BufTy).Contents (Elt F)),
    StableHlo.binary main_v59 main_v60 main_v61 (addf : (⟨S1001x320x320, .f32⟩ : BufTy).Contents (Elt F) → (⟨S1001x320x320, .f32⟩ : BufTy).Contents (Elt F) → (⟨S1001x320x320, .f32⟩ : BufTy).Contents (Elt F)),
    StableHlo.nullary main_cst_10 (constant S_ .f32 0x40000000#32),
    StableHlo.unary main_cst_10 main_v62 (broadcastInDim S1001x320x320 ![] bcast_S_S1001x320x320 : (⟨S_, .f32⟩ : BufTy).Contents (Elt F) → (⟨S1001x320x320, .f32⟩ : BufTy).Contents (Elt F)),
    StableHlo.binary main_v62 main_v56 main_v63 (mulf : (⟨S1001x320x320, .f32⟩ : BufTy).Contents (Elt F) → (⟨S1001x320x320, .f32⟩ : BufTy).Contents (Elt F) → (⟨S1001x320x320, .f32⟩ : BufTy).Contents (Elt F)),
    StableHlo.binary main_v61 main_v63 main_v64 (subf : (⟨S1001x320x320, .f32⟩ : BufTy).Contents (Elt F) → (⟨S1001x320x320, .f32⟩ : BufTy).Contents (Elt F) → (⟨S1001x320x320, .f32⟩ : BufTy).Contents (Elt F)),
    StableHlo.nullary main_cst_11 (constant S_ .f32 0x00000000#32),
    StableHlo.unary main_cst_11 main_v65 (broadcastInDim S1001x320x320 ![] bcast_S_S1001x320x320 : (⟨S_, .f32⟩ : BufTy).Contents (Elt F) → (⟨S1001x320x320, .f32⟩ : BufTy).Contents (Elt F)),
    StableHlo.binary main_v64 main_v65 main_v66 (maximumf : (⟨S1001x320x320, .f32⟩ : BufTy).Contents (Elt F) → (⟨S1001x320x320, .f32⟩ : BufTy).Contents (Elt F) → (⟨S1001x320x320, .f32⟩ : BufTy).Contents (Elt F)) ]

/-- The operations 86 … 104 of the line. -/
abbrev ops_w10 : List (HloOp τ sig (Elt F)) :=
  [ StableHlo.nullary main_cst_12 (constant S_ .f32 0x3F800000#32),
    StableHlo.unary main_cst_12 main_v67 (broadcastInDim S320x320 ![] bcast_S_S320x320 : (⟨S_, .f32⟩ : BufTy).Contents (Elt F) → (⟨S320x320, .f32⟩ : BufTy).Contents (Elt F)),
    StableHlo.TRef.nullary main_call3.v0 (iotaInDim S320x320 32 0),
    StableHlo.TRef.nullary main_call3.c (constantI S_ 32 0#32),
    StableHlo.TRef.unary main_call3.c main_call3.v1 (broadcastInDim S320x320 ![] bcast_S_S320x320),
    StableHlo.TRef.binary main_call3.v0 main_call3.v1 main_call3.v2 addi,
    StableHlo.TRef.nullary main_call3.v3 (iotaInDim S320x320 32 1),
    StableHlo.TRef.binary main_call3.v2 main_call3.v3 main_call3.v4 (cmpi .sge),
    StableHlo.TRef.nullary main_call3.cst (constant S_ .f32 0x00000000#32),
    StableHlo.TRef.unary main_call3.cst main_call3.v5 (broadcastInDim S320x320 ![] bcast_S_S320x320),
    StableHlo.TRef.ternary main_call3.v4 main_call3.v5 (TRef.of main_v67 : TRef sig ⟨S320x320, .f32⟩) main_call3.v6 select,
    StableHlo.nullary main_cst_13 (constant S_ .f32 0x00000000#32),
    StableHlo.unary main_cst_13 main_v69 (broadcastInDim S320x320 ![] bcast_S_S320x320 : (⟨S_, .f32⟩ : BufTy).Contents (Elt F) → (⟨S320x320, .f32⟩ : BufTy).Contents (Elt F)),
    StableHlo.binary main_v68 main_v69 main_v70 (cmpf .une : (⟨S320x320, .f32⟩ : BufTy).Contents (Elt F) → (⟨S320x320, .f32⟩ : BufTy).Contents (Elt F) → (⟨S320x320, .i1⟩ : BufTy).Contents (Elt F)),
    StableHlo.TRef.reshape (TRef.of main_v70 : TRef sig ⟨S320x320, .i1⟩) main_call4.v0 rfl shapeCasts_S320x320_S102400,
    StableHlo.TRef.unary main_call4.v0 main_call4.v1 (extui 32 · natLt_1_32),
    StableHlo.TRef.nullary main_call4.call0.c (constantI S_ 32 0#32),
    StableHlo.TRef.unary main_call4.call0.c main_call4.call0.v0 (broadcastInDim S_ ![] bcast_S_S_),
    StableHlo.TRef.binary main_call4.v1 main_call4.call0.v0 main_call4.call0.v1 (fun x v => Host.reduceWindow IntOp.addi ![102400] ![1] ![102399] ![0] x v reduceWindows_S102400_S102400_w102400s1p102399_0 h_S_) ]

/-- The operations 105 … 110 of the line. -/
abbrev ops_w11 : List (HloOp τ sig (Elt F)) :=
  [ StableHlo.nullary main_c_14 (constantI S_ 32 0#32),
    StableHlo.unary main_c_14 main_v72 (broadcastInDim S51040 ![] bcast_S_S51040 : (⟨S_, .i32⟩ : BufTy).Contents (Elt F) → (⟨S51040, .i32⟩ : BufTy).Contents (Elt F)),
    StableHlo.nullary main_c_15 (constantI S_ 32 0#32),
    StableHlo.TRef.unary (TRef.of main_c_15 : TRef sig ⟨S_, .i32⟩) main_call5.v0 id,
    StableHlo.TRef.unary main_call5.v0 main_call5.v1 (broadcastInDim S102400 ![] bcast_S_S102400),
    StableHlo.TRef.binary main_call5.v1 (TRef.of main_v71 : TRef sig ⟨S102400, .i32⟩) main_call5.v2 maxsi ]

/-- The operations 111 … 121 of the line. -/
abbrev ops_w12 : List (HloOp τ sig (Elt F)) :=
  [ StableHlo.nullary main_c_16 (constantI S_ 32 0#32),
    StableHlo.unary main_c_16 main_v74 (broadcastInDim S102400 ![] bcast_S_S102400 : (⟨S_, .i32⟩ : BufTy).Contents (Elt F) → (⟨S102400, .i32⟩ : BufTy).Contents (Elt F)),
    StableHlo.binary main_v73 main_v74 main_v75 (cmpi .slt : (⟨S102400, .i32⟩ : BufTy).Contents (Elt F) → (⟨S102400, .i32⟩ : BufTy).Contents (Elt F) → (⟨S102400, .i1⟩ : BufTy).Contents (Elt F)),
    StableHlo.nullary main_c_17 (constantI S_ 32 51040#32),
    StableHlo.unary main_c_17 main_v76 (broadcastInDim S102400 ![] bcast_S_S102400 : (⟨S_, .i32⟩ : BufTy).Contents (Elt F) → (⟨S102400, .i32⟩ : BufTy).Contents (Elt F)),
    StableHlo.binary main_v73 main_v76 main_v77 (addi : (⟨S102400, .i32⟩ : BufTy).Contents (Elt F) → (⟨S102400, .i32⟩ : BufTy).Contents (Elt F) → (⟨S102400, .i32⟩ : BufTy).Contents (Elt F)),
    StableHlo.ternary main_v75 main_v77 main_v73 main_v78 (select : (⟨S102400, .i1⟩ : BufTy).Contents (Elt F) → (⟨S102400, .i32⟩ : BufTy).Contents (Elt F) → (⟨S102400, .i32⟩ : BufTy).Contents (Elt F) → (⟨S102400, .i32⟩ : BufTy).Contents (Elt F)),
    StableHlo.unary main_v78 main_v79 (broadcastInDim S102400x1 ![0] bcast_S102400_S102400x1_0 : (⟨S102400, .i32⟩ : BufTy).Contents (Elt F) → (⟨S102400x1, .i32⟩ : BufTy).Contents (Elt F)),
    StableHlo.nullary main_c_18 (constantI S_ 32 1#32),
    StableHlo.unary main_c_18 main_v80 (broadcastInDim S102400 ![] bcast_S_S102400 : (⟨S_, .i32⟩ : BufTy).Contents (Elt F) → (⟨S102400, .i32⟩ : BufTy).Contents (Elt F)),
    StableHlo.ternary main_v72 main_v79 main_v80 main_v81 ((fun x i u => Host.scatter scatter_S51040_S102400x1_S102400_n_0_0_1 IntOp.addi x i u) : (⟨S51040, .i32⟩ : BufTy).Contents (Elt F) → (⟨S102400x1, .i32⟩ : BufTy).Contents (Elt F) → (⟨S102400, .i32⟩ : BufTy).Contents (Elt F) → (⟨S51040, .i32⟩ : BufTy).Contents (Elt F)) ]

/-- The operations 122 … 124 of the line. -/
abbrev ops_w13 : List (HloOp τ sig (Elt F)) :=
  [ StableHlo.TRef.nullary main_call6.call0.c (constantI S_ 32 0#32),
    StableHlo.TRef.unary main_call6.call0.c main_call6.call0.v0 (broadcastInDim S_ ![] bcast_S_S_),
    StableHlo.TRef.binary (TRef.of main_v81 : TRef sig ⟨S51040, .i32⟩) main_call6.call0.v0 main_call6.call0.v1 (fun x v => Host.reduceWindow IntOp.addi ![51040] ![1] ![51039] ![0] x v reduceWindows_S51040_S51040_w51040s1p51039_0 h_S_) ]

/-- The operations 125 … 127 of the line. -/
abbrev ops_w14 : List (HloOp τ sig (Elt F)) :=
  [ StableHlo.nullary main_c_19 (constantI S_ 32 320#32),
    StableHlo.TRef.unary (TRef.of main_c_19 : TRef sig ⟨S_, .i32⟩) main_call7.v0 (broadcastInDim S51040 ![] bcast_S_S51040),
    StableHlo.TRef.binary (TRef.of main_v82 : TRef sig ⟨S51040, .i32⟩) main_call7.v0 main_call7.v1 Host.divsi ]

/-- The operations 128 … 149 of the line. -/
abbrev ops_w15 : List (HloOp τ sig (Elt F)) :=
  [ StableHlo.TRef.unary (TRef.of main_v82 : TRef sig ⟨S51040, .i32⟩) main_call7.v2 signi,
    StableHlo.TRef.unary (TRef.of main_c_19 : TRef sig ⟨S_, .i32⟩) main_call7.v3 signi,
    StableHlo.TRef.unary main_call7.v3 main_call7.v4 (broadcastInDim S51040 ![] bcast_S_S51040),
    StableHlo.TRef.binary main_call7.v2 main_call7.v4 main_call7.v5 (cmpi .ne),
    StableHlo.TRef.unary (TRef.of main_c_19 : TRef sig ⟨S_, .i32⟩) main_call7.v6 (broadcastInDim S51040 ![] bcast_S_S51040),
    StableHlo.TRef.binary (TRef.of main_v82 : TRef sig ⟨S51040, .i32⟩) main_call7.v6 main_call7.v7 Host.remsi,
    StableHlo.TRef.nullary main_call7.c (constantI S_ 32 0#32),
    StableHlo.TRef.unary main_call7.c main_call7.v8 (broadcastInDim S51040 ![] bcast_S_S51040),
    StableHlo.TRef.binary main_call7.v7 main_call7.v8 main_call7.v9 (cmpi .ne),
    StableHlo.TRef.binary main_call7.v5 main_call7.v9 main_call7.v10 andi,
    StableHlo.TRef.nullary main_call7.c_0 (constantI S_ 32 1#32),
    StableHlo.TRef.unary main_call7.c_0 main_call7.v11 (broadcastInDim S51040 ![] bcast_S_S51040),
    StableHlo.TRef.binary main_call7.v1 main_call7.v11 main_call7.v12 subi,
    StableHlo.TRef.ternary main_call7.v10 main_call7.v12 main_call7.v1 main_call7.call0.v0 select,
    StableHlo.nullary main_c_20 (constantI S_ 32 320#32),
    StableHlo.TRef.unary (TRef.of main_c_20 : TRef sig ⟨S_, .i32⟩) main_call8.v0 id,
    StableHlo.TRef.nullary main_call8.c (constantI S_ 32 0#32),
    StableHlo.TRef.binary main_call8.v0 main_call8.c main_call8.v1 (cmpi .eq),
    StableHlo.TRef.nullary main_call8.c_0 (constantI S_ 32 1#32),
    StableHlo.TRef.ternary main_call8.v1 main_call8.c_0 main_call8.v0 main_call8.call0.v0 select,
    StableHlo.TRef.unary main_call8.call0.v0 main_call8.v3 (broadcastInDim S51040 ![] bcast_S_S51040),
    StableHlo.TRef.binary (TRef.of main_v83 : TRef sig ⟨S51040, .i32⟩) main_call8.v3 main_call8.v4 Host.remsi ]

/-- The operations 150 … 163 of the line. -/
abbrev ops_w16 : List (HloOp τ sig (Elt F)) :=
  [ StableHlo.TRef.nullary main_call8.c_1 (constantI S_ 32 0#32),
    StableHlo.TRef.unary main_call8.c_1 main_call8.v5 (broadcastInDim S51040 ![] bcast_S_S51040),
    StableHlo.TRef.binary main_call8.v4 main_call8.v5 main_call8.v6 (cmpi .ne),
    StableHlo.TRef.nullary main_call8.c_2 (constantI S_ 32 0#32),
    StableHlo.TRef.unary main_call8.c_2 main_call8.v7 (broadcastInDim S51040 ![] bcast_S_S51040),
    StableHlo.TRef.binary main_call8.v4 main_call8.v7 main_call8.v8 (cmpi .slt),
    StableHlo.TRef.nullary main_call8.c_3 (constantI S_ 32 0#32),
    StableHlo.TRef.binary main_call8.call0.v0 main_call8.c_3 main_call8.v9 (cmpi .slt),
    StableHlo.TRef.unary main_call8.v9 main_call8.v10 (broadcastInDim S51040 ![] bcast_S_S51040),
    StableHlo.TRef.binary main_call8.v8 main_call8.v10 main_call8.v11 (cmpi .ne),
    StableHlo.TRef.binary main_call8.v11 main_call8.v6 main_call8.v12 andi,
    StableHlo.TRef.unary main_call8.call0.v0 main_call8.v13 (broadcastInDim S51040 ![] bcast_S_S51040),
    StableHlo.TRef.binary main_call8.v4 main_call8.v13 main_call8.v14 addi,
    StableHlo.TRef.ternary main_call8.v12 main_call8.v14 main_call8.v4 main_call8.v15 select ]

/-- The operations 164 … 166 of the line. -/
abbrev ops_w17 : List (HloOp τ sig (Elt F)) :=
  [ StableHlo.nullary main_c_21 (constantI S_ 32 1#32),
    StableHlo.TRef.unary (TRef.of main_c_21 : TRef sig ⟨S_, .i32⟩) main_call9.v0 (broadcastInDim S51040 ![] bcast_S_S51040),
    StableHlo.TRef.binary (TRef.of main_v82 : TRef sig ⟨S51040, .i32⟩) main_call9.v0 main_call9.v1 Host.divsi ]

/-- The operations 167 … 188 of the line. -/
abbrev ops_w18 : List (HloOp τ sig (Elt F)) :=
  [ StableHlo.TRef.unary (TRef.of main_v82 : TRef sig ⟨S51040, .i32⟩) main_call9.v2 signi,
    StableHlo.TRef.unary (TRef.of main_c_21 : TRef sig ⟨S_, .i32⟩) main_call9.v3 signi,
    StableHlo.TRef.unary main_call9.v3 main_call9.v4 (broadcastInDim S51040 ![] bcast_S_S51040),
    StableHlo.TRef.binary main_call9.v2 main_call9.v4 main_call9.v5 (cmpi .ne),
    StableHlo.TRef.unary (TRef.of main_c_21 : TRef sig ⟨S_, .i32⟩) main_call9.v6 (broadcastInDim S51040 ![] bcast_S_S51040),
    StableHlo.TRef.binary (TRef.of main_v82 : TRef sig ⟨S51040, .i32⟩) main_call9.v6 main_call9.v7 Host.remsi,
    StableHlo.TRef.nullary main_call9.c (constantI S_ 32 0#32),
    StableHlo.TRef.unary main_call9.c main_call9.v8 (broadcastInDim S51040 ![] bcast_S_S51040),
    StableHlo.TRef.binary main_call9.v7 main_call9.v8 main_call9.v9 (cmpi .ne),
    StableHlo.TRef.binary main_call9.v5 main_call9.v9 main_call9.v10 andi,
    StableHlo.TRef.nullary main_call9.c_0 (constantI S_ 32 1#32),
    StableHlo.TRef.unary main_call9.c_0 main_call9.v11 (broadcastInDim S51040 ![] bcast_S_S51040),
    StableHlo.TRef.binary main_call9.v1 main_call9.v11 main_call9.v12 subi,
    StableHlo.TRef.ternary main_call9.v10 main_call9.v12 main_call9.v1 main_call9.call0.v0 select,
    StableHlo.nullary main_c_22 (constantI S_ 32 320#32),
    StableHlo.TRef.unary (TRef.of main_c_22 : TRef sig ⟨S_, .i32⟩) main_call10.v0 id,
    StableHlo.TRef.nullary main_call10.c (constantI S_ 32 0#32),
    StableHlo.TRef.binary main_call10.v0 main_call10.c main_call10.v1 (cmpi .eq),
    StableHlo.TRef.nullary main_call10.c_0 (constantI S_ 32 1#32),
    StableHlo.TRef.ternary main_call10.v1 main_call10.c_0 main_call10.v0 main_call10.call0.v0 select,
    StableHlo.TRef.unary main_call10.call0.v0 main_call10.v3 (broadcastInDim S51040 ![] bcast_S_S51040),
    StableHlo.TRef.binary (TRef.of main_v85 : TRef sig ⟨S51040, .i32⟩) main_call10.v3 main_call10.v4 Host.remsi ]

/-- The operations 189 … 202 of the line. -/
abbrev ops_w19 : List (HloOp τ sig (Elt F)) :=
  [ StableHlo.TRef.nullary main_call10.c_1 (constantI S_ 32 0#32),
    StableHlo.TRef.unary main_call10.c_1 main_call10.v5 (broadcastInDim S51040 ![] bcast_S_S51040),
    StableHlo.TRef.binary main_call10.v4 main_call10.v5 main_call10.v6 (cmpi .ne),
    StableHlo.TRef.nullary main_call10.c_2 (constantI S_ 32 0#32),
    StableHlo.TRef.unary main_call10.c_2 main_call10.v7 (broadcastInDim S51040 ![] bcast_S_S51040),
    StableHlo.TRef.binary main_call10.v4 main_call10.v7 main_call10.v8 (cmpi .slt),
    StableHlo.TRef.nullary main_call10.c_3 (constantI S_ 32 0#32),
    StableHlo.TRef.binary main_call10.call0.v0 main_call10.c_3 main_call10.v9 (cmpi .slt),
    StableHlo.TRef.unary main_call10.v9 main_call10.v10 (broadcastInDim S51040 ![] bcast_S_S51040),
    StableHlo.TRef.binary main_call10.v8 main_call10.v10 main_call10.v11 (cmpi .ne),
    StableHlo.TRef.binary main_call10.v11 main_call10.v6 main_call10.v12 andi,
    StableHlo.TRef.unary main_call10.call0.v0 main_call10.v13 (broadcastInDim S51040 ![] bcast_S_S51040),
    StableHlo.TRef.binary main_call10.v4 main_call10.v13 main_call10.v14 addi,
    StableHlo.TRef.ternary main_call10.v12 main_call10.v14 main_call10.v4 main_call10.v15 select ]

/-- The operations 203 … 209 of the line. -/
abbrev ops_w20 : List (HloOp τ sig (Elt F)) :=
  [ StableHlo.nullary main_c_23 (constantI S_ 32 0#32),
    StableHlo.unary main_c_23 main_v87 (broadcastInDim S51040 ![] bcast_S_S51040 : (⟨S_, .i32⟩ : BufTy).Contents (Elt F) → (⟨S51040, .i32⟩ : BufTy).Contents (Elt F)),
    StableHlo.binary main_v84 main_v87 main_v88 (cmpi .slt : (⟨S51040, .i32⟩ : BufTy).Contents (Elt F) → (⟨S51040, .i32⟩ : BufTy).Contents (Elt F) → (⟨S51040, .i1⟩ : BufTy).Contents (Elt F)),
    StableHlo.nullary main_c_24 (constantI S_ 32 320#32),
    StableHlo.unary main_c_24 main_v89 (broadcastInDim S51040 ![] bcast_S_S51040 : (⟨S_, .i32⟩ : BufTy).Contents (Elt F) → (⟨S51040, .i32⟩ : BufTy).Contents (Elt F)),
    StableHlo.binary main_v84 main_v89 main_v90 (addi : (⟨S51040, .i32⟩ : BufTy).Contents (Elt F) → (⟨S51040, .i32⟩ : BufTy).Contents (Elt F) → (⟨S51040, .i32⟩ : BufTy).Contents (Elt F)),
    StableHlo.ternary main_v88 main_v90 main_v84 main_v91 (select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ]

/-- The operations 210 … 210 of the line. -/
abbrev ops_w21 : List (HloOp τ sig (Elt F)) :=
  [ StableHlo.nullary main_c_25 (constantI S_ 32 0#32) ]

/-- The operations 211 … 216 of the line. -/
abbrev ops_w22 : List (HloOp τ sig (Elt F)) :=
  [ StableHlo.unary main_c_25 main_v92 (broadcastInDim S51040 ![] bcast_S_S51040 : (⟨S_, .i32⟩ : BufTy).Contents (Elt F) → (⟨S51040, .i32⟩ : BufTy).Contents (Elt F)),
    StableHlo.binary main_v86 main_v92 main_v93 (cmpi .slt : (⟨S51040, .i32⟩ : BufTy).Contents (Elt F) → (⟨S51040, .i32⟩ : BufTy).Contents (Elt F) → (⟨S51040, .i1⟩ : BufTy).Contents (Elt F)),
    StableHlo.nullary main_c_26 (constantI S_ 32 320#32),
    StableHlo.unary main_c_26 main_v94 (broadcastInDim S51040 ![] bcast_S_S51040 : (⟨S_, .i32⟩ : BufTy).Contents (Elt F) → (⟨S51040, .i32⟩ : BufTy).Contents (Elt F)),
    StableHlo.binary main_v86 main_v94 main_v95 (addi : (⟨S51040, .i32⟩ : BufTy).Contents (Elt F) → (⟨S51040, .i32⟩ : BufTy).Contents (Elt F) → (⟨S51040, .i32⟩ : BufTy).Contents (Elt F)),
    StableHlo.ternary main_v93 main_v95 main_v86 main_v96 (select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ]

/-- The operations 217 … 219 of the line. -/
abbrev ops_w23 : List (HloOp τ sig (Elt F)) :=
  [ StableHlo.unary main_v91 main_v97 (broadcastInDim S51040x1 ![0] bcast_S51040_S51040x1_0 : (⟨S51040, .i32⟩ : BufTy).Contents (Elt F) → (⟨S51040x1, .i32⟩ : BufTy).Contents (Elt F)),
    StableHlo.unary main_v96 main_v98 (broadcastInDim S51040x1 ![0] bcast_S51040_S51040x1_0 : (⟨S51040, .i32⟩ : BufTy).Contents (Elt F) → (⟨S51040x1, .i32⟩ : BufTy).Contents (Elt F)),
    StableHlo.binary main_v97 main_v98 main_v99 ((fun a b => concatenate S51040x2 1 [⟨S51040x1, a⟩, ⟨S51040x1, b⟩] concatenates_S51040x1_S51040x1_S51040x2_d1) : (⟨S51040x1, .i32⟩ : BufTy).Contents (Elt F) → (⟨S51040x1, .i32⟩ : BufTy).Contents (Elt F) → (⟨S51040x2, .i32⟩ : BufTy).Contents (Elt F)) ]

/-- The operations 220 … 220 of the line. -/
abbrev ops_w24 : List (HloOp τ sig (Elt F)) :=
  [ StableHlo.binary main_v19 main_v99 main_v100 ((fun x i => Host.gather gather_S320x320_S51040x2_S51040_n_01_n_n_01_1_11 x i) : (⟨S320x320, .f32⟩ : BufTy).Contents (Elt F) → (⟨S51040x2, .i32⟩ : BufTy).Contents (Elt F) → (⟨S51040, .f32⟩ : BufTy).Contents (Elt F)) ]

/-- The operations 221 … 228 of the line. -/
abbrev ops_w25 : List (HloOp τ sig (Elt F)) :=
  [ StableHlo.unary main_v100 main_v101 (broadcastInDim S1x51040 ![1] bcast_S51040_S1x51040_1 : (⟨S51040, .f32⟩ : BufTy).Contents (Elt F) → (⟨S1x51040, .f32⟩ : BufTy).Contents (Elt F)),
    StableHlo.nullary main_c_27 (constantI S_ 32 0#32),
    StableHlo.unary main_c_27 main_v102 (broadcastInDim S51040 ![] bcast_S_S51040 : (⟨S_, .i32⟩ : BufTy).Contents (Elt F) → (⟨S51040, .i32⟩ : BufTy).Contents (Elt F)),
    StableHlo.binary main_v84 main_v102 main_v103 (cmpi .slt : (⟨S51040, .i32⟩ : BufTy).Contents (Elt F) → (⟨S51040, .i32⟩ : BufTy).Contents (Elt F) → (⟨S51040, .i1⟩ : BufTy).Contents (Elt F)),
    StableHlo.nullary main_c_28 (constantI S_ 32 320#32),
    StableHlo.unary main_c_28 main_v104 (broadcastInDim S51040 ![] bcast_S_S51040 : (⟨S_, .i32⟩ : BufTy).Contents (Elt F) → (⟨S51040, .i32⟩ : BufTy).Contents (Elt F)),
    StableHlo.binary main_v84 main_v104 main_v105 (addi : (⟨S51040, .i32⟩ : BufTy).Contents (Elt F) → (⟨S51040, .i32⟩ : BufTy).Contents (Elt F) → (⟨S51040, .i32⟩ : BufTy).Contents (Elt F)),
    StableHlo.ternary main_v103 main_v105 main_v84 main_v106 (select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ]

/-- The operations 229 … 235 of the line. -/
abbrev ops_w26 : List (HloOp τ sig (Elt F)) :=
  [ StableHlo.nullary main_c_29 (constantI S_ 32 0#32),
    StableHlo.unary main_c_29 main_v107 (broadcastInDim S51040 ![] bcast_S_S51040 : (⟨S_, .i32⟩ : BufTy).Contents (Elt F) → (⟨S51040, .i32⟩ : BufTy).Contents (Elt F)),
    StableHlo.binary main_v86 main_v107 main_v108 (cmpi .slt : (⟨S51040, .i32⟩ : BufTy).Contents (Elt F) → (⟨S51040, .i32⟩ : BufTy).Contents (Elt F) → (⟨S51040, .i1⟩ : BufTy).Contents (Elt F)),
    StableHlo.nullary main_c_30 (constantI S_ 32 320#32),
    StableHlo.unary main_c_30 main_v109 (broadcastInDim S51040 ![] bcast_S_S51040 : (⟨S_, .i32⟩ : BufTy).Contents (Elt F) → (⟨S51040, .i32⟩ : BufTy).Contents (Elt F)),
    StableHlo.binary main_v86 main_v109 main_v110 (addi : (⟨S51040, .i32⟩ : BufTy).Contents (Elt F) → (⟨S51040, .i32⟩ : BufTy).Contents (Elt F) → (⟨S51040, .i32⟩ : BufTy).Contents (Elt F)),
    StableHlo.ternary main_v108 main_v110 main_v86 main_v111 (select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ]

/-- The operations 236 … 238 of the line. -/
abbrev ops_w27 : List (HloOp τ sig (Elt F)) :=
  [ StableHlo.unary main_v106 main_v112 (broadcastInDim S51040x1 ![0] bcast_S51040_S51040x1_0 : (⟨S51040, .i32⟩ : BufTy).Contents (Elt F) → (⟨S51040x1, .i32⟩ : BufTy).Contents (Elt F)),
    StableHlo.unary main_v111 main_v113 (broadcastInDim S51040x1 ![0] bcast_S51040_S51040x1_0 : (⟨S51040, .i32⟩ : BufTy).Contents (Elt F) → (⟨S51040x1, .i32⟩ : BufTy).Contents (Elt F)),
    StableHlo.binary main_v112 main_v113 main_v114 ((fun a b => concatenate S51040x2 1 [⟨S51040x1, a⟩, ⟨S51040x1, b⟩] concatenates_S51040x1_S51040x1_S51040x2_d1) : (⟨S51040x1, .i32⟩ : BufTy).Contents (Elt F) → (⟨S51040x1, .i32⟩ : BufTy).Contents (Elt F) → (⟨S51040x2, .i32⟩ : BufTy).Contents (Elt F)) ]

/-- The operations 239 … 239 of the line. -/
abbrev ops_w28 : List (HloOp τ sig (Elt F)) :=
  [ StableHlo.binary main_v66 main_v114 main_v115 ((fun x i => Host.gather gather_S1001x320x320_S51040x2_S1001x51040_0_12_n_n_12_1_100111 x i) : (⟨S1001x320x320, .f32⟩ : BufTy).Contents (Elt F) → (⟨S51040x2, .i32⟩ : BufTy).Contents (Elt F) → (⟨S1001x51040, .f32⟩ : BufTy).Contents (Elt F)) ]

/-- The operations 240 … 242 of the line. -/
abbrev ops_w29 : List (HloOp τ sig (Elt F)) :=
  [ StableHlo.unary main_v115 main_v116 (Host.sqrt : (⟨S1001x51040, .f32⟩ : BufTy).Contents (Elt F) → (⟨S1001x51040, .f32⟩ : BufTy).Contents (Elt F)),
    StableHlo.unary main_v101 main_v117 (broadcastInDim S1001x51040 ![0, 1] bcast_S1x51040_S1001x51040_0_1 : (⟨S1x51040, .f32⟩ : BufTy).Contents (Elt F) → (⟨S1001x51040, .f32⟩ : BufTy).Contents (Elt F)),
    StableHlo.binary main_v117 main_v116 main_v118 (mulf : (⟨S1001x51040, .f32⟩ : BufTy).Contents (Elt F) → (⟨S1001x51040, .f32⟩ : BufTy).Contents (Elt F) → (⟨S1001x51040, .f32⟩ : BufTy).Contents (Elt F)) ]

/-- The operations 243 … 245 of the line. -/
abbrev ops_w30 : List (HloOp τ sig (Elt F)) :=
  [ StableHlo.nullary main_c_31 (constantI S_ 32 1#32),
    StableHlo.TRef.nullary main_call11.cst (constant S_ .f32 0x00000000#32),
    StableHlo.TRef.binary (TRef.of main_v118 : TRef sig ⟨S1001x51040, .f32⟩) main_call11.cst main_call11.v0 (fun x v => Host.reduceAdd x v reducesTo_S1001x51040_S1001_d1 h_S_) ]

/-- The operations 246 … 251 of the line. -/
abbrev ops_w31 : List (HloOp τ sig (Elt F)) :=
  [ StableHlo.TRef.unary main_call11.v0 main_call11.v1 (broadcastInDim S1001x1 ![0] bcast_S1001_S1001x1_0),
    StableHlo.TRef.nullary main_call11.cst_0 (constant S_ .f32 0x47476000#32),
    StableHlo.TRef.unary main_call11.cst_0 main_call11.v2 (broadcastInDim S1001x1 ![] bcast_S_S1001x1),
    StableHlo.TRef.binary main_call11.v1 main_call11.v2 main_call11.v3 Host.divf,
    StableHlo.TRef.unary main_call11.v3 main_call11.v4 (broadcastInDim S1001x51040 ![0, 1] bcast_S1001x1_S1001x51040_0_1),
    StableHlo.TRef.binary (TRef.of main_v118 : TRef sig ⟨S1001x51040, .f32⟩) main_call11.v4 main_call11.v5 subf ]

/-- The operations 252 … 257 of the line. -/
abbrev ops_w32 : List (HloOp τ sig (Elt F)) :=
  [ StableHlo.TRef.binary main_call11.v5 main_call11.v5 main_call11.v6 mulf,
    StableHlo.TRef.unary (TRef.of main_c_31 : TRef sig ⟨S_, .i32⟩) main_call11.v7 (sitofp .f32),
    StableHlo.TRef.nullary main_call11.cst_1 (constant S_ .f32 0x47476000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S1001x51040_S1001_d1 h_S_) ]

/-- The operations 258 … 265 of the line. -/
abbrev ops_w33 : List (HloOp τ sig (Elt F)) :=
  [ StableHlo.TRef.unary main_call11.v8 main_call11.v10 (broadcastInDim S1001 ![] bcast_S_S1001),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S1001 ![] bcast_S_S1001),
    StableHlo.TRef.ternary main_call11.v12 main_call11.v11 main_call11.call0.v1 main_call11.call0.v2 (fun p a b => select (broadcastInDim S1001 ![] bcast_S_S1001 p) a b) ]

/-- Window ops_part0 of the line is these stretches, one after the other. -/
theorem ops_part0_split : (ops_part0 : List (HloOp τ sig (Elt F))) = ops_w0 ++ (ops_w1 ++ (ops_w2 ++ (ops_w3 ++ (ops_w4 ++ (ops_w5))))) := rfl
/-- Window ops_part1 of the line is these stretches, one after the other. -/
theorem ops_part1_split : (ops_part1 : List (HloOp τ sig (Elt F))) = ops_w6 ++ (ops_w7 ++ (ops_w8 ++ (ops_w9 ++ (ops_w10 ++ (ops_w11 ++ (ops_w12 ++ (ops_w13 ++ (ops_w14 ++ (ops_w15 ++ (ops_w16 ++ (ops_w17 ++ (ops_w18 ++ (ops_w19 ++ (ops_w20 ++ (ops_w21))))))))))))))) := rfl
/-- Window ops_part2 of the line is these stretches, one after the other. -/
theorem ops_part2_split : (ops_part2 : List (HloOp τ sig (Elt F))) = ops_w22 ++ (ops_w23 ++ (ops_w24 ++ (ops_w25 ++ (ops_w26 ++ (ops_w27 ++ (ops_w28 ++ (ops_w29 ++ (ops_w30 ++ (ops_w31 ++ (ops_w32 ++ (ops_w33))))))))))) := rfl

/-- The buffer contents after the first 1 window of the line. -/
def val1 (V : Valuation τ sig (Elt F)) : Valuation τ sig (Elt F) := after ops_w0 V
/-- The buffer contents after the first 2 windows of the line. -/
def val2 (V : Valuation τ sig (Elt F)) : Valuation τ sig (Elt F) := after ops_w1 (val1 V)
/-- The buffer contents after the first 3 windows of the line. -/
def val3 (V : Valuation τ sig (Elt F)) : Valuation τ sig (Elt F) := after ops_w2 (val2 V)
/-- The buffer contents after the first 4 windows of the line. -/
def val4 (V : Valuation τ sig (Elt F)) : Valuation τ sig (Elt F) := after ops_w3 (val3 V)
/-- The buffer contents after the first 5 windows of the line. -/
def val5 (V : Valuation τ sig (Elt F)) : Valuation τ sig (Elt F) := after ops_w4 (val4 V)
/-- The buffer contents after the first 6 windows of the line. -/
def val6 (V : Valuation τ sig (Elt F)) : Valuation τ sig (Elt F) := after ops_w5 (val5 V)
/-- The buffer contents after the first 7 windows of the line. -/
def val7 (V : Valuation τ sig (Elt F)) : Valuation τ sig (Elt F) := after ops_w6 (val6 V)
/-- The buffer contents after the first 8 windows of the line. -/
def val8 (V : Valuation τ sig (Elt F)) : Valuation τ sig (Elt F) := after ops_w7 (val7 V)
/-- The buffer contents after the first 9 windows of the line. -/
def val9 (V : Valuation τ sig (Elt F)) : Valuation τ sig (Elt F) := after ops_w8 (val8 V)
/-- The buffer contents after the first 10 windows of the line. -/
def val10 (V : Valuation τ sig (Elt F)) : Valuation τ sig (Elt F) := after ops_w9 (val9 V)
/-- The buffer contents after the first 11 windows of the line. -/
def val11 (V : Valuation τ sig (Elt F)) : Valuation τ sig (Elt F) := after ops_w10 (val10 V)
/-- The buffer contents after the first 12 windows of the line. -/
def val12 (V : Valuation τ sig (Elt F)) : Valuation τ sig (Elt F) := after ops_w11 (val11 V)
/-- The buffer contents after the first 13 windows of the line. -/
def val13 (V : Valuation τ sig (Elt F)) : Valuation τ sig (Elt F) := after ops_w12 (val12 V)
/-- The buffer contents after the first 14 windows of the line. -/
def val14 (V : Valuation τ sig (Elt F)) : Valuation τ sig (Elt F) := after ops_w13 (val13 V)
/-- The buffer contents after the first 15 windows of the line. -/
def val15 (V : Valuation τ sig (Elt F)) : Valuation τ sig (Elt F) := after ops_w14 (val14 V)
/-- The buffer contents after the first 16 windows of the line. -/
def val16 (V : Valuation τ sig (Elt F)) : Valuation τ sig (Elt F) := after ops_w15 (val15 V)
/-- The buffer contents after the first 17 windows of the line. -/
def val17 (V : Valuation τ sig (Elt F)) : Valuation τ sig (Elt F) := after ops_w16 (val16 V)
/-- The buffer contents after the first 18 windows of the line. -/
def val18 (V : Valuation τ sig (Elt F)) : Valuation τ sig (Elt F) := after ops_w17 (val17 V)
/-- The buffer contents after the first 19 windows of the line. -/
def val19 (V : Valuation τ sig (Elt F)) : Valuation τ sig (Elt F) := after ops_w18 (val18 V)
/-- The buffer contents after the first 20 windows of the line. -/
def val20 (V : Valuation τ sig (Elt F)) : Valuation τ sig (Elt F) := after ops_w19 (val19 V)
/-- The buffer contents after the first 21 windows of the line. -/
def val21 (V : Valuation τ sig (Elt F)) : Valuation τ sig (Elt F) := after ops_w20 (val20 V)
/-- The buffer contents after the first 22 windows of the line. -/
def val22 (V : Valuation τ sig (Elt F)) : Valuation τ sig (Elt F) := after ops_w21 (val21 V)
/-- The buffer contents after the first 23 windows of the line. -/
def val23 (V : Valuation τ sig (Elt F)) : Valuation τ sig (Elt F) := after ops_w22 (val22 V)
/-- The buffer contents after the first 24 windows of the line. -/
def val24 (V : Valuation τ sig (Elt F)) : Valuation τ sig (Elt F) := after ops_w23 (val23 V)
/-- The buffer contents after the first 25 windows of the line. -/
def val25 (V : Valuation τ sig (Elt F)) : Valuation τ sig (Elt F) := after ops_w24 (val24 V)
/-- The buffer contents after the first 26 windows of the line. -/
def val26 (V : Valuation τ sig (Elt F)) : Valuation τ sig (Elt F) := after ops_w25 (val25 V)
/-- The buffer contents after the first 27 windows of the line. -/
def val27 (V : Valuation τ sig (Elt F)) : Valuation τ sig (Elt F) := after ops_w26 (val26 V)
/-- The buffer contents after the first 28 windows of the line. -/
def val28 (V : Valuation τ sig (Elt F)) : Valuation τ sig (Elt F) := after ops_w27 (val27 V)
/-- The buffer contents after the first 29 windows of the line. -/
def val29 (V : Valuation τ sig (Elt F)) : Valuation τ sig (Elt F) := after ops_w28 (val28 V)
/-- The buffer contents after the first 30 windows of the line. -/
def val30 (V : Valuation τ sig (Elt F)) : Valuation τ sig (Elt F) := after ops_w29 (val29 V)
/-- The buffer contents after the first 31 windows of the line. -/
def val31 (V : Valuation τ sig (Elt F)) : Valuation τ sig (Elt F) := after ops_w30 (val30 V)
/-- The buffer contents after the first 32 windows of the line. -/
def val32 (V : Valuation τ sig (Elt F)) : Valuation τ sig (Elt F) := after ops_w31 (val31 V)
/-- The buffer contents after the first 33 windows of the line. -/
def val33 (V : Valuation τ sig (Elt F)) : Valuation τ sig (Elt F) := after ops_w32 (val32 V)
/-- The buffer contents after the first 34 windows of the line. -/
def val34 (V : Valuation τ sig (Elt F)) : Valuation τ sig (Elt F) := after ops_w33 (val33 V)

theorem after_ops (V : Valuation τ sig (Elt F)) : after ops V = val34 V := by
  simp only [ops, ops_part0_split, ops_part1_split, ops_part2_split, after_app]
  rfl

/-- The buffers the operations of window 1 write. -/
abbrev ops_w0_W : List (Ref sig .tc) := [main_v0, main_c, main_v1, main_v2, main_v3, main_c_0, main_v4, main_v5, main_v6, main_v7, main_v8, main_v9, main_c_1, main_v10, main_v11, main_v12, main_c_2, main_v13, main_v14, main_v15, main_v16, main_v17, main_cst, main_call0_v0, main_call0_v1, main_v18, main_call1_v0, main_v19]
theorem ops_w0_writes : (ops_w0 : List (HloOp τ sig (Elt F))).Forall fun op => op.writes ⊆ (ops_w0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 1 does not write keeps its contents through it. -/
theorem val1_keep (V : Valuation τ sig (Elt F)) (r : Ref sig .tc) (h : r ∉ ops_w0_W) : val1 V (Proc.devRef .tc r) = V (Proc.devRef .tc r) :=
  after_of_writes_sub ops_w0 _ ops_w0_writes h
theorem val1_main_arg0 (V : Valuation τ sig (Elt F)) : val1 V (no_index (Proc.devRef .tc main_arg0)) = V (Proc.devRef .tc main_arg0) :=
  (val1_keep V main_arg0 (by decide))
theorem val1_main_arg1 (V : Valuation τ sig (Elt F)) : val1 V (no_index (Proc.devRef .tc main_arg1)) = V (Proc.devRef .tc main_arg1) :=
  (val1_keep V main_arg1 (by decide))
theorem val1_main_arg2 (V : Valuation τ sig (Elt F)) : val1 V (no_index (Proc.devRef .tc main_arg2)) = V (Proc.devRef .tc main_arg2) :=
  (val1_keep V main_arg2 (by decide))
theorem val1_main_arg3 (V : Valuation τ sig (Elt F)) : val1 V (no_index (Proc.devRef .tc main_arg3)) = V (Proc.devRef .tc main_arg3) :=
  (val1_keep V main_arg3 (by decide))
theorem val1_main_arg4 (V : Valuation τ sig (Elt F)) : val1 V (no_index (Proc.devRef .tc main_arg4)) = V (Proc.devRef .tc main_arg4) :=
  (val1_keep V main_arg4 (by decide))

/-- The buffers the operations of window 2 write. -/
abbrev ops_w1_W : List (Ref sig .tc) := [main_v20, main_c_3, main_v21, main_v22, main_c_4, main_v23, main_v24, main_v25, main_v26, main_v27]
theorem ops_w1_writes : (ops_w1 : List (HloOp τ sig (Elt F))).Forall fun op => op.writes ⊆ (ops_w1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 2 does not write keeps its contents through it. -/
theorem val2_keep (V : Valuation τ sig (Elt F)) (r : Ref sig .tc) (h : r ∉ ops_w1_W) : val2 V (Proc.devRef .tc r) = val1 V (Proc.devRef .tc r) :=
  after_of_writes_sub ops_w1 _ ops_w1_writes h
theorem val2_main_arg0 (V : Valuation τ sig (Elt F)) : val2 V (no_index (Proc.devRef .tc main_arg0)) = V (Proc.devRef .tc main_arg0) :=
  (val2_keep V main_arg0 (by decide)).trans (val1_main_arg0 V)
theorem val2_main_arg1 (V : Valuation τ sig (Elt F)) : val2 V (no_index (Proc.devRef .tc main_arg1)) = V (Proc.devRef .tc main_arg1) :=
  (val2_keep V main_arg1 (by decide)).trans (val1_main_arg1 V)
theorem val2_main_arg2 (V : Valuation τ sig (Elt F)) : val2 V (no_index (Proc.devRef .tc main_arg2)) = V (Proc.devRef .tc main_arg2) :=
  (val2_keep V main_arg2 (by decide)).trans (val1_main_arg2 V)
theorem val2_main_arg3 (V : Valuation τ sig (Elt F)) : val2 V (no_index (Proc.devRef .tc main_arg3)) = V (Proc.devRef .tc main_arg3) :=
  (val2_keep V main_arg3 (by decide)).trans (val1_main_arg3 V)
theorem val2_main_arg4 (V : Valuation τ sig (Elt F)) : val2 V (no_index (Proc.devRef .tc main_arg4)) = V (Proc.devRef .tc main_arg4) :=
  (val2_keep V main_arg4 (by decide)).trans (val1_main_arg4 V)

/-- The buffers the operations of window 3 write. -/
abbrev ops_w2_W : List (Ref sig .tc) := [main_v28, main_c_5, main_v29, main_v30, main_c_6, main_v31, main_v32, main_v33, main_c_7, main_v34, main_v35, main_c_8, main_v36, main_v37, main_v38, main_v39, main_v40, main_v41, main_v42]
theorem ops_w2_writes : (ops_w2 : List (HloOp τ sig (Elt F))).Forall fun op => op.writes ⊆ (ops_w2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 3 does not write keeps its contents through it. -/
theorem val3_keep (V : Valuation τ sig (Elt F)) (r : Ref sig .tc) (h : r ∉ ops_w2_W) : val3 V (Proc.devRef .tc r) = val2 V (Proc.devRef .tc r) :=
  after_of_writes_sub ops_w2 _ ops_w2_writes h
theorem val3_main_arg0 (V : Valuation τ sig (Elt F)) : val3 V (no_index (Proc.devRef .tc main_arg0)) = V (Proc.devRef .tc main_arg0) :=
  (val3_keep V main_arg0 (by decide)).trans (val2_main_arg0 V)
theorem val3_main_arg1 (V : Valuation τ sig (Elt F)) : val3 V (no_index (Proc.devRef .tc main_arg1)) = V (Proc.devRef .tc main_arg1) :=
  (val3_keep V main_arg1 (by decide)).trans (val2_main_arg1 V)
theorem val3_main_arg2 (V : Valuation τ sig (Elt F)) : val3 V (no_index (Proc.devRef .tc main_arg2)) = V (Proc.devRef .tc main_arg2) :=
  (val3_keep V main_arg2 (by decide)).trans (val2_main_arg2 V)
theorem val3_main_arg3 (V : Valuation τ sig (Elt F)) : val3 V (no_index (Proc.devRef .tc main_arg3)) = V (Proc.devRef .tc main_arg3) :=
  (val3_keep V main_arg3 (by decide)).trans (val2_main_arg3 V)
theorem val3_main_arg4 (V : Valuation τ sig (Elt F)) : val3 V (no_index (Proc.devRef .tc main_arg4)) = V (Proc.devRef .tc main_arg4) :=
  (val3_keep V main_arg4 (by decide)).trans (val2_main_arg4 V)

/-- The buffers the operations of window 4 write. -/
abbrev ops_w3_W : List (Ref sig .tc) := [main_v43]
theorem ops_w3_writes : (ops_w3 : List (HloOp τ sig (Elt F))).Forall fun op => op.writes ⊆ (ops_w3_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer window 4 does not write keeps its contents through it. -/
theorem val4_keep (V : Valuation τ sig (Elt F)) (r : Ref sig .tc) (h : r ∉ ops_w3_W) : val4 V (Proc.devRef .tc r) = val3 V (Proc.devRef .tc r) :=
  after_of_writes_sub ops_w3 _ ops_w3_writes h
theorem val4_main_arg0 (V : Valuation τ sig (Elt F)) : val4 V (no_index (Proc.devRef .tc main_arg0)) = V (Proc.devRef .tc main_arg0) :=
  (val4_keep V main_arg0 (by decide)).trans (val3_main_arg0 V)
theorem val4_main_arg1 (V : Valuation τ sig (Elt F)) : val4 V (no_index (Proc.devRef .tc main_arg1)) = V (Proc.devRef .tc main_arg1) :=
  (val4_keep V main_arg1 (by decide)).trans (val3_main_arg1 V)
theorem val4_main_arg2 (V : Valuation τ sig (Elt F)) : val4 V (no_index (Proc.devRef .tc main_arg2)) = V (Proc.devRef .tc main_arg2) :=
  (val4_keep V main_arg2 (by decide)).trans (val3_main_arg2 V)
theorem val4_main_arg3 (V : Valuation τ sig (Elt F)) : val4 V (no_index (Proc.devRef .tc main_arg3)) = V (Proc.devRef .tc main_arg3) :=
  (val4_keep V main_arg3 (by decide)).trans (val3_main_arg3 V)
theorem val4_main_arg4 (V : Valuation τ sig (Elt F)) : val4 V (no_index (Proc.devRef .tc main_arg4)) = V (Proc.devRef .tc main_arg4) :=
  (val4_keep V main_arg4 (by decide)).trans (val3_main_arg4 V)

/-- The buffers the operations of window 5 write. -/
abbrev ops_w4_W : List (Ref sig .tc) := [main_v44, main_v45, main_v46, main_v47]
theorem ops_w4_writes : (ops_w4 : List (HloOp τ sig (Elt F))).Forall fun op => op.writes ⊆ (ops_w4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 5 does not write keeps its contents through it. -/
theorem val5_keep (V : Valuation τ sig (Elt F)) (r : Ref sig .tc) (h : r ∉ ops_w4_W) : val5 V (Proc.devRef .tc r) = val4 V (Proc.devRef .tc r) :=
  after_of_writes_sub ops_w4 _ ops_w4_writes h
theorem val5_main_arg0 (V : Valuation τ sig (Elt F)) : val5 V (no_index (Proc.devRef .tc main_arg0)) = V (Proc.devRef .tc main_arg0) :=
  (val5_keep V main_arg0 (by decide)).trans (val4_main_arg0 V)
theorem val5_main_arg1 (V : Valuation τ sig (Elt F)) : val5 V (no_index (Proc.devRef .tc main_arg1)) = V (Proc.devRef .tc main_arg1) :=
  (val5_keep V main_arg1 (by decide)).trans (val4_main_arg1 V)
theorem val5_main_arg2 (V : Valuation τ sig (Elt F)) : val5 V (no_index (Proc.devRef .tc main_arg2)) = V (Proc.devRef .tc main_arg2) :=
  (val5_keep V main_arg2 (by decide)).trans (val4_main_arg2 V)
theorem val5_main_arg3 (V : Valuation τ sig (Elt F)) : val5 V (no_index (Proc.devRef .tc main_arg3)) = V (Proc.devRef .tc main_arg3) :=
  (val5_keep V main_arg3 (by decide)).trans (val4_main_arg3 V)
theorem val5_main_arg4 (V : Valuation τ sig (Elt F)) : val5 V (no_index (Proc.devRef .tc main_arg4)) = V (Proc.devRef .tc main_arg4) :=
  (val5_keep V main_arg4 (by decide)).trans (val4_main_arg4 V)

/-- The buffers the operations of window 6 write. -/
abbrev ops_w5_W : List (Ref sig .tc) := [main_v48]
theorem ops_w5_writes : (ops_w5 : List (HloOp τ sig (Elt F))).Forall fun op => op.writes ⊆ (ops_w5_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer window 6 does not write keeps its contents through it. -/
theorem val6_keep (V : Valuation τ sig (Elt F)) (r : Ref sig .tc) (h : r ∉ ops_w5_W) : val6 V (Proc.devRef .tc r) = val5 V (Proc.devRef .tc r) :=
  after_of_writes_sub ops_w5 _ ops_w5_writes h
theorem val6_main_arg0 (V : Valuation τ sig (Elt F)) : val6 V (no_index (Proc.devRef .tc main_arg0)) = V (Proc.devRef .tc main_arg0) :=
  (val6_keep V main_arg0 (by decide)).trans (val5_main_arg0 V)
theorem val6_main_arg1 (V : Valuation τ sig (Elt F)) : val6 V (no_index (Proc.devRef .tc main_arg1)) = V (Proc.devRef .tc main_arg1) :=
  (val6_keep V main_arg1 (by decide)).trans (val5_main_arg1 V)
theorem val6_main_arg2 (V : Valuation τ sig (Elt F)) : val6 V (no_index (Proc.devRef .tc main_arg2)) = V (Proc.devRef .tc main_arg2) :=
  (val6_keep V main_arg2 (by decide)).trans (val5_main_arg2 V)
theorem val6_main_arg3 (V : Valuation τ sig (Elt F)) : val6 V (no_index (Proc.devRef .tc main_arg3)) = V (Proc.devRef .tc main_arg3) :=
  (val6_keep V main_arg3 (by decide)).trans (val5_main_arg3 V)
theorem val6_main_arg4 (V : Valuation τ sig (Elt F)) : val6 V (no_index (Proc.devRef .tc main_arg4)) = V (Proc.devRef .tc main_arg4) :=
  (val6_keep V main_arg4 (by decide)).trans (val5_main_arg4 V)

/-- The buffers the operations of window 7 write. -/
abbrev ops_w6_W : List (Ref sig .tc) := [main_v49, main_v50, main_call2_v0, main_v51, main_v52, main_v53]
theorem ops_w6_writes : (ops_w6 : List (HloOp τ sig (Elt F))).Forall fun op => op.writes ⊆ (ops_w6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 7 does not write keeps its contents through it. -/
theorem val7_keep (V : Valuation τ sig (Elt F)) (r : Ref sig .tc) (h : r ∉ ops_w6_W) : val7 V (Proc.devRef .tc r) = val6 V (Proc.devRef .tc r) :=
  after_of_writes_sub ops_w6 _ ops_w6_writes h
theorem val7_main_arg0 (V : Valuation τ sig (Elt F)) : val7 V (no_index (Proc.devRef .tc main_arg0)) = V (Proc.devRef .tc main_arg0) :=
  (val7_keep V main_arg0 (by decide)).trans (val6_main_arg0 V)
theorem val7_main_arg1 (V : Valuation τ sig (Elt F)) : val7 V (no_index (Proc.devRef .tc main_arg1)) = V (Proc.devRef .tc main_arg1) :=
  (val7_keep V main_arg1 (by decide)).trans (val6_main_arg1 V)
theorem val7_main_arg2 (V : Valuation τ sig (Elt F)) : val7 V (no_index (Proc.devRef .tc main_arg2)) = V (Proc.devRef .tc main_arg2) :=
  (val7_keep V main_arg2 (by decide)).trans (val6_main_arg2 V)
theorem val7_main_arg3 (V : Valuation τ sig (Elt F)) : val7 V (no_index (Proc.devRef .tc main_arg3)) = V (Proc.devRef .tc main_arg3) :=
  (val7_keep V main_arg3 (by decide)).trans (val6_main_arg3 V)
theorem val7_main_arg4 (V : Valuation τ sig (Elt F)) : val7 V (no_index (Proc.devRef .tc main_arg4)) = V (Proc.devRef .tc main_arg4) :=
  (val7_keep V main_arg4 (by decide)).trans (val6_main_arg4 V)

/-- The buffers the operations of window 8 write. -/
abbrev ops_w7_W : List (Ref sig .tc) := [main_v54, main_cst_9, main_v55]
theorem ops_w7_writes : (ops_w7 : List (HloOp τ sig (Elt F))).Forall fun op => op.writes ⊆ (ops_w7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 8 does not write keeps its contents through it. -/
theorem val8_keep (V : Valuation τ sig (Elt F)) (r : Ref sig .tc) (h : r ∉ ops_w7_W) : val8 V (Proc.devRef .tc r) = val7 V (Proc.devRef .tc r) :=
  after_of_writes_sub ops_w7 _ ops_w7_writes h
theorem val8_main_arg0 (V : Valuation τ sig (Elt F)) : val8 V (no_index (Proc.devRef .tc main_arg0)) = V (Proc.devRef .tc main_arg0) :=
  (val8_keep V main_arg0 (by decide)).trans (val7_main_arg0 V)
theorem val8_main_arg1 (V : Valuation τ sig (Elt F)) : val8 V (no_index (Proc.devRef .tc main_arg1)) = V (Proc.devRef .tc main_arg1) :=
  (val8_keep V main_arg1 (by decide)).trans (val7_main_arg1 V)
theorem val8_main_arg2 (V : Valuation τ sig (Elt F)) : val8 V (no_index (Proc.devRef .tc main_arg2)) = V (Proc.devRef .tc main_arg2) :=
  (val8_keep V main_arg2 (by decide)).trans (val7_main_arg2 V)
theorem val8_main_arg3 (V : Valuation τ sig (Elt F)) : val8 V (no_index (Proc.devRef .tc main_arg3)) = V (Proc.devRef .tc main_arg3) :=
  (val8_keep V main_arg3 (by decide)).trans (val7_main_arg3 V)
theorem val8_main_arg4 (V : Valuation τ sig (Elt F)) : val8 V (no_index (Proc.devRef .tc main_arg4)) = V (Proc.devRef .tc main_arg4) :=
  (val8_keep V main_arg4 (by decide)).trans (val7_main_arg4 V)

/-- The buffers the operations of window 9 write. -/
abbrev ops_w8_W : List (Ref sig .tc) := [main_v56]
theorem ops_w8_writes : (ops_w8 : List (HloOp τ sig (Elt F))).Forall fun op => op.writes ⊆ (ops_w8_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer window 9 does not write keeps its contents through it. -/
theorem val9_keep (V : Valuation τ sig (Elt F)) (r : Ref sig .tc) (h : r ∉ ops_w8_W) : val9 V (Proc.devRef .tc r) = val8 V (Proc.devRef .tc r) :=
  after_of_writes_sub ops_w8 _ ops_w8_writes h
theorem val9_main_arg0 (V : Valuation τ sig (Elt F)) : val9 V (no_index (Proc.devRef .tc main_arg0)) = V (Proc.devRef .tc main_arg0) :=
  (val9_keep V main_arg0 (by decide)).trans (val8_main_arg0 V)
theorem val9_main_arg1 (V : Valuation τ sig (Elt F)) : val9 V (no_index (Proc.devRef .tc main_arg1)) = V (Proc.devRef .tc main_arg1) :=
  (val9_keep V main_arg1 (by decide)).trans (val8_main_arg1 V)
theorem val9_main_arg2 (V : Valuation τ sig (Elt F)) : val9 V (no_index (Proc.devRef .tc main_arg2)) = V (Proc.devRef .tc main_arg2) :=
  (val9_keep V main_arg2 (by decide)).trans (val8_main_arg2 V)
theorem val9_main_arg3 (V : Valuation τ sig (Elt F)) : val9 V (no_index (Proc.devRef .tc main_arg3)) = V (Proc.devRef .tc main_arg3) :=
  (val9_keep V main_arg3 (by decide)).trans (val8_main_arg3 V)
theorem val9_main_arg4 (V : Valuation τ sig (Elt F)) : val9 V (no_index (Proc.devRef .tc main_arg4)) = V (Proc.devRef .tc main_arg4) :=
  (val9_keep V main_arg4 (by decide)).trans (val8_main_arg4 V)

/-- The buffers the operations of window 10 write. -/
abbrev ops_w9_W : List (Ref sig .tc) := [main_v57, main_v58, main_v59, main_v60, main_v61, main_cst_10, main_v62, main_v63, main_v64, main_cst_11, main_v65, main_v66]
theorem ops_w9_writes : (ops_w9 : List (HloOp τ sig (Elt F))).Forall fun op => op.writes ⊆ (ops_w9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 10 does not write keeps its contents through it. -/
theorem val10_keep (V : Valuation τ sig (Elt F)) (r : Ref sig .tc) (h : r ∉ ops_w9_W) : val10 V (Proc.devRef .tc r) = val9 V (Proc.devRef .tc r) :=
  after_of_writes_sub ops_w9 _ ops_w9_writes h
theorem val10_main_arg0 (V : Valuation τ sig (Elt F)) : val10 V (no_index (Proc.devRef .tc main_arg0)) = V (Proc.devRef .tc main_arg0) :=
  (val10_keep V main_arg0 (by decide)).trans (val9_main_arg0 V)
theorem val10_main_arg1 (V : Valuation τ sig (Elt F)) : val10 V (no_index (Proc.devRef .tc main_arg1)) = V (Proc.devRef .tc main_arg1) :=
  (val10_keep V main_arg1 (by decide)).trans (val9_main_arg1 V)
theorem val10_main_arg2 (V : Valuation τ sig (Elt F)) : val10 V (no_index (Proc.devRef .tc main_arg2)) = V (Proc.devRef .tc main_arg2) :=
  (val10_keep V main_arg2 (by decide)).trans (val9_main_arg2 V)
theorem val10_main_arg3 (V : Valuation τ sig (Elt F)) : val10 V (no_index (Proc.devRef .tc main_arg3)) = V (Proc.devRef .tc main_arg3) :=
  (val10_keep V main_arg3 (by decide)).trans (val9_main_arg3 V)
theorem val10_main_arg4 (V : Valuation τ sig (Elt F)) : val10 V (no_index (Proc.devRef .tc main_arg4)) = V (Proc.devRef .tc main_arg4) :=
  (val10_keep V main_arg4 (by decide)).trans (val9_main_arg4 V)

/-- The buffers the operations of window 11 write. -/
abbrev ops_w10_W : List (Ref sig .tc) := [main_cst_12, main_v67, main_call3_v0, main_call3_c, main_call3_v1, main_call3_v2, main_call3_v3, main_call3_v4, main_call3_cst, main_call3_v5, main_v68, main_cst_13, main_v69, main_v70, main_call4_v0, main_call4_v1, main_call4_call0_c, main_call4_call0_v0, main_v71]
theorem ops_w10_writes : (ops_w10 : List (HloOp τ sig (Elt F))).Forall fun op => op.writes ⊆ (ops_w10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 11 does not write keeps its contents through it. -/
theorem val11_keep (V : Valuation τ sig (Elt F)) (r : Ref sig .tc) (h : r ∉ ops_w10_W) : val11 V (Proc.devRef .tc r) = val10 V (Proc.devRef .tc r) :=
  after_of_writes_sub ops_w10 _ ops_w10_writes h
theorem val11_main_arg0 (V : Valuation τ sig (Elt F)) : val11 V (no_index (Proc.devRef .tc main_arg0)) = V (Proc.devRef .tc main_arg0) :=
  (val11_keep V main_arg0 (by decide)).trans (val10_main_arg0 V)
theorem val11_main_arg1 (V : Valuation τ sig (Elt F)) : val11 V (no_index (Proc.devRef .tc main_arg1)) = V (Proc.devRef .tc main_arg1) :=
  (val11_keep V main_arg1 (by decide)).trans (val10_main_arg1 V)
theorem val11_main_arg2 (V : Valuation τ sig (Elt F)) : val11 V (no_index (Proc.devRef .tc main_arg2)) = V (Proc.devRef .tc main_arg2) :=
  (val11_keep V main_arg2 (by decide)).trans (val10_main_arg2 V)
theorem val11_main_arg3 (V : Valuation τ sig (Elt F)) : val11 V (no_index (Proc.devRef .tc main_arg3)) = V (Proc.devRef .tc main_arg3) :=
  (val11_keep V main_arg3 (by decide)).trans (val10_main_arg3 V)
theorem val11_main_arg4 (V : Valuation τ sig (Elt F)) : val11 V (no_index (Proc.devRef .tc main_arg4)) = V (Proc.devRef .tc main_arg4) :=
  (val11_keep V main_arg4 (by decide)).trans (val10_main_arg4 V)

/-- The buffers the operations of window 12 write. -/
abbrev ops_w11_W : List (Ref sig .tc) := [main_c_14, main_v72, main_c_15, main_call5_v0, main_call5_v1, main_v73]
theorem ops_w11_writes : (ops_w11 : List (HloOp τ sig (Elt F))).Forall fun op => op.writes ⊆ (ops_w11_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 12 does not write keeps its contents through it. -/
theorem val12_keep (V : Valuation τ sig (Elt F)) (r : Ref sig .tc) (h : r ∉ ops_w11_W) : val12 V (Proc.devRef .tc r) = val11 V (Proc.devRef .tc r) :=
  after_of_writes_sub ops_w11 _ ops_w11_writes h
theorem val12_main_arg0 (V : Valuation τ sig (Elt F)) : val12 V (no_index (Proc.devRef .tc main_arg0)) = V (Proc.devRef .tc main_arg0) :=
  (val12_keep V main_arg0 (by decide)).trans (val11_main_arg0 V)
theorem val12_main_arg1 (V : Valuation τ sig (Elt F)) : val12 V (no_index (Proc.devRef .tc main_arg1)) = V (Proc.devRef .tc main_arg1) :=
  (val12_keep V main_arg1 (by decide)).trans (val11_main_arg1 V)
theorem val12_main_arg2 (V : Valuation τ sig (Elt F)) : val12 V (no_index (Proc.devRef .tc main_arg2)) = V (Proc.devRef .tc main_arg2) :=
  (val12_keep V main_arg2 (by decide)).trans (val11_main_arg2 V)
theorem val12_main_arg3 (V : Valuation τ sig (Elt F)) : val12 V (no_index (Proc.devRef .tc main_arg3)) = V (Proc.devRef .tc main_arg3) :=
  (val12_keep V main_arg3 (by decide)).trans (val11_main_arg3 V)
theorem val12_main_arg4 (V : Valuation τ sig (Elt F)) : val12 V (no_index (Proc.devRef .tc main_arg4)) = V (Proc.devRef .tc main_arg4) :=
  (val12_keep V main_arg4 (by decide)).trans (val11_main_arg4 V)

/-- The buffers the operations of window 13 write. -/
abbrev ops_w12_W : List (Ref sig .tc) := [main_c_16, main_v74, main_v75, main_c_17, main_v76, main_v77, main_v78, main_v79, main_c_18, main_v80, main_v81]
theorem ops_w12_writes : (ops_w12 : List (HloOp τ sig (Elt F))).Forall fun op => op.writes ⊆ (ops_w12_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 13 does not write keeps its contents through it. -/
theorem val13_keep (V : Valuation τ sig (Elt F)) (r : Ref sig .tc) (h : r ∉ ops_w12_W) : val13 V (Proc.devRef .tc r) = val12 V (Proc.devRef .tc r) :=
  after_of_writes_sub ops_w12 _ ops_w12_writes h
theorem val13_main_arg0 (V : Valuation τ sig (Elt F)) : val13 V (no_index (Proc.devRef .tc main_arg0)) = V (Proc.devRef .tc main_arg0) :=
  (val13_keep V main_arg0 (by decide)).trans (val12_main_arg0 V)
theorem val13_main_arg1 (V : Valuation τ sig (Elt F)) : val13 V (no_index (Proc.devRef .tc main_arg1)) = V (Proc.devRef .tc main_arg1) :=
  (val13_keep V main_arg1 (by decide)).trans (val12_main_arg1 V)
theorem val13_main_arg2 (V : Valuation τ sig (Elt F)) : val13 V (no_index (Proc.devRef .tc main_arg2)) = V (Proc.devRef .tc main_arg2) :=
  (val13_keep V main_arg2 (by decide)).trans (val12_main_arg2 V)
theorem val13_main_arg3 (V : Valuation τ sig (Elt F)) : val13 V (no_index (Proc.devRef .tc main_arg3)) = V (Proc.devRef .tc main_arg3) :=
  (val13_keep V main_arg3 (by decide)).trans (val12_main_arg3 V)
theorem val13_main_arg4 (V : Valuation τ sig (Elt F)) : val13 V (no_index (Proc.devRef .tc main_arg4)) = V (Proc.devRef .tc main_arg4) :=
  (val13_keep V main_arg4 (by decide)).trans (val12_main_arg4 V)

/-- The buffers the operations of window 14 write. -/
abbrev ops_w13_W : List (Ref sig .tc) := [main_call6_call0_c, main_call6_call0_v0, main_v82]
theorem ops_w13_writes : (ops_w13 : List (HloOp τ sig (Elt F))).Forall fun op => op.writes ⊆ (ops_w13_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 14 does not write keeps its contents through it. -/
theorem val14_keep (V : Valuation τ sig (Elt F)) (r : Ref sig .tc) (h : r ∉ ops_w13_W) : val14 V (Proc.devRef .tc r) = val13 V (Proc.devRef .tc r) :=
  after_of_writes_sub ops_w13 _ ops_w13_writes h
theorem val14_main_arg0 (V : Valuation τ sig (Elt F)) : val14 V (no_index (Proc.devRef .tc main_arg0)) = V (Proc.devRef .tc main_arg0) :=
  (val14_keep V main_arg0 (by decide)).trans (val13_main_arg0 V)
theorem val14_main_arg1 (V : Valuation τ sig (Elt F)) : val14 V (no_index (Proc.devRef .tc main_arg1)) = V (Proc.devRef .tc main_arg1) :=
  (val14_keep V main_arg1 (by decide)).trans (val13_main_arg1 V)
theorem val14_main_arg2 (V : Valuation τ sig (Elt F)) : val14 V (no_index (Proc.devRef .tc main_arg2)) = V (Proc.devRef .tc main_arg2) :=
  (val14_keep V main_arg2 (by decide)).trans (val13_main_arg2 V)
theorem val14_main_arg3 (V : Valuation τ sig (Elt F)) : val14 V (no_index (Proc.devRef .tc main_arg3)) = V (Proc.devRef .tc main_arg3) :=
  (val14_keep V main_arg3 (by decide)).trans (val13_main_arg3 V)
theorem val14_main_arg4 (V : Valuation τ sig (Elt F)) : val14 V (no_index (Proc.devRef .tc main_arg4)) = V (Proc.devRef .tc main_arg4) :=
  (val14_keep V main_arg4 (by decide)).trans (val13_main_arg4 V)

/-- The buffers the operations of window 15 write. -/
abbrev ops_w14_W : List (Ref sig .tc) := [main_c_19, main_call7_v0, main_call7_v1]
theorem ops_w14_writes : (ops_w14 : List (HloOp τ sig (Elt F))).Forall fun op => op.writes ⊆ (ops_w14_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 15 does not write keeps its contents through it. -/
theorem val15_keep (V : Valuation τ sig (Elt F)) (r : Ref sig .tc) (h : r ∉ ops_w14_W) : val15 V (Proc.devRef .tc r) = val14 V (Proc.devRef .tc r) :=
  after_of_writes_sub ops_w14 _ ops_w14_writes h
theorem val15_main_arg0 (V : Valuation τ sig (Elt F)) : val15 V (no_index (Proc.devRef .tc main_arg0)) = V (Proc.devRef .tc main_arg0) :=
  (val15_keep V main_arg0 (by decide)).trans (val14_main_arg0 V)
theorem val15_main_arg1 (V : Valuation τ sig (Elt F)) : val15 V (no_index (Proc.devRef .tc main_arg1)) = V (Proc.devRef .tc main_arg1) :=
  (val15_keep V main_arg1 (by decide)).trans (val14_main_arg1 V)
theorem val15_main_arg2 (V : Valuation τ sig (Elt F)) : val15 V (no_index (Proc.devRef .tc main_arg2)) = V (Proc.devRef .tc main_arg2) :=
  (val15_keep V main_arg2 (by decide)).trans (val14_main_arg2 V)
theorem val15_main_arg3 (V : Valuation τ sig (Elt F)) : val15 V (no_index (Proc.devRef .tc main_arg3)) = V (Proc.devRef .tc main_arg3) :=
  (val15_keep V main_arg3 (by decide)).trans (val14_main_arg3 V)
theorem val15_main_arg4 (V : Valuation τ sig (Elt F)) : val15 V (no_index (Proc.devRef .tc main_arg4)) = V (Proc.devRef .tc main_arg4) :=
  (val15_keep V main_arg4 (by decide)).trans (val14_main_arg4 V)

/-- The buffers the operations of window 16 write. -/
abbrev ops_w15_W : List (Ref sig .tc) := [main_call7_v2, main_call7_v3, main_call7_v4, main_call7_v5, main_call7_v6, main_call7_v7, main_call7_c, main_call7_v8, main_call7_v9, main_call7_v10, main_call7_c_0, main_call7_v11, main_call7_v12, main_v83, main_c_20, main_call8_v0, main_call8_c, main_call8_v1, main_call8_c_0, main_call8_v2, main_call8_v3, main_call8_v4]
theorem ops_w15_writes : (ops_w15 : List (HloOp τ sig (Elt F))).Forall fun op => op.writes ⊆ (ops_w15_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 16 does not write keeps its contents through it. -/
theorem val16_keep (V : Valuation τ sig (Elt F)) (r : Ref sig .tc) (h : r ∉ ops_w15_W) : val16 V (Proc.devRef .tc r) = val15 V (Proc.devRef .tc r) :=
  after_of_writes_sub ops_w15 _ ops_w15_writes h
theorem val16_main_arg0 (V : Valuation τ sig (Elt F)) : val16 V (no_index (Proc.devRef .tc main_arg0)) = V (Proc.devRef .tc main_arg0) :=
  (val16_keep V main_arg0 (by decide)).trans (val15_main_arg0 V)
theorem val16_main_arg1 (V : Valuation τ sig (Elt F)) : val16 V (no_index (Proc.devRef .tc main_arg1)) = V (Proc.devRef .tc main_arg1) :=
  (val16_keep V main_arg1 (by decide)).trans (val15_main_arg1 V)
theorem val16_main_arg2 (V : Valuation τ sig (Elt F)) : val16 V (no_index (Proc.devRef .tc main_arg2)) = V (Proc.devRef .tc main_arg2) :=
  (val16_keep V main_arg2 (by decide)).trans (val15_main_arg2 V)
theorem val16_main_arg3 (V : Valuation τ sig (Elt F)) : val16 V (no_index (Proc.devRef .tc main_arg3)) = V (Proc.devRef .tc main_arg3) :=
  (val16_keep V main_arg3 (by decide)).trans (val15_main_arg3 V)
theorem val16_main_arg4 (V : Valuation τ sig (Elt F)) : val16 V (no_index (Proc.devRef .tc main_arg4)) = V (Proc.devRef .tc main_arg4) :=
  (val16_keep V main_arg4 (by decide)).trans (val15_main_arg4 V)

/-- The buffers the operations of window 17 write. -/
abbrev ops_w16_W : List (Ref sig .tc) := [main_call8_c_1, main_call8_v5, main_call8_v6, main_call8_c_2, main_call8_v7, main_call8_v8, main_call8_c_3, main_call8_v9, main_call8_v10, main_call8_v11, main_call8_v12, main_call8_v13, main_call8_v14, main_v84]
theorem ops_w16_writes : (ops_w16 : List (HloOp τ sig (Elt F))).Forall fun op => op.writes ⊆ (ops_w16_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 17 does not write keeps its contents through it. -/
theorem val17_keep (V : Valuation τ sig (Elt F)) (r : Ref sig .tc) (h : r ∉ ops_w16_W) : val17 V (Proc.devRef .tc r) = val16 V (Proc.devRef .tc r) :=
  after_of_writes_sub ops_w16 _ ops_w16_writes h
theorem val17_main_arg0 (V : Valuation τ sig (Elt F)) : val17 V (no_index (Proc.devRef .tc main_arg0)) = V (Proc.devRef .tc main_arg0) :=
  (val17_keep V main_arg0 (by decide)).trans (val16_main_arg0 V)
theorem val17_main_arg1 (V : Valuation τ sig (Elt F)) : val17 V (no_index (Proc.devRef .tc main_arg1)) = V (Proc.devRef .tc main_arg1) :=
  (val17_keep V main_arg1 (by decide)).trans (val16_main_arg1 V)
theorem val17_main_arg2 (V : Valuation τ sig (Elt F)) : val17 V (no_index (Proc.devRef .tc main_arg2)) = V (Proc.devRef .tc main_arg2) :=
  (val17_keep V main_arg2 (by decide)).trans (val16_main_arg2 V)
theorem val17_main_arg3 (V : Valuation τ sig (Elt F)) : val17 V (no_index (Proc.devRef .tc main_arg3)) = V (Proc.devRef .tc main_arg3) :=
  (val17_keep V main_arg3 (by decide)).trans (val16_main_arg3 V)
theorem val17_main_arg4 (V : Valuation τ sig (Elt F)) : val17 V (no_index (Proc.devRef .tc main_arg4)) = V (Proc.devRef .tc main_arg4) :=
  (val17_keep V main_arg4 (by decide)).trans (val16_main_arg4 V)

/-- The buffers the operations of window 18 write. -/
abbrev ops_w17_W : List (Ref sig .tc) := [main_c_21, main_call9_v0, main_call9_v1]
theorem ops_w17_writes : (ops_w17 : List (HloOp τ sig (Elt F))).Forall fun op => op.writes ⊆ (ops_w17_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 18 does not write keeps its contents through it. -/
theorem val18_keep (V : Valuation τ sig (Elt F)) (r : Ref sig .tc) (h : r ∉ ops_w17_W) : val18 V (Proc.devRef .tc r) = val17 V (Proc.devRef .tc r) :=
  after_of_writes_sub ops_w17 _ ops_w17_writes h
theorem val18_main_arg0 (V : Valuation τ sig (Elt F)) : val18 V (no_index (Proc.devRef .tc main_arg0)) = V (Proc.devRef .tc main_arg0) :=
  (val18_keep V main_arg0 (by decide)).trans (val17_main_arg0 V)
theorem val18_main_arg1 (V : Valuation τ sig (Elt F)) : val18 V (no_index (Proc.devRef .tc main_arg1)) = V (Proc.devRef .tc main_arg1) :=
  (val18_keep V main_arg1 (by decide)).trans (val17_main_arg1 V)
theorem val18_main_arg2 (V : Valuation τ sig (Elt F)) : val18 V (no_index (Proc.devRef .tc main_arg2)) = V (Proc.devRef .tc main_arg2) :=
  (val18_keep V main_arg2 (by decide)).trans (val17_main_arg2 V)
theorem val18_main_arg3 (V : Valuation τ sig (Elt F)) : val18 V (no_index (Proc.devRef .tc main_arg3)) = V (Proc.devRef .tc main_arg3) :=
  (val18_keep V main_arg3 (by decide)).trans (val17_main_arg3 V)
theorem val18_main_arg4 (V : Valuation τ sig (Elt F)) : val18 V (no_index (Proc.devRef .tc main_arg4)) = V (Proc.devRef .tc main_arg4) :=
  (val18_keep V main_arg4 (by decide)).trans (val17_main_arg4 V)

/-- The buffers the operations of window 19 write. -/
abbrev ops_w18_W : List (Ref sig .tc) := [main_call9_v2, main_call9_v3, main_call9_v4, main_call9_v5, main_call9_v6, main_call9_v7, main_call9_c, main_call9_v8, main_call9_v9, main_call9_v10, main_call9_c_0, main_call9_v11, main_call9_v12, main_v85, main_c_22, main_call10_v0, main_call10_c, main_call10_v1, main_call10_c_0, main_call10_v2, main_call10_v3, main_call10_v4]
theorem ops_w18_writes : (ops_w18 : List (HloOp τ sig (Elt F))).Forall fun op => op.writes ⊆ (ops_w18_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 19 does not write keeps its contents through it. -/
theorem val19_keep (V : Valuation τ sig (Elt F)) (r : Ref sig .tc) (h : r ∉ ops_w18_W) : val19 V (Proc.devRef .tc r) = val18 V (Proc.devRef .tc r) :=
  after_of_writes_sub ops_w18 _ ops_w18_writes h
theorem val19_main_arg0 (V : Valuation τ sig (Elt F)) : val19 V (no_index (Proc.devRef .tc main_arg0)) = V (Proc.devRef .tc main_arg0) :=
  (val19_keep V main_arg0 (by decide)).trans (val18_main_arg0 V)
theorem val19_main_arg1 (V : Valuation τ sig (Elt F)) : val19 V (no_index (Proc.devRef .tc main_arg1)) = V (Proc.devRef .tc main_arg1) :=
  (val19_keep V main_arg1 (by decide)).trans (val18_main_arg1 V)
theorem val19_main_arg2 (V : Valuation τ sig (Elt F)) : val19 V (no_index (Proc.devRef .tc main_arg2)) = V (Proc.devRef .tc main_arg2) :=
  (val19_keep V main_arg2 (by decide)).trans (val18_main_arg2 V)
theorem val19_main_arg3 (V : Valuation τ sig (Elt F)) : val19 V (no_index (Proc.devRef .tc main_arg3)) = V (Proc.devRef .tc main_arg3) :=
  (val19_keep V main_arg3 (by decide)).trans (val18_main_arg3 V)
theorem val19_main_arg4 (V : Valuation τ sig (Elt F)) : val19 V (no_index (Proc.devRef .tc main_arg4)) = V (Proc.devRef .tc main_arg4) :=
  (val19_keep V main_arg4 (by decide)).trans (val18_main_arg4 V)

/-- The buffers the operations of window 20 write. -/
abbrev ops_w19_W : List (Ref sig .tc) := [main_call10_c_1, main_call10_v5, main_call10_v6, main_call10_c_2, main_call10_v7, main_call10_v8, main_call10_c_3, main_call10_v9, main_call10_v10, main_call10_v11, main_call10_v12, main_call10_v13, main_call10_v14, main_v86]
theorem ops_w19_writes : (ops_w19 : List (HloOp τ sig (Elt F))).Forall fun op => op.writes ⊆ (ops_w19_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 20 does not write keeps its contents through it. -/
theorem val20_keep (V : Valuation τ sig (Elt F)) (r : Ref sig .tc) (h : r ∉ ops_w19_W) : val20 V (Proc.devRef .tc r) = val19 V (Proc.devRef .tc r) :=
  after_of_writes_sub ops_w19 _ ops_w19_writes h
theorem val20_main_arg0 (V : Valuation τ sig (Elt F)) : val20 V (no_index (Proc.devRef .tc main_arg0)) = V (Proc.devRef .tc main_arg0) :=
  (val20_keep V main_arg0 (by decide)).trans (val19_main_arg0 V)
theorem val20_main_arg1 (V : Valuation τ sig (Elt F)) : val20 V (no_index (Proc.devRef .tc main_arg1)) = V (Proc.devRef .tc main_arg1) :=
  (val20_keep V main_arg1 (by decide)).trans (val19_main_arg1 V)
theorem val20_main_arg2 (V : Valuation τ sig (Elt F)) : val20 V (no_index (Proc.devRef .tc main_arg2)) = V (Proc.devRef .tc main_arg2) :=
  (val20_keep V main_arg2 (by decide)).trans (val19_main_arg2 V)
theorem val20_main_arg3 (V : Valuation τ sig (Elt F)) : val20 V (no_index (Proc.devRef .tc main_arg3)) = V (Proc.devRef .tc main_arg3) :=
  (val20_keep V main_arg3 (by decide)).trans (val19_main_arg3 V)
theorem val20_main_arg4 (V : Valuation τ sig (Elt F)) : val20 V (no_index (Proc.devRef .tc main_arg4)) = V (Proc.devRef .tc main_arg4) :=
  (val20_keep V main_arg4 (by decide)).trans (val19_main_arg4 V)

/-- The buffers the operations of window 21 write. -/
abbrev ops_w20_W : List (Ref sig .tc) := [main_c_23, main_v87, main_v88, main_c_24, main_v89, main_v90, main_v91]
theorem ops_w20_writes : (ops_w20 : List (HloOp τ sig (Elt F))).Forall fun op => op.writes ⊆ (ops_w20_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 21 does not write keeps its contents through it. -/
theorem val21_keep (V : Valuation τ sig (Elt F)) (r : Ref sig .tc) (h : r ∉ ops_w20_W) : val21 V (Proc.devRef .tc r) = val20 V (Proc.devRef .tc r) :=
  after_of_writes_sub ops_w20 _ ops_w20_writes h
theorem val21_main_arg0 (V : Valuation τ sig (Elt F)) : val21 V (no_index (Proc.devRef .tc main_arg0)) = V (Proc.devRef .tc main_arg0) :=
  (val21_keep V main_arg0 (by decide)).trans (val20_main_arg0 V)
theorem val21_main_arg1 (V : Valuation τ sig (Elt F)) : val21 V (no_index (Proc.devRef .tc main_arg1)) = V (Proc.devRef .tc main_arg1) :=
  (val21_keep V main_arg1 (by decide)).trans (val20_main_arg1 V)
theorem val21_main_arg2 (V : Valuation τ sig (Elt F)) : val21 V (no_index (Proc.devRef .tc main_arg2)) = V (Proc.devRef .tc main_arg2) :=
  (val21_keep V main_arg2 (by decide)).trans (val20_main_arg2 V)
theorem val21_main_arg3 (V : Valuation τ sig (Elt F)) : val21 V (no_index (Proc.devRef .tc main_arg3)) = V (Proc.devRef .tc main_arg3) :=
  (val21_keep V main_arg3 (by decide)).trans (val20_main_arg3 V)
theorem val21_main_arg4 (V : Valuation τ sig (Elt F)) : val21 V (no_index (Proc.devRef .tc main_arg4)) = V (Proc.devRef .tc main_arg4) :=
  (val21_keep V main_arg4 (by decide)).trans (val20_main_arg4 V)

/-- The buffers the operations of window 22 write. -/
abbrev ops_w21_W : List (Ref sig .tc) := [main_c_25]
theorem ops_w21_writes : (ops_w21 : List (HloOp τ sig (Elt F))).Forall fun op => op.writes ⊆ (ops_w21_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer window 22 does not write keeps its contents through it. -/
theorem val22_keep (V : Valuation τ sig (Elt F)) (r : Ref sig .tc) (h : r ∉ ops_w21_W) : val22 V (Proc.devRef .tc r) = val21 V (Proc.devRef .tc r) :=
  after_of_writes_sub ops_w21 _ ops_w21_writes h
theorem val22_main_arg0 (V : Valuation τ sig (Elt F)) : val22 V (no_index (Proc.devRef .tc main_arg0)) = V (Proc.devRef .tc main_arg0) :=
  (val22_keep V main_arg0 (by decide)).trans (val21_main_arg0 V)
theorem val22_main_arg1 (V : Valuation τ sig (Elt F)) : val22 V (no_index (Proc.devRef .tc main_arg1)) = V (Proc.devRef .tc main_arg1) :=
  (val22_keep V main_arg1 (by decide)).trans (val21_main_arg1 V)
theorem val22_main_arg2 (V : Valuation τ sig (Elt F)) : val22 V (no_index (Proc.devRef .tc main_arg2)) = V (Proc.devRef .tc main_arg2) :=
  (val22_keep V main_arg2 (by decide)).trans (val21_main_arg2 V)
theorem val22_main_arg3 (V : Valuation τ sig (Elt F)) : val22 V (no_index (Proc.devRef .tc main_arg3)) = V (Proc.devRef .tc main_arg3) :=
  (val22_keep V main_arg3 (by decide)).trans (val21_main_arg3 V)
theorem val22_main_arg4 (V : Valuation τ sig (Elt F)) : val22 V (no_index (Proc.devRef .tc main_arg4)) = V (Proc.devRef .tc main_arg4) :=
  (val22_keep V main_arg4 (by decide)).trans (val21_main_arg4 V)

/-- The buffers the operations of window 23 write. -/
abbrev ops_w22_W : List (Ref sig .tc) := [main_v92, main_v93, main_c_26, main_v94, main_v95, main_v96]
theorem ops_w22_writes : (ops_w22 : List (HloOp τ sig (Elt F))).Forall fun op => op.writes ⊆ (ops_w22_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 23 does not write keeps its contents through it. -/
theorem val23_keep (V : Valuation τ sig (Elt F)) (r : Ref sig .tc) (h : r ∉ ops_w22_W) : val23 V (Proc.devRef .tc r) = val22 V (Proc.devRef .tc r) :=
  after_of_writes_sub ops_w22 _ ops_w22_writes h
theorem val23_main_arg0 (V : Valuation τ sig (Elt F)) : val23 V (no_index (Proc.devRef .tc main_arg0)) = V (Proc.devRef .tc main_arg0) :=
  (val23_keep V main_arg0 (by decide)).trans (val22_main_arg0 V)
theorem val23_main_arg1 (V : Valuation τ sig (Elt F)) : val23 V (no_index (Proc.devRef .tc main_arg1)) = V (Proc.devRef .tc main_arg1) :=
  (val23_keep V main_arg1 (by decide)).trans (val22_main_arg1 V)
theorem val23_main_arg2 (V : Valuation τ sig (Elt F)) : val23 V (no_index (Proc.devRef .tc main_arg2)) = V (Proc.devRef .tc main_arg2) :=
  (val23_keep V main_arg2 (by decide)).trans (val22_main_arg2 V)
theorem val23_main_arg3 (V : Valuation τ sig (Elt F)) : val23 V (no_index (Proc.devRef .tc main_arg3)) = V (Proc.devRef .tc main_arg3) :=
  (val23_keep V main_arg3 (by decide)).trans (val22_main_arg3 V)
theorem val23_main_arg4 (V : Valuation τ sig (Elt F)) : val23 V (no_index (Proc.devRef .tc main_arg4)) = V (Proc.devRef .tc main_arg4) :=
  (val23_keep V main_arg4 (by decide)).trans (val22_main_arg4 V)

/-- The buffers the operations of window 24 write. -/
abbrev ops_w23_W : List (Ref sig .tc) := [main_v97, main_v98, main_v99]
theorem ops_w23_writes : (ops_w23 : List (HloOp τ sig (Elt F))).Forall fun op => op.writes ⊆ (ops_w23_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 24 does not write keeps its contents through it. -/
theorem val24_keep (V : Valuation τ sig (Elt F)) (r : Ref sig .tc) (h : r ∉ ops_w23_W) : val24 V (Proc.devRef .tc r) = val23 V (Proc.devRef .tc r) :=
  after_of_writes_sub ops_w23 _ ops_w23_writes h
theorem val24_main_arg0 (V : Valuation τ sig (Elt F)) : val24 V (no_index (Proc.devRef .tc main_arg0)) = V (Proc.devRef .tc main_arg0) :=
  (val24_keep V main_arg0 (by decide)).trans (val23_main_arg0 V)
theorem val24_main_arg1 (V : Valuation τ sig (Elt F)) : val24 V (no_index (Proc.devRef .tc main_arg1)) = V (Proc.devRef .tc main_arg1) :=
  (val24_keep V main_arg1 (by decide)).trans (val23_main_arg1 V)
theorem val24_main_arg2 (V : Valuation τ sig (Elt F)) : val24 V (no_index (Proc.devRef .tc main_arg2)) = V (Proc.devRef .tc main_arg2) :=
  (val24_keep V main_arg2 (by decide)).trans (val23_main_arg2 V)
theorem val24_main_arg3 (V : Valuation τ sig (Elt F)) : val24 V (no_index (Proc.devRef .tc main_arg3)) = V (Proc.devRef .tc main_arg3) :=
  (val24_keep V main_arg3 (by decide)).trans (val23_main_arg3 V)
theorem val24_main_arg4 (V : Valuation τ sig (Elt F)) : val24 V (no_index (Proc.devRef .tc main_arg4)) = V (Proc.devRef .tc main_arg4) :=
  (val24_keep V main_arg4 (by decide)).trans (val23_main_arg4 V)

/-- The buffers the operations of window 25 write. -/
abbrev ops_w24_W : List (Ref sig .tc) := [main_v100]
theorem ops_w24_writes : (ops_w24 : List (HloOp τ sig (Elt F))).Forall fun op => op.writes ⊆ (ops_w24_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer window 25 does not write keeps its contents through it. -/
theorem val25_keep (V : Valuation τ sig (Elt F)) (r : Ref sig .tc) (h : r ∉ ops_w24_W) : val25 V (Proc.devRef .tc r) = val24 V (Proc.devRef .tc r) :=
  after_of_writes_sub ops_w24 _ ops_w24_writes h
theorem val25_main_arg0 (V : Valuation τ sig (Elt F)) : val25 V (no_index (Proc.devRef .tc main_arg0)) = V (Proc.devRef .tc main_arg0) :=
  (val25_keep V main_arg0 (by decide)).trans (val24_main_arg0 V)
theorem val25_main_arg1 (V : Valuation τ sig (Elt F)) : val25 V (no_index (Proc.devRef .tc main_arg1)) = V (Proc.devRef .tc main_arg1) :=
  (val25_keep V main_arg1 (by decide)).trans (val24_main_arg1 V)
theorem val25_main_arg2 (V : Valuation τ sig (Elt F)) : val25 V (no_index (Proc.devRef .tc main_arg2)) = V (Proc.devRef .tc main_arg2) :=
  (val25_keep V main_arg2 (by decide)).trans (val24_main_arg2 V)
theorem val25_main_arg3 (V : Valuation τ sig (Elt F)) : val25 V (no_index (Proc.devRef .tc main_arg3)) = V (Proc.devRef .tc main_arg3) :=
  (val25_keep V main_arg3 (by decide)).trans (val24_main_arg3 V)
theorem val25_main_arg4 (V : Valuation τ sig (Elt F)) : val25 V (no_index (Proc.devRef .tc main_arg4)) = V (Proc.devRef .tc main_arg4) :=
  (val25_keep V main_arg4 (by decide)).trans (val24_main_arg4 V)

/-- The buffers the operations of window 26 write. -/
abbrev ops_w25_W : List (Ref sig .tc) := [main_v101, main_c_27, main_v102, main_v103, main_c_28, main_v104, main_v105, main_v106]
theorem ops_w25_writes : (ops_w25 : List (HloOp τ sig (Elt F))).Forall fun op => op.writes ⊆ (ops_w25_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 26 does not write keeps its contents through it. -/
theorem val26_keep (V : Valuation τ sig (Elt F)) (r : Ref sig .tc) (h : r ∉ ops_w25_W) : val26 V (Proc.devRef .tc r) = val25 V (Proc.devRef .tc r) :=
  after_of_writes_sub ops_w25 _ ops_w25_writes h
theorem val26_main_arg0 (V : Valuation τ sig (Elt F)) : val26 V (no_index (Proc.devRef .tc main_arg0)) = V (Proc.devRef .tc main_arg0) :=
  (val26_keep V main_arg0 (by decide)).trans (val25_main_arg0 V)
theorem val26_main_arg1 (V : Valuation τ sig (Elt F)) : val26 V (no_index (Proc.devRef .tc main_arg1)) = V (Proc.devRef .tc main_arg1) :=
  (val26_keep V main_arg1 (by decide)).trans (val25_main_arg1 V)
theorem val26_main_arg2 (V : Valuation τ sig (Elt F)) : val26 V (no_index (Proc.devRef .tc main_arg2)) = V (Proc.devRef .tc main_arg2) :=
  (val26_keep V main_arg2 (by decide)).trans (val25_main_arg2 V)
theorem val26_main_arg3 (V : Valuation τ sig (Elt F)) : val26 V (no_index (Proc.devRef .tc main_arg3)) = V (Proc.devRef .tc main_arg3) :=
  (val26_keep V main_arg3 (by decide)).trans (val25_main_arg3 V)
theorem val26_main_arg4 (V : Valuation τ sig (Elt F)) : val26 V (no_index (Proc.devRef .tc main_arg4)) = V (Proc.devRef .tc main_arg4) :=
  (val26_keep V main_arg4 (by decide)).trans (val25_main_arg4 V)

/-- The buffers the operations of window 27 write. -/
abbrev ops_w26_W : List (Ref sig .tc) := [main_c_29, main_v107, main_v108, main_c_30, main_v109, main_v110, main_v111]
theorem ops_w26_writes : (ops_w26 : List (HloOp τ sig (Elt F))).Forall fun op => op.writes ⊆ (ops_w26_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 27 does not write keeps its contents through it. -/
theorem val27_keep (V : Valuation τ sig (Elt F)) (r : Ref sig .tc) (h : r ∉ ops_w26_W) : val27 V (Proc.devRef .tc r) = val26 V (Proc.devRef .tc r) :=
  after_of_writes_sub ops_w26 _ ops_w26_writes h
theorem val27_main_arg0 (V : Valuation τ sig (Elt F)) : val27 V (no_index (Proc.devRef .tc main_arg0)) = V (Proc.devRef .tc main_arg0) :=
  (val27_keep V main_arg0 (by decide)).trans (val26_main_arg0 V)
theorem val27_main_arg1 (V : Valuation τ sig (Elt F)) : val27 V (no_index (Proc.devRef .tc main_arg1)) = V (Proc.devRef .tc main_arg1) :=
  (val27_keep V main_arg1 (by decide)).trans (val26_main_arg1 V)
theorem val27_main_arg2 (V : Valuation τ sig (Elt F)) : val27 V (no_index (Proc.devRef .tc main_arg2)) = V (Proc.devRef .tc main_arg2) :=
  (val27_keep V main_arg2 (by decide)).trans (val26_main_arg2 V)
theorem val27_main_arg3 (V : Valuation τ sig (Elt F)) : val27 V (no_index (Proc.devRef .tc main_arg3)) = V (Proc.devRef .tc main_arg3) :=
  (val27_keep V main_arg3 (by decide)).trans (val26_main_arg3 V)
theorem val27_main_arg4 (V : Valuation τ sig (Elt F)) : val27 V (no_index (Proc.devRef .tc main_arg4)) = V (Proc.devRef .tc main_arg4) :=
  (val27_keep V main_arg4 (by decide)).trans (val26_main_arg4 V)

/-- The buffers the operations of window 28 write. -/
abbrev ops_w27_W : List (Ref sig .tc) := [main_v112, main_v113, main_v114]
theorem ops_w27_writes : (ops_w27 : List (HloOp τ sig (Elt F))).Forall fun op => op.writes ⊆ (ops_w27_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 28 does not write keeps its contents through it. -/
theorem val28_keep (V : Valuation τ sig (Elt F)) (r : Ref sig .tc) (h : r ∉ ops_w27_W) : val28 V (Proc.devRef .tc r) = val27 V (Proc.devRef .tc r) :=
  after_of_writes_sub ops_w27 _ ops_w27_writes h
theorem val28_main_arg0 (V : Valuation τ sig (Elt F)) : val28 V (no_index (Proc.devRef .tc main_arg0)) = V (Proc.devRef .tc main_arg0) :=
  (val28_keep V main_arg0 (by decide)).trans (val27_main_arg0 V)
theorem val28_main_arg1 (V : Valuation τ sig (Elt F)) : val28 V (no_index (Proc.devRef .tc main_arg1)) = V (Proc.devRef .tc main_arg1) :=
  (val28_keep V main_arg1 (by decide)).trans (val27_main_arg1 V)
theorem val28_main_arg2 (V : Valuation τ sig (Elt F)) : val28 V (no_index (Proc.devRef .tc main_arg2)) = V (Proc.devRef .tc main_arg2) :=
  (val28_keep V main_arg2 (by decide)).trans (val27_main_arg2 V)
theorem val28_main_arg3 (V : Valuation τ sig (Elt F)) : val28 V (no_index (Proc.devRef .tc main_arg3)) = V (Proc.devRef .tc main_arg3) :=
  (val28_keep V main_arg3 (by decide)).trans (val27_main_arg3 V)
theorem val28_main_arg4 (V : Valuation τ sig (Elt F)) : val28 V (no_index (Proc.devRef .tc main_arg4)) = V (Proc.devRef .tc main_arg4) :=
  (val28_keep V main_arg4 (by decide)).trans (val27_main_arg4 V)

/-- The buffers the operations of window 29 write. -/
abbrev ops_w28_W : List (Ref sig .tc) := [main_v115]
theorem ops_w28_writes : (ops_w28 : List (HloOp τ sig (Elt F))).Forall fun op => op.writes ⊆ (ops_w28_W.map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- A buffer window 29 does not write keeps its contents through it. -/
theorem val29_keep (V : Valuation τ sig (Elt F)) (r : Ref sig .tc) (h : r ∉ ops_w28_W) : val29 V (Proc.devRef .tc r) = val28 V (Proc.devRef .tc r) :=
  after_of_writes_sub ops_w28 _ ops_w28_writes h
theorem val29_main_arg0 (V : Valuation τ sig (Elt F)) : val29 V (no_index (Proc.devRef .tc main_arg0)) = V (Proc.devRef .tc main_arg0) :=
  (val29_keep V main_arg0 (by decide)).trans (val28_main_arg0 V)
theorem val29_main_arg1 (V : Valuation τ sig (Elt F)) : val29 V (no_index (Proc.devRef .tc main_arg1)) = V (Proc.devRef .tc main_arg1) :=
  (val29_keep V main_arg1 (by decide)).trans (val28_main_arg1 V)
theorem val29_main_arg2 (V : Valuation τ sig (Elt F)) : val29 V (no_index (Proc.devRef .tc main_arg2)) = V (Proc.devRef .tc main_arg2) :=
  (val29_keep V main_arg2 (by decide)).trans (val28_main_arg2 V)
theorem val29_main_arg3 (V : Valuation τ sig (Elt F)) : val29 V (no_index (Proc.devRef .tc main_arg3)) = V (Proc.devRef .tc main_arg3) :=
  (val29_keep V main_arg3 (by decide)).trans (val28_main_arg3 V)
theorem val29_main_arg4 (V : Valuation τ sig (Elt F)) : val29 V (no_index (Proc.devRef .tc main_arg4)) = V (Proc.devRef .tc main_arg4) :=
  (val29_keep V main_arg4 (by decide)).trans (val28_main_arg4 V)

/-- The buffers the operations of window 30 write. -/
abbrev ops_w29_W : List (Ref sig .tc) := [main_v116, main_v117, main_v118]
theorem ops_w29_writes : (ops_w29 : List (HloOp τ sig (Elt F))).Forall fun op => op.writes ⊆ (ops_w29_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 30 does not write keeps its contents through it. -/
theorem val30_keep (V : Valuation τ sig (Elt F)) (r : Ref sig .tc) (h : r ∉ ops_w29_W) : val30 V (Proc.devRef .tc r) = val29 V (Proc.devRef .tc r) :=
  after_of_writes_sub ops_w29 _ ops_w29_writes h
theorem val30_main_arg0 (V : Valuation τ sig (Elt F)) : val30 V (no_index (Proc.devRef .tc main_arg0)) = V (Proc.devRef .tc main_arg0) :=
  (val30_keep V main_arg0 (by decide)).trans (val29_main_arg0 V)
theorem val30_main_arg1 (V : Valuation τ sig (Elt F)) : val30 V (no_index (Proc.devRef .tc main_arg1)) = V (Proc.devRef .tc main_arg1) :=
  (val30_keep V main_arg1 (by decide)).trans (val29_main_arg1 V)
theorem val30_main_arg2 (V : Valuation τ sig (Elt F)) : val30 V (no_index (Proc.devRef .tc main_arg2)) = V (Proc.devRef .tc main_arg2) :=
  (val30_keep V main_arg2 (by decide)).trans (val29_main_arg2 V)
theorem val30_main_arg3 (V : Valuation τ sig (Elt F)) : val30 V (no_index (Proc.devRef .tc main_arg3)) = V (Proc.devRef .tc main_arg3) :=
  (val30_keep V main_arg3 (by decide)).trans (val29_main_arg3 V)
theorem val30_main_arg4 (V : Valuation τ sig (Elt F)) : val30 V (no_index (Proc.devRef .tc main_arg4)) = V (Proc.devRef .tc main_arg4) :=
  (val30_keep V main_arg4 (by decide)).trans (val29_main_arg4 V)

/-- The buffers the operations of window 31 write. -/
abbrev ops_w30_W : List (Ref sig .tc) := [main_c_31, main_call11_cst, main_call11_v0]
theorem ops_w30_writes : (ops_w30 : List (HloOp τ sig (Elt F))).Forall fun op => op.writes ⊆ (ops_w30_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 31 does not write keeps its contents through it. -/
theorem val31_keep (V : Valuation τ sig (Elt F)) (r : Ref sig .tc) (h : r ∉ ops_w30_W) : val31 V (Proc.devRef .tc r) = val30 V (Proc.devRef .tc r) :=
  after_of_writes_sub ops_w30 _ ops_w30_writes h
theorem val31_main_arg0 (V : Valuation τ sig (Elt F)) : val31 V (no_index (Proc.devRef .tc main_arg0)) = V (Proc.devRef .tc main_arg0) :=
  (val31_keep V main_arg0 (by decide)).trans (val30_main_arg0 V)
theorem val31_main_arg1 (V : Valuation τ sig (Elt F)) : val31 V (no_index (Proc.devRef .tc main_arg1)) = V (Proc.devRef .tc main_arg1) :=
  (val31_keep V main_arg1 (by decide)).trans (val30_main_arg1 V)
theorem val31_main_arg2 (V : Valuation τ sig (Elt F)) : val31 V (no_index (Proc.devRef .tc main_arg2)) = V (Proc.devRef .tc main_arg2) :=
  (val31_keep V main_arg2 (by decide)).trans (val30_main_arg2 V)
theorem val31_main_arg3 (V : Valuation τ sig (Elt F)) : val31 V (no_index (Proc.devRef .tc main_arg3)) = V (Proc.devRef .tc main_arg3) :=
  (val31_keep V main_arg3 (by decide)).trans (val30_main_arg3 V)
theorem val31_main_arg4 (V : Valuation τ sig (Elt F)) : val31 V (no_index (Proc.devRef .tc main_arg4)) = V (Proc.devRef .tc main_arg4) :=
  (val31_keep V main_arg4 (by decide)).trans (val30_main_arg4 V)

/-- The buffers the operations of window 32 write. -/
abbrev ops_w31_W : List (Ref sig .tc) := [main_call11_v1, main_call11_cst_0, main_call11_v2, main_call11_v3, main_call11_v4, main_call11_v5]
theorem ops_w31_writes : (ops_w31 : List (HloOp τ sig (Elt F))).Forall fun op => op.writes ⊆ (ops_w31_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 32 does not write keeps its contents through it. -/
theorem val32_keep (V : Valuation τ sig (Elt F)) (r : Ref sig .tc) (h : r ∉ ops_w31_W) : val32 V (Proc.devRef .tc r) = val31 V (Proc.devRef .tc r) :=
  after_of_writes_sub ops_w31 _ ops_w31_writes h
theorem val32_main_arg0 (V : Valuation τ sig (Elt F)) : val32 V (no_index (Proc.devRef .tc main_arg0)) = V (Proc.devRef .tc main_arg0) :=
  (val32_keep V main_arg0 (by decide)).trans (val31_main_arg0 V)
theorem val32_main_arg1 (V : Valuation τ sig (Elt F)) : val32 V (no_index (Proc.devRef .tc main_arg1)) = V (Proc.devRef .tc main_arg1) :=
  (val32_keep V main_arg1 (by decide)).trans (val31_main_arg1 V)
theorem val32_main_arg2 (V : Valuation τ sig (Elt F)) : val32 V (no_index (Proc.devRef .tc main_arg2)) = V (Proc.devRef .tc main_arg2) :=
  (val32_keep V main_arg2 (by decide)).trans (val31_main_arg2 V)
theorem val32_main_arg3 (V : Valuation τ sig (Elt F)) : val32 V (no_index (Proc.devRef .tc main_arg3)) = V (Proc.devRef .tc main_arg3) :=
  (val32_keep V main_arg3 (by decide)).trans (val31_main_arg3 V)
theorem val32_main_arg4 (V : Valuation τ sig (Elt F)) : val32 V (no_index (Proc.devRef .tc main_arg4)) = V (Proc.devRef .tc main_arg4) :=
  (val32_keep V main_arg4 (by decide)).trans (val31_main_arg4 V)

/-- The buffers the operations of window 33 write. -/
abbrev ops_w32_W : List (Ref sig .tc) := [main_call11_v6, main_call11_v7, main_call11_cst_1, main_call11_v8, main_call11_cst_2, main_call11_v9]
theorem ops_w32_writes : (ops_w32 : List (HloOp τ sig (Elt F))).Forall fun op => op.writes ⊆ (ops_w32_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 33 does not write keeps its contents through it. -/
theorem val33_keep (V : Valuation τ sig (Elt F)) (r : Ref sig .tc) (h : r ∉ ops_w32_W) : val33 V (Proc.devRef .tc r) = val32 V (Proc.devRef .tc r) :=
  after_of_writes_sub ops_w32 _ ops_w32_writes h
theorem val33_main_arg0 (V : Valuation τ sig (Elt F)) : val33 V (no_index (Proc.devRef .tc main_arg0)) = V (Proc.devRef .tc main_arg0) :=
  (val33_keep V main_arg0 (by decide)).trans (val32_main_arg0 V)
theorem val33_main_arg1 (V : Valuation τ sig (Elt F)) : val33 V (no_index (Proc.devRef .tc main_arg1)) = V (Proc.devRef .tc main_arg1) :=
  (val33_keep V main_arg1 (by decide)).trans (val32_main_arg1 V)
theorem val33_main_arg2 (V : Valuation τ sig (Elt F)) : val33 V (no_index (Proc.devRef .tc main_arg2)) = V (Proc.devRef .tc main_arg2) :=
  (val33_keep V main_arg2 (by decide)).trans (val32_main_arg2 V)
theorem val33_main_arg3 (V : Valuation τ sig (Elt F)) : val33 V (no_index (Proc.devRef .tc main_arg3)) = V (Proc.devRef .tc main_arg3) :=
  (val33_keep V main_arg3 (by decide)).trans (val32_main_arg3 V)
theorem val33_main_arg4 (V : Valuation τ sig (Elt F)) : val33 V (no_index (Proc.devRef .tc main_arg4)) = V (Proc.devRef .tc main_arg4) :=
  (val33_keep V main_arg4 (by decide)).trans (val32_main_arg4 V)

/-- The buffers the operations of window 34 write. -/
abbrev ops_w33_W : List (Ref sig .tc) := [main_call11_v10, main_call11_v11, main_call11_cst_3, main_call11_v12, main_call11_cst_4, main_call11_call0_v0, main_call11_call0_v1, main_v119]
theorem ops_w33_writes : (ops_w33 : List (HloOp τ sig (Elt F))).Forall fun op => op.writes ⊆ (ops_w33_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer window 34 does not write keeps its contents through it. -/
theorem val34_keep (V : Valuation τ sig (Elt F)) (r : Ref sig .tc) (h : r ∉ ops_w33_W) : val34 V (Proc.devRef .tc r) = val33 V (Proc.devRef .tc r) :=
  after_of_writes_sub ops_w33 _ ops_w33_writes h
theorem val34_main_arg0 (V : Valuation τ sig (Elt F)) : val34 V (no_index (Proc.devRef .tc main_arg0)) = V (Proc.devRef .tc main_arg0) :=
  (val34_keep V main_arg0 (by decide)).trans (val33_main_arg0 V)
theorem val34_main_arg1 (V : Valuation τ sig (Elt F)) : val34 V (no_index (Proc.devRef .tc main_arg1)) = V (Proc.devRef .tc main_arg1) :=
  (val34_keep V main_arg1 (by decide)).trans (val33_main_arg1 V)
theorem val34_main_arg2 (V : Valuation τ sig (Elt F)) : val34 V (no_index (Proc.devRef .tc main_arg2)) = V (Proc.devRef .tc main_arg2) :=
  (val34_keep V main_arg2 (by decide)).trans (val33_main_arg2 V)
theorem val34_main_arg3 (V : Valuation τ sig (Elt F)) : val34 V (no_index (Proc.devRef .tc main_arg3)) = V (Proc.devRef .tc main_arg3) :=
  (val34_keep V main_arg3 (by decide)).trans (val33_main_arg3 V)
theorem val34_main_arg4 (V : Valuation τ sig (Elt F)) : val34 V (no_index (Proc.devRef .tc main_arg4)) = V (Proc.devRef .tc main_arg4) :=
  (val34_keep V main_arg4 (by decide)).trans (val33_main_arg4 V)

/-- No operation writes argument 0. -/
theorem after_main_arg0 (V : Valuation τ sig (Elt F)) : after ops V (main_arg0 : DevRef τ sig) = V (main_arg0 : DevRef τ sig) := by
  rw [after_ops]; exact val34_main_arg0 V
/-- No operation writes argument 1. -/
theorem after_main_arg1 (V : Valuation τ sig (Elt F)) : after ops V (main_arg1 : DevRef τ sig) = V (main_arg1 : DevRef τ sig) := by
  rw [after_ops]; exact val34_main_arg1 V
/-- No operation writes argument 2. -/
theorem after_main_arg2 (V : Valuation τ sig (Elt F)) : after ops V (main_arg2 : DevRef τ sig) = V (main_arg2 : DevRef τ sig) := by
  rw [after_ops]; exact val34_main_arg2 V
/-- No operation writes argument 3. -/
theorem after_main_arg3 (V : Valuation τ sig (Elt F)) : after ops V (main_arg3 : DevRef τ sig) = V (main_arg3 : DevRef τ sig) := by
  rw [after_ops]; exact val34_main_arg3 V
/-- No operation writes argument 4. -/
theorem after_main_arg4 (V : Valuation τ sig (Elt F)) : after ops V (main_arg4 : DevRef τ sig) = V (main_arg4 : DevRef τ sig) := by
  rw [after_ops]; exact val34_main_arg4 V

/-- The reference runs, faults nowhere, and its five argument arrays end as they began. -/
theorem frame_ri : Cert.frame_ReferenceIdeal := fun m g _ =>
  (θ_run _ _ _).mono (fun _ h c => ⟨(h c main_arg0).trans (after_main_arg0 _), (h c main_arg1).trans (after_main_arg1 _), (h c main_arg2).trans (after_main_arg2 _), (h c main_arg3).trans (after_main_arg3 _), (h c main_arg4).trans (after_main_arg4 _)⟩)
    (run_main (F := Ideal) m g)

end Cert.ReferenceIdeal.RefRun

end
-- ==== Proof.RefStageDefs.lean ====
/-
  The reference's run as named stages: each named buffer's contents as a function of the arguments' contents, composed of the
  earlier stages.
-/
import proofs.«138780_j25872882991128_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The symmetric factor matrix: per pair of rows, one of the two scalars or one, by the two 0/1 tests of the labels. -/
def res_main_v19 (a1 : (⟨S_, .f32⟩ : BufTy).Contents (Elt F)) (a2 : (⟨S_, .f32⟩ : BufTy).Contents (Elt F)) (a3 : (⟨S320, .i32⟩ : BufTy).Contents (Elt F)) : (⟨S320x320, .f32⟩ : BufTy).Contents (Elt F) :=
  ((select : (⟨S320x320, .i1⟩ : BufTy).Contents (Elt F) → (⟨S320x320, .f32⟩ : BufTy).Contents (Elt F) → (⟨S320x320, .f32⟩ : BufTy).Contents (Elt F) → (⟨S320x320, .f32⟩ : BufTy).Contents (Elt F)) ((andi : (⟨S320x320, .i1⟩ : BufTy).Contents (Elt F) → (⟨S320x320, .i1⟩ : BufTy).Contents (Elt F) → (⟨S320x320, .i1⟩ : BufTy).Contents (Elt F)) ((broadcastInDim S320x320 ![0, 1] bcast_S320x1_S320x320_0_1 : (⟨S320x1, .i1⟩ : BufTy).Contents (Elt F) → (⟨S320x320, .i1⟩ : BufTy).Contents (Elt F)) ((cmpi .eq : (⟨S320x1, .i32⟩ : BufTy).Contents (Elt F) → (⟨S320x1, .i32⟩ : BufTy).Contents (Elt F) → (⟨S320x1, .i1⟩ : BufTy).Contents (Elt F)) ((broadcastInDim S320x1 ![0] bcast_S320_S320x1_0 : (⟨S320, .i32⟩ : BufTy).Contents (Elt F) → (⟨S320x1, .i32⟩ : BufTy).Contents (Elt F)) a3) ((broadcastInDim S320x1 ![] bcast_S_S320x1 : (⟨S_, .i32⟩ : BufTy).Contents (Elt F) → (⟨S320x1, .i32⟩ : BufTy).Contents (Elt F)) ((constantI S_ 32 0#32) : (⟨S_, .i32⟩ : BufTy).Contents (Elt F))))) ((broadcastInDim S320x320 ![0, 1] bcast_S1x320_S320x320_0_1 : (⟨S1x320, .i1⟩ : BufTy).Contents (Elt F) → (⟨S320x320, .i1⟩ : BufTy).Contents (Elt F)) ((cmpi .eq : (⟨S1x320, .i32⟩ : BufTy).Contents (Elt F) → (⟨S1x320, .i32⟩ : BufTy).Contents (Elt F) → (⟨S1x320, .i1⟩ : BufTy).Contents (Elt F)) ((broadcastInDim S1x320 ![1] bcast_S320_S1x320_1 : (⟨S320, .i32⟩ : BufTy).Contents (Elt F) → (⟨S1x320, .i32⟩ : BufTy).Contents (Elt F)) a3) ((broadcastInDim S1x320 ![] bcast_S_S1x320 : (⟨S_, .i32⟩ : BufTy).Contents (Elt F) → (⟨S1x320, .i32⟩ : BufTy).Contents (Elt F)) ((constantI S_ 32 0#32) : (⟨S_, .i32⟩ : BufTy).Contents (Elt F)))))) (((broadcastInDim S320x320 ![] bcast_S_S320x320) : (⟨S_, .f32⟩ : BufTy).Contents (Elt F) → (⟨S320x320, .f32⟩ : BufTy).Contents (Elt F)) a1) ((select : (⟨S320x320, .i1⟩ : BufTy).Contents (Elt F) → (⟨S320x320, .f32⟩ : BufTy).Contents (Elt F) → (⟨S320x320, .f32⟩ : BufTy).Contents (Elt F) → (⟨S320x320, .f32⟩ : BufTy).Contents (Elt F)) ((andi : (⟨S320x320, .i1⟩ : BufTy).Contents (Elt F) → (⟨S320x320, .i1⟩ : BufTy).Contents (Elt F) → (⟨S320x320, .i1⟩ : BufTy).Contents (Elt F)) ((broadcastInDim S320x320 ![0, 1] bcast_S320x1_S320x320_0_1 : (⟨S320x1, .i1⟩ : BufTy).Contents (Elt F) → (⟨S320x320, .i1⟩ : BufTy).Contents (Elt F)) ((cmpi .eq : (⟨S320x1, .i32⟩ : BufTy).Contents (Elt F) → (⟨S320x1, .i32⟩ : BufTy).Contents (Elt F) → (⟨S320x1, .i1⟩ : BufTy).Contents (Elt F)) ((broadcastInDim S320x1 ![0] bcast_S320_S320x1_0 : (⟨S320, .i32⟩ : BufTy).Contents (Elt F) → (⟨S320x1, .i32⟩ : BufTy).Contents (Elt F)) a3) ((broadcastInDim S320x1 ![] bcast_S_S320x1 : (⟨S_, .i32⟩ : BufTy).Contents (Elt F) → (⟨S320x1, .i32⟩ : BufTy).Contents (Elt F)) ((constantI S_ 32 1#32) : (⟨S_, .i32⟩ : BufTy).Contents (Elt F))))) ((broadcastInDim S320x320 ![0, 1] bcast_S1x320_S320x320_0_1 : (⟨S1x320, .i1⟩ : BufTy).Contents (Elt F) → (⟨S320x320, .i1⟩ : BufTy).Contents (Elt F)) ((cmpi .eq : (⟨S1x320, .i32⟩ : BufTy).Contents (Elt F) → (⟨S1x320, .i32⟩ : BufTy).Contents (Elt F) → (⟨S1x320, .i1⟩ : BufTy).Contents (Elt F)) ((broadcastInDim S1x320 ![1] bcast_S320_S1x320_1 : (⟨S320, .i32⟩ : BufTy).Contents (Elt F) → (⟨S1x320, .i32⟩ : BufTy).Contents (Elt F)) a3) ((broadcastInDim S1x320 ![] bcast_S_S1x320 : (⟨S_, .i32⟩ : BufTy).Contents (Elt F) → (⟨S1x320, .i32⟩ : BufTy).Contents (Elt F)) ((constantI S_ 32 1#32) : (⟨S_, .i32⟩ : BufTy).Contents (Elt F)))))) (((broadcastInDim S320x320 ![] bcast_S_S320x320) : (⟨S_, .f32⟩ : BufTy).Contents (Elt F) → (⟨S320x320, .f32⟩ : BufTy).Contents (Elt F)) a2) (((broadcastInDim S320x320 ![] bcast_S_S320x320) : (⟨S_, .f32⟩ : BufTy).Contents (Elt F) → (⟨S320x320, .f32⟩ : BufTy).Contents (Elt F)) ((constant S_ .f32 0x3F800000#32) : (⟨S_, .f32⟩ : BufTy).Contents (Elt F)))))

/-- The contents of main_v27 as a function of the arguments' contents. -/
def res_main_v27 (a0 : (⟨S320x64, .f32⟩ : BufTy).Contents (Elt F)) (a4 : (⟨S1000x320, .i32⟩ : BufTy).Contents (Elt F)) : (⟨S1000x320x64, .f32⟩ : BufTy).Contents (Elt F) :=
  (((fun x i => Host.gather gather_S320x64_S1000x320x1_S1000x320x64_2_0_n_n_0_2_164 x i) : (⟨S320x64, .f32⟩ : BufTy).Contents (Elt F) → (⟨S1000x320x1, .i32⟩ : BufTy).Contents (Elt F) → (⟨S1000x320x64, .f32⟩ : BufTy).Contents (Elt F)) a0 ((broadcastInDim S1000x320x1 ![0, 1] bcast_S1000x320_S1000x320x1_0_1 : (⟨S1000x320, .i32⟩ : BufTy).Contents (Elt F) → (⟨S1000x320x1, .i32⟩ : BufTy).Contents (Elt F)) ((select : (⟨S1000x320, .i1⟩ : BufTy).Contents (Elt F) → (⟨S1000x320, .i32⟩ : BufTy).Contents (Elt F) → (⟨S1000x320, .i32⟩ : BufTy).Contents (Elt F) → (⟨S1000x320, .i32⟩ : BufTy).Contents (Elt F)) ((cmpi .slt : (⟨S1000x320, .i32⟩ : BufTy).Contents (Elt F) → (⟨S1000x320, .i32⟩ : BufTy).Contents (Elt F) → (⟨S1000x320, .i1⟩ : BufTy).Contents (Elt F)) a4 ((broadcastInDim S1000x320 ![] bcast_S_S1000x320 : (⟨S_, .i32⟩ : BufTy).Contents (Elt F) → (⟨S1000x320, .i32⟩ : BufTy).Contents (Elt F)) ((constantI S_ 32 0#32) : (⟨S_, .i32⟩ : BufTy).Contents (Elt F)))) ((addi : (⟨S1000x320, .i32⟩ : BufTy).Contents (Elt F) → (⟨S1000x320, .i32⟩ : BufTy).Contents (Elt F) → (⟨S1000x320, .i32⟩ : BufTy).Contents (Elt F)) a4 ((broadcastInDim S1000x320 ![] bcast_S_S1000x320 : (⟨S_, .i32⟩ : BufTy).Contents (Elt F) → (⟨S1000x320, .i32⟩ : BufTy).Contents (Elt F)) ((constantI S_ 32 320#32) : (⟨S_, .i32⟩ : BufTy).Contents (Elt F)))) a4)))

/-- The contents of main_v42 as a function of the arguments' contents. -/
def res_main_v42 (a4 : (⟨S1000x320, .i32⟩ : BufTy).Contents (Elt F)) : (⟨S1000x320x2, .i32⟩ : BufTy).Contents (Elt F) :=
  (((fun a b => concatenate S1000x320x2 2 [⟨S1000x320x1, a⟩, ⟨S1000x320x1, b⟩] concatenates_S1000x320x1_S1000x320x1_S1000x320x2_d2) : (⟨S1000x320x1, .i32⟩ : BufTy).Contents (Elt F) → (⟨S1000x320x1, .i32⟩ : BufTy).Contents (Elt F) → (⟨S1000x320x2, .i32⟩ : BufTy).Contents (Elt F)) ((broadcastInDim S1000x320x1 ![0, 1] bcast_S1000x320_S1000x320x1_0_1 : (⟨S1000x320, .i32⟩ : BufTy).Contents (Elt F) → (⟨S1000x320x1, .i32⟩ : BufTy).Contents (Elt F)) ((broadcastInDim S1000x320 ![0, 1] bcast_S1x320_S1000x320_0_1 : (⟨S1x320, .i32⟩ : BufTy).Contents (Elt F) → (⟨S1000x320, .i32⟩ : BufTy).Contents (Elt F)) ((select : (⟨S1x320, .i1⟩ : BufTy).Contents (Elt F) → (⟨S1x320, .i32⟩ : BufTy).Contents (Elt F) → (⟨S1x320, .i32⟩ : BufTy).Contents (Elt F) → (⟨S1x320, .i32⟩ : BufTy).Contents (Elt F)) ((cmpi .slt : (⟨S1x320, .i32⟩ : BufTy).Contents (Elt F) → (⟨S1x320, .i32⟩ : BufTy).Contents (Elt F) → (⟨S1x320, .i1⟩ : BufTy).Contents (Elt F)) ((broadcastInDim S1x320 ![1] bcast_S320_S1x320_1 : (⟨S320, .i32⟩ : BufTy).Contents (Elt F) → (⟨S1x320, .i32⟩ : BufTy).Contents (Elt F)) ((iotaInDim S320 32 0) : (⟨S320, .i32⟩ : BufTy).Contents (Elt F))) ((broadcastInDim S1x320 ![] bcast_S_S1x320 : (⟨S_, .i32⟩ : BufTy).Contents (Elt F) → (⟨S1x320, .i32⟩ : BufTy).Contents (Elt F)) ((constantI S_ 32 0#32) : (⟨S_, .i32⟩ : BufTy).Contents (Elt F)))) ((addi : (⟨S1x320, .i32⟩ : BufTy).Contents (Elt F) → (⟨S1x320, .i32⟩ : BufTy).Contents (Elt F) → (⟨S1x320, .i32⟩ : BufTy).Contents (Elt F)) ((broadcastInDim S1x320 ![1] bcast_S320_S1x320_1 : (⟨S320, .i32⟩ : BufTy).Contents (Elt F) → (⟨S1x320, .i32⟩ : BufTy).Contents (Elt F)) ((iotaInDim S320 32 0) : (⟨S320, .i32⟩ : BufTy).Contents (Elt F))) ((broadcastInDim S1x320 ![] bcast_S_S1x320 : (⟨S_, .i32⟩ : BufTy).Contents (Elt F) → (⟨S1x320, .i32⟩ : BufTy).Contents (Elt F)) ((constantI S_ 32 320#32) : (⟨S_, .i32⟩ : BufTy).Contents (Elt F)))) ((broadcastInDim S1x320 ![1] bcast_S320_S1x320_1 : (⟨S320, .i32⟩ : BufTy).Contents (Elt F) → (⟨S1x320, .i32⟩ : BufTy).Contents (Elt F)) ((iotaInDim S320 32 0) : (⟨S320, .i32⟩ : BufTy).Contents (Elt F)))))) ((broadcastInDim S1000x320x1 ![0, 1] bcast_S1000x320_S1000x320x1_0_1 : (⟨S1000x320, .i32⟩ : BufTy).Contents (Elt F) → (⟨S1000x320x1, .i32⟩ : BufTy).Contents (Elt F)) ((select : (⟨S1000x320, .i1⟩ : BufTy).Contents (Elt F) → (⟨S1000x320, .i32⟩ : BufTy).Contents (Elt F) → (⟨S1000x320, .i32⟩ : BufTy).Contents (Elt F) → (⟨S1000x320, .i32⟩ : BufTy).Contents (Elt F)) ((cmpi .slt : (⟨S1000x320, .i32⟩ : BufTy).Contents (Elt F) → (⟨S1000x320, .i32⟩ : BufTy).Contents (Elt F) → (⟨S1000x320, .i1⟩ : BufTy).Contents (Elt F)) a4 ((broadcastInDim S1000x320 ![] bcast_S_S1000x320 : (⟨S_, .i32⟩ : BufTy).Contents (Elt F) → (⟨S1000x320, .i32⟩ : BufTy).Contents (Elt F)) ((constantI S_ 32 0#32) : (⟨S_, .i32⟩ : BufTy).Contents (Elt F)))) ((addi : (⟨S1000x320, .i32⟩ : BufTy).Contents (Elt F) → (⟨S1000x320, .i32⟩ : BufTy).Contents (Elt F) → (⟨S1000x320, .i32⟩ : BufTy).Contents (Elt F)) a4 ((broadcastInDim S1000x320 ![] bcast_S_S1000x320 : (⟨S_, .i32⟩ : BufTy).Contents (Elt F) → (⟨S1000x320, .i32⟩ : BufTy).Contents (Elt F)) ((constantI S_ 32 320#32) : (⟨S_, .i32⟩ : BufTy).Contents (Elt F)))) a4)))

/-- The contents of main_v43 as a function of the arguments' contents. -/
def res_main_v43 (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1000x320, .f32⟩ : BufTy).Contents (Elt F) :=
  (((fun x i => Host.gather gather_S320x320_S1000x320x2_S1000x320_n_01_n_n_01_2_11 x i) : (⟨S320x320, .f32⟩ : BufTy).Contents (Elt F) → (⟨S1000x320x2, .i32⟩ : BufTy).Contents (Elt F) → (⟨S1000x320, .f32⟩ : BufTy).Contents (Elt F)) (res_main_v19 (F := F) a1 a2 a3) (res_main_v42 (F := F) a4))

/-- The contents of main_v47 as a function of the arguments' contents. -/
def res_main_v47 (a4 : (⟨S1000x320, .i32⟩ : BufTy).Contents (Elt F)) : (⟨S1000x320x1, .i1⟩ : BufTy).Contents (Elt F) :=
  ((broadcastInDim S1000x320x1 ![0, 1] bcast_S1000x320_S1000x320x1_0_1 : (⟨S1000x320, .i1⟩ : BufTy).Contents (Elt F) → (⟨S1000x320x1, .i1⟩ : BufTy).Contents (Elt F)) ((cmpi .eq : (⟨S1000x320, .i32⟩ : BufTy).Contents (Elt F) → (⟨S1000x320, .i32⟩ : BufTy).Contents (Elt F) → (⟨S1000x320, .i1⟩ : BufTy).Contents (Elt F)) a4 ((broadcastInDim S1000x320 ![0, 1] bcast_S1x320_S1000x320_0_1 : (⟨S1x320, .i32⟩ : BufTy).Contents (Elt F) → (⟨S1000x320, .i32⟩ : BufTy).Contents (Elt F)) ((broadcastInDim S1x320 ![1] bcast_S320_S1x320_1 : (⟨S320, .i32⟩ : BufTy).Contents (Elt F) → (⟨S1x320, .i32⟩ : BufTy).Contents (Elt F)) ((iotaInDim S320 32 0) : (⟨S320, .i32⟩ : BufTy).Contents (Elt F))))))

/-- The contents of main_v48 as a function of the arguments' contents. -/
def res_main_v48 (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1000x320x1, .f32⟩ : BufTy).Contents (Elt F) :=
  ((broadcastInDim S1000x320x1 ![0, 1] bcast_S1000x320_S1000x320x1_0_1 : (⟨S1000x320, .f32⟩ : BufTy).Contents (Elt F) → (⟨S1000x320x1, .f32⟩ : BufTy).Contents (Elt F)) (res_main_v43 (F := F) a1 a2 a3 a4))

/-- The 1001 row arrangements of the data: the data itself, then each gathered arrangement, a row scaled by the factor when it moved. -/
def res_main_v53 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001x320x64, .f32⟩ : BufTy).Contents (Elt F) :=
  (((fun a b => concatenate S1001x320x64 0 [⟨S1x320x64, a⟩, ⟨S1000x320x64, b⟩] concatenates_S1x320x64_S1000x320x64_S1001x320x64_d0) : (⟨S1x320x64, .f32⟩ : BufTy).Contents (Elt F) → (⟨S1000x320x64, .f32⟩ : BufTy).Contents (Elt F) → (⟨S1001x320x64, .f32⟩ : BufTy).Contents (Elt F)) ((broadcastInDim S1x320x64 ![1, 2] bcast_S320x64_S1x320x64_1_2 : (⟨S320x64, .f32⟩ : BufTy).Contents (Elt F) → (⟨S1x320x64, .f32⟩ : BufTy).Contents (Elt F)) a0) ((select : (⟨S1000x320x64, .i1⟩ : BufTy).Contents (Elt F) → (⟨S1000x320x64, .f32⟩ : BufTy).Contents (Elt F) → (⟨S1000x320x64, .f32⟩ : BufTy).Contents (Elt F) → (⟨S1000x320x64, .f32⟩ : BufTy).Contents (Elt F)) (((broadcastInDim S1000x320x64 ![0, 1, 2] bcast_S1000x320x1_S1000x320x64_0_1_2) : (⟨S1000x320x1, .i1⟩ : BufTy).Contents (Elt F) → (⟨S1000x320x64, .i1⟩ : BufTy).Contents (Elt F)) (res_main_v47 (F := F) a4)) (res_main_v27 (F := F) a0 a4) ((mulf : (⟨S1000x320x64, .f32⟩ : BufTy).Contents (Elt F) → (⟨S1000x320x64, .f32⟩ : BufTy).Contents (Elt F) → (⟨S1000x320x64, .f32⟩ : BufTy).Contents (Elt F)) ((broadcastInDim S1000x320x64 ![0, 1, 2] bcast_S1000x320x1_S1000x320x64_0_1_2 : (⟨S1000x320x1, .f32⟩ : BufTy).Contents (Elt F) → (⟨S1000x320x64, .f32⟩ : BufTy).Contents (Elt F)) (res_main_v48 (F := F) a1 a2 a3 a4)) (res_main_v27 (F := F) a0 a4))))

/-- The contents of main_v55 as a function of the arguments' contents. -/
def res_main_v55 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001x320, .f32⟩ : BufTy).Contents (Elt F) :=
  (((fun x v => Host.reduceAdd x v reducesTo_S1001x320x64_S1001x320_d2 h_S_) : (⟨S1001x320x64, .f32⟩ : BufTy).Contents (Elt F) → (⟨S_, .f32⟩ : BufTy).Contents (Elt F) → (⟨S1001x320, .f32⟩ : BufTy).Contents (Elt F)) ((mulf : (⟨S1001x320x64, .f32⟩ : BufTy).Contents (Elt F) → (⟨S1001x320x64, .f32⟩ : BufTy).Contents (Elt F) → (⟨S1001x320x64, .f32⟩ : BufTy).Contents (Elt F)) (res_main_v53 (F := F) a0 a1 a2 a3 a4) (res_main_v53 (F := F) a0 a1 a2 a3 a4)) ((constant S_ .f32 0x00000000#32) : (⟨S_, .f32⟩ : BufTy).Contents (Elt F)))

/-- The contents of main_v56 as a function of the arguments' contents. -/
def res_main_v56 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001x320x320, .f32⟩ : BufTy).Contents (Elt F) :=
  (((fun l r => Host.dotGeneral dot_S1001x320x64_S1001x320x64_S1001x320x320_2_2_1_1_0_0 none l r) : (⟨S1001x320x64, .f32⟩ : BufTy).Contents (Elt F) → (⟨S1001x320x64, .f32⟩ : BufTy).Contents (Elt F) → (⟨S1001x320x320, .f32⟩ : BufTy).Contents (Elt F)) (res_main_v53 (F := F) a0 a1 a2 a3 a4) (res_main_v53 (F := F) a0 a1 a2 a3 a4))

/-- The squared distances between rows, by |a|^2 + |b|^2 - 2 a.b, clamped at zero. -/
def res_main_v66 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001x320x320, .f32⟩ : BufTy).Contents (Elt F) :=
  ((maximumf : (⟨S1001x320x320, .f32⟩ : BufTy).Contents (Elt F) → (⟨S1001x320x320, .f32⟩ : BufTy).Contents (Elt F) → (⟨S1001x320x320, .f32⟩ : BufTy).Contents (Elt F)) ((subf : (⟨S1001x320x320, .f32⟩ : BufTy).Contents (Elt F) → (⟨S1001x320x320, .f32⟩ : BufTy).Contents (Elt F) → (⟨S1001x320x320, .f32⟩ : BufTy).Contents (Elt F)) ((addf : (⟨S1001x320x320, .f32⟩ : BufTy).Contents (Elt F) → (⟨S1001x320x320, .f32⟩ : BufTy).Contents (Elt F) → (⟨S1001x320x320, .f32⟩ : BufTy).Contents (Elt F)) ((broadcastInDim S1001x320x320 ![0, 1, 2] bcast_S1001x320x1_S1001x320x320_0_1_2 : (⟨S1001x320x1, .f32⟩ : BufTy).Contents (Elt F) → (⟨S1001x320x320, .f32⟩ : BufTy).Contents (Elt F)) ((broadcastInDim S1001x320x1 ![0, 1] bcast_S1001x320_S1001x320x1_0_1 : (⟨S1001x320, .f32⟩ : BufTy).Contents (Elt F) → (⟨S1001x320x1, .f32⟩ : BufTy).Contents (Elt F)) (res_main_v55 (F := F) a0 a1 a2 a3 a4))) ((broadcastInDim S1001x320x320 ![0, 1, 2] bcast_S1001x1x320_S1001x320x320_0_1_2 : (⟨S1001x1x320, .f32⟩ : BufTy).Contents (Elt F) → (⟨S1001x320x320, .f32⟩ : BufTy).Contents (Elt F)) ((broadcastInDim S1001x1x320 ![0, 2] bcast_S1001x320_S1001x1x320_0_2 : (⟨S1001x320, .f32⟩ : BufTy).Contents (Elt F) → (⟨S1001x1x320, .f32⟩ : BufTy).Contents (Elt F)) (res_main_v55 (F := F) a0 a1 a2 a3 a4)))) ((mulf : (⟨S1001x320x320, .f32⟩ : BufTy).Contents (Elt F) → (⟨S1001x320x320, .f32⟩ : BufTy).Contents (Elt F) → (⟨S1001x320x320, .f32⟩ : BufTy).Contents (Elt F)) ((broadcastInDim S1001x320x320 ![] bcast_S_S1001x320x320 : (⟨S_, .f32⟩ : BufTy).Contents (Elt F) → (⟨S1001x320x320, .f32⟩ : BufTy).Contents (Elt F)) ((constant S_ .f32 0x40000000#32) : (⟨S_, .f32⟩ : BufTy).Contents (Elt F))) (res_main_v56 (F := F) a0 a1 a2 a3 a4))) ((broadcastInDim S1001x320x320 ![] bcast_S_S1001x320x320 : (⟨S_, .f32⟩ : BufTy).Contents (Elt F) → (⟨S1001x320x320, .f32⟩ : BufTy).Contents (Elt F)) ((constant S_ .f32 0x00000000#32) : (⟨S_, .f32⟩ : BufTy).Contents (Elt F))))

/-- The contents of main_v71 as a function of the arguments' contents. -/
def res_main_v71 : (⟨S102400, .i32⟩ : BufTy).Contents (Elt F) :=
  (((fun x v => Host.reduceWindow IntOp.addi ![102400] ![1] ![102399] ![0] x v reduceWindows_S102400_S102400_w102400s1p102399_0 h_S_) : (⟨S102400, .i32⟩ : BufTy).Contents (Elt F) → (⟨S_, .i32⟩ : BufTy).Contents (Elt F) → (⟨S102400, .i32⟩ : BufTy).Contents (Elt F)) (((extui 32 · natLt_1_32) : (⟨S102400, .i1⟩ : BufTy).Contents (Elt F) → (⟨S102400, .i32⟩ : BufTy).Contents (Elt F)) (shapeCast S102400 ((cmpf .une : (⟨S320x320, .f32⟩ : BufTy).Contents (Elt F) → (⟨S320x320, .f32⟩ : BufTy).Contents (Elt F) → (⟨S320x320, .i1⟩ : BufTy).Contents (Elt F)) ((select : (⟨S320x320, .i1⟩ : BufTy).Contents (Elt F) → (⟨S320x320, .f32⟩ : BufTy).Contents (Elt F) → (⟨S320x320, .f32⟩ : BufTy).Contents (Elt F) → (⟨S320x320, .f32⟩ : BufTy).Contents (Elt F)) (((cmpi .sge) : (⟨S320x320, .i32⟩ : BufTy).Contents (Elt F) → (⟨S320x320, .i32⟩ : BufTy).Contents (Elt F) → (⟨S320x320, .i1⟩ : BufTy).Contents (Elt F)) ((addi : (⟨S320x320, .i32⟩ : BufTy).Contents (Elt F) → (⟨S320x320, .i32⟩ : BufTy).Contents (Elt F) → (⟨S320x320, .i32⟩ : BufTy).Contents (Elt F)) ((iotaInDim S320x320 32 0) : (⟨S320x320, .i32⟩ : BufTy).Contents (Elt F)) (((broadcastInDim S320x320 ![] bcast_S_S320x320) : (⟨S_, .i32⟩ : BufTy).Contents (Elt F) → (⟨S320x320, .i32⟩ : BufTy).Contents (Elt F)) ((constantI S_ 32 0#32) : (⟨S_, .i32⟩ : BufTy).Contents (Elt F)))) ((iotaInDim S320x320 32 1) : (⟨S320x320, .i32⟩ : BufTy).Contents (Elt F))) (((broadcastInDim S320x320 ![] bcast_S_S320x320) : (⟨S_, .f32⟩ : BufTy).Contents (Elt F) → (⟨S320x320, .f32⟩ : BufTy).Contents (Elt F)) ((constant S_ .f32 0x00000000#32) : (⟨S_, .f32⟩ : BufTy).Contents (Elt F))) ((broadcastInDim S320x320 ![] bcast_S_S320x320 : (⟨S_, .f32⟩ : BufTy).Contents (Elt F) → (⟨S320x320, .f32⟩ : BufTy).Contents (Elt F)) ((constant S_ .f32 0x3F800000#32) : (⟨S_, .f32⟩ : BufTy).Contents (Elt F)))) ((broadcastInDim S320x320 ![] bcast_S_S320x320 : (⟨S_, .f32⟩ : BufTy).Contents (Elt F) → (⟨S320x320, .f32⟩ : BufTy).Contents (Elt F)) ((constant S_ .f32 0x00000000#32) : (⟨S_, .f32⟩ : BufTy).Contents (Elt F)))) shapeCasts_S320x320_S102400 : (⟨S102400, .i1⟩ : BufTy).Contents (Elt F))) (((broadcastInDim S_ ![] bcast_S_S_) : (⟨S_, .i32⟩ : BufTy).Contents (Elt F) → (⟨S_, .i32⟩ : BufTy).Contents (Elt F)) ((constantI S_ 32 0#32) : (⟨S_, .i32⟩ : BufTy).Contents (Elt F))))

/-- The contents of main_v73 as a function of the arguments' contents. -/
def res_main_v73 : (⟨S102400, .i32⟩ : BufTy).Contents (Elt F) :=
  ((maxsi : (⟨S102400, .i32⟩ : BufTy).Contents (Elt F) → (⟨S102400, .i32⟩ : BufTy).Contents (Elt F) → (⟨S102400, .i32⟩ : BufTy).Contents (Elt F)) (((broadcastInDim S102400 ![] bcast_S_S102400) : (⟨S_, .i32⟩ : BufTy).Contents (Elt F) → (⟨S102400, .i32⟩ : BufTy).Contents (Elt F)) ((id : (⟨S_, .i32⟩ : BufTy).Contents (Elt F) → (⟨S_, .i32⟩ : BufTy).Contents (Elt F)) ((constantI S_ 32 0#32) : (⟨S_, .i32⟩ : BufTy).Contents (Elt F)))) (res_main_v71 (F := F)))

/-- The contents of main_v81 as a function of the arguments' contents. -/
def res_main_v81 : (⟨S51040, .i32⟩ : BufTy).Contents (Elt F) :=
  (((fun x i u => Host.scatter scatter_S51040_S102400x1_S102400_n_0_0_1 IntOp.addi x i u) : (⟨S51040, .i32⟩ : BufTy).Contents (Elt F) → (⟨S102400x1, .i32⟩ : BufTy).Contents (Elt F) → (⟨S102400, .i32⟩ : BufTy).Contents (Elt F) → (⟨S51040, .i32⟩ : BufTy).Contents (Elt F)) ((broadcastInDim S51040 ![] bcast_S_S51040 : (⟨S_, .i32⟩ : BufTy).Contents (Elt F) → (⟨S51040, .i32⟩ : BufTy).Contents (Elt F)) ((constantI S_ 32 0#32) : (⟨S_, .i32⟩ : BufTy).Contents (Elt F))) ((broadcastInDim S102400x1 ![0] bcast_S102400_S102400x1_0 : (⟨S102400, .i32⟩ : BufTy).Contents (Elt F) → (⟨S102400x1, .i32⟩ : BufTy).Contents (Elt F)) ((select : (⟨S102400, .i1⟩ : BufTy).Contents (Elt F) → (⟨S102400, .i32⟩ : BufTy).Contents (Elt F) → (⟨S102400, .i32⟩ : BufTy).Contents (Elt F) → (⟨S102400, .i32⟩ : BufTy).Contents (Elt F)) ((cmpi .slt : (⟨S102400, .i32⟩ : BufTy).Contents (Elt F) → (⟨S102400, .i32⟩ : BufTy).Contents (Elt F) → (⟨S102400, .i1⟩ : BufTy).Contents (Elt F)) (res_main_v73 (F := F)) ((broadcastInDim S102400 ![] bcast_S_S102400 : (⟨S_, .i32⟩ : BufTy).Contents (Elt F) → (⟨S102400, .i32⟩ : BufTy).Contents (Elt F)) ((constantI S_ 32 0#32) : (⟨S_, .i32⟩ : BufTy).Contents (Elt F)))) ((addi : (⟨S102400, .i32⟩ : BufTy).Contents (Elt F) → (⟨S102400, .i32⟩ : BufTy).Contents (Elt F) → (⟨S102400, .i32⟩ : BufTy).Contents (Elt F)) (res_main_v73 (F := F)) ((broadcastInDim S102400 ![] bcast_S_S102400 : (⟨S_, .i32⟩ : BufTy).Contents (Elt F) → (⟨S102400, .i32⟩ : BufTy).Contents (Elt F)) ((constantI S_ 32 51040#32) : (⟨S_, .i32⟩ : BufTy).Contents (Elt F)))) (res_main_v73 (F := F)))) ((broadcastInDim S102400 ![] bcast_S_S102400 : (⟨S_, .i32⟩ : BufTy).Contents (Elt F) → (⟨S102400, .i32⟩ : BufTy).Contents (Elt F)) ((constantI S_ 32 1#32) : (⟨S_, .i32⟩ : BufTy).Contents (Elt F))))

/-- The flat positions of the pairs above the diagonal: a running count of the strict upper mask, scattered as a histogram and counted again. -/
def res_main_v82 : (⟨S51040, .i32⟩ : BufTy).Contents (Elt F) :=
  (((fun x v => Host.reduceWindow IntOp.addi ![51040] ![1] ![51039] ![0] x v reduceWindows_S51040_S51040_w51040s1p51039_0 h_S_) : (⟨S51040, .i32⟩ : BufTy).Contents (Elt F) → (⟨S_, .i32⟩ : BufTy).Contents (Elt F) → (⟨S51040, .i32⟩ : BufTy).Contents (Elt F)) (res_main_v81 (F := F)) (((broadcastInDim S_ ![] bcast_S_S_) : (⟨S_, .i32⟩ : BufTy).Contents (Elt F) → (⟨S_, .i32⟩ : BufTy).Contents (Elt F)) ((constantI S_ 32 0#32) : (⟨S_, .i32⟩ : BufTy).Contents (Elt F))))

/-- The contents of main_call7_v1 as a function of the arguments' contents. -/
def res_main_call7_v1 : (⟨S51040, .i32⟩ : BufTy).Contents (Elt F) :=
  ((Host.divsi : (⟨S51040, .i32⟩ : BufTy).Contents (Elt F) → (⟨S51040, .i32⟩ : BufTy).Contents (Elt F) → (⟨S51040, .i32⟩ : BufTy).Contents (Elt F)) (res_main_v82 (F := F)) (((broadcastInDim S51040 ![] bcast_S_S51040) : (⟨S_, .i32⟩ : BufTy).Contents (Elt F) → (⟨S51040, .i32⟩ : BufTy).Contents (Elt F)) ((constantI S_ 32 320#32) : (⟨S_, .i32⟩ : BufTy).Contents (Elt F))))

/-- The contents of main_call8_v4 as a function of the arguments' contents. -/
def res_main_call8_v4 : (⟨S51040, .i32⟩ : BufTy).Contents (Elt F) :=
  ((Host.remsi : (⟨S51040, .i32⟩ : BufTy).Contents (Elt F) → (⟨S51040, .i32⟩ : BufTy).Contents (Elt F) → (⟨S51040, .i32⟩ : BufTy).Contents (Elt F)) ((select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ((andi : (⟨S51040, .i1⟩ : BufTy).Contents (Elt F) → (⟨S51040, .i1⟩ : BufTy).Contents (Elt F) → (⟨S51040, .i1⟩ : BufTy).Contents (Elt F)) (((cmpi .ne) : (⟨S51040, .i32⟩ : BufTy).Contents (Elt F) → (⟨S51040, .i32⟩ : BufTy).Contents (Elt F) → (⟨S51040, .i1⟩ : BufTy).Contents (Elt F)) ((signi : (⟨S51040, .i32⟩ : BufTy).Contents (Elt F) → (⟨S51040, .i32⟩ : BufTy).Contents (Elt F)) (res_main_v82 (F := F))) (((broadcastInDim S51040 ![] bcast_S_S51040) : (⟨S_, .i32⟩ : BufTy).Contents (Elt F) → (⟨S51040, .i32⟩ : BufTy).Contents (Elt F)) ((signi : (⟨S_, .i32⟩ : BufTy).Contents (Elt F) → (⟨S_, .i32⟩ : BufTy).Contents (Elt F)) ((constantI S_ 32 320#32) : (⟨S_, .i32⟩ : BufTy).Contents (Elt F))))) (((cmpi .ne) : (⟨S51040, .i32⟩ : BufTy).Contents (Elt F) → (⟨S51040, .i32⟩ : BufTy).Contents (Elt F) → (⟨S51040, .i1⟩ : BufTy).Contents (Elt F)) ((Host.remsi : (⟨S51040, .i32⟩ : BufTy).Contents (Elt F) → (⟨S51040, .i32⟩ : BufTy).Contents (Elt F) → (⟨S51040, .i32⟩ : BufTy).Contents (Elt F)) (res_main_v82 (F := F)) (((broadcastInDim S51040 ![] bcast_S_S51040) : (⟨S_, .i32⟩ : BufTy).Contents (Elt F) → (⟨S51040, .i32⟩ : BufTy).Contents (Elt F)) ((constantI S_ 32 320#32) : (⟨S_, .i32⟩ : BufTy).Contents (Elt F)))) (((broadcastInDim S51040 ![] bcast_S_S51040) : (⟨S_, .i32⟩ : BufTy).Contents (Elt F) → (⟨S51040, .i32⟩ : BufTy).Contents (Elt F)) ((constantI S_ 32 0#32) : (⟨S_, .i32⟩ : BufTy).Contents (Elt F))))) ((subi : (⟨S51040, .i32⟩ : BufTy).Contents (Elt F) → (⟨S51040, .i32⟩ : BufTy).Contents (Elt F) → (⟨S51040, .i32⟩ : BufTy).Contents (Elt F)) (res_main_call7_v1 (F := F)) (((broadcastInDim S51040 ![] bcast_S_S51040) : (⟨S_, .i32⟩ : BufTy).Contents (Elt F) → (⟨S51040, .i32⟩ : BufTy).Contents (Elt F)) ((constantI S_ 32 1#32) : (⟨S_, .i32⟩ : BufTy).Contents (Elt F)))) (res_main_call7_v1 (F := F))) (((broadcastInDim S51040 ![] bcast_S_S51040) : (⟨S_, .i32⟩ : BufTy).Contents (Elt F) → (⟨S51040, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F))))))

/-- The contents of main_v84 as a function of the arguments' contents. -/
def res_main_v84 : (⟨S51040, .i32⟩ : BufTy).Contents (Elt F) :=
  ((select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ((andi : (⟨S51040, .i1⟩ : BufTy).Contents (Elt F) → (⟨S51040, .i1⟩ : BufTy).Contents (Elt F) → (⟨S51040, .i1⟩ : BufTy).Contents (Elt F)) (((cmpi .ne) : (⟨S51040, .i1⟩ : BufTy).Contents (Elt F) → (⟨S51040, .i1⟩ : BufTy).Contents (Elt F) → (⟨S51040, .i1⟩ : BufTy).Contents (Elt F)) (((cmpi .slt) : (⟨S51040, .i32⟩ : BufTy).Contents (Elt F) → (⟨S51040, .i32⟩ : BufTy).Contents (Elt F) → (⟨S51040, .i1⟩ : BufTy).Contents (Elt F)) (res_main_call8_v4 (F := F)) (((broadcastInDim S51040 ![] bcast_S_S51040) : (⟨S_, .i32⟩ : BufTy).Contents (Elt F) → (⟨S51040, .i32⟩ : BufTy).Contents (Elt F)) ((constantI S_ 32 0#32) : (⟨S_, .i32⟩ : BufTy).Contents (Elt F)))) (((broadcastInDim S51040 ![] bcast_S_S51040) : (⟨S_, .i1⟩ : BufTy).Contents (Elt F) → (⟨S51040, .i1⟩ : BufTy).Contents (Elt F)) (((cmpi .slt) : (⟨S_, .i32⟩ : BufTy).Contents (Elt F) → (⟨S_, .i32⟩ : BufTy).Contents (Elt F) → (⟨S_, .i1⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F)))) ((constantI S_ 32 0#32) : (⟨S_, .i32⟩ : BufTy).Contents (Elt F))))) (((cmpi .ne) : (⟨S51040, .i32⟩ : BufTy).Contents (Elt F) → (⟨S51040, .i32⟩ : BufTy).Contents (Elt F) → (⟨S51040, .i1⟩ : BufTy).Contents (Elt F)) (res_main_call8_v4 (F := F)) (((broadcastInDim S51040 ![] bcast_S_S51040) : (⟨S_, .i32⟩ : BufTy).Contents (Elt F) → (⟨S51040, .i32⟩ : BufTy).Contents (Elt F)) ((constantI S_ 32 0#32) : (⟨S_, .i32⟩ : BufTy).Contents (Elt F))))) ((addi : (⟨S51040, .i32⟩ : BufTy).Contents (Elt F) → (⟨S51040, .i32⟩ : BufTy).Contents (Elt F) → (⟨S51040, .i32⟩ : BufTy).Contents (Elt F)) (res_main_call8_v4 (F := F)) (((broadcastInDim S51040 ![] bcast_S_S51040) : (⟨S_, .i32⟩ : BufTy).Contents (Elt F) → (⟨S51040, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F)))))) (res_main_call8_v4 (F := F)))

/-- The contents of main_call9_v1 as a function of the arguments' contents. -/
def res_main_call9_v1 : (⟨S51040, .i32⟩ : BufTy).Contents (Elt F) :=
  ((Host.divsi : (⟨S51040, .i32⟩ : BufTy).Contents (Elt F) → (⟨S51040, .i32⟩ : BufTy).Contents (Elt F) → (⟨S51040, .i32⟩ : BufTy).Contents (Elt F)) (res_main_v82 (F := F)) (((broadcastInDim S51040 ![] bcast_S_S51040) : (⟨S_, .i32⟩ : BufTy).Contents (Elt F) → (⟨S51040, .i32⟩ : BufTy).Contents (Elt F)) ((constantI S_ 32 1#32) : (⟨S_, .i32⟩ : BufTy).Contents (Elt F))))

/-- The contents of main_call10_v4 as a function of the arguments' contents. -/
def res_main_call10_v4 : (⟨S51040, .i32⟩ : BufTy).Contents (Elt F) :=
  ((Host.remsi : (⟨S51040, .i32⟩ : BufTy).Contents (Elt F) → (⟨S51040, .i32⟩ : BufTy).Contents (Elt F) → (⟨S51040, .i32⟩ : BufTy).Contents (Elt F)) ((select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ((andi : (⟨S51040, .i1⟩ : BufTy).Contents (Elt F) → (⟨S51040, .i1⟩ : BufTy).Contents (Elt F) → (⟨S51040, .i1⟩ : BufTy).Contents (Elt F)) (((cmpi .ne) : (⟨S51040, .i32⟩ : BufTy).Contents (Elt F) → (⟨S51040, .i32⟩ : BufTy).Contents (Elt F) → (⟨S51040, .i1⟩ : BufTy).Contents (Elt F)) ((signi : (⟨S51040, .i32⟩ : BufTy).Contents (Elt F) → (⟨S51040, .i32⟩ : BufTy).Contents (Elt F)) (res_main_v82 (F := F))) (((broadcastInDim S51040 ![] bcast_S_S51040) : (⟨S_, .i32⟩ : BufTy).Contents (Elt F) → (⟨S51040, .i32⟩ : BufTy).Contents (Elt F)) ((signi : (⟨S_, .i32⟩ : BufTy).Contents (Elt F) → (⟨S_, .i32⟩ : BufTy).Contents (Elt F)) ((constantI S_ 32 1#32) : (⟨S_, .i32⟩ : BufTy).Contents (Elt F))))) (((cmpi .ne) : (⟨S51040, .i32⟩ : BufTy).Contents (Elt F) → (⟨S51040, .i32⟩ : BufTy).Contents (Elt F) → (⟨S51040, .i1⟩ : BufTy).Contents (Elt F)) ((Host.remsi : (⟨S51040, .i32⟩ : BufTy).Contents (Elt F) → (⟨S51040, .i32⟩ : BufTy).Contents (Elt F) → (⟨S51040, .i32⟩ : BufTy).Contents (Elt F)) (res_main_v82 (F := F)) (((broadcastInDim S51040 ![] bcast_S_S51040) : (⟨S_, .i32⟩ : BufTy).Contents (Elt F) → (⟨S51040, .i32⟩ : BufTy).Contents (Elt F)) ((constantI S_ 32 1#32) : (⟨S_, .i32⟩ : BufTy).Contents (Elt F)))) (((broadcastInDim S51040 ![] bcast_S_S51040) : (⟨S_, .i32⟩ : BufTy).Contents (Elt F) → (⟨S51040, .i32⟩ : BufTy).Contents (Elt F)) ((constantI S_ 32 0#32) : (⟨S_, .i32⟩ : BufTy).Contents (Elt F))))) ((subi : (⟨S51040, .i32⟩ : BufTy).Contents (Elt F) → (⟨S51040, .i32⟩ : BufTy).Contents (Elt F) → (⟨S51040, .i32⟩ : BufTy).Contents (Elt F)) (res_main_call9_v1 (F := F)) (((broadcastInDim S51040 ![] bcast_S_S51040) : (⟨S_, .i32⟩ : BufTy).Contents (Elt F) → (⟨S51040, .i32⟩ : BufTy).Contents (Elt F)) ((constantI S_ 32 1#32) : (⟨S_, .i32⟩ : BufTy).Contents (Elt F)))) (res_main_call9_v1 (F := F))) (((broadcastInDim S51040 ![] bcast_S_S51040) : (⟨S_, .i32⟩ : BufTy).Contents (Elt F) → (⟨S51040, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F))))))

/-- The contents of main_v86 as a function of the arguments' contents. -/
def res_main_v86 : (⟨S51040, .i32⟩ : BufTy).Contents (Elt F) :=
  ((select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ((andi : (⟨S51040, .i1⟩ : BufTy).Contents (Elt F) → (⟨S51040, .i1⟩ : BufTy).Contents (Elt F) → (⟨S51040, .i1⟩ : BufTy).Contents (Elt F)) (((cmpi .ne) : (⟨S51040, .i1⟩ : BufTy).Contents (Elt F) → (⟨S51040, .i1⟩ : BufTy).Contents (Elt F) → (⟨S51040, .i1⟩ : BufTy).Contents (Elt F)) (((cmpi .slt) : (⟨S51040, .i32⟩ : BufTy).Contents (Elt F) → (⟨S51040, .i32⟩ : BufTy).Contents (Elt F) → (⟨S51040, .i1⟩ : BufTy).Contents (Elt F)) (res_main_call10_v4 (F := F)) (((broadcastInDim S51040 ![] bcast_S_S51040) : (⟨S_, .i32⟩ : BufTy).Contents (Elt F) → (⟨S51040, .i32⟩ : BufTy).Contents (Elt F)) ((constantI S_ 32 0#32) : (⟨S_, .i32⟩ : BufTy).Contents (Elt F)))) (((broadcastInDim S51040 ![] bcast_S_S51040) : (⟨S_, .i1⟩ : BufTy).Contents (Elt F) → (⟨S51040, .i1⟩ : BufTy).Contents (Elt F)) (((cmpi .slt) : (⟨S_, .i32⟩ : BufTy).Contents (Elt F) → (⟨S_, .i32⟩ : BufTy).Contents (Elt F) → (⟨S_, .i1⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F)))) ((constantI S_ 32 0#32) : (⟨S_, .i32⟩ : BufTy).Contents (Elt F))))) (((cmpi .ne) : (⟨S51040, .i32⟩ : BufTy).Contents (Elt F) → (⟨S51040, .i32⟩ : BufTy).Contents (Elt F) → (⟨S51040, .i1⟩ : BufTy).Contents (Elt F)) (res_main_call10_v4 (F := F)) (((broadcastInDim S51040 ![] bcast_S_S51040) : (⟨S_, .i32⟩ : BufTy).Contents (Elt F) → (⟨S51040, .i32⟩ : BufTy).Contents (Elt F)) ((constantI S_ 32 0#32) : (⟨S_, .i32⟩ : BufTy).Contents (Elt F))))) ((addi : (⟨S51040, .i32⟩ : BufTy).Contents (Elt F) → (⟨S51040, .i32⟩ : BufTy).Contents (Elt F) → (⟨S51040, .i32⟩ : BufTy).Contents (Elt F)) (res_main_call10_v4 (F := F)) (((broadcastInDim S51040 ![] bcast_S_S51040) : (⟨S_, .i32⟩ : BufTy).Contents (Elt F) → (⟨S51040, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F))) ((constantI S_ 32 0#32) : (⟨S_, .i32⟩ : BufTy).Contents (Elt F))) ((constantI S_ 32 1#32) : (⟨S_, .i32⟩ : BufTy).Contents (Elt F)) ((id : (⟨S_, .i32⟩ : BufTy).Contents (Elt F) → (⟨S_, .i32⟩ : BufTy).Contents (Elt F)) ((constantI S_ 32 320#32) : (⟨S_, .i32⟩ : BufTy).Contents (Elt F)))))) (res_main_call10_v4 (F := F)))

/-- The first coordinate of each pair (the flat position divided by 320, wrapped into range). -/
def res_main_v91 : (⟨S51040, .i32⟩ : BufTy).Contents (Elt F) :=
  ((select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ((cmpi .slt : (⟨S51040, .i32⟩ : BufTy).Contents (Elt F) → (⟨S51040, .i32⟩ : BufTy).Contents (Elt F) → (⟨S51040, .i1⟩ : BufTy).Contents (Elt F)) (res_main_v84 (F := F)) ((broadcastInDim S51040 ![] bcast_S_S51040 : (⟨S_, .i32⟩ : BufTy).Contents (Elt F) → (⟨S51040, .i32⟩ : BufTy).Contents (Elt F)) ((constantI S_ 32 0#32) : (⟨S_, .i32⟩ : BufTy).Contents (Elt F)))) ((addi : (⟨S51040, .i32⟩ : BufTy).Contents (Elt F) → (⟨S51040, .i32⟩ : BufTy).Contents (Elt F) → (⟨S51040, .i32⟩ : BufTy).Contents (Elt F)) (res_main_v84 (F := F)) ((broadcastInDim S51040 ![] bcast_S_S51040 : (⟨S_, .i32⟩ : BufTy).Contents (Elt F) → (⟨S51040, .i32⟩ : BufTy).Contents (Elt F)) ((constantI S_ 32 320#32) : (⟨S_, .i32⟩ : BufTy).Contents (Elt F)))) (res_main_v84 (F := F)))

/-- The contents of main_c_25 as a function of the arguments' contents. -/
def res_main_c_25 : (⟨S_, .i32⟩ : BufTy).Contents (Elt F) :=
  ((constantI S_ 32 0#32) : (⟨S_, .i32⟩ : BufTy).Contents (Elt F))

/-- The second coordinate of each pair (the flat position modulo 320, wrapped into range). -/
def res_main_v96 : (⟨S51040, .i32⟩ : BufTy).Contents (Elt F) :=
  ((select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ((cmpi .slt : (⟨S51040, .i32⟩ : BufTy).Contents (Elt F) → (⟨S51040, .i32⟩ : BufTy).Contents (Elt F) → (⟨S51040, .i1⟩ : BufTy).Contents (Elt F)) (res_main_v86 (F := F)) ((broadcastInDim S51040 ![] bcast_S_S51040 : (⟨S_, .i32⟩ : BufTy).Contents (Elt F) → (⟨S51040, .i32⟩ : BufTy).Contents (Elt F)) (res_main_c_25 (F := F)))) ((addi : (⟨S51040, .i32⟩ : BufTy).Contents (Elt F) → (⟨S51040, .i32⟩ : BufTy).Contents (Elt F) → (⟨S51040, .i32⟩ : BufTy).Contents (Elt F)) (res_main_v86 (F := F)) ((broadcastInDim S51040 ![] bcast_S_S51040 : (⟨S_, .i32⟩ : BufTy).Contents (Elt F) → (⟨S51040, .i32⟩ : BufTy).Contents (Elt F)) ((constantI S_ 32 320#32) : (⟨S_, .i32⟩ : BufTy).Contents (Elt F)))) (res_main_v86 (F := F)))

/-- The contents of main_v99 as a function of the arguments' contents. -/
def res_main_v99 : (⟨S51040x2, .i32⟩ : BufTy).Contents (Elt F) :=
  (((fun a b => concatenate S51040x2 1 [⟨S51040x1, a⟩, ⟨S51040x1, b⟩] concatenates_S51040x1_S51040x1_S51040x2_d1) : (⟨S51040x1, .i32⟩ : BufTy).Contents (Elt F) → (⟨S51040x1, .i32⟩ : BufTy).Contents (Elt F) → (⟨S51040x2, .i32⟩ : BufTy).Contents (Elt F)) ((broadcastInDim S51040x1 ![0] bcast_S51040_S51040x1_0 : (⟨S51040, .i32⟩ : BufTy).Contents (Elt F) → (⟨S51040x1, .i32⟩ : BufTy).Contents (Elt F)) (res_main_v91 (F := F))) ((broadcastInDim S51040x1 ![0] bcast_S51040_S51040x1_0 : (⟨S51040, .i32⟩ : BufTy).Contents (Elt F) → (⟨S51040x1, .i32⟩ : BufTy).Contents (Elt F)) (res_main_v96 (F := F))))

/-- The factor at each pair above the diagonal. -/
def res_main_v100 (a1 : (⟨S_, .f32⟩ : BufTy).Contents (Elt F)) (a2 : (⟨S_, .f32⟩ : BufTy).Contents (Elt F)) (a3 : (⟨S320, .i32⟩ : BufTy).Contents (Elt F)) : (⟨S51040, .f32⟩ : BufTy).Contents (Elt F) :=
  (((fun x i => Host.gather gather_S320x320_S51040x2_S51040_n_01_n_n_01_1_11 x i) : (⟨S320x320, .f32⟩ : BufTy).Contents (Elt F) → (⟨S51040x2, .i32⟩ : BufTy).Contents (Elt F) → (⟨S51040, .f32⟩ : BufTy).Contents (Elt F)) (res_main_v19 (F := F) a1 a2 a3) (res_main_v99 (F := F)))

/-- The first coordinate of each pair, as read by the gather of the distances. -/
def res_main_v106 : (⟨S51040, .i32⟩ : BufTy).Contents (Elt F) :=
  ((select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ((cmpi .slt : (⟨S51040, .i32⟩ : BufTy).Contents (Elt F) → (⟨S51040, .i32⟩ : BufTy).Contents (Elt F) → (⟨S51040, .i1⟩ : BufTy).Contents (Elt F)) (res_main_v84 (F := F)) ((broadcastInDim S51040 ![] bcast_S_S51040 : (⟨S_, .i32⟩ : BufTy).Contents (Elt F) → (⟨S51040, .i32⟩ : BufTy).Contents (Elt F)) ((constantI S_ 32 0#32) : (⟨S_, .i32⟩ : BufTy).Contents (Elt F)))) ((addi : (⟨S51040, .i32⟩ : BufTy).Contents (Elt F) → (⟨S51040, .i32⟩ : BufTy).Contents (Elt F) → (⟨S51040, .i32⟩ : BufTy).Contents (Elt F)) (res_main_v84 (F := F)) ((broadcastInDim S51040 ![] bcast_S_S51040 : (⟨S_, .i32⟩ : BufTy).Contents (Elt F) → (⟨S51040, .i32⟩ : BufTy).Contents (Elt F)) ((constantI S_ 32 320#32) : (⟨S_, .i32⟩ : BufTy).Contents (Elt F)))) (res_main_v84 (F := F)))

/-- The second coordinate of each pair, as read by the gather of the distances. -/
def res_main_v111 : (⟨S51040, .i32⟩ : BufTy).Contents (Elt F) :=
  ((select : (⟨S51040, .i1⟩ : BufTy).Contents (Elt F) → (⟨S51040, .i32⟩ : BufTy).Contents (Elt F) → (⟨S51040, .i32⟩ : BufTy).Contents (Elt F) → (⟨S51040, .i32⟩ : BufTy).Contents (Elt F)) ((cmpi .slt : (⟨S51040, .i32⟩ : BufTy).Contents (Elt F) → (⟨S51040, .i32⟩ : BufTy).Contents (Elt F) → (⟨S51040, .i1⟩ : BufTy).Contents (Elt F)) (res_main_v86 (F := F)) ((broadcastInDim S51040 ![] bcast_S_S51040 : (⟨S_, .i32⟩ : BufTy).Contents (Elt F) → (⟨S51040, .i32⟩ : BufTy).Contents (Elt F)) ((constantI S_ 32 0#32) : (⟨S_, .i32⟩ : BufTy).Contents (Elt F)))) ((addi : (⟨S51040, .i32⟩ : BufTy).Contents (Elt F) → (⟨S51040, .i32⟩ : BufTy).Contents (Elt F) → (⟨S51040, .i32⟩ : BufTy).Contents (Elt F)) (res_main_v86 (F := F)) ((broadcastInDim S51040 ![] bcast_S_S51040 : (⟨S_, .i32⟩ : BufTy).Contents (Elt F) → (⟨S51040, .i32⟩ : BufTy).Contents (Elt F)) ((constantI S_ 32 320#32) : (⟨S_, .i32⟩ : BufTy).Contents (Elt F)))) (res_main_v86 (F := F)))

/-- The contents of main_v114 as a function of the arguments' contents. -/
def res_main_v114 : (⟨S51040x2, .i32⟩ : BufTy).Contents (Elt F) :=
  (((fun a b => concatenate S51040x2 1 [⟨S51040x1, a⟩, ⟨S51040x1, b⟩] concatenates_S51040x1_S51040x1_S51040x2_d1) : (⟨S51040x1, .i32⟩ : BufTy).Contents (Elt F) → (⟨S51040x1, .i32⟩ : BufTy).Contents (Elt F) → (⟨S51040x2, .i32⟩ : BufTy).Contents (Elt F)) ((broadcastInDim S51040x1 ![0] bcast_S51040_S51040x1_0 : (⟨S51040, .i32⟩ : BufTy).Contents (Elt F) → (⟨S51040x1, .i32⟩ : BufTy).Contents (Elt F)) (res_main_v106 (F := F))) ((broadcastInDim S51040x1 ![0] bcast_S51040_S51040x1_0 : (⟨S51040, .i32⟩ : BufTy).Contents (Elt F) → (⟨S51040x1, .i32⟩ : BufTy).Contents (Elt F)) (res_main_v111 (F := F))))

/-- The clamped squared distance at each pair above the diagonal, per arrangement. -/
def res_main_v115 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001x51040, .f32⟩ : BufTy).Contents (Elt F) :=
  (((fun x i => Host.gather gather_S1001x320x320_S51040x2_S1001x51040_0_12_n_n_12_1_100111 x i) : (⟨S1001x320x320, .f32⟩ : BufTy).Contents (Elt F) → (⟨S51040x2, .i32⟩ : BufTy).Contents (Elt F) → (⟨S1001x51040, .f32⟩ : BufTy).Contents (Elt F)) (res_main_v66 (F := F) a0 a1 a2 a3 a4) (res_main_v114 (F := F)))

/-- The values whose variance is taken: the factor times the distance (the square root of the clamped squared distance) at each pair, per arrangement. -/
def res_main_v118 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001x51040, .f32⟩ : BufTy).Contents (Elt F) :=
  ((mulf : (⟨S1001x51040, .f32⟩ : BufTy).Contents (Elt F) → (⟨S1001x51040, .f32⟩ : BufTy).Contents (Elt F) → (⟨S1001x51040, .f32⟩ : BufTy).Contents (Elt F)) ((broadcastInDim S1001x51040 ![0, 1] bcast_S1x51040_S1001x51040_0_1 : (⟨S1x51040, .f32⟩ : BufTy).Contents (Elt F) → (⟨S1001x51040, .f32⟩ : BufTy).Contents (Elt F)) ((broadcastInDim S1x51040 ![1] bcast_S51040_S1x51040_1 : (⟨S51040, .f32⟩ : BufTy).Contents (Elt F) → (⟨S1x51040, .f32⟩ : BufTy).Contents (Elt F)) (res_main_v100 (F := F) a1 a2 a3))) ((Host.sqrt : (⟨S1001x51040, .f32⟩ : BufTy).Contents (Elt F) → (⟨S1001x51040, .f32⟩ : BufTy).Contents (Elt F)) (res_main_v115 (F := F) a0 a1 a2 a3 a4)))

/-- The contents of main_call11_v0 as a function of the arguments' contents. -/
def res_main_call11_v0 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001, .f32⟩ : BufTy).Contents (Elt F) :=
  (((fun x v => Host.reduceAdd x v reducesTo_S1001x51040_S1001_d1 h_S_) : (⟨S1001x51040, .f32⟩ : BufTy).Contents (Elt F) → (⟨S_, .f32⟩ : BufTy).Contents (Elt F) → (⟨S1001, .f32⟩ : BufTy).Contents (Elt F)) (res_main_v118 (F := F) a0 a1 a2 a3 a4) ((constant S_ .f32 0x00000000#32) : (⟨S_, .f32⟩ : BufTy).Contents (Elt F)))

/-- The contents of main_call11_v5 as a function of the arguments' contents. -/
def res_main_call11_v5 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001x51040, .f32⟩ : BufTy).Contents (Elt F) :=
  ((subf : (⟨S1001x51040, .f32⟩ : BufTy).Contents (Elt F) → (⟨S1001x51040, .f32⟩ : BufTy).Contents (Elt F) → (⟨S1001x51040, .f32⟩ : BufTy).Contents (Elt F)) (res_main_v118 (F := F) a0 a1 a2 a3 a4) (((broadcastInDim S1001x51040 ![0, 1] bcast_S1001x1_S1001x51040_0_1) : (⟨S1001x1, .f32⟩ : BufTy).Contents (Elt F) → (⟨S1001x51040, .f32⟩ : BufTy).Contents (Elt F)) ((Host.divf : (⟨S1001x1, .f32⟩ : BufTy).Contents (Elt F) → (⟨S1001x1, .f32⟩ : BufTy).Contents (Elt F) → (⟨S1001x1, .f32⟩ : BufTy).Contents (Elt F)) (((broadcastInDim S1001x1 ![0] bcast_S1001_S1001x1_0) : (⟨S1001, .f32⟩ : BufTy).Contents (Elt F) → (⟨S1001x1, .f32⟩ : BufTy).Contents (Elt F)) (res_main_call11_v0 (F := F) a0 a1 a2 a3 a4)) (((broadcastInDim S1001x1 ![] bcast_S_S1001x1) : (⟨S_, .f32⟩ : BufTy).Contents (Elt F) → (⟨S1001x1, .f32⟩ : BufTy).Contents (Elt F)) ((constant S_ .f32 0x47476000#32) : (⟨S_, .f32⟩ : BufTy).Contents (Elt F))))))

/-- The contents of main_call11_v9 as a function of the arguments' contents. -/
def res_main_call11_v9 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001, .f32⟩ : BufTy).Contents (Elt F) :=
  (((fun x v => Host.reduceAdd x v reducesTo_S1001x51040_S1001_d1 h_S_) : (⟨S1001x51040, .f32⟩ : BufTy).Contents (Elt F) → (⟨S_, .f32⟩ : BufTy).Contents (Elt F) → (⟨S1001, .f32⟩ : BufTy).Contents (Elt F)) ((mulf : (⟨S1001x51040, .f32⟩ : BufTy).Contents (Elt F) → (⟨S1001x51040, .f32⟩ : BufTy).Contents (Elt F) → (⟨S1001x51040, .f32⟩ : BufTy).Contents (Elt F)) (res_main_call11_v5 (F := F) a0 a1 a2 a3 a4) (res_main_call11_v5 (F := F) a0 a1 a2 a3 a4)) ((constant S_ .f32 0x00000000#32) : (⟨S_, .f32⟩ : BufTy).Contents (Elt F)))

/-- The result: per arrangement, the sum of squared deviations from the mean over the count less one. -/
def res_main_v119 (a0 : (⟨S320x64, .f32⟩ : BufTy).Contents (Elt F)) (a1 : (⟨S_, .f32⟩ : BufTy).Contents (Elt F)) (a2 : (⟨S_, .f32⟩ : BufTy).Contents (Elt F)) (a3 : (⟨S320, .i32⟩ : BufTy).Contents (Elt F)) (a4 : (⟨S1000x320, .i32⟩ : BufTy).Contents (Elt F)) : (⟨S1001, .f32⟩ : BufTy).Contents (Elt F) :=
  (((fun p a b => select (broadcastInDim S1001 ![] bcast_S_S1001 p) a b) : (⟨S_, .i1⟩ : BufTy).Contents (Elt F) → (⟨S1001, .f32⟩ : BufTy).Contents (Elt F) → (⟨S1001, .f32⟩ : BufTy).Contents (Elt F) → (⟨S1001, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47476000#32) : (⟨S_, .f32⟩ : BufTy).Contents (Elt F)) (((sitofp .f32) : (⟨S_, .i32⟩ : BufTy).Contents (Elt F) → (⟨S_, .f32⟩ : BufTy).Contents (Elt F)) ((constantI S_ 32 1#32) : (⟨S_, .i32⟩ : BufTy).Contents (Elt F)))) ((constant S_ .f32 0x00000000#32) : (⟨S_, .f32⟩ : BufTy).Contents (Elt F))) ((Host.divf : (⟨S1001, .f32⟩ : BufTy).Contents (Elt F) → (⟨S1001, .f32⟩ : BufTy).Contents (Elt F) → (⟨S1001, .f32⟩ : BufTy).Contents (Elt F)) (res_main_call11_v9 (F := F) a0 a1 a2 a3 a4) (((broadcastInDim S1001 ![] bcast_S_S1001) : (⟨S_, .f32⟩ : BufTy).Contents (Elt F) → (⟨S1001, .f32⟩ : BufTy).Contents (Elt F)) ((subf : (⟨S_, .f32⟩ : BufTy).Contents (Elt F) → (⟨S_, .f32⟩ : BufTy).Contents (Elt F) → (⟨S_, .f32⟩ : BufTy).Contents (Elt F)) ((constant S_ .f32 0x47476000#32) : (⟨S_, .f32⟩ : BufTy).Contents (Elt F)) (((sitofp .f32) : (⟨S_, .i32⟩ : BufTy).Contents (Elt F) → (⟨S_, .f32⟩ : BufTy).Contents (Elt F)) ((constantI S_ 32 1#32) : (⟨S_, .i32⟩ : BufTy).Contents (Elt F)))))) (((broadcastInDim S1001 ![] bcast_S_S1001) : (⟨S_, .f32⟩ : BufTy).Contents (Elt F) → (⟨S1001, .f32⟩ : BufTy).Contents (Elt F)) ((id : (⟨S_, .f32⟩ : BufTy).Contents (Elt F) → (⟨S_, .f32⟩ : BufTy).Contents (Elt F)) ((constant S_ .f32 0x7FC00000#32) : (⟨S_, .f32⟩ : BufTy).Contents (Elt F)))))

end Cert.ReferenceIdeal.RefRun

end
-- ==== Proof.RefEqIdx.lean ====
/-
  The reference's run through the windows that compute the pair list: after their windows, the buffers of the flat
  positions and of the row and column numbers hold the named stages.
-/
import proofs.«138780_j25872882991128_2_alg».proof.Proof.RefFrame
import proofs.«138780_j25872882991128_2_alg».proof.Proof.RefStageDefs

noncomputable section

namespace Cert.ReferenceIdeal.RefEq

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

attribute [local irreducible] Host.gather Host.scatter Host.reduceWindow Host.reduceAdd Host.reduce concatenate iotaInDim
  constantI constant broadcastInDim shapeCast extui select cmpi cmpf addi subi maxsi Host.divsi Host.remsi signi andi

/-! ### Contents at a buffer's type and at the value's type -/

theorem ofBuf_toBuf {Val : EltTy → Type} {T : BufTy} (x : TRef sig T) (v : T.Contents Val) :
    x.ofBuf (x.toBuf v) = v := by
  obtain ⟨r, h1, h2, h3⟩ := x
  subst h1
  rfl

theorem ofBuf_of_heq {Val : EltTy → Type} {T : BufTy} (x : TRef sig T) (w : x.ref.ty.Contents Val) (v : T.Contents Val)
    (h : HEq w v) : x.ofBuf w = v := by
  obtain ⟨r, h1, h2, h3⟩ := x
  subst h1
  exact eq_of_heq h

theorem heq_of_ofBuf {Val : EltTy → Type} {T : BufTy} (x : TRef sig T) (w : x.ref.ty.Contents Val) (v : T.Contents Val)
    (h : x.ofBuf w = v) : HEq w v := by
  obtain ⟨r, h1, h2, h3⟩ := x
  subst h1
  exact heq_of_eq h

/-! ### One lemma per window, over any valuation -/

set_option maxHeartbeats 400000 in
/-- The window of the mask and its running count. -/
theorem Q10 (W : Valuation τ sig (Elt F)) :
    (TRef.of main_v71 : TRef sig ⟨S102400, .i32⟩).ofBuf (after ops_w10 W (Proc.devRef .tc main_v71)) = res_main_v71 (F := F) := by
  after_results_simp
  simp only [ofBuf_toBuf]
  unfold res_main_v71
  refine congrArg (fun x : (⟨S102400, .i32⟩ : BufTy).Contents (Elt F) =>
    Host.reduceWindow IntOp.addi ![102400] ![1] ![102399] ![0] x
      ((broadcastInDim S_ ![] bcast_S_S_ (constantI S_ 32 0#32)) : (⟨S_, .i32⟩ : BufTy).Contents (Elt F))
      reduceWindows_S102400_S102400_w102400s1p102399_0 h_S_) ?_
  rfl

set_option maxHeartbeats 400000 in
/-- The window of the clip below at zero. -/
theorem Q11 (W : Valuation τ sig (Elt F))
    (h71 : (TRef.of main_v71 : TRef sig ⟨S102400, .i32⟩).ofBuf (W (Proc.devRef .tc main_v71)) = res_main_v71 (F := F)) :
    (TRef.of main_v73 : TRef sig ⟨S102400, .i32⟩).ofBuf (after ops_w11 W (Proc.devRef .tc main_v73)) = res_main_v73 (F := F) := by
  after_results_simp
  simp only [ofBuf_toBuf, h71]
  unfold res_main_v73
  refine congrArg (fun a => maxsi a (res_main_v71 (F := F))) ?_
  rfl

set_option maxHeartbeats 400000 in
/-- The same window leaves the zero bins in their buffer. -/
theorem Q11z (W : Valuation τ sig (Elt F)) :
    after ops_w11 W (Proc.devRef .tc main_v72)
      = (broadcastInDim S51040 ![] bcast_S_S51040 (constantI S_ 32 0#32) : (⟨S51040, .i32⟩ : BufTy).Contents (Elt F)) := by
  after_results_simp

set_option maxHeartbeats 400000 in
/-- The window of the wrap-around and the scatter-add. -/
theorem P12 (W : Valuation τ sig (Elt F)) (h73 : W (Proc.devRef .tc main_v73) = res_main_v73 (F := F))
    (h72 : W (Proc.devRef .tc main_v72)
      = (broadcastInDim S51040 ![] bcast_S_S51040 (constantI S_ 32 0#32) : (⟨S51040, .i32⟩ : BufTy).Contents (Elt F))) :
    after ops_w12 W (Proc.devRef .tc main_v81) = res_main_v81 (F := F) := by
  after_results_simp
  simp only [h73, h72]
  rfl

set_option maxHeartbeats 400000 in
/-- The window of the running count of the bins. -/
theorem Q13 (W : Valuation τ sig (Elt F))
    (h81 : (TRef.of main_v81 : TRef sig ⟨S51040, .i32⟩).ofBuf (W (Proc.devRef .tc main_v81)) = res_main_v81 (F := F)) :
    (TRef.of main_v82 : TRef sig ⟨S51040, .i32⟩).ofBuf (after ops_w13 W (Proc.devRef .tc main_v82)) = res_main_v82 (F := F) := by
  after_results_simp
  simp only [ofBuf_toBuf, h81]
  rfl

/-! ### The run through these windows -/

theorem E_v71o (V : Valuation τ sig (Elt F)) :
    (TRef.of main_v71 : TRef sig ⟨S102400, .i32⟩).ofBuf (val11 V (Proc.devRef .tc main_v71)) = res_main_v71 (F := F) :=
  Q10 (val10 V)

theorem E_v73o (V : Valuation τ sig (Elt F)) :
    (TRef.of main_v73 : TRef sig ⟨S102400, .i32⟩).ofBuf (val12 V (Proc.devRef .tc main_v73)) = res_main_v73 (F := F) :=
  Q11 (val11 V) (E_v71o V)

theorem E_v72 (V : Valuation τ sig (Elt F)) :
    val12 V (Proc.devRef .tc main_v72)
      = (broadcastInDim S51040 ![] bcast_S_S51040 (constantI S_ 32 0#32) : (⟨S51040, .i32⟩ : BufTy).Contents (Elt F)) :=
  Q11z (val11 V)

theorem E_v73 (V : Valuation τ sig (Elt F)) : val12 V (Proc.devRef .tc main_v73) = res_main_v73 (F := F) :=
  eq_of_heq (heq_of_ofBuf _ _ _ (E_v73o V))

theorem E_v81 (V : Valuation τ sig (Elt F)) : val13 V (Proc.devRef .tc main_v81) = res_main_v81 (F := F) :=
  P12 (val12 V) (E_v73 V) (E_v72 V)

theorem E_v82o (V : Valuation τ sig (Elt F)) :
    (TRef.of main_v82 : TRef sig ⟨S51040, .i32⟩).ofBuf (val14 V (Proc.devRef .tc main_v82)) = res_main_v82 (F := F) :=
  Q13 (val13 V) (ofBuf_of_heq _ _ _ (heq_of_eq (E_v81 V)))

/-- After the fourteenth window the buffer of the flat positions holds its stage. -/
theorem E_v82 (V : Valuation τ sig (Elt F)) : val14 V (Proc.devRef .tc main_v82) = res_main_v82 (F := F) :=
  eq_of_heq (heq_of_ofBuf _ _ _ (E_v82o V))

end Cert.ReferenceIdeal.RefEq

end
-- ==== Proof.RefEq.lean ====
/-
  The reference's run, stage by stage: after the whole line of operations, the result buffer holds the named stage
  res_main_v119 of the launch contents of the five arguments.

  The line is cut into 34 stretches, each ending at one named stage. For every stretch, over an ARBITRARY valuation W of the
  buffers: if W holds, at the buffers the stretch reads, the named stages (of given argument contents), then after the
  stretch the stage's buffer holds the named stage. Each is read off by rewriting every operation's result at its own
  buffer to its function's value and at any other buffer to what was there; the stage's definition then unfolds to the
  same term. No operation is ever opened. The stretches are then chained from the launch contents: a buffer that later
  stretches do not write keeps its contents until it is read.
-/
import proofs.«138780_j25872882991128_2_alg».proof.Proof.RefFrame
import proofs.«138780_j25872882991128_2_alg».proof.Proof.RefStageDefs
import proofs.«138780_j25872882991128_2_alg».proof.Proof.RefEqIdx

noncomputable section

namespace Cert.ReferenceIdeal.RefEq

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

attribute [local irreducible] Host.gather Host.scatter Host.reduceWindow Host.reduceAdd Host.reduce concatenate iotaInDim
  constantI constant broadcastInDim shapeCast extui select cmpi cmpf addi subi maxsi Host.divsi Host.remsi signi andi sitofp mulf subf addf
  maximumf Host.divf Host.sqrt

/-- Contents carried to a typed reference's buffer and back are unchanged. -/
theorem ofBuf_toBuf' {T : BufTy} (x : TRef sig T) (v : T.Contents (Elt F)) : x.ofBuf (x.toBuf v) = v := by
  obtain ⟨r, h, h1, h2⟩ := x
  subst h
  rfl

/-- The rewriting loop of `after_results`, for what one `simp` pass does not reach: the contents inside a concatenation's
    list of shaped pairs. -/
local macro "results_rw" : tactic =>
  `(tactic| repeat (first
      | rw [nullary_result] | rw [unary_result] | rw [binary_result] | rw [ternary_result]
      | (rw [nullary_result_ne]; rotate_left; decide)
      | (rw [unary_result_ne]; rotate_left; decide)
      | (rw [binary_result_ne]; rotate_left; decide)
      | (rw [ternary_result_ne]; rotate_left; decide)))

/-! ### The stretches, each over an arbitrary valuation -/

section Lines

variable (W : Valuation τ sig (Elt F))
variable {a0 : (⟨S320x64, .f32⟩ : BufTy).Contents (Elt F)} {a1 a2 : (⟨S_, .f32⟩ : BufTy).Contents (Elt F)}
  {a3 : (⟨S320, .i32⟩ : BufTy).Contents (Elt F)} {a4 : (⟨S1000x320, .i32⟩ : BufTy).Contents (Elt F)}

/-- Stretch 0: the factor matrix, from the labels and the two scalars. -/
theorem L_v19 (hA1 : W (Proc.devRef .tc main_arg1) = a1) (hA2 : W (Proc.devRef .tc main_arg2) = a2)
    (hA3 : W (Proc.devRef .tc main_arg3) = a3) :
    after ops_w0 W (Proc.devRef .tc main_v19) = res_main_v19 (F := F) a1 a2 a3 := by
  after_results_simp
  simp only [ofBuf_toBuf', hA1, hA2, hA3]
  rfl

/-- Stretch 1: the data rows gathered at the given indices. -/
theorem L_v27 (hA0 : W (Proc.devRef .tc main_arg0) = a0) (hA4 : W (Proc.devRef .tc main_arg4) = a4) :
    after ops_w1 W (Proc.devRef .tc main_v27) = res_main_v27 (F := F) a0 a4 := by
  after_results_simp
  simp only [hA0, hA4]
  rfl

/-- Stretch 1 also leaves the position row 0, …, 319, which stretches 2 and 4 read. -/
theorem L_v20 : after ops_w1 W (Proc.devRef .tc main_v20) = iotaInDim S320 32 0 := by
  after_results_simp

set_option maxHeartbeats 4000000 in
/-- Stretch 2: the (position, index) pairs at which the factor is looked up. -/
theorem L_v42 (hA4 : W (Proc.devRef .tc main_arg4) = a4) (h20 : W (Proc.devRef .tc main_v20) = iotaInDim S320 32 0) :
    after ops_w2 W (Proc.devRef .tc main_v42) = res_main_v42 (F := F) a4 := by
  after_results_simp
  results_rw
  rw [hA4, h20]
  rfl

/-- Stretch 3: the looked-up factors. -/
theorem L_v43 (h19 : W (Proc.devRef .tc main_v19) = res_main_v19 (F := F) a1 a2 a3)
    (h42 : W (Proc.devRef .tc main_v42) = res_main_v42 (F := F) a4) :
    after ops_w3 W (Proc.devRef .tc main_v43) = res_main_v43 (F := F) a1 a2 a3 a4 := by
  after_results_simp
  simp only [h19, h42]
  rfl

/-- Stretch 4: the mask "the index is the row's own position". -/
theorem L_v47 (hA4 : W (Proc.devRef .tc main_arg4) = a4) (h20 : W (Proc.devRef .tc main_v20) = iotaInDim S320 32 0) :
    after ops_w4 W (Proc.devRef .tc main_v47) = res_main_v47 (F := F) a4 := by
  after_results_simp
  simp only [hA4, h20]
  rfl

/-- Stretch 5: the looked-up factors with a trailing unit axis. -/
theorem L_v48 (h43 : W (Proc.devRef .tc main_v43) = res_main_v43 (F := F) a1 a2 a3 a4) :
    after ops_w5 W (Proc.devRef .tc main_v48) = res_main_v48 (F := F) a1 a2 a3 a4 := by
  after_results_simp
  simp only [h43]
  rfl

/-- Stretch 6: the scaled rows of every arrangement, the unscaled data on top. -/
theorem L_v53 (h47 : W (Proc.devRef .tc main_v47) = res_main_v47 (F := F) a4)
    (h27 : W (Proc.devRef .tc main_v27) = res_main_v27 (F := F) a0 a4)
    (h48 : W (Proc.devRef .tc main_v48) = res_main_v48 (F := F) a1 a2 a3 a4)
    (hA0 : W (Proc.devRef .tc main_arg0) = a0) :
    after ops_w6 W (Proc.devRef .tc main_v53) = res_main_v53 (F := F) a0 a1 a2 a3 a4 := by
  after_results_simp
  results_rw
  rw [h47, h27, h48, hA0]
  rfl

/-- Stretch 7: the squared norms of the rows. -/
theorem L_v55 (h53 : W (Proc.devRef .tc main_v53) = res_main_v53 (F := F) a0 a1 a2 a3 a4) :
    after ops_w7 W (Proc.devRef .tc main_v55) = res_main_v55 (F := F) a0 a1 a2 a3 a4 := by
  after_results_simp
  simp only [h53]
  rfl

/-- Stretch 8: the Gram matrices. -/
theorem L_v56 (h53 : W (Proc.devRef .tc main_v53) = res_main_v53 (F := F) a0 a1 a2 a3 a4) :
    after ops_w8 W (Proc.devRef .tc main_v56) = res_main_v56 (F := F) a0 a1 a2 a3 a4 := by
  after_results_simp
  simp only [h53]
  rfl

/-- Stretch 9: the clamped squared distances. -/
theorem L_v66 (h55 : W (Proc.devRef .tc main_v55) = res_main_v55 (F := F) a0 a1 a2 a3 a4)
    (h56 : W (Proc.devRef .tc main_v56) = res_main_v56 (F := F) a0 a1 a2 a3 a4) :
    after ops_w9 W (Proc.devRef .tc main_v66) = res_main_v66 (F := F) a0 a1 a2 a3 a4 := by
  after_results_simp
  simp only [h55, h56]
  rfl

/-- The divisor of the remainder, as the line spells it: 320, unless it were 0. -/
def divisor320 : IVec S_ 32 :=
  select (cmpi .eq (id (constantI S_ 32 320#32)) (constantI S_ 32 0#32)) (constantI S_ 32 1#32) (id (constantI S_ 32 320#32))

/-- Stretch 14 leaves the integer 320, which stretch 15 reads. -/
theorem L_c_19 : after ops_w14 W (Proc.devRef .tc main_c_19) = constantI S_ 32 320#32 := by
  after_results_simp

/-- Stretch 14: the flat positions divided by 320. -/
theorem L_call7_v1 (h82 : W (Proc.devRef .tc main_v82) = res_main_v82 (F := F)) :
    after ops_w14 W (Proc.devRef .tc main_call7_v1) = res_main_call7_v1 (F := F) := by
  after_results_simp
  simp only [ofBuf_toBuf', h82]
  rfl

/-- Stretch 15: the floored quotient, and its remainder by the divisor. -/
theorem L_call8_v4 (h82 : W (Proc.devRef .tc main_v82) = res_main_v82 (F := F))
    (hc19 : W (Proc.devRef .tc main_c_19) = constantI S_ 32 320#32)
    (h7 : W (Proc.devRef .tc main_call7_v1) = res_main_call7_v1 (F := F)) :
    after ops_w15 W (Proc.devRef .tc main_call8_v4) = res_main_call8_v4 (F := F) := by
  after_results_simp
  simp only [ofBuf_toBuf', h82, hc19, h7]
  rfl

/-- Stretch 15 also leaves the divisor, which stretch 16 reads. -/
theorem L_call8_v2 : after ops_w15 W (Proc.devRef .tc main_call8_v2) = (divisor320 : IVec S_ 32) := by
  after_results_simp
  simp only [ofBuf_toBuf']
  rfl

/-- Stretch 16, with every buffer read at the value's type, so that no transport is left around the closed stages. -/
theorem L_v84o
    (h8 : (TRef.of main_call8_v4 : TRef sig ⟨S51040, .i32⟩).ofBuf (W (Proc.devRef .tc main_call8_v4)) = res_main_call8_v4 (F := F))
    (hm : (TRef.of main_call8_v2 : TRef sig ⟨S_, .i32⟩).ofBuf (W (Proc.devRef .tc main_call8_v2)) = (divisor320 : IVec S_ 32)) :
    (TRef.of main_v84 : TRef sig ⟨S51040, .i32⟩).ofBuf (after ops_w16 W (Proc.devRef .tc main_v84)) = res_main_v84 (F := F) := by
  after_results_simp
  simp only [ofBuf_toBuf', h8, hm]
  rfl

/-- Stretch 16: the row coordinates of the listed pairs. -/
theorem L_v84 (h8 : W (Proc.devRef .tc main_call8_v4) = res_main_call8_v4 (F := F))
    (hm : W (Proc.devRef .tc main_call8_v2) = (divisor320 : IVec S_ 32)) :
    after ops_w16 W (Proc.devRef .tc main_v84) = res_main_v84 (F := F) :=
  eq_of_heq (heq_of_ofBuf _ _ _ (L_v84o W (ofBuf_of_heq _ _ _ (heq_of_eq h8)) (ofBuf_of_heq _ _ _ (heq_of_eq hm))))

/-- Stretch 17 leaves the integer 1, which stretch 18 reads. -/
theorem L_c_21 : after ops_w17 W (Proc.devRef .tc main_c_21) = constantI S_ 32 1#32 := by
  after_results_simp

/-- Stretch 17: the flat positions divided by 1. -/
theorem L_call9_v1 (h82 : W (Proc.devRef .tc main_v82) = res_main_v82 (F := F)) :
    after ops_w17 W (Proc.devRef .tc main_call9_v1) = res_main_call9_v1 (F := F) := by
  after_results_simp
  simp only [ofBuf_toBuf', h82]
  rfl

/-- Stretch 18: the floored quotient, and its remainder by the divisor. -/
theorem L_call10_v4 (h82 : W (Proc.devRef .tc main_v82) = res_main_v82 (F := F))
    (hc21 : W (Proc.devRef .tc main_c_21) = constantI S_ 32 1#32)
    (h9 : W (Proc.devRef .tc main_call9_v1) = res_main_call9_v1 (F := F)) :
    after ops_w18 W (Proc.devRef .tc main_call10_v4) = res_main_call10_v4 (F := F) := by
  after_results_simp
  simp only [ofBuf_toBuf', h82, hc21, h9]
  rfl

/-- Stretch 18 also leaves the divisor, which stretch 19 reads. -/
theorem L_call10_v2 : after ops_w18 W (Proc.devRef .tc main_call10_v2) = (divisor320 : IVec S_ 32) := by
  after_results_simp
  simp only [ofBuf_toBuf']
  rfl

/-- Stretch 19, with every buffer read at the value's type. -/
theorem L_v86o
    (h10 : (TRef.of main_call10_v4 : TRef sig ⟨S51040, .i32⟩).ofBuf (W (Proc.devRef .tc main_call10_v4)) = res_main_call10_v4 (F := F))
    (hm : (TRef.of main_call10_v2 : TRef sig ⟨S_, .i32⟩).ofBuf (W (Proc.devRef .tc main_call10_v2)) = (divisor320 : IVec S_ 32)) :
    (TRef.of main_v86 : TRef sig ⟨S51040, .i32⟩).ofBuf (after ops_w19 W (Proc.devRef .tc main_v86)) = res_main_v86 (F := F) := by
  after_results_simp
  simp only [ofBuf_toBuf', h10, hm]
  rfl

/-- Stretch 19: the column coordinates of the listed pairs. -/
theorem L_v86 (h10 : W (Proc.devRef .tc main_call10_v4) = res_main_call10_v4 (F := F))
    (hm : W (Proc.devRef .tc main_call10_v2) = (divisor320 : IVec S_ 32)) :
    after ops_w19 W (Proc.devRef .tc main_v86) = res_main_v86 (F := F) :=
  eq_of_heq (heq_of_ofBuf _ _ _ (L_v86o W (ofBuf_of_heq _ _ _ (heq_of_eq h10)) (ofBuf_of_heq _ _ _ (heq_of_eq hm))))

/-- Stretch 20: the wrapped row coordinates of the listed pairs. -/
theorem L_v91 (h84 : W (Proc.devRef .tc main_v84) = res_main_v84 (F := F)) :
    after ops_w20 W (Proc.devRef .tc main_v91) = res_main_v91 (F := F) := by
  after_results_simp
  simp only [h84]
  rfl

/-- Stretch 21: the constant zero the next stretch compares with. -/
theorem L_c_25 : after ops_w21 W (Proc.devRef .tc main_c_25) = res_main_c_25 (F := F) := by
  after_results_simp
  rfl

/-- Stretch 22: the wrapped column coordinates of the listed pairs. -/
theorem L_v96 (h86 : W (Proc.devRef .tc main_v86) = res_main_v86 (F := F))
    (hc25 : W (Proc.devRef .tc main_c_25) = res_main_c_25 (F := F)) :
    after ops_w22 W (Proc.devRef .tc main_v96) = res_main_v96 (F := F) := by
  after_results_simp
  simp only [h86, hc25]
  rfl

/-- Stretch 23: the listed pairs as (row, column) index pairs. -/
theorem L_v99 (h91 : W (Proc.devRef .tc main_v91) = res_main_v91 (F := F))
    (h96 : W (Proc.devRef .tc main_v96) = res_main_v96 (F := F)) :
    after ops_w23 W (Proc.devRef .tc main_v99) = res_main_v99 (F := F) := by
  after_results_simp
  results_rw
  rw [h91, h96]
  rfl

/-- Stretch 24: the factor at each listed pair. -/
theorem L_v100 (h19 : W (Proc.devRef .tc main_v19) = res_main_v19 (F := F) a1 a2 a3)
    (h99 : W (Proc.devRef .tc main_v99) = res_main_v99 (F := F)) :
    after ops_w24 W (Proc.devRef .tc main_v100) = res_main_v100 (F := F) a1 a2 a3 := by
  after_results_simp
  simp only [h19, h99]
  rfl

/-- Stretch 25: the wrapped row coordinates again, for the distances. -/
theorem L_v106 (h84 : W (Proc.devRef .tc main_v84) = res_main_v84 (F := F)) :
    after ops_w25 W (Proc.devRef .tc main_v106) = res_main_v106 (F := F) := by
  after_results_simp
  simp only [h84]
  rfl

/-- Stretch 25 also leaves the factors as a row, which stretch 29 reads. -/
theorem L_v101 (h100 : W (Proc.devRef .tc main_v100) = res_main_v100 (F := F) a1 a2 a3) :
    after ops_w25 W (Proc.devRef .tc main_v101)
      = broadcastInDim S1x51040 ![1] bcast_S51040_S1x51040_1 (res_main_v100 (F := F) a1 a2 a3) := by
  after_results_simp
  simp only [h100]

/-- Stretch 26: the wrapped column coordinates again. -/
theorem L_v111 (h86 : W (Proc.devRef .tc main_v86) = res_main_v86 (F := F)) :
    after ops_w26 W (Proc.devRef .tc main_v111) = res_main_v111 (F := F) := by
  after_results_simp
  simp only [h86]
  rfl

/-- Stretch 27: the listed pairs again as index pairs. -/
theorem L_v114 (h106 : W (Proc.devRef .tc main_v106) = res_main_v106 (F := F))
    (h111 : W (Proc.devRef .tc main_v111) = res_main_v111 (F := F)) :
    after ops_w27 W (Proc.devRef .tc main_v114) = res_main_v114 (F := F) := by
  after_results_simp
  results_rw
  rw [h106, h111]
  rfl

/-- Stretch 28: the clamped squared distance at each listed pair, per arrangement. -/
theorem L_v115 (h66 : W (Proc.devRef .tc main_v66) = res_main_v66 (F := F) a0 a1 a2 a3 a4)
    (h114 : W (Proc.devRef .tc main_v114) = res_main_v114 (F := F)) :
    after ops_w28 W (Proc.devRef .tc main_v115) = res_main_v115 (F := F) a0 a1 a2 a3 a4 := by
  after_results_simp
  simp only [h66, h114]
  rfl

/-- Stretch 29: the listed values, the factor times the distance. -/
theorem L_v118
    (h101 : W (Proc.devRef .tc main_v101) = broadcastInDim S1x51040 ![1] bcast_S51040_S1x51040_1 (res_main_v100 (F := F) a1 a2 a3))
    (h115 : W (Proc.devRef .tc main_v115) = res_main_v115 (F := F) a0 a1 a2 a3 a4) :
    after ops_w29 W (Proc.devRef .tc main_v118) = res_main_v118 (F := F) a0 a1 a2 a3 a4 := by
  after_results_simp
  simp only [h101, h115]
  rfl

/-- Stretch 30: the row sums. -/
theorem L_call11_v0 (h118 : W (Proc.devRef .tc main_v118) = res_main_v118 (F := F) a0 a1 a2 a3 a4) :
    after ops_w30 W (Proc.devRef .tc main_call11_v0) = res_main_call11_v0 (F := F) a0 a1 a2 a3 a4 := by
  after_results_simp
  simp only [ofBuf_toBuf', h118]
  rfl

/-- Stretch 30 also leaves the integer one, which stretch 32 converts. -/
theorem L_c_31 : after ops_w30 W (Proc.devRef .tc main_c_31) = constantI S_ 32 1#32 := by
  after_results_simp

/-- Stretch 31: the centred values. -/
theorem L_call11_v5 (h118 : W (Proc.devRef .tc main_v118) = res_main_v118 (F := F) a0 a1 a2 a3 a4)
    (hv0 : W (Proc.devRef .tc main_call11_v0) = res_main_call11_v0 (F := F) a0 a1 a2 a3 a4) :
    after ops_w31 W (Proc.devRef .tc main_call11_v5) = res_main_call11_v5 (F := F) a0 a1 a2 a3 a4 := by
  after_results_simp
  simp only [ofBuf_toBuf', h118, hv0]
  rfl

/-- Stretch 32: the sums of the squared centred values. -/
theorem L_call11_v9 (hv5 : W (Proc.devRef .tc main_call11_v5) = res_main_call11_v5 (F := F) a0 a1 a2 a3 a4) :
    after ops_w32 W (Proc.devRef .tc main_call11_v9) = res_main_call11_v9 (F := F) a0 a1 a2 a3 a4 := by
  after_results_simp
  simp only [ofBuf_toBuf', hv5]
  rfl

/-- Stretch 32 also leaves the count less one, which stretch 33 divides by and tests. -/
theorem L_call11_v8 (hc31 : W (Proc.devRef .tc main_c_31) = constantI S_ 32 1#32) :
    after ops_w32 W (Proc.devRef .tc main_call11_v8)
      = subf (constant (F := F) S_ .f32 0x47476000#32) (sitofp .f32 (constantI S_ 32 1#32)) := by
  after_results_simp
  simp only [ofBuf_toBuf', hc31]
  rfl

/-- Stretch 33: the result, the sums over the count less one. -/
theorem L_v119 (hv9 : W (Proc.devRef .tc main_call11_v9) = res_main_call11_v9 (F := F) a0 a1 a2 a3 a4)
    (hv8 : W (Proc.devRef .tc main_call11_v8) = subf (constant (F := F) S_ .f32 0x47476000#32) (sitofp .f32 (constantI S_ 32 1#32))) :
    after ops_w33 W (Proc.devRef .tc main_v119) = res_main_v119 (F := F) a0 a1 a2 a3 a4 := by
  after_results_simp
  simp only [ofBuf_toBuf', hv9, hv8]
  rfl

end Lines

/-! ### The stretches chained from the launch contents -/

section Chain

variable (V : Valuation τ sig (Elt F))

theorem E_v19 : val1 V (Proc.devRef .tc main_v19) = res_main_v19 (F := F) (V (Proc.devRef .tc main_arg1)) (V (Proc.devRef .tc main_arg2)) (V (Proc.devRef .tc main_arg3)) :=
  L_v19 V rfl rfl rfl

theorem E_v20 : val2 V (Proc.devRef .tc main_v20) = iotaInDim S320 32 0 :=
  L_v20 (val1 V)

theorem E_v27 : val2 V (Proc.devRef .tc main_v27) = res_main_v27 (F := F) (V (Proc.devRef .tc main_arg0)) (V (Proc.devRef .tc main_arg4)) :=
  L_v27 (val1 V) (val1_main_arg0 V) (val1_main_arg4 V)

theorem E_v42 : val3 V (Proc.devRef .tc main_v42) = res_main_v42 (F := F) (V (Proc.devRef .tc main_arg4)) :=
  L_v42 (val2 V) (val2_main_arg4 V) (E_v20 V)

theorem E_v43 : val4 V (Proc.devRef .tc main_v43) = res_main_v43 (F := F) (V (Proc.devRef .tc main_arg1)) (V (Proc.devRef .tc main_arg2)) (V (Proc.devRef .tc main_arg3)) (V (Proc.devRef .tc main_arg4)) :=
  L_v43 (val3 V)
    ((val3_keep V main_v19 (by decide)).trans ((val2_keep V main_v19 (by decide)).trans (E_v19 V)))
    (E_v42 V)

theorem E_v47 : val5 V (Proc.devRef .tc main_v47) = res_main_v47 (F := F) (V (Proc.devRef .tc main_arg4)) :=
  L_v47 (val4 V) (val4_main_arg4 V)
    ((val4_keep V main_v20 (by decide)).trans ((val3_keep V main_v20 (by decide)).trans (E_v20 V)))

theorem E_v48 : val6 V (Proc.devRef .tc main_v48) = res_main_v48 (F := F) (V (Proc.devRef .tc main_arg1)) (V (Proc.devRef .tc main_arg2)) (V (Proc.devRef .tc main_arg3)) (V (Proc.devRef .tc main_arg4)) :=
  L_v48 (val5 V) ((val5_keep V main_v43 (by decide)).trans (E_v43 V))

theorem E_v53 : val7 V (Proc.devRef .tc main_v53) = res_main_v53 (F := F) (V (Proc.devRef .tc main_arg0)) (V (Proc.devRef .tc main_arg1)) (V (Proc.devRef .tc main_arg2)) (V (Proc.devRef .tc main_arg3)) (V (Proc.devRef .tc main_arg4)) :=
  L_v53 (val6 V)
    ((val6_keep V main_v47 (by decide)).trans (E_v47 V))
    ((val6_keep V main_v27 (by decide)).trans ((val5_keep V main_v27 (by decide)).trans
      ((val4_keep V main_v27 (by decide)).trans ((val3_keep V main_v27 (by decide)).trans (E_v27 V)))))
    (E_v48 V)
    (val6_main_arg0 V)

theorem E_v55 : val8 V (Proc.devRef .tc main_v55) = res_main_v55 (F := F) (V (Proc.devRef .tc main_arg0)) (V (Proc.devRef .tc main_arg1)) (V (Proc.devRef .tc main_arg2)) (V (Proc.devRef .tc main_arg3)) (V (Proc.devRef .tc main_arg4)) :=
  L_v55 (val7 V) (E_v53 V)

theorem E_v56 : val9 V (Proc.devRef .tc main_v56) = res_main_v56 (F := F) (V (Proc.devRef .tc main_arg0)) (V (Proc.devRef .tc main_arg1)) (V (Proc.devRef .tc main_arg2)) (V (Proc.devRef .tc main_arg3)) (V (Proc.devRef .tc main_arg4)) :=
  L_v56 (val8 V) ((val8_keep V main_v53 (by decide)).trans (E_v53 V))

theorem E_v66 : val10 V (Proc.devRef .tc main_v66) = res_main_v66 (F := F) (V (Proc.devRef .tc main_arg0)) (V (Proc.devRef .tc main_arg1)) (V (Proc.devRef .tc main_arg2)) (V (Proc.devRef .tc main_arg3)) (V (Proc.devRef .tc main_arg4)) :=
  L_v66 (val9 V) ((val9_keep V main_v55 (by decide)).trans (E_v55 V)) (E_v56 V)

/-! The coordinate stretches 14 … 19, from the flat positions. -/

theorem E_c_19 : val15 V (Proc.devRef .tc main_c_19) = constantI S_ 32 320#32 :=
  L_c_19 (val14 V)

theorem E_call7_v1 : val15 V (Proc.devRef .tc main_call7_v1) = res_main_call7_v1 (F := F) :=
  L_call7_v1 (val14 V) (E_v82 V)

theorem E_call8_v4 : val16 V (Proc.devRef .tc main_call8_v4) = res_main_call8_v4 (F := F) :=
  L_call8_v4 (val15 V) ((val15_keep V main_v82 (by decide)).trans (E_v82 V)) (E_c_19 V) (E_call7_v1 V)

theorem E_call8_v2 : val16 V (Proc.devRef .tc main_call8_v2) = (divisor320 : IVec S_ 32) :=
  L_call8_v2 (val15 V)

theorem E_v84 : val17 V (Proc.devRef .tc main_v84) = res_main_v84 (F := F) :=
  L_v84 (val16 V) (E_call8_v4 V) (E_call8_v2 V)

theorem E_c_21 : val18 V (Proc.devRef .tc main_c_21) = constantI S_ 32 1#32 :=
  L_c_21 (val17 V)

theorem E_call9_v1 : val18 V (Proc.devRef .tc main_call9_v1) = res_main_call9_v1 (F := F) :=
  L_call9_v1 (val17 V)
    ((val17_keep V main_v82 (by decide)).trans ((val16_keep V main_v82 (by decide)).trans
      ((val15_keep V main_v82 (by decide)).trans (E_v82 V))))

theorem E_call10_v4 : val19 V (Proc.devRef .tc main_call10_v4) = res_main_call10_v4 (F := F) :=
  L_call10_v4 (val18 V)
    ((val18_keep V main_v82 (by decide)).trans ((val17_keep V main_v82 (by decide)).trans
      ((val16_keep V main_v82 (by decide)).trans ((val15_keep V main_v82 (by decide)).trans (E_v82 V)))))
    (E_c_21 V) (E_call9_v1 V)

theorem E_call10_v2 : val19 V (Proc.devRef .tc main_call10_v2) = (divisor320 : IVec S_ 32) :=
  L_call10_v2 (val18 V)

theorem E_v86 : val20 V (Proc.devRef .tc main_v86) = res_main_v86 (F := F) :=
  L_v86 (val19 V) (E_call10_v4 V) (E_call10_v2 V)

theorem E_v91 : val21 V (Proc.devRef .tc main_v91) = res_main_v91 (F := F) :=
  L_v91 (val20 V)
    ((val20_keep V main_v84 (by decide)).trans ((val19_keep V main_v84 (by decide)).trans
      ((val18_keep V main_v84 (by decide)).trans (E_v84 V))))

theorem E_c_25 : val22 V (Proc.devRef .tc main_c_25) = res_main_c_25 (F := F) :=
  L_c_25 (val21 V)

theorem E_v96 : val23 V (Proc.devRef .tc main_v96) = res_main_v96 (F := F) :=
  L_v96 (val22 V)
    ((val22_keep V main_v86 (by decide)).trans ((val21_keep V main_v86 (by decide)).trans (E_v86 V)))
    (E_c_25 V)

theorem E_v99 : val24 V (Proc.devRef .tc main_v99) = res_main_v99 (F := F) :=
  L_v99 (val23 V)
    ((val23_keep V main_v91 (by decide)).trans ((val22_keep V main_v91 (by decide)).trans (E_v91 V)))
    (E_v96 V)

/-- The factor matrix, written by stretch 0, is still there when stretch 24 reads it. -/
theorem keep_v19 : val24 V (Proc.devRef .tc main_v19) = val1 V (Proc.devRef .tc main_v19) := by
  rw [val24_keep V main_v19 (by decide), val23_keep V main_v19 (by decide), val22_keep V main_v19 (by decide),
    val21_keep V main_v19 (by decide), val20_keep V main_v19 (by decide), val19_keep V main_v19 (by decide),
    val18_keep V main_v19 (by decide), val17_keep V main_v19 (by decide), val16_keep V main_v19 (by decide),
    val15_keep V main_v19 (by decide), val14_keep V main_v19 (by decide), val13_keep V main_v19 (by decide),
    val12_keep V main_v19 (by decide), val11_keep V main_v19 (by decide), val10_keep V main_v19 (by decide),
    val9_keep V main_v19 (by decide), val8_keep V main_v19 (by decide), val7_keep V main_v19 (by decide),
    val6_keep V main_v19 (by decide), val5_keep V main_v19 (by decide), val4_keep V main_v19 (by decide),
    val3_keep V main_v19 (by decide), val2_keep V main_v19 (by decide)]

theorem E_v100 : val25 V (Proc.devRef .tc main_v100) = res_main_v100 (F := F) (V (Proc.devRef .tc main_arg1)) (V (Proc.devRef .tc main_arg2)) (V (Proc.devRef .tc main_arg3)) :=
  L_v100 (val24 V) ((keep_v19 V).trans (E_v19 V)) (E_v99 V)

theorem E_v101 : val26 V (Proc.devRef .tc main_v101)
    = broadcastInDim S1x51040 ![1] bcast_S51040_S1x51040_1 (res_main_v100 (F := F) (V (Proc.devRef .tc main_arg1)) (V (Proc.devRef .tc main_arg2)) (V (Proc.devRef .tc main_arg3))) :=
  L_v101 (val25 V) (E_v100 V)

/-- The row coordinates, written by stretch 16, are still there when stretch 25 reads them. -/
theorem keep_v84 : val25 V (Proc.devRef .tc main_v84) = val17 V (Proc.devRef .tc main_v84) := by
  rw [val25_keep V main_v84 (by decide), val24_keep V main_v84 (by decide), val23_keep V main_v84 (by decide),
    val22_keep V main_v84 (by decide), val21_keep V main_v84 (by decide), val20_keep V main_v84 (by decide),
    val19_keep V main_v84 (by decide), val18_keep V main_v84 (by decide)]

theorem E_v106 : val26 V (Proc.devRef .tc main_v106) = res_main_v106 (F := F) :=
  L_v106 (val25 V) ((keep_v84 V).trans (E_v84 V))

/-- The column coordinates, written by stretch 19, are still there when stretch 26 reads them. -/
theorem keep_v86 : val26 V (Proc.devRef .tc main_v86) = val20 V (Proc.devRef .tc main_v86) := by
  rw [val26_keep V main_v86 (by decide), val25_keep V main_v86 (by decide), val24_keep V main_v86 (by decide),
    val23_keep V main_v86 (by decide), val22_keep V main_v86 (by decide), val21_keep V main_v86 (by decide)]

theorem E_v111 : val27 V (Proc.devRef .tc main_v111) = res_main_v111 (F := F) :=
  L_v111 (val26 V) ((keep_v86 V).trans (E_v86 V))

theorem E_v114 : val28 V (Proc.devRef .tc main_v114) = res_main_v114 (F := F) :=
  L_v114 (val27 V) ((val27_keep V main_v106 (by decide)).trans (E_v106 V)) (E_v111 V)

/-- The clamped squared distances, written by stretch 9, are still there when stretch 28 reads them. -/
theorem keep_v66 : val28 V (Proc.devRef .tc main_v66) = val10 V (Proc.devRef .tc main_v66) := by
  rw [val28_keep V main_v66 (by decide), val27_keep V main_v66 (by decide), val26_keep V main_v66 (by decide),
    val25_keep V main_v66 (by decide), val24_keep V main_v66 (by decide), val23_keep V main_v66 (by decide),
    val22_keep V main_v66 (by decide), val21_keep V main_v66 (by decide), val20_keep V main_v66 (by decide),
    val19_keep V main_v66 (by decide), val18_keep V main_v66 (by decide), val17_keep V main_v66 (by decide),
    val16_keep V main_v66 (by decide), val15_keep V main_v66 (by decide), val14_keep V main_v66 (by decide),
    val13_keep V main_v66 (by decide), val12_keep V main_v66 (by decide), val11_keep V main_v66 (by decide)]

theorem E_v115 : val29 V (Proc.devRef .tc main_v115) = res_main_v115 (F := F) (V (Proc.devRef .tc main_arg0)) (V (Proc.devRef .tc main_arg1)) (V (Proc.devRef .tc main_arg2)) (V (Proc.devRef .tc main_arg3)) (V (Proc.devRef .tc main_arg4)) :=
  L_v115 (val28 V) ((keep_v66 V).trans (E_v66 V)) (E_v114 V)

theorem E_v118 : val30 V (Proc.devRef .tc main_v118) = res_main_v118 (F := F) (V (Proc.devRef .tc main_arg0)) (V (Proc.devRef .tc main_arg1)) (V (Proc.devRef .tc main_arg2)) (V (Proc.devRef .tc main_arg3)) (V (Proc.devRef .tc main_arg4)) :=
  L_v118 (val29 V)
    ((val29_keep V main_v101 (by decide)).trans ((val28_keep V main_v101 (by decide)).trans
      ((val27_keep V main_v101 (by decide)).trans (E_v101 V))))
    (E_v115 V)

theorem E_call11_v0 : val31 V (Proc.devRef .tc main_call11_v0) = res_main_call11_v0 (F := F) (V (Proc.devRef .tc main_arg0)) (V (Proc.devRef .tc main_arg1)) (V (Proc.devRef .tc main_arg2)) (V (Proc.devRef .tc main_arg3)) (V (Proc.devRef .tc main_arg4)) :=
  L_call11_v0 (val30 V) (E_v118 V)

theorem E_c_31 : val31 V (Proc.devRef .tc main_c_31) = constantI S_ 32 1#32 :=
  L_c_31 (val30 V)

theorem E_call11_v5 : val32 V (Proc.devRef .tc main_call11_v5) = res_main_call11_v5 (F := F) (V (Proc.devRef .tc main_arg0)) (V (Proc.devRef .tc main_arg1)) (V (Proc.devRef .tc main_arg2)) (V (Proc.devRef .tc main_arg3)) (V (Proc.devRef .tc main_arg4)) :=
  L_call11_v5 (val31 V) ((val31_keep V main_v118 (by decide)).trans (E_v118 V)) (E_call11_v0 V)

theorem E_call11_v9 : val33 V (Proc.devRef .tc main_call11_v9) = res_main_call11_v9 (F := F) (V (Proc.devRef .tc main_arg0)) (V (Proc.devRef .tc main_arg1)) (V (Proc.devRef .tc main_arg2)) (V (Proc.devRef .tc main_arg3)) (V (Proc.devRef .tc main_arg4)) :=
  L_call11_v9 (val32 V) (E_call11_v5 V)

theorem E_call11_v8 : val33 V (Proc.devRef .tc main_call11_v8)
    = subf (constant (F := F) S_ .f32 0x47476000#32) (sitofp .f32 (constantI S_ 32 1#32)) :=
  L_call11_v8 (val32 V) ((val32_keep V main_c_31 (by decide)).trans (E_c_31 V))

theorem E_v119 : val34 V (Proc.devRef .tc main_v119) = res_main_v119 (F := F) (V (Proc.devRef .tc main_arg0)) (V (Proc.devRef .tc main_arg1)) (V (Proc.devRef .tc main_arg2)) (V (Proc.devRef .tc main_arg3)) (V (Proc.devRef .tc main_arg4)) :=
  L_v119 (val33 V) (E_call11_v9 V) (E_call11_v8 V)

/-- After the whole line the result buffer holds the named last stage of the launch contents of the arguments. -/
theorem after_main_v119 :
    after ops V (main_v119 : DevRef τ sig)
      = res_main_v119 (F := F) (V (main_arg0 : DevRef τ sig)) (V (main_arg1 : DevRef τ sig)) (V (main_arg2 : DevRef τ sig))
          (V (main_arg3 : DevRef τ sig)) (V (main_arg4 : DevRef τ sig)) := by
  rw [after_ops]
  exact E_v119 V

end Chain

end Cert.ReferenceIdeal.RefEq

end
-- ==== Proof.TriuEnumB.lean ====
/-
Reading the integer running-count, scatter-add and division operations at an index.

A rank-one `reduce_window` by addition whose window is the whole length, padded on the low side
by one less than the length and starting from zero, is the prefix sum; a scatter-add of ones into
zero bins counts, for each bin, the updates that land in it.
-/
import Idealize.ShloMosaic.PureOps
import Idealize.ShloMosaic.Lib.ValueIdx
import Mathlib.Tactic
import Mathlib.Data.BitVec

namespace TriuEnum

open Idealize.ShloMosaic Idealize.ShloMosaic.ValueIdx Finset

/-- A rank-one index set is its one coordinate range. -/
def idxEquiv1 {n : ℕ} : (⟨1, ![n]⟩ : Shape).Idx ≃ Fin n where
  toFun i := i 0
  invFun k := ix1 k
  left_inv i := (eq_ix1 i).symm
  right_inv _ := rfl

theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

/-- A left fold of word addition is the start plus the sum of the terms. -/
theorem foldl_addi {ι : Type*} (l : List ι) (g : ι → BitVec 32) (v : BitVec 32) :
    l.foldl (fun r n => IntOp.addi r (g n)) v = v + (l.map g).sum := by
  induction l generalizing v with
  | nil => simp
  | cons a l ih =>
    rw [List.foldl_cons, ih, List.map_cons, List.sum_cons]
    simp [IntOp.addi, add_assoc]

/-- The prefix-sum reading of the rank-one whole-length window sum from zero. -/
theorem reduceWindow_prefix {n lo : ℕ} (hlo : lo + 1 = n) {u : Shape} (x : IVec ⟨1, ![n]⟩ 32)
    (init : u.Idx → BitVec 32)
    (h : (⟨1, ![n]⟩ : Shape).ReduceWindows (![n] : Fin 1 → ℕ) ![1] ![lo] ![0] ⟨1, ![n]⟩) (hu : 0 < u.numel)
    (hinit : init (Shape.Idx.first hu) = 0) (j : (⟨1, ![n]⟩ : Shape).Idx) :
    Host.reduceWindow IntOp.addi (![n] : Fin 1 → ℕ) ![1] ![lo] ![0] x init h hu j
      = ∑ k : Fin n, if k.val ≤ (j 0).val then x (ix1 k) else 0 := by
  unfold Host.reduceWindow
  simp only
  rw [foldl_addi, hinit, zero_add, ← Fin.sum_univ_def]
  rw [Equiv.sum_comp (Shape.rowMajor (⟨1, ![n]⟩ : Shape)).symm
    (fun i : (⟨1, ![n]⟩ : Shape).Idx =>
      if hin : ∀ a : Fin 1, (![lo] : Fin 1 → ℕ) a ≤ (j (a.cast h.1.symm)).val * (![1] : Fin 1 → ℕ) a + (i a).val ∧
          (j (a.cast h.1.symm)).val * (![1] : Fin 1 → ℕ) a + (i a).val - (![lo] : Fin 1 → ℕ) a < (⟨1, ![n]⟩ : Shape).size a
      then x (fun a => ⟨(j (a.cast h.1.symm)).val * (![1] : Fin 1 → ℕ) a + (i a).val - (![lo] : Fin 1 → ℕ) a, (hin a).2⟩) else 0)]
  rw [sum_idx1]
  simp only [Fin.forall_fin_one]
  have hj : (j 0).val < n := (j 0).isLt
  set X : ℕ → BitVec 32 := fun k => if hk : k < n then x (ix1 ⟨k, hk⟩) else 0 with hX
  refine Eq.trans (?_ : _ = ∑ k' ∈ range n, if lo ≤ (j 0).val + k' then X ((j 0).val + k' - lo) else 0) ?_
  · rw [← Fin.sum_univ_eq_sum_range (fun k' => if lo ≤ (j 0).val + k' then X ((j 0).val + k' - lo) else 0) n]
    refine sum_congr rfl fun k' _ => ?_
    have hk' := k'.isLt
    split_ifs with h1 h2 h2
    · change lo ≤ (j 0).val * 1 + k'.val ∧ (j 0).val * 1 + k'.val - lo < n at h1
      simp only [hX]; rw [dif_pos (by omega)]
      refine congrArg x (funext fun a => ?_)
      match a with
      | ⟨0, _⟩ => exact Fin.ext (by show (j 0).val * 1 + k'.val - lo = (j 0).val + k'.val - lo; omega)
    · change lo ≤ (j 0).val * 1 + k'.val ∧ (j 0).val * 1 + k'.val - lo < n at h1; omega
    · change ¬ (lo ≤ (j 0).val * 1 + k'.val ∧ (j 0).val * 1 + k'.val - lo < n) at h1; omega
    · rfl
  refine Eq.trans ?_ (?_ : ∑ k ∈ range n, (if k ≤ (j 0).val then X k else 0) = _)
  · rw [← sum_filter, ← sum_filter]
    refine sum_nbij' (fun k' => (j 0).val + k' - lo) (fun k => k + lo - (j 0).val) ?_ ?_ ?_ ?_ ?_
    · intro k' hk'; simp only [mem_filter, mem_range] at hk' ⊢; omega
    · intro k hk; simp only [mem_filter, mem_range] at hk ⊢; omega
    · intro k' hk'; simp only [mem_filter, mem_range] at hk'; omega
    · intro k hk; simp only [mem_filter, mem_range] at hk; omega
    · intro k' _; rfl
  · rw [← Fin.sum_univ_eq_sum_range (fun k => if k ≤ (j 0).val then X k else 0) n]
    refine sum_congr rfl fun k _ => ?_
    simp only [hX]; rw [dif_pos k.isLt]

/-- A scatter-add of ones: each bin gains the number of updates that land in it. -/
theorem scatter_addi_ones {s si u : Shape} {w : ℕ} (d : ScatterDims s si u) (x : s.Idx → BitVec 32) (idx : IVec si w)
    (upd : u.Idx → BitVec 32) (hupd : ∀ j, upd j = 1#32) (i : s.Idx) :
    Host.scatter d IntOp.addi x idx upd i
      = x i + ∑ j : u.Idx, if d.resultIdx? j idx = some i then 1#32 else 0 := by
  unfold Host.scatter
  have key : ∀ (l : List (Fin u.numel)) (x : s.Idx → BitVec 32),
      (l.foldl (fun r n =>
        match d.resultIdx? (u.rowMajor.symm n) idx with
        | some i => fun i' => if i' = i then IntOp.addi (r i) (upd (u.rowMajor.symm n)) else r i'
        | none => r) x) i
      = x i + (l.map fun n => if d.resultIdx? (u.rowMajor.symm n) idx = some i then 1#32 else 0).sum := by
    intro l
    induction l with
    | nil => intro x; simp
    | cons a l ih =>
      intro x
      rw [List.foldl_cons, ih, List.map_cons, List.sum_cons]
      cases hpos : d.resultIdx? (u.rowMajor.symm a) idx with
      | none => simp
      | some i0 =>
        simp only [hupd, IntOp.addi]
        by_cases hi : i = i0
        · subst hi; simp [add_assoc]
        · have : ¬ (some i0 = some i) := fun h => hi (Option.some.inj h).symm
          simp [hi, this]
  refine (key (List.finRange u.numel) x).trans ?_
  rw [← Fin.sum_univ_def,
    Equiv.sum_comp u.rowMajor.symm (fun j => if d.resultIdx? j idx = some i then 1#32 else 0)]

end TriuEnum
-- ==== Proof.TriuEnumA.lean ====
/-
Counting positions of marked entries.

For a decidable mark `b` on the naturals, `Nat.count b (k+1)` is the running count of marked
positions among `0..k`.  The number of positions `k < N` whose running count is at most `r`
is the position of the `r`-th marked entry (counting from zero).  This file proves that fact,
that the positions so obtained enumerate the marked positions below `N` exactly once, and the
special case of the strictly upper triangular mark on an `n × n` grid read row by row.
-/
import Mathlib.Tactic
import Mathlib.Data.Fintype.BigOperators
import Mathlib.Algebra.BigOperators.Fin

namespace TriuEnum

open Finset

variable (b : ℕ → Prop) [DecidablePred b]

/-- The number of positions below `N` whose running count of marks is at most `r`. -/
def pos (N r : ℕ) : ℕ := ((range N).filter fun k => Nat.count b (k + 1) ≤ r).card

/-- The number of positions below `N` whose running count of marks is exactly `r`. -/
def bin (N r : ℕ) : ℕ := ((range N).filter fun k => Nat.count b (k + 1) = r).card

/-- Summing the exact-count bins up to `r` gives the at-most-`r` count. -/
theorem sum_bin (N r : ℕ) : ∑ r' ∈ range (r + 1), bin b N r' = pos b N r := by
  unfold bin pos
  simp only [card_filter]
  rw [sum_comm]
  refine sum_congr rfl fun k _ => ?_
  by_cases h : Nat.count b (k + 1) ≤ r
  · rw [if_pos h, sum_eq_single (Nat.count b (k + 1))]
    · simp
    · intro r' _ hne; rw [if_neg (Ne.symm hne)]
    · intro hn; exact absurd (mem_range.2 (Nat.lt_succ_of_le h)) hn
  · rw [if_neg h]
    refine sum_eq_zero fun r' hr' => ?_
    rw [if_neg]
    intro he; exact h (he ▸ Nat.lt_succ_iff.1 (mem_range.1 hr'))

/-- If fewer than `count b N` marks precede, the at-most-`r` positions form an initial segment
    ending at a marked position that has exactly `r` marks before it. -/
theorem pos_spec {N r : ℕ} (hr : r < Nat.count b N) :
    pos b N r < N ∧ b (pos b N r) ∧ Nat.count b (pos b N r) = r := by
  have hN : 0 < N := by
    rcases Nat.eq_zero_or_pos N with h | h
    · subst h; simp at hr
    · exact h
  have hex : ∃ k, r < Nat.count b (k + 1) := ⟨N - 1, by rwa [Nat.sub_add_cancel hN]⟩
  classical
  set p := Nat.find hex with hp
  have hp1 : r < Nat.count b (p + 1) := Nat.find_spec hex
  have hp2 : ∀ k < p, Nat.count b (k + 1) ≤ r := fun k hk => not_lt.1 (Nat.find_min hex hk)
  have hpN : p ≤ N - 1 := Nat.find_min' hex (by rwa [Nat.sub_add_cancel hN])
  have hS : ((range N).filter fun k => Nat.count b (k + 1) ≤ r) = range p := by
    ext k
    simp only [mem_filter, mem_range]
    constructor
    · rintro ⟨_, hk⟩
      by_contra hkp
      have : Nat.count b (p + 1) ≤ Nat.count b (k + 1) := Nat.count_monotone b (by omega)
      omega
    · intro hk; exact ⟨by omega, hp2 k hk⟩
  have hpos : pos b N r = p := by unfold pos; rw [hS, card_range]
  rw [hpos]
  have hle : Nat.count b p ≤ r := by
    rcases Nat.eq_zero_or_pos p with h0 | h0
    · rw [h0]; simp
    · have := hp2 (p - 1) (by omega)
      rwa [Nat.sub_add_cancel h0] at this
  rw [Nat.count_succ] at hp1
  refine ⟨by omega, ?_, ?_⟩
  · by_contra hb; rw [if_neg hb] at hp1; omega
  · split_ifs at hp1 <;> omega

/-- A marked position is the position found from the number of marks before it. -/
theorem pos_count {N k : ℕ} (hk : k < N) (hb : b k) : pos b N (Nat.count b k) = k := by
  have hlt : Nat.count b k < Nat.count b N := by
    have h1 : Nat.count b (k + 1) = Nat.count b k + 1 := by rw [Nat.count_succ, if_pos hb]
    have h2 : Nat.count b (k + 1) ≤ Nat.count b N := Nat.count_monotone b (by omega)
    omega
  obtain ⟨_, hbp, hcp⟩ := pos_spec b hlt
  set p := pos b N (Nat.count b k)
  rcases Nat.lt_trichotomy p k with h | h | h
  · have h1 : Nat.count b (p + 1) = Nat.count b p + 1 := by rw [Nat.count_succ, if_pos hbp]
    have h2 : Nat.count b (p + 1) ≤ Nat.count b k := Nat.count_monotone b (by omega)
    omega
  · exact h
  · have h1 : Nat.count b (k + 1) = Nat.count b k + 1 := by rw [Nat.count_succ, if_pos hb]
    have h2 : Nat.count b (k + 1) ≤ Nat.count b p := Nat.count_monotone b (by omega)
    omega

/-- The positions found enumerate the marked positions below `N`, each exactly once. -/
theorem sum_pos {M : Type*} [AddCommMonoid M] (N : ℕ) (g : ℕ → M) :
    ∑ r ∈ range (Nat.count b N), g (pos b N r) = ∑ k ∈ (range N).filter b, g k := by
  refine sum_nbij' (fun r => pos b N r) (fun k => Nat.count b k) ?_ ?_ ?_ ?_ ?_
  · intro r hr
    obtain ⟨h1, h2, _⟩ := pos_spec b (mem_range.1 hr)
    exact mem_filter.2 ⟨mem_range.2 h1, h2⟩
  · intro k hk
    obtain ⟨h1, h2⟩ := mem_filter.1 hk
    have h1 := mem_range.1 h1
    have h3 : Nat.count b (k + 1) = Nat.count b k + 1 := by rw [Nat.count_succ, if_pos h2]
    have h4 : Nat.count b (k + 1) ≤ Nat.count b N := Nat.count_monotone b (by omega)
    exact mem_range.2 (by omega)
  · intro r hr; exact (pos_spec b (mem_range.1 hr)).2.2
  · intro k hk
    obtain ⟨h1, h2⟩ := mem_filter.1 hk
    exact pos_count b (mem_range.1 h1) h2
  · intro r _; rfl

/-! ### The strictly upper triangular mark on an `n × n` grid read row by row -/

/-- Position `k = n * row + col` is marked when `row < col`. -/
def tri (n k : ℕ) : Prop := k / n < k % n

instance (n : ℕ) : DecidablePred (tri n) := fun k => Nat.decLt _ _

theorem div_of_lt {n i j : ℕ} (hj : j < n) : (n * i + j) / n = i := by
  have hn : 0 < n := by omega
  rw [Nat.mul_add_div hn, Nat.div_eq_of_lt hj, add_zero]

theorem mod_of_lt {n i j : ℕ} (hj : j < n) : (n * i + j) % n = j := by
  rw [Nat.mul_add_mod, Nat.mod_eq_of_lt hj]

/-- Marked positions of the grid correspond to the pairs `i < j`. -/
theorem sum_tri {M : Type*} [AddCommMonoid M] (n : ℕ) (g : ℕ → M) :
    ∑ k ∈ (range (n * n)).filter (tri n), g k
      = ∑ p ∈ (univ.filter fun p : Fin n × Fin n => p.1 < p.2), g (n * p.1.val + p.2.val) := by
  symm
  refine sum_bij (fun p _ => n * p.1.val + p.2.val) ?_ ?_ ?_ ?_
  · intro p hp
    have hlt : p.1 < p.2 := (mem_filter.1 hp).2
    have h1 := p.1.isLt
    have h2 := p.2.isLt
    refine mem_filter.2 ⟨mem_range.2 ?_, ?_⟩
    · calc n * p.1.val + p.2.val < n * p.1.val + n := by omega
        _ = n * (p.1.val + 1) := by ring
        _ ≤ n * n := Nat.mul_le_mul_left n h1
    · show (n * p.1.val + p.2.val) / n < (n * p.1.val + p.2.val) % n
      rw [div_of_lt h2, mod_of_lt h2]; exact hlt
  · intro p _ q _ h
    have h1 := congrArg (· / n) h
    have h2 := congrArg (· % n) h
    simp only [div_of_lt p.2.isLt, div_of_lt q.2.isLt, mod_of_lt p.2.isLt, mod_of_lt q.2.isLt] at h1 h2
    exact Prod.ext (Fin.ext h1) (Fin.ext h2)
  · intro k hk
    obtain ⟨hk1, hk2⟩ := mem_filter.1 hk
    have hk1 := mem_range.1 hk1
    have hn : 0 < n := by
      rcases Nat.eq_zero_or_pos n with h | h
      · subst h; simp at hk1
      · exact h
    have hdiv : k / n < n := Nat.div_lt_of_lt_mul hk1
    have hmod : k % n < n := Nat.mod_lt k hn
    refine ⟨(⟨k / n, hdiv⟩, ⟨k % n, hmod⟩), mem_filter.2 ⟨mem_univ _, hk2⟩, ?_⟩
    exact Nat.div_add_mod k n
  · intro p _; rfl

/-- The number of marked positions of the grid is the number of pairs `i < j`. -/
theorem count_tri (n : ℕ) :
    Nat.count (tri n) (n * n) = (univ.filter fun p : Fin n × Fin n => p.1 < p.2).card := by
  rw [Nat.count_eq_card_filter_range, card_eq_sum_ones, card_eq_sum_ones]
  exact sum_tri n fun _ => 1

/-- Reading off row and column of the `r`-th marked position of the grid, for all `r`, visits
    every pair `i < j` exactly once. -/
theorem sum_pos_tri {M : Type*} [AddCommMonoid M] (n : ℕ) (h : ℕ → ℕ → M) :
    ∑ r ∈ range (univ.filter fun p : Fin n × Fin n => p.1 < p.2).card,
        h (pos (tri n) (n * n) r / n) (pos (tri n) (n * n) r % n)
      = ∑ p ∈ (univ.filter fun p : Fin n × Fin n => p.1 < p.2), h p.1.val p.2.val := by
  rw [← count_tri, sum_pos (tri n) (n * n) fun k => h (k / n) (k % n), sum_tri]
  refine sum_congr rfl fun p _ => ?_
  rw [div_of_lt p.2.isLt, mod_of_lt p.2.isLt]

/-- The `r`-th marked position of the grid lies in the grid, is marked, and has `r` marks before it. -/
theorem pos_tri_spec {n r : ℕ} (hr : r < (univ.filter fun p : Fin n × Fin n => p.1 < p.2).card) :
    pos (tri n) (n * n) r < n * n ∧ tri n (pos (tri n) (n * n) r)
      ∧ Nat.count (tri n) (pos (tri n) (n * n) r) = r :=
  pos_spec (tri n) (by rwa [count_tri])

end TriuEnum
-- ==== Proof.TriuEnumC.lean ====
/-
Word arithmetic for non-negative 32-bit words: signed comparison with zero, signed division and
remainder by a positive word read as the natural-number ones, and the reading of a word sum.
-/
import proofs.«138780_j25872882991128_2_alg».proof.Proof.TriuEnumB
import Idealize.ShloMosaic.Lib.WordArith
import Mathlib.Tactic

namespace TriuEnum

open Idealize.ShloMosaic Idealize.ShloMosaic.ValueIdx Finset

theorem msb_false_of_lt {x : BitVec 32} (h : x.toNat < 2 ^ 31) : x.msb = false := by
  rw [BitVec.msb_eq_false_iff_two_mul_lt]; omega

theorem toInt_of_lt {x : BitVec 32} (h : x.toNat < 2 ^ 31) : x.toInt = x.toNat := by
  rw [BitVec.toInt_eq_toNat_cond, if_pos (by omega)]

theorem slt_zero_of_lt {x : BitVec 32} (h : x.toNat < 2 ^ 31) : x.slt 0#32 = false := by
  simp [BitVec.slt, toInt_of_lt h]

theorem cmpi_slt_zero {x : BitVec 32} (h : x.toNat < 2 ^ 31) : IntOp.cmpi .slt x 0#32 = 0#1 := by
  simp [IntOp.cmpi, slt_zero_of_lt h]

theorem maxsi_zero {x : BitVec 32} (h : x.toNat < 2 ^ 31) : IntOp.maxsi 0#32 x = x := by
  simp [IntOp.maxsi, slt_zero_of_lt h]

theorem select_zero {α : Type} (a b : α) : Scalar.select 0#1 a b = b := by
  simp [Scalar.select]

theorem select_one {α : Type} (a b : α) : Scalar.select 1#1 a b = a := by
  simp [Scalar.select]

theorem not_corner {x c : BitVec 32} (hc : c.toNat < 2 ^ 31) (hc0 : c ≠ 0) : ¬ IntOp.SDivCorner x c := by
  rintro (h | ⟨_, h⟩)
  · exact hc0 h
  · subst h; simp at hc

theorem divsi_toNat (u : ArithUnit) {x c : BitVec 32} (hx : x.toNat < 2 ^ 31) (hc : c.toNat < 2 ^ 31) (hc0 : c ≠ 0) :
    (IntOp.divsi u x c).toNat = x.toNat / c.toNat := by
  unfold IntOp.divsi
  rw [if_neg (not_corner hc hc0), BitVec.sdiv_eq]
  simp [msb_false_of_lt hx, msb_false_of_lt hc]

theorem remsi_toNat (u : ArithUnit) {x c : BitVec 32} (hx : x.toNat < 2 ^ 31) (hc : c.toNat < 2 ^ 31) (hc0 : c ≠ 0) :
    (IntOp.remsi u x c).toNat = x.toNat % c.toNat := by
  unfold IntOp.remsi
  rw [if_neg (not_corner hc hc0), BitVec.srem_eq]
  simp [msb_false_of_lt hx, msb_false_of_lt hc]

/-- The word sum reads as the sum of the readings, modulo the word size. -/
theorem toNat_sum_mod {ι : Type*} (s : Finset ι) (f : ι → BitVec 32) :
    (∑ i ∈ s, f i).toNat = (∑ i ∈ s, (f i).toNat) % 2 ^ 32 := by
  classical
  induction s using Finset.induction_on with
  | empty => simp
  | insert a s ha ih => rw [sum_insert ha, sum_insert ha, BitVec.toNat_add, ih, Nat.add_mod_mod]

theorem toNat_sum_of_lt {ι : Type*} (s : Finset ι) (f : ι → BitVec 32) (h : ∑ i ∈ s, (f i).toNat < 2 ^ 32) :
    (∑ i ∈ s, f i).toNat = ∑ i ∈ s, (f i).toNat := by
  rw [toNat_sum_mod, Nat.mod_eq_of_lt h]

/-- A word sum of zero-one terms counts the terms that are one. -/
theorem toNat_sum_indicator {N : ℕ} (hN : N < 2 ^ 32) (f : Fin N → BitVec 32) (P : ℕ → Prop) [DecidablePred P]
    (hf : ∀ k : Fin N, (f k).toNat = if P k.val then 1 else 0) :
    (∑ k, f k).toNat = ((range N).filter P).card := by
  have e : ∑ k : Fin N, (f k).toNat = ((range N).filter P).card := by
    rw [card_filter, ← Fin.sum_univ_eq_sum_range (fun k => if P k then 1 else 0) N]
    exact sum_congr rfl fun k _ => hf k
  rw [toNat_sum_of_lt, e]
  rw [e]
  exact lt_of_le_of_lt ((card_filter_le _ _).trans (card_range N).le) hN

/-- A scalar broadcast reads the scalar everywhere. -/
theorem bcast_scalar {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  congrArg x (funext fun a => a.elim0)

end TriuEnum
-- ==== Proof.TriuEnumD.lean ====
/-
The printed chain from the 0/1 mask of a 320 × 320 grid to the flat positions of its marked
entries, read at an index: the mask reshaped to one axis, its running count, the scatter-add of
ones at the running counts, and the running count of the bins.  The running count of the bins at
`r` is the position of the `r`-th marked entry.
-/
import proofs.«138780_j25872882991128_2_alg».proof.Proof.TriuEnumB
import proofs.«138780_j25872882991128_2_alg».proof.ReferenceIdeal
import proofs.«138780_j25872882991128_2_alg».proof.Proof.TriuEnumA
import proofs.«138780_j25872882991128_2_alg».proof.Proof.TriuEnumC
import Mathlib.Tactic

namespace TriuEnum

open Idealize.ShloMosaic Idealize.ShloMosaic.ValueIdx Finset Cert.ReferenceIdeal

variable [Facts₀]
open Facts₀

theorem scat_window (k : Fin 102400) (a : Fin 1) :
    scatter_S51040_S102400x1_S102400_n_0_0_1.window (ix1 k) a = 0 := by
  unfold ScatterDims.window
  rw [dif_neg]
  intro h
  simp [ScatterDims.sKept, Shape.kept, scatter_S51040_S102400x1_S102400_n_0_0_1] at h
  exact h (Subsingleton.elim _ _)

theorem scat_siIdx (k : Fin 102400) (c) :
    scatter_S51040_S102400x1_S102400_n_0_0_1.siIdx (ix1 k) c = ix2 k 0 := by
  funext b
  match b with
  | ⟨0, _⟩ =>
    unfold ScatterDims.siIdx
    rw [dif_neg (by show ¬ ((0 : ℕ) = 1); decide)]
    unfold ScatterDims.siCoord
    apply Fin.ext
    simp only [Fin.coe_cast]
    have : ∀ e : Fin 1, (ix1 k e).val = k.val := fun e => match e with | ⟨0, _⟩ => rfl
    exact this _
  | ⟨1, _⟩ =>
    unfold ScatterDims.siIdx
    rw [dif_pos (by rfl)]
    apply Fin.ext
    show c.val = 0
    have : c.val < 1 := c.isLt
    omega

theorem scat_start (idx : IVec S102400x1 32) (k : Fin 102400) (a : Fin 1) :
    scatter_S51040_S102400x1_S102400_n_0_0_1.start (ix1 k) idx a = (idx (ix2 k 0)).toInt := by
  unfold ScatterDims.start
  rw [dif_pos (by
    have : a = 0 := Subsingleton.elim _ _
    subst this
    simp [scatter_S51040_S102400x1_S102400_n_0_0_1]), scat_siIdx]

/-- The scatter sends update `k` to the bin whose number is the signed reading of its index word. -/
theorem resultIdx_iff (idx : IVec S102400x1 32) (k : Fin 102400) (i : S51040.Idx) :
    scatter_S51040_S102400x1_S102400_n_0_0_1.resultIdx? (ix1 k) idx = some i
      ↔ (idx (ix2 k 0)).toInt = ((i 0).val : ℤ) := by
  unfold ScatterDims.resultIdx?
  simp only [scat_start, scat_window]
  have hi : (i 0).val < 51040 := (i 0).isLt
  split_ifs with h
  · rw [Option.some.injEq]
    constructor
    · intro e
      have e0 := congrArg (fun f : S51040.Idx => (f 0).val) e
      simp only at e0
      have h0 := (h 0).1
      omega
    · intro e
      funext a
      match a with
      | ⟨0, _⟩ => exact Fin.ext (by show ((idx (ix2 k 0)).toInt + ((0 : ℕ) : ℤ)).toNat = (i 0).val; omega)
  · constructor
    · intro e; exact absurd e (by simp)
    · intro e
      exfalso; apply h
      intro a
      have : a = 0 := Subsingleton.elim _ _
      subst this
      show 0 ≤ (idx (ix2 k 0)).toInt + ((0 : ℕ) : ℤ) ∧ (idx (ix2 k 0)).toInt + ((0 : ℕ) : ℤ) < ((51040 : ℕ) : ℤ)
      omega

/-! ### The chain of operations from the 0/1 mask to the flat positions -/

/-- The mask reshaped to one axis and widened to words. -/
def maskW (m : IVec S320x320 1) : IVec S102400 32 :=
  extui 32 (shapeCast S102400 m shapeCasts_S320x320_S102400) natLt_1_32

/-- The running count of the mask. -/
def run1 (m : IVec S320x320 1) : IVec S102400 32 :=
  Host.reduceWindow IntOp.addi ![102400] ![1] ![102399] ![0] (maskW m)
    (broadcastInDim S_ ![] bcast_S_S_ (constantI S_ 32 0#32)) reduceWindows_S102400_S102400_w102400s1p102399_0 h_S_

/-- The running count clipped below at zero, negatives wrapped by the number of bins. -/
def binPos (m : IVec S320x320 1) : IVec S102400 32 :=
  let v73 := maxsi (broadcastInDim S102400 ![] bcast_S_S102400 (id (constantI S_ 32 0#32))) (run1 m)
  let v75 := cmpi .slt v73 (broadcastInDim S102400 ![] bcast_S_S102400 (constantI S_ 32 0#32))
  let v77 := addi v73 (broadcastInDim S102400 ![] bcast_S_S102400 (constantI S_ 32 51040#32))
  select v75 v77 v73

/-- The bins: ones scatter-added at the clipped running counts. -/
def bins (m : IVec S320x320 1) : IVec S51040 32 :=
  Host.scatter scatter_S51040_S102400x1_S102400_n_0_0_1 IntOp.addi
    (broadcastInDim S51040 ![] bcast_S_S51040 (constantI S_ 32 0#32))
    (broadcastInDim S102400x1 ![0] bcast_S102400_S102400x1_0 (binPos m))
    (broadcastInDim S102400 ![] bcast_S_S102400 (constantI S_ 32 1#32))

/-- The running count of the bins: the flat position of each marked entry. -/
def flatIdx (m : IVec S320x320 1) : IVec S51040 32 :=
  Host.reduceWindow IntOp.addi ![51040] ![1] ![51039] ![0] (bins m)
    (broadcastInDim S_ ![] bcast_S_S_ (constantI S_ 32 0#32)) reduceWindows_S51040_S51040_w51040s1p51039_0 h_S_

theorem reshape_coords (h : S320x320.ShapeCasts S102400) (k : Fin 102400) :
    ((Shape.reshapeEquiv h (ix1 k) : S320x320.Idx) 0).val = k.val / 320
      ∧ ((Shape.reshapeEquiv h (ix1 k) : S320x320.Idx) 1).val = k.val % 320 := by
  have e := Shape.rowMajor_reshapeEquiv (s := S320x320) (s' := S102400) h (ix1 k)
  rw [Shape.rowMajor_val_two, Shape.rowMajor_val_one] at e
  have h1 : ((Shape.reshapeEquiv h (ix1 k) : S320x320.Idx) 1).val < 320 := (Shape.reshapeEquiv h (ix1 k) 1).isLt
  have e' : ((Shape.reshapeEquiv h (ix1 k) : S320x320.Idx) 0).val * 320
      + ((Shape.reshapeEquiv h (ix1 k) : S320x320.Idx) 1).val = k.val := e
  constructor <;> omega

theorem bcast_col {α : Type} (h : S102400.BroadcastsInDim S102400x1 (![0] : Fin 1 → Fin S102400x1.rank))
    (x : S102400.Idx → α) (k : Fin 102400) (z : Fin 1) :
    broadcastInDim S102400x1 ![0] h x (ix2 k z) = x (ix1 k) := by
  unfold broadcastInDim
  refine congrArg x (funext fun a => ?_)
  match a with
  | ⟨0, _⟩ =>
    rw [dif_neg (by show ¬ ((102400 : ℕ) = 1); decide)]
    exact Fin.ext rfl

variable (m : IVec S320x320 1) (hm : ∀ j, m j = if (j 0).val < (j 1).val then 1#1 else 0#1)
include hm

theorem maskW_toNat (k : Fin 102400) : (maskW m (ix1 k)).toNat = if tri 320 k.val then 1 else 0 := by
  obtain ⟨e0, e1⟩ := reshape_coords shapeCasts_S320x320_S102400 k
  show ((m (Shape.reshapeEquiv shapeCasts_S320x320_S102400 (ix1 k))).setWidth 32).toNat = _
  rw [hm, e0, e1]
  by_cases h : tri 320 k.val
  · rw [if_pos h, if_pos (show k.val / 320 < k.val % 320 from h)]; rfl
  · rw [if_neg h, if_neg (show ¬ k.val / 320 < k.val % 320 from h)]; rfl

omit hm in
theorem run1_eq (k : Fin 102400) :
    run1 m (ix1 k) = ∑ k' : Fin 102400, if k'.val ≤ k.val then maskW m (ix1 k') else 0 := by
  have hinit : broadcastInDim S_ ![] bcast_S_S_ (constantI S_ 32 0#32) (Shape.Idx.first h_S_) = 0 := rfl
  exact reduceWindow_prefix (n := 102400) (lo := 102399) (by norm_num) (maskW m)
    (broadcastInDim S_ ![] bcast_S_S_ (constantI S_ 32 0#32)) reduceWindows_S102400_S102400_w102400s1p102399_0 h_S_
    hinit (ix1 k)

omit hm in
theorem flatIdx_eq (r : Fin 51040) :
    flatIdx m (ix1 r) = ∑ r' : Fin 51040, if r'.val ≤ r.val then bins m (ix1 r') else 0 := by
  have hinit : broadcastInDim S_ ![] bcast_S_S_ (constantI S_ 32 0#32) (Shape.Idx.first h_S_) = 0 := rfl
  exact reduceWindow_prefix (n := 51040) (lo := 51039) (by norm_num) (bins m)
    (broadcastInDim S_ ![] bcast_S_S_ (constantI S_ 32 0#32)) reduceWindows_S51040_S51040_w51040s1p51039_0 h_S_
    hinit (ix1 r)

theorem run1_toNat (k : Fin 102400) : (run1 m (ix1 k)).toNat = Nat.count (tri 320) (k.val + 1) := by
  rewrite [run1_eq m k]
  rewrite [toNat_sum_indicator (by norm_num) _ (fun k' => k' ≤ k.val ∧ tri 320 k')]
  · rw [Nat.count_eq_card_filter_range]
    refine congrArg Finset.card (Finset.ext fun k' => ?_)
    simp only [mem_filter, mem_range]
    have := k.isLt
    constructor
    · rintro ⟨_, h1, h2⟩; exact ⟨by omega, h2⟩
    · rintro ⟨h1, h2⟩; exact ⟨by omega, by omega, h2⟩
  · intro k'
    show (if k'.val ≤ k.val then maskW m (ix1 k') else 0).toNat = _
    by_cases h1 : k'.val ≤ k.val
    · rw [if_pos h1, maskW_toNat m hm]
      by_cases h2 : tri 320 k'.val
      · rw [if_pos h2, if_pos ⟨h1, h2⟩]
      · rw [if_neg h2, if_neg (fun h => h2 h.2)]
    · rw [if_neg h1, if_neg (fun h => h1 h.1)]; rfl

theorem run1_lt (k : Fin 102400) : (run1 m (ix1 k)).toNat < 2 ^ 31 := by
  rw [run1_toNat m hm]
  have := Nat.count_le (p := tri 320) (n := k.val + 1)
  have := k.isLt
  omega

theorem binPos_eq (k : Fin 102400) : binPos m (ix1 k) = run1 m (ix1 k) := by
  show Scalar.select (IntOp.cmpi .slt (IntOp.maxsi 0#32 (run1 m (ix1 k))) 0#32)
    (IntOp.addi (IntOp.maxsi 0#32 (run1 m (ix1 k))) 51040#32) (IntOp.maxsi 0#32 (run1 m (ix1 k))) = _
  rw [maxsi_zero (run1_lt m hm k), cmpi_slt_zero (run1_lt m hm k), select_zero]

theorem bins_toNat (r : Fin 51040) : (bins m (ix1 r)).toNat = bin (tri 320) 102400 r.val := by
  unfold bins
  rewrite [scatter_addi_ones (upd := broadcastInDim S102400 ![] bcast_S_S102400 (constantI S_ 32 1#32)) (hupd := fun j => rfl)]
  rewrite [show broadcastInDim S51040 ![] bcast_S_S51040 (constantI S_ 32 0#32) (ix1 r) = 0#32 from rfl, BitVec.zero_add,
    sum_idx1]
  unfold bin
  refine toNat_sum_indicator (by norm_num) _ (fun k => Nat.count (tri 320) (k + 1) = r.val) fun k => ?_
  have hk := run1_toNat m hm k
  have hlt := run1_lt m hm k
  have hiff := resultIdx_iff (broadcastInDim S102400x1 ![0] bcast_S102400_S102400x1_0 (binPos m)) k (ix1 r)
  rw [bcast_col, binPos_eq m hm, toInt_of_lt hlt, hk] at hiff
  have hr0 : ((ix1 r : S51040.Idx) 0).val = r.val := rfl
  rw [hr0] at hiff
  by_cases hc : Nat.count (tri 320) (k.val + 1) = r.val
  · rw [if_pos hc, if_pos (hiff.2 (by exact_mod_cast hc))]; rfl
  · rw [if_neg hc, if_neg (fun h => hc (by exact_mod_cast hiff.1 h))]; rfl

theorem flatIdx_toNat (r : Fin 51040) : (flatIdx m (ix1 r)).toNat = pos (tri 320) 102400 r.val := by
  rewrite [flatIdx_eq m r]
  have hr := r.isLt
  have e : ∑ r' : Fin 51040, (if r'.val ≤ r.val then bins m (ix1 r') else 0).toNat
      = pos (tri 320) 102400 r.val := by
    rw [← sum_bin]
    have : ∀ r' : Fin 51040, (if r'.val ≤ r.val then bins m (ix1 r') else 0).toNat
        = if r'.val ≤ r.val then bin (tri 320) 102400 r'.val else 0 := by
      intro r'
      show (if r'.val ≤ r.val then bins m (ix1 r') else 0).toNat = _
      split_ifs
      · exact bins_toNat m hm r'
      · rfl
    rw [sum_congr rfl fun r' _ => this r',
      Fin.sum_univ_eq_sum_range (fun r' => if r' ≤ r.val then bin (tri 320) 102400 r' else 0) 51040, ← sum_filter]
    refine sum_congr ?_ fun _ _ => rfl
    ext r'; simp only [mem_filter, mem_range]; omega
  rw [toNat_sum_of_lt, e]
  rw [e]
  unfold pos
  exact lt_of_le_of_lt ((card_filter_le _ _).trans (card_range _).le) (by norm_num)

end TriuEnum
-- ==== Proof.TriuEnumE.lean ====
/-
Row and column of each flat position, as the printed division, remainder and wrap-around
operations compute them, and the enumeration of the pairs `i < j`.
-/
import proofs.«138780_j25872882991128_2_alg».proof.Proof.TriuEnumD
import proofs.«138780_j25872882991128_2_alg».proof.Proof.LibPairVariance
import Mathlib.Tactic

namespace TriuEnum

open Idealize.ShloMosaic Idealize.ShloMosaic.ValueIdx Finset Cert.ReferenceIdeal

variable [Facts₀]
open Facts₀

/-- Floor division of words as it is printed: truncated division, corrected by one when the signs
    differ and the remainder is not zero. -/
def fdiv (X : IVec S51040 32) (c : IVec S_ 32) : IVec S51040 32 :=
  let v0 := broadcastInDim S51040 ![] bcast_S_S51040 c
  let v1 := Host.divsi X v0
  let v2 := signi X
  let v3 := signi c
  let v4 := broadcastInDim S51040 ![] bcast_S_S51040 v3
  let v5 := cmpi .ne v2 v4
  let v6 := broadcastInDim S51040 ![] bcast_S_S51040 c
  let v7 := Host.remsi X v6
  let v8 := broadcastInDim S51040 ![] bcast_S_S51040 (constantI S_ 32 0#32)
  let v9 := cmpi .ne v7 v8
  let v10 := andi v5 v9
  let v11 := broadcastInDim S51040 ![] bcast_S_S51040 (constantI S_ 32 1#32)
  let v12 := subi v1 v11
  select v10 v12 v1

/-- Remainder of words as it is printed: truncated remainder by the divisor (one when it is zero),
    corrected by the divisor when its sign differs from the remainder's and the remainder is not zero. -/
def frem (X : IVec S51040 32) (c : IVec S_ 32) : IVec S51040 32 :=
  let v0 : IVec S_ 32 := id c
  let v1 := cmpi .eq v0 (constantI S_ 32 0#32)
  let v2 : IVec S_ 32 := select v1 (constantI S_ 32 1#32) v0
  let v3 := broadcastInDim S51040 ![] bcast_S_S51040 v2
  let v4 := Host.remsi X v3
  let v5 := broadcastInDim S51040 ![] bcast_S_S51040 (constantI S_ 32 0#32)
  let v6 := cmpi .ne v4 v5
  let v7 := broadcastInDim S51040 ![] bcast_S_S51040 (constantI S_ 32 0#32)
  let v8 := cmpi .slt v4 v7
  let v9 := cmpi .slt v2 (constantI S_ 32 0#32)
  let v10 := broadcastInDim S51040 ![] bcast_S_S51040 v9
  let v11 := cmpi .ne v8 v10
  let v12 := andi v11 v6
  let v13 := broadcastInDim S51040 ![] bcast_S_S51040 v2
  let v14 := addi v4 v13
  select v12 v14 v4

/-- Negative words wrapped around by 320. -/
def wrap320 (X : IVec S51040 32) : IVec S51040 32 :=
  select (cmpi .slt X (broadcastInDim S51040 ![] bcast_S_S51040 (constantI S_ 32 0#32)))
    (addi X (broadcastInDim S51040 ![] bcast_S_S51040 (constantI S_ 32 320#32))) X

/-- The row of each marked entry. -/
def pairI (m : IVec S320x320 1) : IVec S51040 32 :=
  wrap320 (frem (fdiv (flatIdx m) (constantI S_ 32 320#32)) (constantI S_ 32 320#32))

/-- The column of each marked entry. -/
def pairJ (m : IVec S320x320 1) : IVec S51040 32 :=
  wrap320 (frem (fdiv (flatIdx m) (constantI S_ 32 1#32)) (constantI S_ 32 320#32))

def sgn (x : BitVec 32) : BitVec 32 := if x = 0 then 0 else if x.msb then -1 else 1

def fdivS (x c : BitVec 32) : BitVec 32 :=
  Scalar.select (IntOp.andi (IntOp.cmpi .ne (sgn x) (sgn c)) (IntOp.cmpi .ne (IntOp.remsi .host x c) 0#32))
    (IntOp.subi (IntOp.divsi .host x c) 1#32) (IntOp.divsi .host x c)

def fremS (x c : BitVec 32) : BitVec 32 :=
  let c' := Scalar.select (IntOp.cmpi .eq c 0#32) 1#32 c
  let r := IntOp.remsi .host x c'
  Scalar.select (IntOp.andi (IntOp.cmpi .ne (IntOp.cmpi .slt r 0#32) (IntOp.cmpi .slt c' 0#32)) (IntOp.cmpi .ne r 0#32))
    (IntOp.addi r c') r

theorem fdiv_apply (X : IVec S51040 32) (c0 : BitVec 32) (j : S51040.Idx) :
    fdiv X (constantI S_ 32 c0) j = fdivS (X j) c0 := rfl

theorem frem_apply (X : IVec S51040 32) (c0 : BitVec 32) (j : S51040.Idx) :
    frem X (constantI S_ 32 c0) j = fremS (X j) c0 := rfl

theorem wrap320_apply (X : IVec S51040 32) (j : S51040.Idx) :
    wrap320 X j = Scalar.select (IntOp.cmpi .slt (X j) 0#32) (IntOp.addi (X j) 320#32) (X j) := rfl

theorem fdivS_toNat {x c : BitVec 32} (hx : x.toNat < 2 ^ 31) (hc : c.toNat < 2 ^ 31) (hc0 : c ≠ 0) :
    (fdivS x c).toNat = x.toNat / c.toNat := by
  have key : fdivS x c = IntOp.divsi .host x c := by
    unfold fdivS sgn
    rw [if_neg hc0, msb_false_of_lt hc, msb_false_of_lt hx]
    by_cases hx0 : x = 0
    · have hr : IntOp.remsi .host x c = 0#32 :=
        BitVec.eq_of_toNat_eq (by rw [remsi_toNat _ hx hc hc0, hx0]; simp)
      rw [hr]
      have h1 : IntOp.cmpi .ne (0#32) 0#32 = 0#1 := by decide
      rw [h1]
      have h2 : ∀ y : BitVec 1, IntOp.andi y 0#1 = 0#1 := by decide
      rw [h2, select_zero]
    · rw [if_neg hx0]
      have h1 : IntOp.cmpi .ne (if false = true then (-1 : BitVec 32) else 1) (if false = true then (-1 : BitVec 32) else 1) = 0#1 := by
        decide
      rw [h1]
      have h2 : ∀ y : BitVec 1, IntOp.andi 0#1 y = 0#1 := by decide
      rw [h2, select_zero]
  rw [key, divsi_toNat _ hx hc hc0]

theorem fremS_toNat {x : BitVec 32} (hx : x.toNat < 2 ^ 31) : (fremS x 320#32).toNat = x.toNat % 320 := by
  have hc' : Scalar.select (IntOp.cmpi .eq 320#32 0#32) 1#32 320#32 = 320#32 := by decide
  have hr := remsi_toNat .host (x := x) (c := 320#32) hx (by decide) (by decide)
  have h320 : (320#32 : BitVec 32).toNat = 320 := by decide
  rw [h320] at hr
  have hlt : (IntOp.remsi .host x 320#32).toNat < 2 ^ 31 := by
    rw [hr]; have := Nat.mod_lt x.toNat (by norm_num : 0 < 320); omega
  have key : fremS x 320#32 = IntOp.remsi .host x 320#32 := by
    unfold fremS
    simp only [hc']
    rw [cmpi_slt_zero hlt]
    have h1 : IntOp.cmpi .ne 0#1 (IntOp.cmpi .slt 320#32 0#32) = 0#1 := by decide
    rw [h1]
    have h2 : ∀ y : BitVec 1, IntOp.andi 0#1 y = 0#1 := by decide
    rw [h2, select_zero]
  rw [key, hr]

theorem wrapS {x : BitVec 32} (hx : x.toNat < 2 ^ 31) :
    Scalar.select (IntOp.cmpi .slt x 0#32) (IntOp.addi x 320#32) x = x := by
  rw [cmpi_slt_zero hx, select_zero]

theorem card_pairs : (univ.filter fun p : Fin 320 × Fin 320 => p.1 < p.2).card = 51040 := by
  have e : (univ.filter fun p : Fin 320 × Fin 320 => p.1 < p.2) = PairVariance.ltPairs 320 := by
    unfold PairVariance.ltPairs
    exact Finset.filter_congr_decidable _ _ _
  have h := PairVariance.two_mul_card_ltPairs 320
  have h2 : (320 : ℕ) * (320 - 1) = 102080 := by norm_num
  rw [h2] at h
  rw [e]
  generalize (PairVariance.ltPairs 320).card = c at h ⊢
  omega

variable (m : IVec S320x320 1) (hm : ∀ j, m j = if (j 0).val < (j 1).val then 1#1 else 0#1)
include hm

theorem flatIdx_lt (r : Fin 51040) : pos (tri 320) 102400 r.val < 102400 := by
  have h := (pos_tri_spec (n := 320) (r := r.val) (by rw [card_pairs]; exact r.isLt)).1
  have e : 320 * 320 = 102400 := by norm_num
  rwa [e] at h

theorem pairI_toNat (r : Fin 51040) : (pairI m (ix1 r)).toNat = pos (tri 320) 102400 r.val / 320 := by
  have hlt := flatIdx_lt m hm r
  have hf := flatIdx_toNat m hm r
  have h1 : (fdiv (flatIdx m) (constantI S_ 32 320#32) (ix1 r)).toNat = pos (tri 320) 102400 r.val / 320 := by
    rw [fdiv_apply, fdivS_toNat (by rw [hf]; omega) (by decide) (by decide), hf]; rfl
  have h2 : (frem (fdiv (flatIdx m) (constantI S_ 32 320#32)) (constantI S_ 32 320#32) (ix1 r)).toNat
      = pos (tri 320) 102400 r.val / 320 := by
    rw [frem_apply, fremS_toNat (by rw [h1]; omega), h1]
    exact Nat.mod_eq_of_lt (Nat.div_lt_of_lt_mul (by omega))
  unfold pairI
  rw [wrap320_apply, wrapS (by rw [h2]; omega), h2]

theorem pairJ_toNat (r : Fin 51040) : (pairJ m (ix1 r)).toNat = pos (tri 320) 102400 r.val % 320 := by
  have hlt := flatIdx_lt m hm r
  have hf := flatIdx_toNat m hm r
  have h1 : (fdiv (flatIdx m) (constantI S_ 32 1#32) (ix1 r)).toNat = pos (tri 320) 102400 r.val := by
    rw [fdiv_apply, fdivS_toNat (by rw [hf]; omega) (by decide) (by decide), hf]
    show pos (tri 320) 102400 r.val / 1 = _
    exact Nat.div_one _
  have h2 : (frem (fdiv (flatIdx m) (constantI S_ 32 1#32)) (constantI S_ 32 320#32) (ix1 r)).toNat
      = pos (tri 320) 102400 r.val % 320 := by
    rw [frem_apply, fremS_toNat (by rw [h1]; omega), h1]
  have := Nat.mod_lt (pos (tri 320) 102400 r.val) (by norm_num : 0 < 320)
  unfold pairJ
  rw [wrap320_apply, wrapS (by rw [h2]; omega), h2]

/-- Summing any function of (row, column) over the computed pair list is summing it over the pairs `i < j`. -/
theorem pairs_sum {M : Type*} [AddCommMonoid M] (h : ℕ → ℕ → M) :
    ∑ r : S51040.Idx, h (pairI m r).toNat (pairJ m r).toNat
      = ∑ p ∈ (univ.filter fun p : Fin 320 × Fin 320 => p.1 < p.2), h p.1.val p.2.val := by
  rw [sum_idx1]
  have e : ∀ r : Fin 51040, h (pairI m (ix1 r)).toNat (pairJ m (ix1 r)).toNat
      = h (pos (tri 320) (320 * 320) r.val / 320) (pos (tri 320) (320 * 320) r.val % 320) := by
    intro r; rw [pairI_toNat m hm, pairJ_toNat m hm]
  rw [sum_congr rfl fun r _ => e r,
    Fin.sum_univ_eq_sum_range (fun r => h (pos (tri 320) (320 * 320) r / 320) (pos (tri 320) (320 * 320) r % 320)) 51040,
    ← card_pairs]
  exact sum_pos_tri 320 h

end TriuEnum
-- ==== Proof.TriuEnumF.lean ====
/-
The printed 0/1 mask at the exact-real reading of floats: a grid of ones whose entries on and below
the diagonal are replaced by zero, compared with zero.  It is one exactly above the diagonal.
-/
import proofs.«138780_j25872882991128_2_alg».proof.Proof.TriuEnumC
import proofs.«138780_j25872882991128_2_alg».proof.ReferenceIdeal
import Idealize.ShloMosaic.PureOps.Ideal.Laws
import Mathlib.Tactic

namespace TriuEnum

open Idealize.ShloMosaic Idealize.ShloMosaic.ValueIdx Finset Cert.ReferenceIdeal

variable [Facts₀]
open Facts₀

/-- The mask as the printed operations build it. -/
noncomputable def triuMask : IVec S320x320 1 :=
  let v67 : FVec Ideal S320x320 .f32 := broadcastInDim S320x320 ![] bcast_S_S320x320 (constant S_ .f32 0x3F800000#32)
  let t0 := iotaInDim S320x320 32 0
  let t1 := broadcastInDim S320x320 ![] bcast_S_S320x320 (constantI S_ 32 0#32)
  let t2 := addi t0 t1
  let t3 := iotaInDim S320x320 32 1
  let t4 := cmpi .sge t2 t3
  let t5 : FVec Ideal S320x320 .f32 := broadcastInDim S320x320 ![] bcast_S_S320x320 (constant S_ .f32 0x00000000#32)
  let v68 : FVec Ideal S320x320 .f32 := select t4 t5 v67
  let v69 : FVec Ideal S320x320 .f32 := broadcastInDim S320x320 ![] bcast_S_S320x320 (constant S_ .f32 0x00000000#32)
  cmpf .une v68 v69

theorem ofBits_one_f32 : Ideal.ofBits .f32 0x3F800000#32 = 1 := by
  simp [Ideal.ofBits, Ideal.ieee, -EReal.coe_mul]; norm_num

theorem triuMask_spec (j : S320x320.Idx) : triuMask j = if (j 0).val < (j 1).val then 1#1 else 0#1 := by
  show Ideal.cmp .une (Scalar.select (IntOp.cmpi .sge (IntOp.addi (BitVec.ofNat 32 (j 0).val) 0#32) (BitVec.ofNat 32 (j 1).val))
      (Ideal.ofBits .f32 0x00000000#32) (Ideal.ofBits .f32 0x3F800000#32)) (Ideal.ofBits .f32 0x00000000#32) = _
  have h0 : (j 0).val < 320 := (j 0).isLt
  have h1 : (j 1).val < 320 := (j 1).isLt
  have ha : IntOp.addi (BitVec.ofNat 32 (j 0).val) 0#32 = BitVec.ofNat 32 (j 0).val := by simp [IntOp.addi]
  have hs : (BitVec.ofNat 32 (j 1).val).sle (BitVec.ofNat 32 (j 0).val) = decide ((j 1).val ≤ (j 0).val) := by
    unfold BitVec.sle
    rw [WordArith.toInt_ofNat_small _ (by omega), WordArith.toInt_ofNat_small _ (by omega)]
    simp
  rw [ha, Ideal.ofBits_zero_f32, ofBits_one_f32]
  unfold IntOp.cmpi
  simp only [hs]
  by_cases h : (j 0).val < (j 1).val
  · rw [if_pos h, decide_eq_false (by omega)]
    show Ideal.cmp .une (Scalar.select 0#1 (0 : EReal) 1) 0 = 1#1
    rw [select_zero]
    simp [Ideal.cmp]
  · rw [if_neg h, decide_eq_true (by omega)]
    show Ideal.cmp .une (Scalar.select 1#1 (0 : EReal) 1) 0 = 0#1
    rw [select_one]
    simp [Ideal.cmp]

end TriuEnum
-- ==== Proof.TriuEnum.lean ====
/-
The pair list of the printed reference: the row and column arrays it computes enumerate exactly
the pairs `i < j` of a 320 × 320 grid, each once.
-/
import proofs.«138780_j25872882991128_2_alg».proof.Proof.TriuEnumE
import proofs.«138780_j25872882991128_2_alg».proof.Proof.TriuEnumF
import Mathlib.Tactic

namespace TriuEnum

open Idealize.ShloMosaic Idealize.ShloMosaic.ValueIdx Finset Cert.ReferenceIdeal

/-! ### The enumeration as a bijection -/

section
variable (n : ℕ)

theorem pos_tri_pos {r : ℕ} (hr : r < (univ.filter fun p : Fin n × Fin n => p.1 < p.2).card) : 0 < n := by
  rcases Nat.eq_zero_or_pos n with h | h
  · subst h; simp at hr
  · exact h

/-- The `r`-th marked position of the grid, as a pair (row, column) with row before column. -/
def triFun (r : Fin (univ.filter fun p : Fin n × Fin n => p.1 < p.2).card) : {p : Fin n × Fin n // p.1 < p.2} :=
  ⟨(⟨pos (tri n) (n * n) r.val / n, Nat.div_lt_of_lt_mul (pos_tri_spec r.isLt).1⟩,
    ⟨pos (tri n) (n * n) r.val % n, Nat.mod_lt _ (pos_tri_pos n r.isLt)⟩), (pos_tri_spec r.isLt).2.1⟩

theorem triFun_bijective : Function.Bijective (triFun n) := by
  constructor
  · intro r r' h
    have h1 : pos (tri n) (n * n) r.val / n = pos (tri n) (n * n) r'.val / n :=
      congrArg (fun q : {p : Fin n × Fin n // p.1 < p.2} => q.1.1.val) h
    have h2 : pos (tri n) (n * n) r.val % n = pos (tri n) (n * n) r'.val % n :=
      congrArg (fun q : {p : Fin n × Fin n // p.1 < p.2} => q.1.2.val) h
    have e : pos (tri n) (n * n) r.val = pos (tri n) (n * n) r'.val := by
      rw [← Nat.div_add_mod (pos (tri n) (n * n) r.val) n, ← Nat.div_add_mod (pos (tri n) (n * n) r'.val) n, h1, h2]
    have c := (pos_tri_spec r.isLt).2.2
    have c' := (pos_tri_spec r'.isLt).2.2
    rw [e] at c
    exact Fin.ext (c.symm.trans c')
  · rintro ⟨⟨i, j⟩, hij⟩
    have hi := i.isLt
    have hj := j.isLt
    have hk : n * i.val + j.val < n * n := by
      calc n * i.val + j.val < n * i.val + n := by omega
        _ = n * (i.val + 1) := by ring
        _ ≤ n * n := Nat.mul_le_mul_left n hi
    have ht : tri n (n * i.val + j.val) := by
      show (n * i.val + j.val) / n < (n * i.val + j.val) % n
      rw [div_of_lt hj, mod_of_lt hj]; exact hij
    have hc : Nat.count (tri n) (n * i.val + j.val) < (univ.filter fun p : Fin n × Fin n => p.1 < p.2).card := by
      rw [← count_tri]
      have h1 : Nat.count (tri n) (n * i.val + j.val + 1) = Nat.count (tri n) (n * i.val + j.val) + 1 := by
        rw [Nat.count_succ, if_pos ht]
      have h2 : Nat.count (tri n) (n * i.val + j.val + 1) ≤ Nat.count (tri n) (n * n) :=
        Nat.count_monotone _ (by omega)
      omega
    refine ⟨⟨_, hc⟩, ?_⟩
    apply Subtype.ext
    apply Prod.ext
    · apply Fin.ext
      show pos (tri n) (n * n) (Nat.count (tri n) (n * i.val + j.val)) / n = i.val
      rw [pos_count (tri n) hk ht, div_of_lt hj]
    · apply Fin.ext
      show pos (tri n) (n * n) (Nat.count (tri n) (n * i.val + j.val)) % n = j.val
      rw [pos_count (tri n) hk ht, mod_of_lt hj]

/-- The marked positions of the grid in order, as a bijection onto the pairs with row before column. -/
noncomputable def triEquiv : Fin (univ.filter fun p : Fin n × Fin n => p.1 < p.2).card ≃ {p : Fin n × Fin n // p.1 < p.2} :=
  Equiv.ofBijective (triFun n) (triFun_bijective n)

theorem triEquiv_fst (r : Fin (univ.filter fun p : Fin n × Fin n => p.1 < p.2).card) :
    ((triEquiv n r).1.1 : ℕ) = pos (tri n) (n * n) r.val / n := rfl

theorem triEquiv_snd (r : Fin (univ.filter fun p : Fin n × Fin n => p.1 < p.2).card) :
    ((triEquiv n r).1.2 : ℕ) = pos (tri n) (n * n) r.val % n := rfl

attribute [irreducible] triEquiv

/-- Row and column numbers that agree with the `k`-th marked position are the `k`-th pair of the bijection. -/
theorem enum_generic (N : ℕ) (hN : n * n = N) (c : ℕ) (hc : (univ.filter fun p : Fin n × Fin n => p.1 < p.2).card = c)
    (k : Fin c) (a b : ℕ) (ha : a = pos (tri n) N k.val / n) (hb : b = pos (tri n) N k.val % n) :
    a = ((((finCongr hc.symm).trans (triEquiv n)) k).1.1 : ℕ) ∧ b = ((((finCongr hc.symm).trans (triEquiv n)) k).1.2 : ℕ) := by
  subst hN
  subst ha
  subst hb
  refine ⟨?_, ?_⟩
  · show pos (tri n) (n * n) (finCongr hc.symm k).val / n = ((triEquiv n (finCongr hc.symm k)).1.1 : ℕ)
    exact (triEquiv_fst n _).symm
  · show pos (tri n) (n * n) (finCongr hc.symm k).val % n = ((triEquiv n (finCongr hc.symm k)).1.2 : ℕ)
    exact (triEquiv_snd n _).symm

end

variable [Facts₀]
open Facts₀

/-- The computed row and column arrays list the pairs `i < j`, each once (for any mask that is one exactly
    above the diagonal). -/
theorem pairs_enum_of_mask (m : IVec S320x320 1) (hm : ∀ j, m j = if (j 0).val < (j 1).val then 1#1 else 0#1) :
    ∃ e : Fin 51040 ≃ {p : Fin 320 × Fin 320 // p.1 < p.2}, ∀ r : S51040.Idx,
      (pairI m r).toNat = ((e (r 0)).1.1 : ℕ) ∧ (pairJ m r).toNat = ((e (r 0)).1.2 : ℕ) := by
  refine ⟨(finCongr card_pairs.symm).trans (triEquiv 320), fun r => ?_⟩
  have e320 : 320 * 320 = 102400 := by norm_num
  obtain ⟨k, rfl⟩ : ∃ k : Fin 51040, r = ix1 k := ⟨r 0, eq_ix1 r⟩
  exact enum_generic 320 102400 e320 51040 card_pairs k _ _ (pairI_toNat m hm k) (pairJ_toNat m hm k)

/-- The same for the printed mask. -/
theorem pairs_enum : ∃ e : Fin 51040 ≃ {p : Fin 320 × Fin 320 // p.1 < p.2}, ∀ r : S51040.Idx,
    (pairI triuMask r).toNat = ((e (r 0)).1.1 : ℕ) ∧ (pairJ triuMask r).toNat = ((e (r 0)).1.2 : ℕ) :=
  pairs_enum_of_mask triuMask triuMask_spec

/-- Summing any function of (row, column) over the printed pair list is summing it over the pairs `i < j`. -/
theorem pairs_sum_triu {M : Type*} [AddCommMonoid M] (h : ℕ → ℕ → M) :
    ∑ r : S51040.Idx, h (pairI triuMask r).toNat (pairJ triuMask r).toNat
      = ∑ p ∈ (univ.filter fun p : Fin 320 × Fin 320 => p.1 < p.2), h p.1.val p.2.val :=
  pairs_sum triuMask triuMask_spec h

/-! ### The pair list as row and column numbers below 320 -/

theorem pairI_lt (r : Fin 51040) : (pairI triuMask (ix1 r)).toNat < 320 := by
  rw [pairI_toNat triuMask triuMask_spec]
  exact Nat.div_lt_of_lt_mul (flatIdx_lt triuMask triuMask_spec r)

theorem pairJ_lt (r : Fin 51040) : (pairJ triuMask (ix1 r)).toNat < 320 := by
  rw [pairJ_toNat triuMask triuMask_spec]
  exact Nat.mod_lt _ (by norm_num)

/-- The row of the `r`-th listed pair. -/
noncomputable def rowOf (r : Fin 51040) : Fin 320 := ⟨(pairI triuMask (ix1 r)).toNat, pairI_lt r⟩

/-- The column of the `r`-th listed pair. -/
noncomputable def colOf (r : Fin 51040) : Fin 320 := ⟨(pairJ triuMask (ix1 r)).toNat, pairJ_lt r⟩

/-- Summing any function of (row, column) over the listed pairs is summing it over the pairs `i < j`. -/
theorem pairs_sum_fin {M : Type*} [AddCommMonoid M] (h : Fin 320 → Fin 320 → M) :
    ∑ r : Fin 51040, h (rowOf r) (colOf r)
      = ∑ p ∈ (univ.filter fun p : Fin 320 × Fin 320 => p.1 < p.2), h p.1 p.2 := by
  obtain ⟨e, he⟩ := pairs_enum
  have h1 : ∀ r : Fin 51040, h (rowOf r) (colOf r) = h (e r).1.1 (e r).1.2 := by
    intro r
    have := he (ix1 r)
    have e1 : rowOf r = (e r).1.1 := Fin.ext this.1
    have e2 : colOf r = (e r).1.2 := Fin.ext this.2
    rw [e1, e2]
  rw [sum_congr rfl fun r _ => h1 r,
    Equiv.sum_comp e (fun q : {p : Fin 320 × Fin 320 // p.1 < p.2} => h q.1.1 q.1.2)]
  exact (Finset.sum_subtype (univ.filter fun p : Fin 320 × Fin 320 => p.1 < p.2)
    (p := fun p : Fin 320 × Fin 320 => p.1 < p.2) (fun p => by simp) (fun p => h p.1 p.2)).symm

end TriuEnum
-- ==== Proof.RefPairs.lean ====
/-
  The two lookups at the pair list, read at an index: the factor matrix, and the clamped squared distances of each of
  the 1001 arrangements, at (row, column) of each listed pair above the diagonal.
-/
import proofs.«138780_j25872882991128_2_alg».proof.Proof.TriuEnum
import proofs.«138780_j25872882991128_2_alg».proof.Proof.RefStageDefs
import Idealize.ShloMosaic.Lib.Pipeline.Value
import Idealize.ShloMosaic.Lib.ValueIdx

noncomputable section

namespace Cert.ReferenceIdeal.RefRead

open Cert.ReferenceIdeal Cert.ReferenceIdeal.Gen Cert.ReferenceIdeal.RefRun Idealize.ShloMosaic Idealize.ShloMosaic.ValueIdx TriuEnum Finset

/-! ### The stages of the pair list are the chain read in `TriuEnum` -/

theorem res_main_v82_eq : res_main_v82 (F := Ideal) = flatIdx triuMask := rfl
theorem res_main_v91_eq : res_main_v91 (F := Ideal) = pairI triuMask := rfl
theorem res_main_v96_eq : res_main_v96 (F := Ideal) = pairJ triuMask := rfl
theorem res_main_v106_eq : res_main_v106 (F := Ideal) = pairI triuMask := rfl
theorem res_main_v111_eq : res_main_v111 (F := Ideal) = pairJ triuMask := rfl

/-! ### Reading a column broadcast and the two-column pair table -/

theorem bcast_col51040 {α : Type} (h : S51040.BroadcastsInDim S51040x1 (![0] : Fin 1 → Fin S51040x1.rank))
    (x : S51040.Idx → α) (r : Fin 51040) (z : Fin 1) :
    broadcastInDim S51040x1 ![0] h x (ix2 r z) = x (ix1 r) := by
  unfold broadcastInDim
  refine congrArg x (funext fun a => ?_)
  match a with
  | ⟨0, _⟩ =>
    rw [dif_neg (by show ¬ ((51040 : ℕ) = 1); decide)]
    exact Fin.ext rfl

theorem pairTable_left {α : Type} (x₁ x₂ : S51040x1.Idx → α)
    (h : Shape.Concatenates [S51040x1, S51040x1] S51040x2 1) (r : Fin 51040) :
    concatenate S51040x2 1 [⟨S51040x1, x₁⟩, ⟨S51040x1, x₂⟩] h (ix2 r (0 : Fin 2)) = x₁ (ix2 r (0 : Fin 1)) := by
  refine concatenate_pair_apply_left 1 x₁ x₂ h (ix2 r (0 : Fin 2)) rfl (ix2 r (0 : Fin 1)) ?_
  intro b
  match b with
  | ⟨0, _⟩ => rfl
  | ⟨1, _⟩ => rfl

theorem pairTable_right {α : Type} (x₁ x₂ : S51040x1.Idx → α)
    (h : Shape.Concatenates [S51040x1, S51040x1] S51040x2 1) (r : Fin 51040) :
    concatenate S51040x2 1 [⟨S51040x1, x₁⟩, ⟨S51040x1, x₂⟩] h (ix2 r (1 : Fin 2)) = x₂ (ix2 r (0 : Fin 1)) := by
  refine concatenate_pair_apply_right 1 x₁ x₂ h (ix2 r (1 : Fin 2)) rfl rfl (ix2 r (0 : Fin 1)) ?_ ?_
  · intro b hb
    match b with
    | ⟨0, _⟩ => rfl
    | ⟨1, _⟩ => exact absurd rfl hb
  · rfl

/-! ### The lookup of the factor matrix -/

theorem gatherP_coord0 (idx : IVec S51040x2 32) (r : Fin 51040) :
    gather_S320x320_S51040x2_S51040_n_01_n_n_01_1_11.start (ix1 r) idx (0 : Fin 2) + gather_S320x320_S51040x2_S51040_n_01_n_n_01_1_11.batchCoord (ix1 r) (0 : Fin 2) + gather_S320x320_S51040x2_S51040_n_01_n_n_01_1_11.offCoord (ix1 r) (0 : Fin 2)
      = min (idx (ix2 r (0 : Fin 2))).toInt.toNat 319 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S320x320_S51040x2_S51040_n_01_n_n_01_1_11.startIndexMap from by decide)]
  have hsi : gather_S320x320_S51040x2_S51040_n_01_n_n_01_1_11.siIdx (ix1 r) ⟨List.idxOf (0 : Fin 2) gather_S320x320_S51040x2_S51040_n_01_n_n_01_1_11.startIndexMap, List.idxOf_lt_length_iff.2 (by decide)⟩
      = ix2 r (0 : Fin 2) := by
    funext b; refine Fin.ext ?_
    match b with
    | ⟨0, _⟩ => rfl
    | ⟨1, _⟩ => rfl
  rw [hsi]
  rfl

theorem gatherP_coord1 (idx : IVec S51040x2 32) (r : Fin 51040) :
    gather_S320x320_S51040x2_S51040_n_01_n_n_01_1_11.start (ix1 r) idx (1 : Fin 2) + gather_S320x320_S51040x2_S51040_n_01_n_n_01_1_11.batchCoord (ix1 r) (1 : Fin 2) + gather_S320x320_S51040x2_S51040_n_01_n_n_01_1_11.offCoord (ix1 r) (1 : Fin 2)
      = min (idx (ix2 r (1 : Fin 2))).toInt.toNat 319 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gather_S320x320_S51040x2_S51040_n_01_n_n_01_1_11.startIndexMap from by decide)]
  have hsi : gather_S320x320_S51040x2_S51040_n_01_n_n_01_1_11.siIdx (ix1 r) ⟨List.idxOf (1 : Fin 2) gather_S320x320_S51040x2_S51040_n_01_n_n_01_1_11.startIndexMap, List.idxOf_lt_length_iff.2 (by decide)⟩
      = ix2 r (1 : Fin 2) := by
    funext b; refine Fin.ext ?_
    match b with
    | ⟨0, _⟩ => rfl
    | ⟨1, _⟩ => rfl
  rw [hsi]
  rfl

/-- The lookup at entry `r`: the matrix at (row, column) = the two components of pair `r`, each read signed and
    clamped into [0, 319]. -/
theorem gatherP_apply {α : Type} (x : S320x320.Idx → α) (idx : IVec S51040x2 32) (r : Fin 51040) :
    Host.gather gather_S320x320_S51040x2_S51040_n_01_n_n_01_1_11 x idx (ix1 r)
      = x (ix2 (⟨min (idx (ix2 r (0 : Fin 2))).toInt.toNat 319, by omega⟩ : Fin 320)
               (⟨min (idx (ix2 r (1 : Fin 2))).toInt.toNat 319, by omega⟩ : Fin 320)) := by
  unfold Host.gather
  refine congrArg x (funext fun a => Fin.ext ?_)
  match a with
  | ⟨0, _⟩ => exact gatherP_coord0 idx r
  | ⟨1, _⟩ => exact gatherP_coord1 idx r

/-! ### The lookup of the squared distances -/

theorem gatherD_coord0 (idx : IVec S51040x2 32) (p : Fin 1001) (r : Fin 51040) :
    gather_S1001x320x320_S51040x2_S1001x51040_0_12_n_n_12_1_100111.start (ix2 p r) idx (0 : Fin 3) + gather_S1001x320x320_S51040x2_S1001x51040_0_12_n_n_12_1_100111.batchCoord (ix2 p r) (0 : Fin 3) + gather_S1001x320x320_S51040x2_S1001x51040_0_12_n_n_12_1_100111.offCoord (ix2 p r) (0 : Fin 3)
      = p.val := by
  rw [GatherDims.batchCoord_eq_zero _ _ _ List.not_mem_nil]
  unfold GatherDims.start
  rw [dif_neg (show (0 : Fin 3) ∉ gather_S1001x320x320_S51040x2_S1001x51040_0_12_n_n_12_1_100111.startIndexMap from by decide)]
  unfold GatherDims.offCoord
  rw [dif_pos (show (0 : Fin 3) ∈ gather_S1001x320x320_S51040x2_S1001x51040_0_12_n_n_12_1_100111.sKept from by decide)]
  simp only [Nat.zero_add]
  rfl

theorem gatherD_coord1 (idx : IVec S51040x2 32) (p : Fin 1001) (r : Fin 51040) :
    gather_S1001x320x320_S51040x2_S1001x51040_0_12_n_n_12_1_100111.start (ix2 p r) idx (1 : Fin 3) + gather_S1001x320x320_S51040x2_S1001x51040_0_12_n_n_12_1_100111.batchCoord (ix2 p r) (1 : Fin 3) + gather_S1001x320x320_S51040x2_S1001x51040_0_12_n_n_12_1_100111.offCoord (ix2 p r) (1 : Fin 3)
      = min (idx (ix2 r (0 : Fin 2))).toInt.toNat 319 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ gather_S1001x320x320_S51040x2_S1001x51040_0_12_n_n_12_1_100111.startIndexMap from by decide)]
  have hsi : gather_S1001x320x320_S51040x2_S1001x51040_0_12_n_n_12_1_100111.siIdx (ix2 p r) ⟨List.idxOf (1 : Fin 3) gather_S1001x320x320_S51040x2_S1001x51040_0_12_n_n_12_1_100111.startIndexMap, List.idxOf_lt_length_iff.2 (by decide)⟩
      = ix2 r (0 : Fin 2) := by
    funext b; refine Fin.ext ?_
    match b with
    | ⟨0, _⟩ => rfl
    | ⟨1, _⟩ => rfl
  rw [hsi]
  rfl

theorem gatherD_coord2 (idx : IVec S51040x2 32) (p : Fin 1001) (r : Fin 51040) :
    gather_S1001x320x320_S51040x2_S1001x51040_0_12_n_n_12_1_100111.start (ix2 p r) idx (2 : Fin 3) + gather_S1001x320x320_S51040x2_S1001x51040_0_12_n_n_12_1_100111.batchCoord (ix2 p r) (2 : Fin 3) + gather_S1001x320x320_S51040x2_S1001x51040_0_12_n_n_12_1_100111.offCoord (ix2 p r) (2 : Fin 3)
      = min (idx (ix2 r (1 : Fin 2))).toInt.toNat 319 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (2 : Fin 3) ∈ gather_S1001x320x320_S51040x2_S1001x51040_0_12_n_n_12_1_100111.startIndexMap from by decide)]
  have hsi : gather_S1001x320x320_S51040x2_S1001x51040_0_12_n_n_12_1_100111.siIdx (ix2 p r) ⟨List.idxOf (2 : Fin 3) gather_S1001x320x320_S51040x2_S1001x51040_0_12_n_n_12_1_100111.startIndexMap, List.idxOf_lt_length_iff.2 (by decide)⟩
      = ix2 r (1 : Fin 2) := by
    funext b; refine Fin.ext ?_
    match b with
    | ⟨0, _⟩ => rfl
    | ⟨1, _⟩ => rfl
  rw [hsi]
  rfl

/-- The lookup at entry `(p, r)`: arrangement `p`'s matrix at (row, column) = the two components of pair `r`, each
    read signed and clamped into [0, 319]. -/
theorem gatherD_apply {α : Type} (x : S1001x320x320.Idx → α) (idx : IVec S51040x2 32) (p : Fin 1001) (r : Fin 51040) :
    Host.gather gather_S1001x320x320_S51040x2_S1001x51040_0_12_n_n_12_1_100111 x idx (ix2 p r)
      = x (ix3 p (⟨min (idx (ix2 r (0 : Fin 2))).toInt.toNat 319, by omega⟩ : Fin 320)
               (⟨min (idx (ix2 r (1 : Fin 2))).toInt.toNat 319, by omega⟩ : Fin 320)) := by
  unfold Host.gather
  refine congrArg x (funext fun a => Fin.ext ?_)
  match a with
  | ⟨0, _⟩ => exact gatherD_coord0 idx p r
  | ⟨1, _⟩ => exact gatherD_coord1 idx p r
  | ⟨2, _⟩ => exact gatherD_coord2 idx p r

/-! ### The two lookups at the listed pairs -/

theorem rowOf_val (r : Fin 51040) : (rowOf r).val = (pairI triuMask (ix1 r)).toNat := by
  unfold rowOf; rfl

theorem colOf_val (r : Fin 51040) : (colOf r).val = (pairJ triuMask (ix1 r)).toNat := by
  unfold colOf; rfl

theorem clamp_eq {w : BitVec 32} (h : w.toNat < 320) : min w.toInt.toNat 319 = w.toNat := by
  rw [toInt_of_lt (by omega), Int.toNat_natCast]
  omega

/-- The first pair table at row `r`: the row and the column of pair `r`. -/
theorem res_main_v99_left (r : Fin 51040) : res_main_v99 (F := Ideal) (ix2 r (0 : Fin 2)) = pairI triuMask (ix1 r) := by
  unfold res_main_v99
  beta_reduce
  rewrite [pairTable_left, bcast_col51040, res_main_v91_eq]
  rfl

theorem res_main_v99_right (r : Fin 51040) : res_main_v99 (F := Ideal) (ix2 r (1 : Fin 2)) = pairJ triuMask (ix1 r) := by
  unfold res_main_v99
  beta_reduce
  rewrite [pairTable_right, bcast_col51040, res_main_v96_eq]
  rfl

theorem res_main_v114_left (r : Fin 51040) : res_main_v114 (F := Ideal) (ix2 r (0 : Fin 2)) = pairI triuMask (ix1 r) := by
  unfold res_main_v114
  beta_reduce
  rewrite [pairTable_left, bcast_col51040, res_main_v106_eq]
  rfl

theorem res_main_v114_right (r : Fin 51040) : res_main_v114 (F := Ideal) (ix2 r (1 : Fin 2)) = pairJ triuMask (ix1 r) := by
  unfold res_main_v114
  beta_reduce
  rewrite [pairTable_right, bcast_col51040, res_main_v111_eq]
  rfl

/-- The factor gathered at entry `r` is the factor matrix at (row, column) of the `r`-th listed pair. -/
theorem res_main_v100_apply (a1 : (⟨S_, .f32⟩ : BufTy).Contents (Elt Ideal)) (a2 : (⟨S_, .f32⟩ : BufTy).Contents (Elt Ideal))
    (a3 : (⟨S320, .i32⟩ : BufTy).Contents (Elt Ideal)) (r : Fin 51040) :
    res_main_v100 (F := Ideal) a1 a2 a3 (ix1 r) = res_main_v19 (F := Ideal) a1 a2 a3 (ix2 (rowOf r) (colOf r)) := by
  unfold res_main_v100
  refine (gatherP_apply _ _ r).trans (congrArg _ ?_)
  have e0 : min (res_main_v99 (F := Ideal) (ix2 r (0 : Fin 2))).toInt.toNat 319 = (rowOf r).val :=
    (congrArg (fun w : BitVec 32 => min w.toInt.toNat 319) (res_main_v99_left r)).trans ((clamp_eq (pairI_lt r)).trans (rowOf_val r).symm)
  have e1 : min (res_main_v99 (F := Ideal) (ix2 r (1 : Fin 2))).toInt.toNat 319 = (colOf r).val :=
    (congrArg (fun w : BitVec 32 => min w.toInt.toNat 319) (res_main_v99_right r)).trans ((clamp_eq (pairJ_lt r)).trans (colOf_val r).symm)
  exact congr (congrArg _ (Fin.ext e0)) (Fin.ext e1)

/-- The squared distance gathered at entry `(p, r)` is arrangement `p`'s at (row, column) of the `r`-th listed pair. -/
theorem res_main_v115_apply (a0 : (⟨S320x64, .f32⟩ : BufTy).Contents (Elt Ideal)) (a1 : (⟨S_, .f32⟩ : BufTy).Contents (Elt Ideal))
    (a2 : (⟨S_, .f32⟩ : BufTy).Contents (Elt Ideal)) (a3 : (⟨S320, .i32⟩ : BufTy).Contents (Elt Ideal))
    (a4 : (⟨S1000x320, .i32⟩ : BufTy).Contents (Elt Ideal)) (p : Fin 1001) (r : Fin 51040) :
    res_main_v115 (F := Ideal) a0 a1 a2 a3 a4 (ix2 p r)
      = res_main_v66 (F := Ideal) a0 a1 a2 a3 a4 (ix3 p (rowOf r) (colOf r)) := by
  unfold res_main_v115
  refine (gatherD_apply _ _ p r).trans (congrArg _ ?_)
  have e0 : min (res_main_v114 (F := Ideal) (ix2 r (0 : Fin 2))).toInt.toNat 319 = (rowOf r).val :=
    (congrArg (fun w : BitVec 32 => min w.toInt.toNat 319) (res_main_v114_left r)).trans ((clamp_eq (pairI_lt r)).trans (rowOf_val r).symm)
  have e1 : min (res_main_v114 (F := Ideal) (ix2 r (1 : Fin 2))).toInt.toNat 319 = (colOf r).val :=
    (congrArg (fun w : BitVec 32 => min w.toInt.toNat 319) (res_main_v114_right r)).trans ((clamp_eq (pairJ_lt r)).trans (colOf_val r).symm)
  exact congr (congrArg _ (Fin.ext e0)) (Fin.ext e1)

/-! ### The three facts about the pair list -/

/-- The row of the `r`-th listed pair. -/
def iu (r : Fin 51040) : Fin 320 := rowOf r

/-- The column of the `r`-th listed pair. -/
def ju (r : Fin 51040) : Fin 320 := colOf r

theorem h100 (fa fb : FVec Ideal ⟨0, ![]⟩ .f32) (tf : IVec ⟨1, ![320]⟩ 32) (r : Fin 51040) :
    res_main_v100 (F := Ideal) fa fb tf (ix1 r) = res_main_v19 (F := Ideal) fa fb tf (ix2 (iu r) (ju r)) :=
  res_main_v100_apply fa fb tf r

theorem h115 (data : FVec Ideal ⟨2, ![320, 64]⟩ .f32) (fa fb : FVec Ideal ⟨0, ![]⟩ .f32) (tf : IVec ⟨1, ![320]⟩ 32)
    (perms : IVec ⟨2, ![1000, 320]⟩ 32) (p : Fin 1001) (r : Fin 51040) :
    res_main_v115 (F := Ideal) data fa fb tf perms (ix2 p r)
      = res_main_v66 (F := Ideal) data fa fb tf perms (ix3 p (iu r) (ju r)) :=
  res_main_v115_apply data fa fb tf perms p r

theorem henum (h : Fin 320 → Fin 320 → ℝ) :
    ∑ r : Fin 51040, h (iu r) (ju r) = ∑ q ∈ PairVariance.ltPairs 320, h q.1 q.2 := by
  have e : PairVariance.ltPairs 320 = (univ.filter fun p : Fin 320 × Fin 320 => p.1 < p.2) := by
    unfold PairVariance.ltPairs
    exact Finset.filter_congr_decidable _ _ _
  rw [e]
  exact pairs_sum_fin h

end Cert.ReferenceIdeal.RefRead

end
-- ==== Proof.RefSq.lean ====
/-
  The reference's squared distances read at an index. For arrangement p its 320 x 64 rows are A = all_data[p];
  the row norms are 0 + Σ_d A i d², the Gram entries Σ_d A i d · A j d (one batched product over p), and entry
  (p, i, j) of the clamped distances is  max (sn i + sn j − 2 gram i j) 0 : the specification's `sq` of A.
-/
import proofs.«138780_j25872882991128_2_alg».proof.Proof.RefStageDefs
import proofs.«138780_j25872882991128_2_alg».proof.Proof.StatSpec
import Idealize.ShloMosaic.Lib.IdealHost
import Idealize.ShloMosaic.PureOps.Ideal.Laws
import Idealize.ShloMosaic.Lib.ValueIdx
import Idealize.ShloMosaic.Lib.Pipeline.Value

set_option maxRecDepth 16384

noncomputable section

namespace Cert.ReferenceIdeal.RefRead

open Cert.ReferenceIdeal Cert.ReferenceIdeal.Gen Cert.ReferenceIdeal.RefRun
open Idealize.ShloMosaic Idealize.ShloMosaic.TcCoe Idealize.ShloMosaic.ValueIdx StatSpec

variable (a0 : FVec Ideal S320x64 .f32) (a1 a2 : FVec Ideal S_ .f32) (a3 : IVec S320 32) (a4 : IVec S1000x320 32)

theorem ofBits_two : Ideal.ofBits .f32 0x40000000#32 = ((2 : ℝ) : EReal) := by
  simp [Ideal.ofBits, Ideal.ieee, -EReal.coe_mul]; norm_num

/-- The rows of arrangement `p`. -/
def Aref (p : Fin 1001) : Fin 320 → Fin 64 → EReal := fun i d => res_main_v53 (F := Ideal) a0 a1 a2 a3 a4 (ix3 p i d)

/-- All 1001 x 320 x 64 rows, typed as a float array. -/
def allRows : FVec Ideal S1001x320x64 .f32 := res_main_v53 (F := Ideal) a0 a1 a2 a3 a4

/-- The row norms. -/
theorem v55_apply (p : Fin 1001) (i : Fin 320) :
    res_main_v55 (F := Ideal) a0 a1 a2 a3 a4 (ix2 p i) = sn (Aref a0 a1 a2 a3 a4 p) i := by
  unfold res_main_v55
  show Host.reduceAdd (mulf (allRows a0 a1 a2 a3 a4) (allRows a0 a1 a2 a3 a4))
    (constant S_ .f32 0x00000000#32) reducesTo_S1001x320x64_S1001x320_d2 h_S_ (ix2 p i) = _
  rw [hostReduceAdd_apply]
  have hR : S1001x320x64.Reduces [2] S1001x320 := by decide
  refine (Ideal.hostReduceAdd_single reducesTo_S1001x320x64_S1001x320_d2 hR _ _ (ix2 p i)).trans ?_
  show Ideal.ofBits .f32 0x00000000#32 + _ = _
  rw [Ideal.ofBits_zero_f32, zero_add]
  unfold sn Aref
  refine Finset.sum_congr rfl fun d _ => ?_
  have hl : hR.lift (ix2 p i) d = ix3 p i d := by
    funext a
    apply Fin.ext
    match a with
    | ⟨0, _⟩ => rfl
    | ⟨1, _⟩ => rfl
    | ⟨2, _⟩ => rfl
  rw [mulf_apply, hl]
  rfl

/-- The Gram entries. -/
theorem v56_apply (p : Fin 1001) (i j : Fin 320) :
    res_main_v56 (F := Ideal) a0 a1 a2 a3 a4 (ix3 p i j) = gram (Aref a0 a1 a2 a3 a4 p) i j := by
  unfold res_main_v56
  show FloatOps.dotGeneral dot_S1001x320x64_S1001x320x64_S1001x320x320_2_2_1_1_0_0 none _ (allRows a0 a1 a2 a3 a4) (allRows a0 a1 a2 a3 a4) (ix3 p i j) = _
  rw [Ideal.dotGeneral_apply]
  rw [← Equiv.sum_comp (contrEquiv1 dot_S1001x320x64_S1001x320x64_S1001x320x320_2_2_1_1_0_0 64 rfl rfl).symm]
  unfold gram Aref
  refine Finset.sum_congr rfl fun d _ => ?_
  have hl : dot_S1001x320x64_S1001x320x64_S1001x320x320_2_2_1_1_0_0.lhsIdx (ix3 p i j) ((contrEquiv1 dot_S1001x320x64_S1001x320x64_S1001x320x320_2_2_1_1_0_0 64 rfl rfl).symm d) = ix3 p i d := by
    funext a
    apply Fin.ext
    match a with
    | ⟨0, _⟩ => rfl
    | ⟨1, _⟩ => rfl
    | ⟨2, _⟩ => exact (DotDims.lhsIdx_val_of_single _ rfl _ _).trans (contrEquiv1_symm_val _ 64 rfl rfl d)
  have hr : dot_S1001x320x64_S1001x320x64_S1001x320x320_2_2_1_1_0_0.rhsIdx (ix3 p i j) ((contrEquiv1 dot_S1001x320x64_S1001x320x64_S1001x320x320_2_2_1_1_0_0 64 rfl rfl).symm d) = ix3 p j d := by
    funext a
    apply Fin.ext
    match a with
    | ⟨0, _⟩ => rfl
    | ⟨1, _⟩ => rfl
    | ⟨2, _⟩ => exact (DotDims.rhsIdx_val_of_single _ rfl _ _).trans (contrEquiv1_symm_val _ 64 rfl rfl d)
  rw [hl, hr]
  rfl

/-- The clamped squared distances are `sq` of the arrangement's rows. -/
theorem v66_apply (p : Fin 1001) (i j : Fin 320) :
    res_main_v66 (F := Ideal) a0 a1 a2 a3 a4 (ix3 p i j) = sq (Aref a0 a1 a2 a3 a4 p) i j := by
  unfold res_main_v66
  rw [maximumf_apply, subf_apply, addf_apply, mulf_apply,
    broadcastInDim_apply ![0, 1, 2] bcast_S1001x320x1_S1001x320x320_0_1_2 _ (ix3 p i j) (ix3 p i (0 : Fin 1))
      (fun a => match a with | ⟨0, _⟩ => rfl | ⟨1, _⟩ => rfl | ⟨2, _⟩ => rfl),
    broadcastInDim_apply ![0, 1] bcast_S1001x320_S1001x320x1_0_1 _ (ix3 p i (0 : Fin 1)) (ix2 p i)
      (fun a => match a with | ⟨0, _⟩ => rfl | ⟨1, _⟩ => rfl),
    broadcastInDim_apply ![0, 1, 2] bcast_S1001x1x320_S1001x320x320_0_1_2 _ (ix3 p i j) (ix3 p (0 : Fin 1) j)
      (fun a => match a with | ⟨0, _⟩ => rfl | ⟨1, _⟩ => rfl | ⟨2, _⟩ => rfl),
    broadcastInDim_apply ![0, 2] bcast_S1001x320_S1001x1x320_0_2 _ (ix3 p (0 : Fin 1) j) (ix2 p j)
      (fun a => match a with | ⟨0, _⟩ => rfl | ⟨1, _⟩ => rfl),
    broadcastInDim_scalar_apply, broadcastInDim_scalar_apply, constant_apply, constant_apply,
    v55_apply, v55_apply, v56_apply, ofBits_two, Ideal.ofBits_zero_f32]
  rfl

end Cert.ReferenceIdeal.RefRead

end
-- ==== Proof.RefGather.lean ====
/-
  The reference's two lookups by the index rows, read at an index.
  Rows: entry (q, i, d) of the gathered data is the data at row = index (q, i) read as a signed integer and clamped
  into [0, 319], column d. Factor: entry (q, i) is the factor matrix at (row, column) = the two components of index
  pair (q, i), each clamped the same way.
-/
import proofs.«138780_j25872882991128_2_alg».proof.Proof.Gen.ReferenceIdeal
import Idealize.ShloMosaic.Lib.ValueIdx

set_option maxRecDepth 16384

noncomputable section

namespace Cert.ReferenceIdeal.RefRead

open Cert.ReferenceIdeal Cert.ReferenceIdeal.Gen
open Idealize.ShloMosaic Idealize.ShloMosaic.TcCoe Idealize.ShloMosaic.ValueIdx

theorem gatherRow_coord0 (idx : IVec S1000x320x1 32) (q : Fin 1000) (i : Fin 320) (d : Fin 64) :
    gather_S320x64_S1000x320x1_S1000x320x64_2_0_n_n_0_2_164.start (ix3 q i d) idx (0 : Fin 2) + gather_S320x64_S1000x320x1_S1000x320x64_2_0_n_n_0_2_164.batchCoord (ix3 q i d) (0 : Fin 2) + gather_S320x64_S1000x320x1_S1000x320x64_2_0_n_n_0_2_164.offCoord (ix3 q i d) (0 : Fin 2)
      = min (idx (ix3 q i (0 : Fin 1))).toInt.toNat 319 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S320x64_S1000x320x1_S1000x320x64_2_0_n_n_0_2_164.startIndexMap from by decide)]
  have hsi : gather_S320x64_S1000x320x1_S1000x320x64_2_0_n_n_0_2_164.siIdx (ix3 q i d) ⟨List.idxOf (0 : Fin 2) gather_S320x64_S1000x320x1_S1000x320x64_2_0_n_n_0_2_164.startIndexMap, List.idxOf_lt_length_iff.2 (by decide)⟩
      = ix3 q i (0 : Fin 1) := by
    funext b; refine Fin.ext ?_
    match b with
    | ⟨0, _⟩ => rfl
    | ⟨1, _⟩ => rfl
    | ⟨2, _⟩ => rfl
  rw [hsi]
  rfl

theorem gatherRow_coord1 (idx : IVec S1000x320x1 32) (q : Fin 1000) (i : Fin 320) (d : Fin 64) :
    gather_S320x64_S1000x320x1_S1000x320x64_2_0_n_n_0_2_164.start (ix3 q i d) idx (1 : Fin 2) + gather_S320x64_S1000x320x1_S1000x320x64_2_0_n_n_0_2_164.batchCoord (ix3 q i d) (1 : Fin 2) + gather_S320x64_S1000x320x1_S1000x320x64_2_0_n_n_0_2_164.offCoord (ix3 q i d) (1 : Fin 2)
      = d.val := by
  rw [GatherDims.batchCoord_eq_zero _ _ _ List.not_mem_nil]
  unfold GatherDims.start
  rw [dif_neg (show (1 : Fin 2) ∉ gather_S320x64_S1000x320x1_S1000x320x64_2_0_n_n_0_2_164.startIndexMap from by decide)]
  unfold GatherDims.offCoord
  rw [dif_pos (show (1 : Fin 2) ∈ gather_S320x64_S1000x320x1_S1000x320x64_2_0_n_n_0_2_164.sKept from by decide)]
  simp only [Nat.zero_add, Nat.add_zero]
  rfl

theorem gatherRow_apply {α : Type} (x : S320x64.Idx → α) (idx : IVec S1000x320x1 32) (q : Fin 1000) (i : Fin 320) (d : Fin 64) :
    Host.gather gather_S320x64_S1000x320x1_S1000x320x64_2_0_n_n_0_2_164 x idx (ix3 q i d)
      = x (ix2 (⟨min (idx (ix3 q i (0 : Fin 1))).toInt.toNat 319, by omega⟩ : Fin 320) d) := by
  unfold Host.gather
  congr 1
  funext a
  refine Fin.ext ?_
  match a with
  | ⟨0, _⟩ => exact gatherRow_coord0 idx q i d
  | ⟨1, _⟩ => exact gatherRow_coord1 idx q i d

theorem gatherPt_coord0 (idx : IVec S1000x320x2 32) (q : Fin 1000) (i : Fin 320) :
    gather_S320x320_S1000x320x2_S1000x320_n_01_n_n_01_2_11.start (ix2 q i) idx (0 : Fin 2) + gather_S320x320_S1000x320x2_S1000x320_n_01_n_n_01_2_11.batchCoord (ix2 q i) (0 : Fin 2) + gather_S320x320_S1000x320x2_S1000x320_n_01_n_n_01_2_11.offCoord (ix2 q i) (0 : Fin 2)
      = min (idx (ix3 q i (0 : Fin 2))).toInt.toNat 319 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 2) ∈ gather_S320x320_S1000x320x2_S1000x320_n_01_n_n_01_2_11.startIndexMap from by decide)]
  have hsi : gather_S320x320_S1000x320x2_S1000x320_n_01_n_n_01_2_11.siIdx (ix2 q i) ⟨List.idxOf (0 : Fin 2) gather_S320x320_S1000x320x2_S1000x320_n_01_n_n_01_2_11.startIndexMap, List.idxOf_lt_length_iff.2 (by decide)⟩
      = ix3 q i (0 : Fin 2) := by
    funext b; refine Fin.ext ?_
    match b with
    | ⟨0, _⟩ => rfl
    | ⟨1, _⟩ => rfl
    | ⟨2, _⟩ => rfl
  rw [hsi]
  rfl

theorem gatherPt_coord1 (idx : IVec S1000x320x2 32) (q : Fin 1000) (i : Fin 320) :
    gather_S320x320_S1000x320x2_S1000x320_n_01_n_n_01_2_11.start (ix2 q i) idx (1 : Fin 2) + gather_S320x320_S1000x320x2_S1000x320_n_01_n_n_01_2_11.batchCoord (ix2 q i) (1 : Fin 2) + gather_S320x320_S1000x320x2_S1000x320_n_01_n_n_01_2_11.offCoord (ix2 q i) (1 : Fin 2)
      = min (idx (ix3 q i (1 : Fin 2))).toInt.toNat 319 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 2) ∈ gather_S320x320_S1000x320x2_S1000x320_n_01_n_n_01_2_11.startIndexMap from by decide)]
  have hsi : gather_S320x320_S1000x320x2_S1000x320_n_01_n_n_01_2_11.siIdx (ix2 q i) ⟨List.idxOf (1 : Fin 2) gather_S320x320_S1000x320x2_S1000x320_n_01_n_n_01_2_11.startIndexMap, List.idxOf_lt_length_iff.2 (by decide)⟩
      = ix3 q i (1 : Fin 2) := by
    funext b; refine Fin.ext ?_
    match b with
    | ⟨0, _⟩ => rfl
    | ⟨1, _⟩ => rfl
    | ⟨2, _⟩ => rfl
  rw [hsi]
  rfl

theorem gatherPt_apply {α : Type} (x : S320x320.Idx → α) (idx : IVec S1000x320x2 32) (q : Fin 1000) (i : Fin 320) :
    Host.gather gather_S320x320_S1000x320x2_S1000x320_n_01_n_n_01_2_11 x idx (ix2 q i)
      = x (ix2 (⟨min (idx (ix3 q i (0 : Fin 2))).toInt.toNat 319, by omega⟩ : Fin 320)
               (⟨min (idx (ix3 q i (1 : Fin 2))).toInt.toNat 319, by omega⟩ : Fin 320)) := by
  unfold Host.gather
  congr 1
  funext a
  refine Fin.ext ?_
  match a with
  | ⟨0, _⟩ => exact gatherPt_coord0 idx q i
  | ⟨1, _⟩ => exact gatherPt_coord1 idx q i

end Cert.ReferenceIdeal.RefRead

end
-- ==== Proof.RefRows.lean ====
/-
  The rows of each arrangement, as the reference builds them. Arrangement 0 is the data. For arrangement q + 1 and
  row i, with x the index word perms[q, i] (below 320 by the precondition): the gathered row is data[x]; the row is
  kept as gathered where x = i, and otherwise multiplied by the factor F[i, x] (the wraps of negative indices and the
  clamps of the two lookups leave an in-range index alone).
-/
import proofs.«138780_j25872882991128_2_alg».proof.Proof.RefSq
import proofs.«138780_j25872882991128_2_alg».proof.Proof.RefGather
import proofs.«138780_j25872882991128_2_alg».proof.Proof.WordFacts
import Idealize.ShloMosaic.Lib.ValueLayout

set_option maxRecDepth 16384

noncomputable section

namespace Cert.ReferenceIdeal.RefRead

open Cert.ReferenceIdeal Cert.ReferenceIdeal.Gen Cert.ReferenceIdeal.RefRun
open Idealize.ShloMosaic Idealize.ShloMosaic.TcCoe Idealize.ShloMosaic.ValueIdx StatSpec

variable (a0 : FVec Ideal S320x64 .f32) (a1 a2 : FVec Ideal S_ .f32) (a3 : IVec S320 32) (a4 : IVec S1000x320 32)

/-- Arrangement 0 is the data itself. -/
theorem Aref_zero (i : Fin 320) (d : Fin 64) : Aref a0 a1 a2 a3 a4 (0 : Fin 1001) i d = a0 (ix2 i d) := by
  unfold Aref res_main_v53
  refine (concatenate_pair_apply_left (s₁ := S1x320x64) (s₂ := S1000x320x64) (0 : Fin 3) _ _ concatenates_S1x320x64_S1000x320x64_S1001x320x64_d0
    (ix3 (0 : Fin 1001) i d) rfl (ix3 (0 : Fin 1) i d)
    (fun b => match b with | ⟨0, _⟩ => rfl | ⟨1, _⟩ => rfl | ⟨2, _⟩ => rfl)).trans ?_
  exact broadcastInDim_apply ![1, 2] bcast_S320x64_S1x320x64_1_2 a0 (ix3 (0 : Fin 1) i d) (ix2 i d)
    (fun a => match a with | ⟨0, _⟩ => rfl | ⟨1, _⟩ => rfl)

/-- The wrap of negative indices, as the program spells it on one word. -/
def wrap (x : BitVec 32) : BitVec 32 := Scalar.select (IntOp.cmpi .slt x 0#32) (IntOp.addi x 320#32) x

theorem wrap_of_lt (x : BitVec 32) (h : x.toNat < 320) : wrap x = x := WordFacts.wrap_id x h _

/-- The "row stayed in place" test of arrangement q + 1, row i. -/
theorem v47_apply (q : Fin 1000) (i : Fin 320) :
    res_main_v47 (F := Ideal) a4 (ix3 q i (0 : Fin 1)) = IntOp.cmpi .eq (a4 (ix2 q i)) (BitVec.ofNat 32 i.val) := by
  unfold res_main_v47
  rw [broadcastInDim_apply ![0, 1] bcast_S1000x320_S1000x320x1_0_1 _ (ix3 q i (0 : Fin 1)) (ix2 q i)
    (fun a => match a with | ⟨0, _⟩ => rfl | ⟨1, _⟩ => rfl)]
  show IntOp.cmpi .eq (a4 (ix2 q i)) (broadcastInDim (s := S1x320) S1000x320 ![0, 1] bcast_S1x320_S1000x320_0_1 _ (ix2 q i)) = _
  rw [broadcastInDim_apply ![0, 1] bcast_S1x320_S1000x320_0_1 _ (ix2 q i) (ix2 (0 : Fin 1) i)
      (fun a => match a with | ⟨0, _⟩ => rfl | ⟨1, _⟩ => rfl),
    broadcastInDim_apply ![1] bcast_S320_S1x320_1 _ (ix2 (0 : Fin 1) i) (ix1 i) (fun a => match a with | ⟨0, _⟩ => rfl),
    iotaInDim_apply]

/-- The wrapped index table, read at an index. -/
theorem wrapIdx_apply (q : Fin 1000) (i : Fin 320) :
    broadcastInDim S1000x320x1 ![0, 1] bcast_S1000x320_S1000x320x1_0_1
      (select (cmpi .slt a4 (broadcastInDim S1000x320 ![] bcast_S_S1000x320 (constantI S_ 32 0#32)))
        (addi a4 (broadcastInDim S1000x320 ![] bcast_S_S1000x320 (constantI S_ 32 320#32))) a4) (ix3 q i (0 : Fin 1))
      = wrap (a4 (ix2 q i)) := by
  rw [broadcastInDim_apply ![0, 1] bcast_S1000x320_S1000x320x1_0_1 _ (ix3 q i (0 : Fin 1)) (ix2 q i)
    (fun a => match a with | ⟨0, _⟩ => rfl | ⟨1, _⟩ => rfl), select_apply]
  show Scalar.select (IntOp.cmpi .slt (a4 (ix2 q i)) (broadcastInDim (s := S_) S1000x320 ![] bcast_S_S1000x320 (constantI S_ 32 0#32) (ix2 q i)))
      (IntOp.addi (a4 (ix2 q i)) (broadcastInDim (s := S_) S1000x320 ![] bcast_S_S1000x320 (constantI S_ 32 320#32) (ix2 q i))) (a4 (ix2 q i)) = _
  simp only [broadcastInDim_scalar_apply, constantI_apply]
  rfl

/-- The gathered row: the data at the wrapped index, clamped. -/
theorem v27_apply (q : Fin 1000) (i : Fin 320) (d : Fin 64) :
    res_main_v27 (F := Ideal) a0 a4 (ix3 q i d)
      = a0 (ix2 (⟨min (wrap (a4 (ix2 q i))).toInt.toNat 319, by omega⟩ : Fin 320) d) := by
  unfold res_main_v27
  refine (gatherRow_apply a0 _ q i d).trans (congrArg (fun z : Fin 320 => a0 (ix2 z d)) (Fin.ext ?_))
  show min (BitVec.toInt _).toNat 319 = min (wrap (a4 (ix2 q i))).toInt.toNat 319
  rw [wrapIdx_apply]

/-- The pair table of the factor lookup: (wrapped row position, wrapped index). -/
theorem v42_apply0 (q : Fin 1000) (i : Fin 320) :
    res_main_v42 (F := Ideal) a4 (ix3 q i (0 : Fin 2)) = wrap (BitVec.ofNat 32 i.val) := by
  unfold res_main_v42
  refine (concatenate_pair_apply_left (s₁ := S1000x320x1) (s₂ := S1000x320x1) (2 : Fin 3) _ _ concatenates_S1000x320x1_S1000x320x1_S1000x320x2_d2
    (ix3 q i (0 : Fin 2)) rfl (ix3 q i (0 : Fin 1))
    (fun b => match b with | ⟨0, _⟩ => rfl | ⟨1, _⟩ => rfl | ⟨2, _⟩ => rfl)).trans ?_
  rw [broadcastInDim_apply ![0, 1] bcast_S1000x320_S1000x320x1_0_1 _ (ix3 q i (0 : Fin 1)) (ix2 q i)
      (fun a => match a with | ⟨0, _⟩ => rfl | ⟨1, _⟩ => rfl),
    broadcastInDim_apply ![0, 1] bcast_S1x320_S1000x320_0_1 _ (ix2 q i) (ix2 (0 : Fin 1) i)
      (fun a => match a with | ⟨0, _⟩ => rfl | ⟨1, _⟩ => rfl),
    select_apply]
  show Scalar.select (IntOp.cmpi .slt (broadcastInDim (s := S320) S1x320 ![1] bcast_S320_S1x320_1 (iotaInDim S320 32 0) (ix2 (0 : Fin 1) i))
      (broadcastInDim (s := S_) S1x320 ![] bcast_S_S1x320 (constantI S_ 32 0#32) (ix2 (0 : Fin 1) i)))
    (IntOp.addi (broadcastInDim (s := S320) S1x320 ![1] bcast_S320_S1x320_1 (iotaInDim S320 32 0) (ix2 (0 : Fin 1) i))
      (broadcastInDim (s := S_) S1x320 ![] bcast_S_S1x320 (constantI S_ 32 320#32) (ix2 (0 : Fin 1) i)))
    (broadcastInDim (s := S320) S1x320 ![1] bcast_S320_S1x320_1 (iotaInDim S320 32 0) (ix2 (0 : Fin 1) i)) = _
  simp only [broadcastInDim_scalar_apply, constantI_apply,
    broadcastInDim_apply ![1] bcast_S320_S1x320_1 (iotaInDim S320 32 0) (ix2 (0 : Fin 1) i) (ix1 i) (fun a => match a with | ⟨0, _⟩ => rfl),
    iotaInDim_apply]
  rfl

theorem v42_apply1 (q : Fin 1000) (i : Fin 320) :
    res_main_v42 (F := Ideal) a4 (ix3 q i (1 : Fin 2)) = wrap (a4 (ix2 q i)) := by
  unfold res_main_v42
  refine (concatenate_pair_apply_right (s₁ := S1000x320x1) (s₂ := S1000x320x1) (2 : Fin 3) _ _ concatenates_S1000x320x1_S1000x320x1_S1000x320x2_d2
    (ix3 q i (1 : Fin 2)) rfl rfl (ix3 q i (0 : Fin 1))
    (fun b hb => match b, hb with | ⟨0, _⟩, _ => rfl | ⟨1, _⟩, _ => rfl | ⟨2, _⟩, hb => absurd rfl hb) rfl).trans ?_
  exact wrapIdx_apply a4 q i

/-- The factor of arrangement q + 1, row i: the factor matrix at the two clamped components of the pair. -/
theorem v48_apply (q : Fin 1000) (i : Fin 320) :
    res_main_v48 (F := Ideal) a1 a2 a3 a4 (ix3 q i (0 : Fin 1))
      = res_main_v19 (F := Ideal) a1 a2 a3
          (ix2 (⟨min (wrap (BitVec.ofNat 32 i.val)).toInt.toNat 319, by omega⟩ : Fin 320)
               (⟨min (wrap (a4 (ix2 q i))).toInt.toNat 319, by omega⟩ : Fin 320)) := by
  unfold res_main_v48 res_main_v43
  rw [broadcastInDim_apply ![0, 1] bcast_S1000x320_S1000x320x1_0_1 _ (ix3 q i (0 : Fin 1)) (ix2 q i)
    (fun a => match a with | ⟨0, _⟩ => rfl | ⟨1, _⟩ => rfl)]
  refine (gatherPt_apply _ _ q i).trans ?_
  have e0 : (⟨min (res_main_v42 (F := Ideal) a4 (ix3 q i (0 : Fin 2))).toInt.toNat 319, by omega⟩ : Fin 320)
      = ⟨min (wrap (BitVec.ofNat 32 i.val)).toInt.toNat 319, by omega⟩ :=
    Fin.ext (by show min (BitVec.toInt _).toNat 319 = _; rw [v42_apply0])
  have e1 : (⟨min (res_main_v42 (F := Ideal) a4 (ix3 q i (1 : Fin 2))).toInt.toNat 319, by omega⟩ : Fin 320)
      = ⟨min (wrap (a4 (ix2 q i))).toInt.toNat 319, by omega⟩ :=
    Fin.ext (by show min (BitVec.toInt _).toNat 319 = _; rw [v42_apply1])
  rw [e0, e1]

/-- A row of arrangement q + 1, before any range assumption. -/
theorem Aref_succ (q : Fin 1000) (i : Fin 320) (d : Fin 64) :
    Aref a0 a1 a2 a3 a4 (⟨q.val + 1, by omega⟩ : Fin 1001) i d
      = Scalar.select (res_main_v47 (F := Ideal) a4 (ix3 q i (0 : Fin 1))) (res_main_v27 (F := Ideal) a0 a4 (ix3 q i d))
          (res_main_v48 (F := Ideal) a1 a2 a3 a4 (ix3 q i (0 : Fin 1)) * res_main_v27 (F := Ideal) a0 a4 (ix3 q i d)) := by
  unfold Aref res_main_v53
  refine (concatenate_pair_apply_right (s₁ := S1x320x64) (s₂ := S1000x320x64) (0 : Fin 3) _ _ concatenates_S1x320x64_S1000x320x64_S1001x320x64_d0
    (ix3 (⟨q.val + 1, by omega⟩ : Fin 1001) i d) rfl rfl (ix3 q i d)
    (fun b hb => match b, hb with | ⟨0, _⟩, hb => absurd rfl hb | ⟨1, _⟩, _ => rfl | ⟨2, _⟩, _ => rfl) rfl).trans ?_
  rw [select_apply, mulf_apply,
    broadcastInDim_apply ![0, 1, 2] bcast_S1000x320x1_S1000x320x64_0_1_2 (res_main_v47 (F := Ideal) a4) (ix3 q i d) (ix3 q i (0 : Fin 1))
      (fun a => match a with | ⟨0, _⟩ => rfl | ⟨1, _⟩ => rfl | ⟨2, _⟩ => rfl),
    broadcastInDim_apply ![0, 1, 2] bcast_S1000x320x1_S1000x320x64_0_1_2 (res_main_v48 (F := Ideal) a1 a2 a3 a4) (ix3 q i d) (ix3 q i (0 : Fin 1))
      (fun a => match a with | ⟨0, _⟩ => rfl | ⟨1, _⟩ => rfl | ⟨2, _⟩ => rfl)]

/-- A row of arrangement q + 1 for an in-range index word x = perms[q, i]. -/
theorem Aref_succ_of_lt (q : Fin 1000) (i : Fin 320) (d : Fin 64) (hx : (a4 (ix2 q i)).toNat < 320) :
    Aref a0 a1 a2 a3 a4 (⟨q.val + 1, by omega⟩ : Fin 1001) i d
      = Scalar.select (IntOp.cmpi .eq (a4 (ix2 q i)) (BitVec.ofNat 32 i.val))
          (a0 (ix2 (⟨(a4 (ix2 q i)).toNat, hx⟩ : Fin 320) d))
          (res_main_v19 (F := Ideal) a1 a2 a3 (ix2 i (⟨(a4 (ix2 q i)).toNat, hx⟩ : Fin 320))
            * a0 (ix2 (⟨(a4 (ix2 q i)).toNat, hx⟩ : Fin 320) d)) := by
  have hi : (BitVec.ofNat 32 i.val).toNat < 320 := by rw [WordFacts.toNat_ofNat_lt]; exact i.isLt
  have e1 : (⟨min (wrap (a4 (ix2 q i))).toInt.toNat 319, by omega⟩ : Fin 320) = ⟨(a4 (ix2 q i)).toNat, hx⟩ :=
    Fin.ext (by show min (wrap (a4 (ix2 q i))).toInt.toNat 319 = _; rw [wrap_of_lt _ hx, WordFacts.clamp_id _ hx])
  have e2 : (⟨min (wrap (BitVec.ofNat 32 i.val)).toInt.toNat 319, by omega⟩ : Fin 320) = i :=
    Fin.ext (by show min (wrap (BitVec.ofNat 32 i.val)).toInt.toNat 319 = _; rw [wrap_of_lt _ hi, WordFacts.clamp_id _ hi, WordFacts.toNat_ofNat_lt])
  rw [Aref_succ, v47_apply, v27_apply, v48_apply, e1, e2]

end Cert.ReferenceIdeal.RefRead

end
-- ==== Proof.BridgeRows.lean ====
/-
  The two programs form the same rows. For arrangement p and row i let x be the index word: the position i itself
  for p = 0, and perms[p − 1, i] otherwise, below 320 by the precondition. The kernel's row is s · data[x] with
  s = 1 where x = i and s = F[i, x] otherwise; the reference's is data[x] where x = i and F[i, x] · data[x] otherwise
  (and plainly data[i] for p = 0). These agree case by case.
-/
import proofs.«138780_j25872882991128_2_alg».proof.Proof.KTables
import proofs.«138780_j25872882991128_2_alg».proof.Proof.RefRows
import proofs.«138780_j25872882991128_2_alg».proof.Proof.FactorRead

set_option maxRecDepth 16384

noncomputable section

namespace Cert.Proof.Bridge

open Idealize.ShloMosaic Idealize.ShloMosaic.ValueIdx StatSpec
open Cert.KernelIdeal.KVal (Arow rowAt kIdx kIdx3 kScale kScale3 kIdx_zero kIdx_succ kScale_apply_of_lt Arow_tables)
open Cert.ReferenceIdeal.RefRead (Aref Aref_zero Aref_succ_of_lt)
open Cert.ReferenceIdeal.RefRun (res_main_v19)

/-- Scaling by "1 where the row stayed, else the factor" is "the row where it stayed, else the factor times the row". -/
theorem scale_select (c : BitVec 1) (f y : EReal) :
    Scalar.select c (Ideal.ofBits .f32 0x3F800000#32) f * y = Scalar.select c y (f * y) := by
  unfold Scalar.select
  split
  · rw [FactorRead.ofBits_one]; exact one_mul y
  · rfl

variable (data : FVec Ideal ⟨2, ![320, 64]⟩ .f32) (fa fb : FVec Ideal ⟨0, ![]⟩ .f32) (tf : IVec ⟨1, ![320]⟩ 32)
  (perms : IVec ⟨2, ![1000, 320]⟩ 32)

/-- The kernel's row of arrangement p in terms of an index word x known to be the table's entry. -/
theorem krow_of_word (Fk : FVec Ideal ⟨2, ![320, 320]⟩ .f32) (p : Fin 1001) (i : Fin 320) (d : Fin 64)
    (x : BitVec 32) (hxe : kIdx perms (ix2 p i) = x) (hx : x.toNat < 320) :
    Arow data (rowAt (kIdx3 perms) p) (rowAt (kScale3 Fk perms) p) i d
      = Scalar.select (IntOp.cmpi .eq x (BitVec.ofNat 32 i.val)) (data (ix2 (⟨x.toNat, hx⟩ : Fin 320) d))
          (Fk (ix2 i (⟨x.toNat, hx⟩ : Fin 320)) * data (ix2 (⟨x.toNat, hx⟩ : Fin 320) d)) := by
  subst hxe
  rw [Arow_tables data Fk perms p i d hx, kScale_apply_of_lt Fk perms p i hx, scale_select]

/-- THE ROWS AGREE. -/
theorem rows_eq (hperm : ∀ j, (perms j).toNat < 320) (p : Fin 1001) (i : Fin 320) (d : Fin 64) :
    Arow data (rowAt (kIdx3 perms) p) (rowAt (kScale3 (res_main_v19 (F := Ideal) fa fb tf) perms) p) i d
      = Aref data fa fb tf perms p i d := by
  obtain ⟨pv, hpv⟩ := p
  cases pv with
  | zero =>
    have hi : (BitVec.ofNat 32 i.val).toNat < 320 := by rw [WordFacts.toNat_ofNat_lt]; exact i.isLt
    have e : (⟨(BitVec.ofNat 32 i.val).toNat, hi⟩ : Fin 320) = i := Fin.ext (WordFacts.toNat_ofNat_lt i)
    rw [krow_of_word data perms _ (⟨0, hpv⟩ : Fin 1001) i d (BitVec.ofNat 32 i.val) (kIdx_zero perms i) hi,
      (IntOp.cmpi_eq).mpr rfl, select_one, e]
    exact (Aref_zero data fa fb tf perms i d).symm
  | succ q =>
    have hq : q < 1000 := by omega
    rw [krow_of_word data perms _ (⟨q + 1, hpv⟩ : Fin 1001) i d (perms (ix2 (⟨q, hq⟩ : Fin 1000) i))
      (kIdx_succ perms ⟨q, hq⟩ i) (hperm _)]
    exact (Aref_succ_of_lt data fa fb tf perms ⟨q, hq⟩ i d (hperm _)).symm

end Cert.Proof.Bridge

end
-- ==== Proof.RefTail.lean ====
/-
  The reference's last stages read at an index.

  The values whose variance is taken form, per arrangement p, a row X of 51040 entries: the pair's factor times the
  square root of the pair's clamped squared distance. The program sums the row from 0.0, divides the sum by 51040.0
  to get the mean M, subtracts M from every entry, sums the squares of the differences from 0.0, and divides by
  51040.0 − 1; a final select on the test 51040.0 − 1 > 0, which holds, keeps that quotient. Each stage is read at an
  index: a sum over one axis is the initial value plus the sum over that axis's coordinate, a broadcast reads its
  operand at the coordinates it keeps, and the elementwise operations act entry by entry. The literals 0x47476000
  and 0x00000000 denote 51040 and 0, and the integer 1 converts to the real 1.
-/
import proofs.«138780_j25872882991128_2_alg».proof.Proof.RefStageDefs
import proofs.«138780_j25872882991128_2_alg».proof.Proof.StatSpec
import Idealize.ShloMosaic.PureOps.Ideal.Laws
import Idealize.ShloMosaic.Lib.ValueIdx
import Idealize.ShloMosaic.Lib.Pipeline.Value

noncomputable section

namespace Cert.ReferenceIdeal.RefRead

open Cert.ReferenceIdeal Cert.ReferenceIdeal.Gen Cert.ReferenceIdeal.RefRun Idealize.ShloMosaic Idealize.ShloMosaic.ValueIdx

/-- The f32 pattern 0x47476000 denotes 51040. -/
theorem ofBits_51040 : Ideal.ofBits .f32 0x47476000#32 = ((51040 : ℝ) : EReal) := by
  simp [Ideal.ofBits, Ideal.ieee, -EReal.coe_mul]; norm_num

/-- Dropping the second axis of a 1001 x 51040 index leaves a 1001 index. -/
theorem reduces_d1 : S1001x51040.Reduces [1] S1001 := by decide

/-- Inserting the coordinate k at the second axis of the row index p gives the entry (p, k). -/
theorem lift_ix (p : Fin 1001) (k : Fin 51040) : reduces_d1.lift (ix1 p) k = ix2 p k := by
  funext a
  match a with
  | ⟨0, _⟩ => exact Fin.ext rfl
  | ⟨1, _⟩ => exact Fin.ext rfl

/-- A row sum read at a row. -/
theorem rowSum_apply (x : FVec Ideal S1001x51040 .f32) (init : FVec Ideal S_ .f32) (p : Fin 1001) :
    Host.reduceAdd x init reducesTo_S1001x51040_S1001_d1 h_S_ (ix1 p) = init ix0 + ∑ r : Fin 51040, x (ix2 p r) := by
  have e : init (Shape.Idx.first h_S_) = init ix0 := congrArg init (eq_ix0 _)
  refine (Ideal.hostReduceAdd_single reducesTo_S1001x51040_S1001_d1 reduces_d1 x (init (Shape.Idx.first h_S_)) (ix1 p)).trans ?_
  rw [e]
  refine congrArg (fun z => init ix0 + z) ?_
  exact Finset.sum_congr rfl fun k _ => congrArg x (lift_ix p k)

/-- A scalar broadcast to any shape reads the scalar everywhere. -/
theorem bcast0_apply {α : Type} {t : Shape} (h : S_.BroadcastsInDim t (![] : Fin 0 → Fin t.rank)) (x : S_.Idx → α) (j : t.Idx) :
    broadcastInDim t ![] h x j = x ix0 :=
  broadcastInDim_apply ![] h x j ix0 (fun a => a.elim0)

/-- The row vector as a column, read at a row. -/
theorem col_apply {α : Type} (x : S1001.Idx → α) (p : Fin 1001) (z : Fin 1) :
    broadcastInDim S1001x1 ![0] bcast_S1001_S1001x1_0 x (ix2 p z) = x (ix1 p) :=
  broadcastInDim_apply ![0] bcast_S1001_S1001x1_0 x (ix2 p z) (ix1 p) (fun a => match a with | ⟨0, _⟩ => rfl)

/-- The column spread along the rows, read at an entry. -/
theorem spread_apply {α : Type} (x : S1001x1.Idx → α) (p : Fin 1001) (r : Fin 51040) :
    broadcastInDim S1001x51040 ![0, 1] bcast_S1001x1_S1001x51040_0_1 x (ix2 p r) = x (ix2 p (0 : Fin 1)) :=
  broadcastInDim_apply ![0, 1] bcast_S1001x1_S1001x51040_0_1 x (ix2 p r) (ix2 p (0 : Fin 1))
    (fun a => match a with | ⟨0, _⟩ => rfl | ⟨1, _⟩ => rfl)

/-- The centring stage read at an entry: the entry less the row's sum over 51040. -/
theorem centre_apply (X : FVec Ideal S1001x51040 .f32) (v0 : FVec Ideal S1001 .f32) (p : Fin 1001) (r : Fin 51040) :
    subf X (broadcastInDim S1001x51040 ![0, 1] bcast_S1001x1_S1001x51040_0_1
        (Host.divf (broadcastInDim S1001x1 ![0] bcast_S1001_S1001x1_0 v0)
          (broadcastInDim S1001x1 ![] bcast_S_S1001x1 (constant S_ .f32 0x47476000#32)))) (ix2 p r)
      = X (ix2 p r) - Ideal.div (v0 (ix1 p)) ((51040 : ℝ) : EReal) := by
  rw [subf_apply, spread_apply]
  show X (ix2 p r) - Ideal.div (broadcastInDim S1001x1 ![0] bcast_S1001_S1001x1_0 v0 (ix2 p (0 : Fin 1)))
      (broadcastInDim S1001x1 ![] bcast_S_S1001x1 (constant (F := Ideal) S_ .f32 0x47476000#32) (ix2 p (0 : Fin 1))) = _
  rw [col_apply, bcast0_apply, constant_apply, ofBits_51040]

/-- The count less one, as the program spells it. -/
theorem count_sub_one :
    subf (constant (F := Ideal) S_ .f32 0x47476000#32) (sitofp .f32 (constantI S_ 32 1#32)) ix0
      = ((51040 : ℝ) : EReal) - ((1 : ℝ) : EReal) := by
  show Ideal.ofBits .f32 0x47476000#32 - (((1#32 : BitVec 32).toInt : ℝ) : EReal) = _
  rw [ofBits_51040]
  have e : ((1#32 : BitVec 32).toInt : ℝ) = 1 := by norm_num
  rw [e]

/-- The final stage read at a row: the test 51040 − 1 > 0 holds, so the select keeps the quotient. -/
theorem final_apply (v9 : FVec Ideal S1001 .f32) (p : Fin 1001) :
    select (broadcastInDim S1001 ![] bcast_S_S1001
        (cmpf .ogt (subf (constant (F := Ideal) S_ .f32 0x47476000#32) (sitofp .f32 (constantI S_ 32 1#32)))
          (constant (F := Ideal) S_ .f32 0x00000000#32)))
      (Host.divf v9 (broadcastInDim S1001 ![] bcast_S_S1001
        (subf (constant (F := Ideal) S_ .f32 0x47476000#32) (sitofp .f32 (constantI S_ 32 1#32)))))
      (broadcastInDim S1001 ![] bcast_S_S1001 (id (constant (F := Ideal) S_ .f32 0x7FC00000#32))) (ix1 p)
      = Ideal.div (v9 (ix1 p)) (((51040 : ℝ) : EReal) - ((1 : ℝ) : EReal)) := by
  rw [select_apply, bcast0_apply, cmpf_apply, count_sub_one]
  have hc : FloatOps.cmpf (F := Ideal) (φ := .f32) .ogt (((51040 : ℝ) : EReal) - ((1 : ℝ) : EReal))
      (constant (F := Ideal) S_ .f32 0x00000000#32 ix0) = 1#1 := by
    show Ideal.cmp .ogt (((51040 : ℝ) : EReal) - ((1 : ℝ) : EReal)) (Ideal.ofBits .f32 0x00000000#32) = 1#1
    rw [Ideal.ofBits_zero_f32, ← EReal.coe_sub]
    have hpos : (0 : EReal) < ((51040 - 1 : ℝ) : EReal) := by exact_mod_cast (by norm_num : (0 : ℝ) < 51040 - 1)
    show BitVec.ofBool (decide ((0 : EReal) < ((51040 - 1 : ℝ) : EReal))) = 1#1
    rw [decide_eq_true hpos]
    rfl
  rw [hc, select_one]
  show Ideal.div (v9 (ix1 p)) (broadcastInDim S1001 ![] bcast_S_S1001
      (subf (constant (F := Ideal) S_ .f32 0x47476000#32) (sitofp .f32 (constantI S_ 32 1#32))) (ix1 p)) = _
  rw [bcast0_apply, count_sub_one]

/-- The list of factors as a row, read at an entry. -/
theorem row_apply {α : Type} (x : S51040.Idx → α) (z : Fin 1) (r : Fin 51040) :
    broadcastInDim S1x51040 ![1] bcast_S51040_S1x51040_1 x (ix2 z r) = x (ix1 r) :=
  broadcastInDim_apply ![1] bcast_S51040_S1x51040_1 x (ix2 z r) (ix1 r) (fun a => match a with | ⟨0, _⟩ => rfl)

/-- The row repeated for every arrangement, read at an entry. -/
theorem repeat_apply {α : Type} (x : S1x51040.Idx → α) (p : Fin 1001) (r : Fin 51040) :
    broadcastInDim S1001x51040 ![0, 1] bcast_S1x51040_S1001x51040_0_1 x (ix2 p r) = x (ix2 (0 : Fin 1) r) :=
  broadcastInDim_apply ![0, 1] bcast_S1x51040_S1001x51040_0_1 x (ix2 p r) (ix2 (0 : Fin 1) r)
    (fun a => match a with | ⟨0, _⟩ => rfl | ⟨1, _⟩ => rfl)

/-- The weighting stage read at an entry: the pair's factor times the square root of the entry. -/
theorem weighted_apply (w : FVec Ideal S51040 .f32) (D : FVec Ideal S1001x51040 .f32) (p : Fin 1001) (r : Fin 51040) :
    mulf (broadcastInDim S1001x51040 ![0, 1] bcast_S1x51040_S1001x51040_0_1
        (broadcastInDim S1x51040 ![1] bcast_S51040_S1x51040_1 w)) (Host.sqrt D) (ix2 p r)
      = w (ix1 r) * Ideal.sqrt (D (ix2 p r)) := by
  rw [mulf_apply, repeat_apply, row_apply]
  rfl

/-! ### The named stages of the reference's tail -/

section Stages

variable (a0 : (⟨S320x64, .f32⟩ : BufTy).Contents (Elt Ideal)) (a1 a2 : (⟨S_, .f32⟩ : BufTy).Contents (Elt Ideal))
  (a3 : (⟨S320, .i32⟩ : BufTy).Contents (Elt Ideal)) (a4 : (⟨S1000x320, .i32⟩ : BufTy).Contents (Elt Ideal))

/-- The values whose variance is taken: the pair's factor times the square root of its clamped squared distance. -/
theorem v118_apply (p : Fin 1001) (r : Fin 51040) :
    res_main_v118 (F := Ideal) a0 a1 a2 a3 a4 (ix2 p r)
      = res_main_v100 (F := Ideal) a1 a2 a3 (ix1 r) * Ideal.sqrt (res_main_v115 (F := Ideal) a0 a1 a2 a3 a4 (ix2 p r)) :=
  weighted_apply (res_main_v100 (F := Ideal) a1 a2 a3) (res_main_v115 (F := Ideal) a0 a1 a2 a3 a4) p r

/-- The row sums. -/
theorem call11_v0_apply (p : Fin 1001) :
    res_main_call11_v0 (F := Ideal) a0 a1 a2 a3 a4 (ix1 p)
      = 0 + ∑ r : Fin 51040, res_main_v118 (F := Ideal) a0 a1 a2 a3 a4 (ix2 p r) := by
  refine (rowSum_apply (res_main_v118 (F := Ideal) a0 a1 a2 a3 a4) (constant S_ .f32 0x00000000#32) p).trans ?_
  rw [constant_apply, Ideal.ofBits_zero_f32]

/-- The centred values. -/
theorem call11_v5_apply (p : Fin 1001) (r : Fin 51040) :
    res_main_call11_v5 (F := Ideal) a0 a1 a2 a3 a4 (ix2 p r)
      = res_main_v118 (F := Ideal) a0 a1 a2 a3 a4 (ix2 p r)
        - Ideal.div (0 + ∑ r : Fin 51040, res_main_v118 (F := Ideal) a0 a1 a2 a3 a4 (ix2 p r)) ((51040 : ℝ) : EReal) := by
  refine (centre_apply (res_main_v118 (F := Ideal) a0 a1 a2 a3 a4) (res_main_call11_v0 (F := Ideal) a0 a1 a2 a3 a4) p r).trans ?_
  rw [call11_v0_apply]

/-- The sums of the squared centred values. -/
theorem call11_v9_apply (p : Fin 1001) :
    res_main_call11_v9 (F := Ideal) a0 a1 a2 a3 a4 (ix1 p)
      = 0 + ∑ r : Fin 51040,
          (res_main_v118 (F := Ideal) a0 a1 a2 a3 a4 (ix2 p r)
            - Ideal.div (0 + ∑ r : Fin 51040, res_main_v118 (F := Ideal) a0 a1 a2 a3 a4 (ix2 p r)) ((51040 : ℝ) : EReal))
          * (res_main_v118 (F := Ideal) a0 a1 a2 a3 a4 (ix2 p r)
            - Ideal.div (0 + ∑ r : Fin 51040, res_main_v118 (F := Ideal) a0 a1 a2 a3 a4 (ix2 p r)) ((51040 : ℝ) : EReal)) := by
  refine (rowSum_apply (mulf (res_main_call11_v5 (F := Ideal) a0 a1 a2 a3 a4) (res_main_call11_v5 (F := Ideal) a0 a1 a2 a3 a4))
    (constant S_ .f32 0x00000000#32) p).trans ?_
  rw [constant_apply, Ideal.ofBits_zero_f32]
  refine congrArg (fun z => (0 : EReal) + z) (Finset.sum_congr rfl fun r _ => ?_)
  rw [mulf_apply, call11_v5_apply]

/-- The result at arrangement p: the sum of the squared deviations of the row from its mean, over 51040 − 1. -/
theorem v119_apply (p : Fin 1001) :
    res_main_v119 (F := Ideal) a0 a1 a2 a3 a4 (ix1 p)
      = Ideal.div
          (0 + ∑ r : Fin 51040,
            (res_main_v118 (F := Ideal) a0 a1 a2 a3 a4 (ix2 p r)
              - Ideal.div (0 + ∑ r : Fin 51040, res_main_v118 (F := Ideal) a0 a1 a2 a3 a4 (ix2 p r)) ((51040 : ℝ) : EReal))
            * (res_main_v118 (F := Ideal) a0 a1 a2 a3 a4 (ix2 p r)
              - Ideal.div (0 + ∑ r : Fin 51040, res_main_v118 (F := Ideal) a0 a1 a2 a3 a4 (ix2 p r)) ((51040 : ℝ) : EReal)))
          (((51040 : ℝ) : EReal) - ((1 : ℝ) : EReal)) := by
  refine (final_apply (res_main_call11_v9 (F := Ideal) a0 a1 a2 a3 a4) p).trans ?_
  rw [call11_v9_apply]

/-- If the weighting stage lists, for each pair r, the factor at the pair (iu r, ju r) and the clamped squared distance
    of the rows iu r and ju r of A, then its entries are the listed values of the statistic. -/
theorem v118_eq_pairVal (Fm : Fin 320 → Fin 320 → EReal) (A : Fin 320 → Fin 64 → EReal) (iu ju : Fin 51040 → Fin 320)
    (p : Fin 1001) (r : Fin 51040)
    (hw : res_main_v100 (F := Ideal) a1 a2 a3 (ix1 r) = Fm (iu r) (ju r))
    (hD : res_main_v115 (F := Ideal) a0 a1 a2 a3 a4 (ix2 p r) = StatSpec.sq A (iu r) (ju r)) :
    res_main_v118 (F := Ideal) a0 a1 a2 a3 a4 (ix2 p r) = StatSpec.pairVal Fm A iu ju r := by
  rw [v118_apply, hw, hD]
  rfl

/-- If the row of arrangement p lists the values of the statistic, the result at p is the reference's formula. -/
theorem v119_eq_rvar (Fm : Fin 320 → Fin 320 → EReal) (A : Fin 320 → Fin 64 → EReal) (iu ju : Fin 51040 → Fin 320)
    (p : Fin 1001)
    (hX : ∀ r : Fin 51040, res_main_v118 (F := Ideal) a0 a1 a2 a3 a4 (ix2 p r) = StatSpec.pairVal Fm A iu ju r) :
    res_main_v119 (F := Ideal) a0 a1 a2 a3 a4 (ix1 p) = StatSpec.rvar Fm A iu ju := by
  rw [v119_apply]
  simp only [hX]
  rfl

end Stages

end Cert.ReferenceIdeal.RefRead

end
-- ==== Proof.StatAlgebra.lean ====
/-
  The kernel's whole-matrix formula and the reference's pair-list formula give the same value.

  All inputs are real numbers (finite extended reals), so every intermediate quantity of both formulas is the
  coercion of the corresponding real expression: a finite sum of coercions is the coercion of the sum, products,
  differences and maxima commute with the coercion, the square root of a nonnegative real is the real square root,
  and division by a nonzero real is the product with its reciprocal.

  Write g i j = f i j · √(sqz i j) for the real factor matrix f and the real clamped squared distances with the
  diagonal forced to zero. Then g is symmetric (f is, and the Gram matrix is) with zero diagonal (√0 = 0), and
  g² = f² · sqz because sqz ≥ 0. The kernel's two sums are Σ_ij g² and Σ_ij g. The reference's list enumerates
  the pairs i < j, where sqz = sq, so its sums are sums over those pairs of g and of (g − mean)². The identity
  between the two is the real-number identity for the unbiased variance of the entries above the diagonal of a
  symmetric matrix with zero diagonal, with 320 · 319 / 2 = 51040 pairs.
-/
import proofs.«138780_j25872882991128_2_alg».proof.Proof.StatSpec
import proofs.«138780_j25872882991128_2_alg».proof.Proof.LibPairVariance

noncomputable section

namespace StatSpec

open Idealize.ShloMosaic

/-! ### The coercion of a finite sum -/

theorem coe_sum {ι : Type*} (s : Finset ι) (h : ι → ℝ) :
    ((∑ i ∈ s, h i : ℝ) : EReal) = ∑ i ∈ s, (h i : EReal) := by
  classical
  refine Finset.induction_on s (by simp) ?_
  intro x s hx ih
  rw [Finset.sum_insert hx, Finset.sum_insert hx, EReal.coe_add, ih]

theorem coe_sum2 (h : Fin 320 → Fin 320 → ℝ) :
    ((∑ i, ∑ j, h i j : ℝ) : EReal) = ∑ i, ∑ j, (h i j : EReal) := by
  rw [coe_sum]
  exact Finset.sum_congr rfl fun i _ => coe_sum _ _

/-- The square root of a nonnegative real, as an extended real, is the real square root. -/
theorem sqrt_coe_of_nonneg {s : ℝ} (h : 0 ≤ s) : Ideal.sqrt (s : EReal) = (Real.sqrt s : EReal) := by
  rw [Ideal.sqrt_coe, if_neg (not_lt.mpr h)]

/-! ### The real counterparts of the quantities of the two formulas -/

/-- The squared norm of row `i`, over the reals. -/
def snR (a : Fin 320 → Fin 64 → ℝ) (i : Fin 320) : ℝ := ∑ d, a i d * a i d

/-- The inner product of rows `i` and `j`, over the reals. -/
def gramR (a : Fin 320 → Fin 64 → ℝ) (i j : Fin 320) : ℝ := ∑ d, a i d * a j d

/-- The clamped squared distance, over the reals. -/
def sqR (a : Fin 320 → Fin 64 → ℝ) (i j : Fin 320) : ℝ := max (snR a i + snR a j - 2 * gramR a i j) 0

/-- The same with the diagonal forced to zero. -/
def sqzR (a : Fin 320 → Fin 64 → ℝ) (i j : Fin 320) : ℝ := if i = j then 0 else sqR a i j

/-- The weighted distance matrix with zero diagonal. -/
def gR (f : Fin 320 → Fin 320 → ℝ) (a : Fin 320 → Fin 64 → ℝ) (i j : Fin 320) : ℝ := f i j * Real.sqrt (sqzR a i j)

/-- The weighted distance matrix as the reference lists it (the diagonal not forced). -/
def gR' (f : Fin 320 → Fin 320 → ℝ) (a : Fin 320 → Fin 64 → ℝ) (i j : Fin 320) : ℝ := f i j * Real.sqrt (sqR a i j)

theorem sqR_nonneg (a : Fin 320 → Fin 64 → ℝ) (i j : Fin 320) : 0 ≤ sqR a i j := le_max_right _ _

theorem sqzR_nonneg (a : Fin 320 → Fin 64 → ℝ) (i j : Fin 320) : 0 ≤ sqzR a i j := by
  unfold sqzR
  by_cases h : i = j
  · rw [if_pos h]
  · rw [if_neg h]
    exact sqR_nonneg a i j

theorem gramR_comm (a : Fin 320 → Fin 64 → ℝ) (i j : Fin 320) : gramR a i j = gramR a j i := by
  unfold gramR
  exact Finset.sum_congr rfl fun d _ => mul_comm _ _

theorem sqR_comm (a : Fin 320 → Fin 64 → ℝ) (i j : Fin 320) : sqR a i j = sqR a j i := by
  unfold sqR
  rw [gramR_comm a i j, add_comm (snR a i)]

theorem sqzR_comm (a : Fin 320 → Fin 64 → ℝ) (i j : Fin 320) : sqzR a i j = sqzR a j i := by
  unfold sqzR
  by_cases h : i = j
  · rw [if_pos h, if_pos h.symm]
  · rw [if_neg h, if_neg (Ne.symm h), sqR_comm]

theorem gR_comm (f : Fin 320 → Fin 320 → ℝ) (a : Fin 320 → Fin 64 → ℝ) (hfsym : ∀ i j, f i j = f j i) (i j : Fin 320) :
    gR f a i j = gR f a j i := by
  unfold gR
  rw [hfsym i j, sqzR_comm a i j]

theorem gR_diag (f : Fin 320 → Fin 320 → ℝ) (a : Fin 320 → Fin 64 → ℝ) (i : Fin 320) : gR f a i i = 0 := by
  unfold gR sqzR
  rw [if_pos rfl, Real.sqrt_zero, mul_zero]

/-- Off the diagonal the two weighted matrices agree. -/
theorem gR'_eq_gR (f : Fin 320 → Fin 320 → ℝ) (a : Fin 320 → Fin 64 → ℝ) {i j : Fin 320} (h : i ≠ j) :
    gR' f a i j = gR f a i j := by
  unfold gR' gR sqzR
  rw [if_neg h]

/-- The square of the weighted distance is the squared weight times the squared distance. -/
theorem gR_sq (f : Fin 320 → Fin 320 → ℝ) (a : Fin 320 → Fin 64 → ℝ) (i j : Fin 320) :
    gR f a i j ^ 2 = f i j * f i j * sqzR a i j := by
  unfold gR
  rw [mul_pow, Real.sq_sqrt (sqzR_nonneg a i j)]
  ring

/-! ### Every quantity of the two formulas is the coercion of its real counterpart -/

section Coe

variable {Fm F2 : Fin 320 → Fin 320 → EReal} {A : Fin 320 → Fin 64 → EReal}
  {f : Fin 320 → Fin 320 → ℝ} {a : Fin 320 → Fin 64 → ℝ}

theorem sn_coe (ha : ∀ i d, A i d = (a i d : EReal)) (i : Fin 320) : sn A i = (snR a i : EReal) := by
  unfold sn snR
  rw [coe_sum]
  refine Finset.sum_congr rfl fun d _ => ?_
  rw [ha i d, EReal.coe_mul]

theorem gram_coe (ha : ∀ i d, A i d = (a i d : EReal)) (i j : Fin 320) : gram A i j = (gramR a i j : EReal) := by
  unfold gram gramR
  rw [coe_sum]
  refine Finset.sum_congr rfl fun d _ => ?_
  rw [ha i d, ha j d, EReal.coe_mul]

theorem sq_coe (ha : ∀ i d, A i d = (a i d : EReal)) (i j : Fin 320) : sq A i j = (sqR a i j : EReal) := by
  unfold sq sqR
  rw [sn_coe ha i, sn_coe ha j, gram_coe ha i j, EReal.coe_strictMono.monotone.map_max, EReal.coe_sub, EReal.coe_add,
    EReal.coe_mul, EReal.coe_zero]

theorem sqz_coe (ha : ∀ i d, A i d = (a i d : EReal)) (i j : Fin 320) : sqz A i j = (sqzR a i j : EReal) := by
  unfold sqz sqzR
  by_cases h : i = j
  · rw [if_pos h, if_pos h, EReal.coe_zero]
  · rw [if_neg h, if_neg h, sq_coe ha]

/-- The kernel's first sum: Σ_ij F2 · sqz is the sum of the squares of the weighted distances. -/
theorem sumF2_coe (hf : ∀ i j, Fm i j = (f i j : EReal)) (hF2 : ∀ i j, F2 i j = Fm i j * Fm i j)
    (ha : ∀ i d, A i d = (a i d : EReal)) :
    ∑ i, ∑ j, F2 i j * sqz A i j = ((∑ i, ∑ j, gR f a i j ^ 2 : ℝ) : EReal) := by
  rw [coe_sum2]
  refine Finset.sum_congr rfl fun i _ => Finset.sum_congr rfl fun j _ => ?_
  rw [hF2 i j, hf i j, sqz_coe ha i j, ← EReal.coe_mul, ← EReal.coe_mul, gR_sq]

/-- The kernel's second sum: Σ_ij Fm · √sqz is the sum of the weighted distances. -/
theorem sumFm_coe (hf : ∀ i j, Fm i j = (f i j : EReal)) (ha : ∀ i d, A i d = (a i d : EReal)) :
    ∑ i, ∑ j, Fm i j * Ideal.sqrt (sqz A i j) = ((∑ i, ∑ j, gR f a i j : ℝ) : EReal) := by
  rw [coe_sum2]
  refine Finset.sum_congr rfl fun i _ => Finset.sum_congr rfl fun j _ => ?_
  rw [hf i j, sqz_coe ha i j, sqrt_coe_of_nonneg (sqzR_nonneg a i j), ← EReal.coe_mul]
  rfl

/-- The kernel's formula as a real number. -/
theorem kvar_coe (hf : ∀ i j, Fm i j = (f i j : EReal)) (hF2 : ∀ i j, F2 i j = Fm i j * Fm i j)
    (ha : ∀ i d, A i d = (a i d : EReal)) :
    kvar Fm F2 A
      = ((((∑ i, ∑ j, gR f a i j ^ 2) * (1 / 2)
            - ((∑ i, ∑ j, gR f a i j) * (∑ i, ∑ j, gR f a i j)) * (1 / 204160)) * (1 / 51039) : ℝ) : EReal) := by
  unfold kvar
  rw [sumF2_coe hf hF2 ha, sumFm_coe hf ha]
  simp only [← EReal.coe_mul, ← EReal.coe_sub]

/-- The value the reference lists for its pair `r`, as a real number. -/
theorem pairVal_coe (hf : ∀ i j, Fm i j = (f i j : EReal)) (ha : ∀ i d, A i d = (a i d : EReal))
    (iu ju : Fin 51040 → Fin 320) (r : Fin 51040) :
    pairVal Fm A iu ju r = (gR' f a (iu r) (ju r) : EReal) := by
  unfold pairVal gR'
  rw [hf, sq_coe ha, sqrt_coe_of_nonneg (sqR_nonneg a _ _), ← EReal.coe_mul]

end Coe

/-- There are 51040 pairs above the diagonal of a 320 x 320 matrix. -/
theorem card_ltPairs_320 : (PairVariance.ltPairs 320).card = 51040 := by
  have h := PairVariance.two_mul_card_ltPairs 320
  omega

section Ref

variable {Fm : Fin 320 → Fin 320 → EReal} {A : Fin 320 → Fin 64 → EReal}
  {f : Fin 320 → Fin 320 → ℝ} {a : Fin 320 → Fin 64 → ℝ} {iu ju : Fin 51040 → Fin 320}

/-- A sum over the pairs above the diagonal does not see the diagonal. -/
theorem sum_ltPairs_gR' (f : Fin 320 → Fin 320 → ℝ) (a : Fin 320 → Fin 64 → ℝ) (φ : ℝ → ℝ) :
    ∑ p ∈ PairVariance.ltPairs 320, φ (gR' f a p.1 p.2) = ∑ p ∈ PairVariance.ltPairs 320, φ (gR f a p.1 p.2) := by
  refine Finset.sum_congr rfl fun p hp => ?_
  rw [gR'_eq_gR f a (ne_of_lt (PairVariance.mem_ltPairs.mp hp))]

/-- The mean of the listed values, as a real number. -/
theorem pairMean_coe (hf : ∀ i j, Fm i j = (f i j : EReal)) (ha : ∀ i d, A i d = (a i d : EReal))
    (henum : ∀ h : Fin 320 → Fin 320 → ℝ, ∑ r : Fin 51040, h (iu r) (ju r) = ∑ p ∈ PairVariance.ltPairs 320, h p.1 p.2) :
    pairMean Fm A iu ju = (((∑ p ∈ PairVariance.ltPairs 320, gR f a p.1 p.2) / 51040 : ℝ) : EReal) := by
  have hs : ∑ r, pairVal Fm A iu ju r = ((∑ p ∈ PairVariance.ltPairs 320, gR f a p.1 p.2 : ℝ) : EReal) := by
    rw [← sum_ltPairs_gR' f a (fun x => x), ← henum (gR' f a), coe_sum]
    exact Finset.sum_congr rfl fun r _ => pairVal_coe hf ha iu ju r
  unfold pairMean
  rw [zero_add, hs, Ideal.div_coe (by norm_num : (51040 : ℝ) ≠ 0), ← EReal.coe_mul, mul_one_div]

/-- The reference's formula as a real number. -/
theorem rvar_coe (hf : ∀ i j, Fm i j = (f i j : EReal)) (ha : ∀ i d, A i d = (a i d : EReal))
    (henum : ∀ h : Fin 320 → Fin 320 → ℝ, ∑ r : Fin 51040, h (iu r) (ju r) = ∑ p ∈ PairVariance.ltPairs 320, h p.1 p.2) :
    rvar Fm A iu ju
      = (((∑ p ∈ PairVariance.ltPairs 320,
              (gR f a p.1 p.2 - (∑ p ∈ PairVariance.ltPairs 320, gR f a p.1 p.2) / 51040) ^ 2) / (51040 - 1) : ℝ) : EReal) := by
  unfold rvar
  rw [pairMean_coe hf ha henum]
  generalize (∑ p ∈ PairVariance.ltPairs 320, gR f a p.1 p.2) / 51040 = μ
  have hs : ∑ r, (pairVal Fm A iu ju r - (μ : EReal)) * (pairVal Fm A iu ju r - (μ : EReal))
      = ((∑ p ∈ PairVariance.ltPairs 320, (gR f a p.1 p.2 - μ) ^ 2 : ℝ) : EReal) := by
    have h2 : ∑ r, (gR' f a (iu r) (ju r) - μ) ^ 2 = ∑ p ∈ PairVariance.ltPairs 320, (gR' f a p.1 p.2 - μ) ^ 2 :=
      henum (fun i j => (gR' f a i j - μ) ^ 2)
    rw [← sum_ltPairs_gR' f a (fun x => (x - μ) ^ 2), ← h2, coe_sum]
    refine Finset.sum_congr rfl fun r _ => ?_
    rw [pairVal_coe hf ha iu ju r, ← EReal.coe_sub, ← EReal.coe_mul, pow_two]
  rw [zero_add, hs, ← EReal.coe_sub, Ideal.div_coe (by norm_num : (51040 - 1 : ℝ) ≠ 0), ← EReal.coe_mul, mul_one_div]

end Ref

/-- The kernel's formula over the whole matrix and the reference's formula over its list of the pairs above
    the diagonal give the same value, for real inputs and a symmetric real factor matrix. -/
theorem kvar_eq_rvar (Fm F2 : Fin 320 → Fin 320 → EReal) (A : Fin 320 → Fin 64 → EReal) (iu ju : Fin 51040 → Fin 320)
    (hF : ∀ i j, ∃ f : ℝ, Fm i j = (f : EReal)) (hsym : ∀ i j, Fm i j = Fm j i) (hF2 : ∀ i j, F2 i j = Fm i j * Fm i j)
    (hA : ∀ i d, ∃ a : ℝ, A i d = (a : EReal))
    (henum : ∀ h : Fin 320 → Fin 320 → ℝ, ∑ r : Fin 51040, h (iu r) (ju r) = ∑ p ∈ PairVariance.ltPairs 320, h p.1 p.2) :
    kvar Fm F2 A = rvar Fm A iu ju := by
  choose f hf using hF
  choose a ha using hA
  have hfsym : ∀ i j, f i j = f j i := fun i j => EReal.coe_injective (by rw [← hf i j, ← hf j i, hsym i j])
  have hm : ((PairVariance.ltPairs 320).card : ℝ) = 51040 := by
    rw [card_ltPairs_320]
    norm_num
  have key := PairVariance.pairVariance_eq_of_full_sums (gR f a) (gR_comm f a hfsym) (gR_diag f a) 51040 hm
    (by norm_num) (by norm_num)
  have e1 : (1 / (4 * 51040) : ℝ) = 1 / 204160 := by norm_num
  have e2 : (1 / (51040 - 1) : ℝ) = 1 / 51039 := by norm_num
  rw [kvar_coe hf hF2 ha, rvar_coe hf ha henum, key, e1, e2]

end StatSpec

end
-- ==== Proof.Final.lean ====
/-
  The two results are one number. For arrangement p, with F the common factor matrix and A the common rows:
  the reference's entry p is `rvar F A` over its pair list (its variance tail over the values F[iu r, ju r] · √sq),
  the kernel's is `kvar F (F · F) A`, and the two formulas agree because F is symmetric and real, A is real, and the
  pair list enumerates the pairs i < j once each.
-/
import proofs.«138780_j25872882991128_2_alg».proof.Proof.BridgeRows
import proofs.«138780_j25872882991128_2_alg».proof.Proof.RefTail
import proofs.«138780_j25872882991128_2_alg».proof.Proof.StatAlgebra

set_option maxRecDepth 16384

noncomputable section

namespace Cert.Proof.Final

open Idealize.ShloMosaic Idealize.ShloMosaic.ValueIdx StatSpec
open Cert.KernelIdeal.KVal (Arow rowAt kIdx kIdx3 kScale kScale3 mat)
open Cert.ReferenceIdeal.RefRead (Aref v66_apply v119_eq_rvar v118_eq_pairVal)
open Cert.ReferenceIdeal.RefRun (res_main_v19 res_main_v66 res_main_v100 res_main_v115 res_main_v118 res_main_v119)
open Cert.ReferenceIdeal Cert.ReferenceIdeal.Gen

variable (data : FVec Ideal ⟨2, ![320, 64]⟩ .f32) (fa fb : FVec Ideal ⟨0, ![]⟩ .f32) (tf : IVec ⟨1, ![320]⟩ 32)
  (perms : IVec ⟨2, ![1000, 320]⟩ 32)

/-- The factor matrix, typed as a float array. -/
def Fv : FVec Ideal ⟨2, ![320, 320]⟩ .f32 := res_main_v19 (F := Ideal) fa fb tf

/-- The reference's factor matrix is the common one. -/
theorem v19_eq_Fm : res_main_v19 (F := Ideal) fa fb tf
    = FactorRead.Fm bcast_S320x1_S320x320_0_1 bcast_S1x320_S320x320_0_1 bcast_S320_S320x1_0 bcast_S320_S1x320_1
        bcast_S_S320x1 bcast_S_S1x320 bcast_S_S320x320 fa fb tf := rfl

/-- The factor matrix as a function of row and column. -/
def Fmat : Fin 320 → Fin 320 → EReal := fun i j => res_main_v19 (F := Ideal) fa fb tf (ix2 i j)

theorem Fmat_real (hfa : ∃ r : ℝ, fa ix0 = (r : EReal)) (hfb : ∃ r : ℝ, fb ix0 = (r : EReal)) (i j : Fin 320) :
    ∃ f : ℝ, Fmat fa fb tf i j = (f : EReal) := by
  unfold Fmat; rw [v19_eq_Fm]; exact FactorRead.Fm_real _ _ _ _ _ _ _ fa fb tf hfa hfb i j

theorem Fmat_symm (i j : Fin 320) : Fmat fa fb tf i j = Fmat fa fb tf j i := by
  unfold Fmat; rw [v19_eq_Fm]; exact FactorRead.Fm_symm _ _ _ _ _ _ _ fa fb tf i j

variable (iu ju : Fin 51040 → Fin 320)

/-- The reference's entry p is its formula over the pair list. -/
theorem ref_value
    (h100 : ∀ r : Fin 51040, res_main_v100 (F := Ideal) fa fb tf (ix1 r) = res_main_v19 (F := Ideal) fa fb tf (ix2 (iu r) (ju r)))
    (h115 : ∀ (p : Fin 1001) (r : Fin 51040), res_main_v115 (F := Ideal) data fa fb tf perms (ix2 p r)
      = res_main_v66 (F := Ideal) data fa fb tf perms (ix3 p (iu r) (ju r)))
    (p : Fin 1001) :
    res_main_v119 (F := Ideal) data fa fb tf perms (ix1 p) = rvar (Fmat fa fb tf) (Aref data fa fb tf perms p) iu ju :=
  v119_eq_rvar data fa fb tf perms (Fmat fa fb tf) (Aref data fa fb tf perms p) iu ju p fun r =>
    v118_eq_pairVal data fa fb tf perms (Fmat fa fb tf) (Aref data fa fb tf perms p) iu ju p r (h100 r)
      ((h115 p r).trans (v66_apply data fa fb tf perms p (iu r) (ju r)))

/-- The common rows are real numbers. -/
theorem Aref_real (hdata : ∀ i, ∃ r : ℝ, data i = (r : EReal)) (hfa : ∃ r : ℝ, fa ix0 = (r : EReal))
    (hfb : ∃ r : ℝ, fb ix0 = (r : EReal)) (hperm : ∀ j, (perms j).toNat < 320) (p : Fin 1001) (i : Fin 320) (d : Fin 64) :
    ∃ a : ℝ, Aref data fa fb tf perms p i d = (a : EReal) := by
  obtain ⟨pv, hpv⟩ := p
  cases pv with
  | zero =>
    rw [show (⟨0, hpv⟩ : Fin 1001) = (0 : Fin 1001) from rfl, Cert.ReferenceIdeal.RefRead.Aref_zero]
    exact hdata _
  | succ q =>
    have hq : q < 1000 := by omega
    rw [show (⟨q + 1, hpv⟩ : Fin 1001) = (⟨(⟨q, hq⟩ : Fin 1000).val + 1, by omega⟩ : Fin 1001) from rfl,
      Cert.ReferenceIdeal.RefRead.Aref_succ_of_lt data fa fb tf perms ⟨q, hq⟩ i d (hperm _)]
    obtain ⟨r, hr⟩ := hdata (ix2 (⟨(perms (ix2 (⟨q, hq⟩ : Fin 1000) i)).toNat, hperm _⟩ : Fin 320) d)
    obtain ⟨f, hf⟩ := Fmat_real fa fb tf hfa hfb i ⟨(perms (ix2 (⟨q, hq⟩ : Fin 1000) i)).toNat, hperm _⟩
    unfold Scalar.select
    split
    · exact ⟨r, hr⟩
    · refine ⟨f * r, ?_⟩
      rw [hr, show res_main_v19 (F := Ideal) fa fb tf (ix2 i ⟨(perms (ix2 (⟨q, hq⟩ : Fin 1000) i)).toNat, hperm _⟩) = (f : EReal) from hf,
        EReal.coe_mul]

/-- THE TWO RESULTS AGREE at every arrangement. -/
theorem results_eq (hdata : ∀ i, ∃ r : ℝ, data i = (r : EReal)) (hfa : ∃ r : ℝ, fa ix0 = (r : EReal))
    (hfb : ∃ r : ℝ, fb ix0 = (r : EReal)) (hperm : ∀ j, (perms j).toNat < 320)
    (h100 : ∀ r : Fin 51040, res_main_v100 (F := Ideal) fa fb tf (ix1 r) = res_main_v19 (F := Ideal) fa fb tf (ix2 (iu r) (ju r)))
    (h115 : ∀ (p : Fin 1001) (r : Fin 51040), res_main_v115 (F := Ideal) data fa fb tf perms (ix2 p r)
      = res_main_v66 (F := Ideal) data fa fb tf perms (ix3 p (iu r) (ju r)))
    (henum : ∀ h : Fin 320 → Fin 320 → ℝ, ∑ r : Fin 51040, h (iu r) (ju r) = ∑ q ∈ PairVariance.ltPairs 320, h q.1 q.2)
    (p : Fin 1001) :
    kvar (mat (Fv fa fb tf)) (mat (mulf (Fv fa fb tf) (Fv fa fb tf)))
        (Arow data (rowAt (kIdx3 perms) p) (rowAt (kScale3 (Fv fa fb tf) perms) p))
      = res_main_v119 (F := Ideal) data fa fb tf perms (ix1 p) := by
  have hrows : Arow data (rowAt (kIdx3 perms) p) (rowAt (kScale3 (Fv fa fb tf) perms) p)
      = Aref data fa fb tf perms p :=
    funext fun i => funext fun d => Cert.Proof.Bridge.rows_eq data fa fb tf perms hperm p i d
  rw [hrows, ref_value data fa fb tf perms iu ju h100 h115 p]
  exact kvar_eq_rvar (Fmat fa fb tf) _ (Aref data fa fb tf perms p) iu ju
    (Fmat_real fa fb tf hfa hfb) (Fmat_symm fa fb tf) (fun i j => rfl)
    (Aref_real data fa fb tf perms hdata hfa hfb hperm p) henum

end Cert.Proof.Final

end
-- ==== Proof.PreFacts.lean ====
/-
  What the precondition gives.

  The printed predicate is the conjunction of four `all`-reductions: every entry of the data array, and each of the two
  scalars, has absolute value below +∞, and every entry of the table of arrangements lies in [0, 320) as a signed word.
  The predicate being all ones at its single index gives each conjunct; an `all`-reduction that is one gives its
  comparison at every index; a comparison `|x| < +∞` that holds says that x is neither infinity, so x is a real number;
  and the two signed comparisons 0 ≤ p and p < 320 say that the word p, read as a natural number, is below 320.
-/
import proofs.«138780_j25872882991128_2_alg».proof.Pre_finite_inputs
import proofs.«138780_j25872882991128_2_alg».proof.Proof.Gen.Pre_finite_inputs
import Idealize.ShloMosaic.Lib.ReduceAll
import Idealize.ShloMosaic.Lib.ValueIdx

namespace Cert.PreFacts

open Idealize.ShloMosaic Cert.Pre_finite_inputs

/-- The rank-0 shape has one index. -/
instance subsingleton_S_Idx : Subsingleton S_.Idx := ⟨fun a b => funext fun d => d.elim0⟩

/-- The f32 pattern with all exponent bits set and no fraction bit denotes +∞. -/
theorem ofBits_inf : Ideal.ofBits .f32 0x7F800000#32 = (⊤ : EReal) := by
  simp [Ideal.ofBits, Ideal.ieee]

/-- The ordered less-than comparison is one exactly when its operands are in that order. -/
theorem cmp_olt_eq_one {a b : EReal} : Ideal.cmp .olt a b = 1#1 ↔ a < b := by
  have hb : ∀ c : Bool, BitVec.ofBool c = 1#1 ↔ c = true := by decide
  simp only [Ideal.cmp, hb, decide_eq_true_eq]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison the predicate makes of one float, read back. -/
theorem real_of_cmp (x : EReal) (h : Ideal.cmp .olt (max x (-x)) (Ideal.ofBits .f32 0x7F800000#32) = 1#1) :
    ∃ r : ℝ, x = (r : EReal) := by
  rw [ofBits_inf, cmp_olt_eq_one] at h
  exact real_of_abs_lt_top x h

/-- A 32-bit word that is nonnegative and below 320 as a signed word is below 320 as a natural number. -/
theorem toNat_lt_of_signed (p : BitVec 32) (h0 : IntOp.cmpi .sge p 0#32 = 1#1) (h1 : IntOp.cmpi .slt p 320#32 = 1#1) :
    p.toNat < 320 := by
  rw [IntOp.cmpi_sge] at h0
  rw [IntOp.cmpi_slt] at h1
  have z0 : (0#32 : BitVec 32).toInt = 0 := by decide
  have z1 : (320#32 : BitVec 32).toInt = 320 := by decide
  rw [z0] at h0
  rw [z1] at h1
  have e := BitVec.toInt_eq_toNat_cond p
  have := p.isLt
  omega

section Pre

variable [Cert.Pre_finite_inputs.Facts]
variable {data : FVec Ideal S320x64 .f32} {fa fb : FVec Ideal S_ .f32} {tf : IVec S320 32} {perms : IVec S1000x320 32}

/-- The four conjuncts of the predicate, each an `all`-reduction that is one. -/
theorem conjuncts (hpre : Cert.Pre_finite_inputs.fn (F := Ideal) data fa fb tf perms = (fun _ => 1#1)) :
    (∀ i : S320x64.Idx, Ideal.cmp .olt (max (data i) (-(data i))) (Ideal.ofBits .f32 0x7F800000#32) = 1#1)
    ∧ (Ideal.cmp .olt (max (fa ValueIdx.ix0) (-(fa ValueIdx.ix0))) (Ideal.ofBits .f32 0x7F800000#32) = 1#1)
    ∧ (Ideal.cmp .olt (max (fb ValueIdx.ix0) (-(fb ValueIdx.ix0))) (Ideal.ofBits .f32 0x7F800000#32) = 1#1)
    ∧ (∀ j : S1000x320.Idx, IntOp.cmpi .sge (perms j) 0#32 = 1#1 ∧ IntOp.cmpi .slt (perms j) 320#32 = 1#1) := by
  have h0 := congrFun hpre ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, ?_, ?_, fun j => ?_⟩
  · exact Host.reduce_andi_all _ _ _ _ ValueIdx.ix0 h1 i
  · exact Host.reduce_andi_all _ _ _ _ ValueIdx.ix0 h2 ValueIdx.ix0
  · exact Host.reduce_andi_all _ _ _ _ ValueIdx.ix0 h3 ValueIdx.ix0
  · exact IntOp.andi_eq_one.1 (Host.reduce_andi_all _ _ _ _ ValueIdx.ix0 h4 j)

/-- (i) Every entry of the data array is a real number. -/
theorem data_real (hpre : Cert.Pre_finite_inputs.fn (F := Ideal) data fa fb tf perms = (fun _ => 1#1)) :
    ∀ i : S320x64.Idx, ∃ r : ℝ, data i = (r : EReal) :=
  fun i => real_of_cmp (data i) ((conjuncts hpre).1 i)

/-- (ii) The first scalar is a real number. -/
theorem fa_real (hpre : Cert.Pre_finite_inputs.fn (F := Ideal) data fa fb tf perms = (fun _ => 1#1)) :
    ∃ r : ℝ, fa ValueIdx.ix0 = (r : EReal) :=
  real_of_cmp (fa ValueIdx.ix0) (conjuncts hpre).2.1

/-- (ii) The second scalar is a real number. -/
theorem fb_real (hpre : Cert.Pre_finite_inputs.fn (F := Ideal) data fa fb tf perms = (fun _ => 1#1)) :
    ∃ r : ℝ, fb ValueIdx.ix0 = (r : EReal) :=
  real_of_cmp (fb ValueIdx.ix0) (conjuncts hpre).2.2.1

/-- (iii) Every entry of the table of arrangements, read as a natural number, is below 320. -/
theorem perms_lt (hpre : Cert.Pre_finite_inputs.fn (F := Ideal) data fa fb tf perms = (fun _ => 1#1)) :
    ∀ j : S1000x320.Idx, (perms j).toNat < 320 :=
  fun j => toNat_lt_of_signed (perms j) ((conjuncts hpre).2.2.2 j).1 ((conjuncts hpre).2.2.2 j).2

end Pre

end Cert.PreFacts
-- ==== Proof.lean ====
/-
  The exchangeability statistic: for each of the 1001 row arrangements of the 320 x 64 data (the identity and
  the 1000 given index rows), the rows are gathered and scaled by the statistics factor, the matrix of squared
  Euclidean distances between rows is formed by the Gram identity |a|^2 + |b|^2 - 2 a.b (clamped at zero), each
  distance is multiplied by the symmetric factor F, and the unbiased variance of the 51040 entries above the
  diagonal is returned.

  The reference takes that variance literally: it lists the pairs i < j (by a running count of the triangular
  mask, a histogram of the counts, a second running count and a division by 320), subtracts the mean and divides
  the centred sum of squares by 51040 - 1. The kernel sums F * sqrt(sq) and F^2 * sq over the WHOLE matrix with the
  diagonal forced to zero, and returns (sumsq * 1/2 - sum * sum * 1/204160) * 1/51039. Both matrices are symmetric
  with zero diagonal, so each whole-matrix sum is twice the sum above the diagonal, and the centred sum of squares
  is the sum of squares less the squared sum over 51040: the two are one real number (Proof/LibPairVariance.lean,
  Proof/StatAlgebra.lean). The identity needs every entry to be a real number (finite inputs), the two folded
  reciprocals to be the exact rationals 1/204160 and 1/51039, and every index to lie in [0, 320): the kernel gathers
  by a 0/1 selection matrix, whose row is empty for an index outside the range, where the reference's gather clamps.

  The modules: what one trip of the kernel's loop stores and the block, the array and the result that follow
  (Proof/KTrip, KBlock, KArr, KRun); the trip's arithmetic read at an index as the kernel's formula (KPayA, KPayB);
  the tables the kernel's wrapper prepares (KTables, KGather, KHost, KValue); the reference's run and its stages
  (RefOps, RefFrame, RefStageDefs, RefEq); its rows, distances, pair lookups and variance tail read at an index
  (RefGather, RefRows, RefSq, RefPairs, RefTail); the pair list as an enumeration of the pairs i < j (TriuEnumA-F,
  TriuEnum); the factor matrix (FactorRead); what the precondition gives (PreFacts); and the equality of the two
  results (BridgeRows, Final).
-/
import proofs.«138780_j25872882991128_2_alg».proof.Defs
import proofs.«138780_j25872882991128_2_alg».proof.Proof.Gen.Kernel
import proofs.«138780_j25872882991128_2_alg».proof.Proof.Gen.Kernel.Skeleton
import proofs.«138780_j25872882991128_2_alg».proof.Proof.Gen.Kernel.Loops
import proofs.«138780_j25872882991128_2_alg».proof.Proof.Gen.Kernel.Launch
import proofs.«138780_j25872882991128_2_alg».proof.Proof.Gen.Kernel.Points
import proofs.«138780_j25872882991128_2_alg».proof.Proof.Gen.Kernel.Frame
import proofs.«138780_j25872882991128_2_alg».proof.Proof.Gen.KernelIdeal
import proofs.«138780_j25872882991128_2_alg».proof.Proof.Gen.KernelIdeal.Skeleton
import proofs.«138780_j25872882991128_2_alg».proof.Proof.Gen.KernelIdeal.Loops
import proofs.«138780_j25872882991128_2_alg».proof.Proof.Gen.KernelIdeal.Launch
import proofs.«138780_j25872882991128_2_alg».proof.Proof.Gen.KernelIdeal.Points
import proofs.«138780_j25872882991128_2_alg».proof.Proof.Gen.KernelIdeal.Frame
import proofs.«138780_j25872882991128_2_alg».proof.Proof.Gen.ReferenceIdeal
import proofs.«138780_j25872882991128_2_alg».proof.Proof.Gen.Pre_finite_inputs
import Idealize.ShloMosaic.Adequacy
import Idealize.ShloMosaic.Init
import proofs.«138780_j25872882991128_2_alg».proof.Proof.LibPairVariance
import proofs.«138780_j25872882991128_2_alg».proof.Proof.KValue
import proofs.«138780_j25872882991128_2_alg».proof.Proof.KHost
import proofs.«138780_j25872882991128_2_alg».proof.Proof.RefFrame
import proofs.«138780_j25872882991128_2_alg».proof.Proof.RefEq
import proofs.«138780_j25872882991128_2_alg».proof.Proof.RefPairs
import proofs.«138780_j25872882991128_2_alg».proof.Proof.Final
import proofs.«138780_j25872882991128_2_alg».proof.Proof.PreFacts

set_option maxRecDepth 16384

noncomputable section

namespace Cert.Proof

open Idealize.ShloMosaic Idealize.ShloMosaic.TcCoe Idealize.SL.Sem Idealize.ShloMosaic.ValueIdx Idealize.ShloMosaic.StableHlo

/-- The kernel as printed runs, faults nowhere, and leaves its five argument arrays unchanged. -/
theorem frame_p : Cert.frame_Kernel := fun m ρ _ => Cert.Kernel.Gen.frame m ρ

/-- The same of the idealized kernel, read on the extended reals. -/
theorem frame_pi : Cert.frame_KernelIdeal := fun m ρ _ => Cert.KernelIdeal.Gen.frame m ρ

/-- The reference runs and leaves its arguments unchanged. -/
theorem frame_ri : Cert.frame_ReferenceIdeal := Cert.ReferenceIdeal.RefRun.frame_ri

/-- The two reciprocals the kernel folds, 0.25 / 51040 and 1 / 51039, denote at the ideal instance the exact
    rationals 1/204160 and 1/51039 the certificate's table gives them. -/
theorem preserves : Cert.preserves_Kernel_KernelIdeal :=
  ⟨IdealRules.named_const.statement Cert.KernelIdeal.κ "quarter_inv_m" .f32 0x36A45A86#32 ((1 / 204160 : ℝ) : EReal) rfl,
   IdealRules.named_const.statement Cert.KernelIdeal.κ "inv_m_minus1" .f32 0x37A45B59#32 ((1 / 51039 : ℝ) : EReal) rfl⟩

/-- From memories that agree on the arguments, both programs end with the same 1001 variances: the kernel's result
    array (`kres`) is the common value; the reference's result stage, read through its pair list and variance tail,
    is the reference's formula of the common factor matrix and rows, which equals the kernel's. -/
theorem algebraic : Cert.algebraic_KernelIdeal_ReferenceIdeal := by
  intro m ρ m' ρ' hpre hagree
  refine ⟨fun c => Cert.KernelIdeal.KVal.kres m c, Cert.KernelIdeal.KVal.kernel_run m ρ, ?_⟩
  refine (θ_run Cert.ReferenceIdeal.defs _ _).mono (fun r h c => ⟨?_, ?_, ?_, ?_, ?_, ?_⟩) (Cert.ReferenceIdeal.RefRun.run_main m' ρ')
  · rw [h c Cert.ReferenceIdeal.main_v119, Cert.ReferenceIdeal.RefEq.after_main_v119]
    show Cert.ReferenceIdeal.RefRun.res_main_v119 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
    rw [(hagree c).1, (hagree c).2.1, (hagree c).2.2.1, (hagree c).2.2.2.1, (hagree c).2.2.2.2]
    funext p
    obtain ⟨p0, rfl⟩ : ∃ p0 : Fin 1001, p = ix1 p0 := ⟨p 0, eq_ix1 p⟩
    have hp := hpre c
    show _ = Cert.KernelIdeal.KVal.kres m c (ix1 p0)
    rw [Cert.KernelIdeal.KVal.kres_apply m c p0 _ _ _ (Cert.KernelIdeal.Gen.V_main_arg0 m c) (Cert.KernelIdeal.KVal.V_v19 m c)
      (Cert.KernelIdeal.KVal.V_v20 m c) (Cert.KernelIdeal.KVal.V_v45 m c) (Cert.KernelIdeal.KVal.V_v46 m c)]
    exact (Cert.Proof.Final.results_eq _ _ _ _ _ Cert.ReferenceIdeal.RefRead.iu Cert.ReferenceIdeal.RefRead.ju
      (Cert.PreFacts.data_real hp) (Cert.PreFacts.fa_real hp) (Cert.PreFacts.fb_real hp) (Cert.PreFacts.perms_lt hp)
      (Cert.ReferenceIdeal.RefRead.h100 _ _ _) (Cert.ReferenceIdeal.RefRead.h115 _ _ _ _ _) Cert.ReferenceIdeal.RefRead.henum p0).symm
  · exact (h c Cert.ReferenceIdeal.main_arg0).trans (Cert.ReferenceIdeal.RefRun.after_main_arg0 _)
  · exact (h c Cert.ReferenceIdeal.main_arg1).trans (Cert.ReferenceIdeal.RefRun.after_main_arg1 _)
  · exact (h c Cert.ReferenceIdeal.main_arg2).trans (Cert.ReferenceIdeal.RefRun.after_main_arg2 _)
  · exact (h c Cert.ReferenceIdeal.main_arg3).trans (Cert.ReferenceIdeal.RefRun.after_main_arg3 _)
  · exact (h c Cert.ReferenceIdeal.main_arg4).trans (Cert.ReferenceIdeal.RefRun.after_main_arg4 _)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
